-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v140)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S3x64 : Shape := ⟨2, ![3, 64]⟩
abbrev S64 : Shape := ⟨1, ![64]⟩
abbrev S64x64 : Shape := ⟨2, ![64, 64]⟩
abbrev S128x64 : Shape := ⟨2, ![128, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg15 : FVec F S32 .f32) (main_arg16 : FVec F S32x2 .f32) (main_arg17 : FVec F S2 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x2 .f32 := Host.absf main_arg16
  let main_cst_28 : FVec F S_ .f32 := constant S_ .f32 0x7F800000#32
  let main_v75 : FVec F S32x2 .f32 := broadcastInDim S32x2 ![] bcast_S_S32x2 main_cst_28
  let main_v76 : IVec S32x2 1 := cmpf .olt main_v74 main_v75
  let main_c_29 : IVec S_ 1 := constantI S_ 1 1#1
  let main_v77 : IVec S_ 1 := (fun x v => Host.reduce IntOp.andi x v reducesTo_S32x2_S_d0_1 h_S_) main_v76 main_c_29
  let main_v78 : IVec S_ 1 := andi main_v73 main_v77
  let main_v79 : FVec F S2 .f32 := Host.absf main_arg17
  let main_cst_30 : FVec F S_ .f32 := constant S_ .f32 0x7F800000#32
  let main_v80 : FVec F S2 .f32 := broadcastInDim S2 ![] bcast_S_S2 main_cst_30
  let main_v81 : IVec S2 1 := cmpf .olt main_v79 main_v80
  let main_c_31 : IVec S_ 1 := constantI S_ 1 1#1
  let main_v82 : IVec S_ 1 := (fun x v => Host.reduce IntOp.andi x v reducesTo_S2_S_d0 h_S_) main_v81 main_c_31
  let main_v83 : IVec S_ 1 := andi main_v78 main_v82
  main_v83

def fn_part3 {F : FTy → Type} [FloatOps F] (main_arg12 : FVec F S64x32 .f32) (main_arg13 : FVec F S32 .f32) (main_arg14 : FVec F S32 .f32) (main_arg15 : FVec F S32 .f32) (main_arg16 : FVec F S32x2 .f32) (main_arg17 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x32 .f32 := Host.absf main_arg12
  let main_cst_20 : FVec F S_ .f32 := constant S_ .f32 0x7F800000#32
  let main_v55 : FVec F S64x32 .f32 := broadcastInDim S64x32 ![] bcast_S_S64x32 main_cst_20
  let main_v56 : IVec S64x32 1 := cmpf .olt main_v54 main_v55
  let main_c_21 : IVec S_ 1 := constantI S_ 1 1#1
  let main_v57 : IVec S_ 1 := (fun x v => Host.reduce IntOp.andi x v reducesTo_S64x32_S_d0_1 h_S_) main_v56 main_c_21
  let main_v58 : IVec S_ 1 := andi main_v53 main_v57
  let main_v59 : FVec F S32 .f32 := Host.absf main_arg13
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg15 main_arg16 main_arg17 main_v63 main_v67

def fn_part2 {F : FTy → Type} [FloatOps F] (main_arg8 : FVec F S128x64 .f32) (main_arg9 : FVec F S64 .f32) (main_arg10 : FVec F S64 .f32) (main_arg11 : FVec F S64 .f32) (main_arg12 : FVec F S64x32 .f32) (main_arg13 : FVec F S32 .f32) (main_arg14 : FVec F S32 .f32) (main_arg15 : FVec F S32 .f32) (main_arg16 : FVec F S32x2 .f32) (main_arg17 : FVec F S2 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_v48 main_v49 main_v50

def fn_part1 {F : FTy → Type} [FloatOps F] (main_arg5 : FVec F S64 .f32) (main_arg6 : FVec F S64x64 .f32) (main_arg7 : FVec F S64 .f32) (main_arg8 : FVec F S128x64 .f32) (main_arg9 : FVec F S64 .f32) (main_arg10 : FVec F S64 .f32) (main_arg11 : FVec F S64 .f32) (main_arg12 : FVec F S64x32 .f32) (main_arg13 : FVec F S32 .f32) (main_arg14 : FVec F S32 .f32) (main_arg15 : FVec F S32 .f32) (main_arg16 : FVec F S32x2 .f32) (main_arg17 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S100000x3 .f32) (main_arg1 : IVec S2x1600000 32) (main_arg2 : FVec F S3x64 .f32) (main_arg3 : FVec F S64 .f32) (main_arg4 : FVec F S64x64 .f32) (main_arg5 : FVec F S64 .f32) (main_arg6 : FVec F S64x64 .f32) (main_arg7 : FVec F S64 .f32) (main_arg8 : FVec F S128x64 .f32) (main_arg9 : FVec F S64 .f32) (main_arg10 : FVec F S64 .f32) (main_arg11 : FVec F S64 .f32) (main_arg12 : FVec F S64x32 .f32) (main_arg13 : FVec F S32 .f32) (main_arg14 : FVec F S32 .f32) (main_arg15 : FVec F S32 .f32) (main_arg16 : FVec F S32x2 .f32) (main_arg17 : FVec F S2 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x64 .f32 := Host.absf main_arg2
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S100000x3 : Shape := ⟨2, ![100000, 3]⟩
abbrev S2x1600000 : Shape := ⟨2, ![2, 1600000]⟩
abbrev S3x64 : Shape := ⟨2, ![3, 64]⟩
abbrev S64 : Shape := ⟨1, ![64]⟩
abbrev S64x64 : Shape := ⟨2, ![64, 64]⟩
abbrev S128x64 : Shape := ⟨2, ![128, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x3 : Shape := ⟨2, ![10000, 3]⟩
abbrev S10000x64 : Shape := ⟨2, ![10000, 64]⟩
abbrev S1700000x64 : Shape := ⟨2, ![1700000, 64]⟩
abbrev S1x64 : Shape := ⟨2, ![1, 64]⟩
abbrev S1600000x1 : Shape := ⟨2, ![1600000, 1]⟩
abbrev S1600000x64 : Shape := ⟨2, ![1600000, 64]⟩
abbrev S200x8x64 : Shape := ⟨3, ![200, 8, 64]⟩
abbrev S8000x64 : Shape := ⟨2, ![8000, 64]⟩
abbrev S1x8x64 : Shape := ⟨3, ![1, 8, 64]⟩
abbrev S1x1x64 : Shape := ⟨3, ![1, 1, 64]⟩
abbrev S200x1x64 : Shape := ⟨3, ![200, 1, 64]⟩
abbrev S200x64 : Shape := ⟨2, ![200, 64]⟩
abbrev S1x32 : Shape := ⟨2, ![1, 32]⟩
abbrev S1600000x32 : Shape := ⟨2, ![1600000, 32]⟩
abbrev S200x8x32 : Shape := ⟨3, ![200, 8, 32]⟩
abbrev S8000x32 : Shape := ⟨2, ![8000, 32]⟩
abbrev S1x8x32 : Shape := ⟨3, ![1, 8, 32]⟩
abbrev S1x1x32 : Shape := ⟨3, ![1, 1, 32]⟩
abbrev S200x1x32 : Shape := ⟨3, ![200, 1, 32]⟩
abbrev S200x32 : Shape := ⟨2, ![200, 32]⟩
abbrev S1x2 : Shape := ⟨2, ![1, 2]⟩
abbrev S1600000x2 : Shape := ⟨2, ![1600000, 2]⟩
abbrev S8000x2 : Shape := ⟨2, ![8000, 2]⟩

abbrev nBuf : Space → Nat
  | .hbm => 198
  | .vmem => 52
  | .smem => 0
  | _ => 0

abbrev hbmTy0_0 (i : Nat) : BufTy := match i % 128 with
  | 0 => ⟨S100000x3, .f32⟩
  | 1 => ⟨S2x1600000, .i32⟩
  | 2 => ⟨S3x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S128x64, .f32⟩
  | 9 => ⟨S64, .f32⟩
  | 10 => ⟨S64, .f32⟩
  | 11 => ⟨S64, .f32⟩
  | 12 => ⟨S64x32, .f32⟩
  | 13 => ⟨S32, .f32⟩
  | 14 => ⟨S32, .f32⟩
  | 15 => ⟨S32, .f32⟩
  | 16 => ⟨S32x2, .f32⟩
  | 17 => ⟨S2, .f32⟩
  | 18 => ⟨S100000, .i32⟩
  | 19 => ⟨S1x1600000, .i32⟩
  | 20 => ⟨S1600000, .i32⟩
  | 21 => ⟨S1700000, .i32⟩
  | 22 => ⟨S1x1600000, .i32⟩
  | 23 => ⟨S1600000, .i32⟩
  | 24 => ⟨S1700000, .i32⟩
  | 25 => ⟨S_, .f32⟩
  | 26 => ⟨S1700000, .f32⟩
  | 27 => ⟨S_, .f32⟩
  | 28 => ⟨S100000, .f32⟩
  | 29 => ⟨S1700000x1, .i32⟩
  | 30 => ⟨S100000, .f32⟩
  | 31 => ⟨S_, .f32⟩
  | 32 => ⟨S100000, .f32⟩
  | 33 => ⟨S100000, .i1⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000, .f32⟩
  | 57 => ⟨S1700000, .f32⟩
  | 58 => ⟨S100000x64, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000x64, .f32⟩
  | 68 => ⟨S1700000x1, .f32⟩
  | 69 => ⟨S1700000x64, .f32⟩
  | 70 => ⟨S1700000x64, .f32⟩
  | 71 => ⟨S_, .f32⟩
  | 72 => ⟨S100000x64, .f32⟩
  | 73 => ⟨S1700000x1, .i32⟩
  | 74 => ⟨S100000x64, .f32⟩
  | 75 => ⟨S1x64, .f32⟩
  | 76 => ⟨S100000x64, .f32⟩
  | 77 => ⟨S100000x64, .f32⟩
  | 78 => ⟨S_, .f32⟩
  | 79 => ⟨S100000x64, .f32⟩
  | 80 => ⟨S100000x64, .f32⟩
  | 81 => ⟨S100000x64, .f32⟩
  | 82 => ⟨S_, .i32⟩
  | 83 => ⟨S1700000, .i32⟩
  | 84 => ⟨S1700000, .i1⟩
  | 85 => ⟨S_, .i32⟩
  | 86 => ⟨S1700000, .i32⟩
  | 87 => ⟨S1700000, .i32⟩
  | 88 => ⟨S1700000, .i32⟩
  | 89 => ⟨S1700000x1, .i32⟩
  | 90 => ⟨S1700000x64, .f32⟩
  | 91 => ⟨S1700000x1, .f32⟩
  | 92 => ⟨S1700000x64, .f32⟩
  | 93 => ⟨S1700000x64, .f32⟩
  | 94 => ⟨S_, .f32⟩
  | 95 => ⟨S100000x64, .f32⟩
  | 96 => ⟨S1700000x1, .i32⟩
  | 97 => ⟨S100000x64, .f32⟩
  | 98 => ⟨S1x64, .f32⟩
  | 99 => ⟨S100000x64, .f32⟩
  | 100 => ⟨S100000x64, .f32⟩
  | 101 => ⟨S_, .f32⟩
  | 102 => ⟨S100000x64, .f32⟩
  | 103 => ⟨S100000x64, .f32⟩
  | 104 => ⟨S100000x64, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000x64, .f32⟩
  | 114 => ⟨S1700000x1, .f32⟩
  | 115 => ⟨S1700000x64, .f32⟩
  | 116 => ⟨S1700000x64, .f32⟩
  | 117 => ⟨S_, .f32⟩
  | 118 => ⟨S100000x64, .f32⟩
  | 119 => ⟨S1700000x1, .i32⟩
  | 120 => ⟨S100000x64, .f32⟩
  | 121 => ⟨S1x64, .f32⟩
  | 122 => ⟨S100000x64, .f32⟩
  | 123 => ⟨S100000x64, .f32⟩
  | 124 => ⟨S1x1600000, .i32⟩
  | 125 => ⟨S1600000, .i32⟩
  | 126 => ⟨S1x1600000, .i32⟩
  | 127 => ⟨S1600000, .i32⟩
  | _ => ⟨S100000x3, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x64, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000x64, .f32⟩
  | 18 => ⟨S64x64, .f32⟩
  | 19 => ⟨S64x64, .f32⟩
  | 20 => ⟨S1x64, .f32⟩
  | 21 => ⟨S1600000x64, .f32⟩
  | 22 => ⟨S200x8x64, .f32⟩
  | 23 => ⟨S200x8x64, .f32⟩
  | 24 => ⟨S200x1x64, .f32⟩
  | 25 => ⟨S200x64, .f32⟩
  | 26 => ⟨S_, .f32⟩
  | 27 => ⟨S64, .f32⟩
  | 28 => ⟨S_, .f32⟩
  | 29 => ⟨S64, .f32⟩
  | 30 => ⟨S64, .f32⟩
  | 31 => ⟨S200x1x64, .f32⟩
  | 32 => ⟨S200x64, .f32⟩
  | 33 => ⟨S_, .f32⟩
  | 34 => ⟨S64, .f32⟩
  | 35 => ⟨S_, .f32⟩
  | 36 => ⟨S64, .f32⟩
  | 37 => ⟨S64, .f32⟩
  | 38 => ⟨S64, .f32⟩
  | 39 => ⟨S64, .f32⟩
  | 40 => ⟨S1x64, .f32⟩
  | 41 => ⟨S1x64, .f32⟩
  | 42 => ⟨S1x64, .f32⟩
  | 43 => ⟨S1x64, .f32⟩
  | 44 => ⟨S1x32, .f32⟩
  | 45 => ⟨S1600000x32, .f32⟩
  | 46 => ⟨S200x8x32, .f32⟩
  | 47 => ⟨S200x8x32, .f32⟩
  | 48 => ⟨S200x1x32, .f32⟩
  | 49 => ⟨S200x32, .f32⟩
  | 50 => ⟨S_, .f32⟩
  | 51 => ⟨S32, .f32⟩
  | 52 => ⟨S_, .f32⟩
  | 53 => ⟨S32, .f32⟩
  | 54 => ⟨S32, .f32⟩
  | 55 => ⟨S200x1x32, .f32⟩
  | 56 => ⟨S200x32, .f32⟩
  | 57 => ⟨S_, .f32⟩
  | 58 => ⟨S32, .f32⟩
  | 59 => ⟨S_, .f32⟩
  | 60 => ⟨S32, .f32⟩
  | 61 => ⟨S32, .f32⟩
  | 62 => ⟨S32, .f32⟩
  | 63 => ⟨S32, .f32⟩
  | 64 => ⟨S1x32, .f32⟩
  | 65 => ⟨S1x32, .f32⟩
  | 66 => ⟨S1x32, .f32⟩
  | 67 => ⟨S1x32, .f32⟩
  | 68 => ⟨S1x2, .f32⟩
  | 69 => ⟨S1600000x2, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | .local _ .vmem, ⟨0, _⟩ => ⟨S10000x3, .f32⟩
  | .local _ .vmem, ⟨1, _⟩ => ⟨S10000x3, .f32⟩
  | .local _ .vmem, ⟨2, _⟩ => ⟨S3x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S8000x64, .f32⟩
  | .local _ .vmem, ⟨16, _⟩ => ⟨S8000x64, .f32⟩
  | .local _ .vmem, ⟨17, _⟩ => ⟨S8000x64, .f32⟩
  | .local _ .vmem, ⟨18, _⟩ => ⟨S8000x64, .f32⟩
  | .local _ .vmem, ⟨19, _⟩ => ⟨S64x64, .f32⟩
  | .local _ .vmem, ⟨20, _⟩ => ⟨S64x64, .f32⟩
  | .local _ .vmem, ⟨21, _⟩ => ⟨S1x64, .f32⟩
  | .local _ .vmem, ⟨22, _⟩ => ⟨S8000x64, .f32⟩
  | .local _ .vmem, ⟨23, _⟩ => ⟨S8000x64, .f32⟩
  | .local _ .vmem, ⟨24, _⟩ => ⟨S1x8x64, .f32⟩
  | .local _ .vmem, ⟨25, _⟩ => ⟨S1x8x64, .f32⟩
  | .local _ .vmem, ⟨26, _⟩ => ⟨S1x8x64, .f32⟩
  | .local _ .vmem, ⟨27, _⟩ => ⟨S1x8x64, .f32⟩
  | .local _ .vmem, ⟨28, _⟩ => ⟨S8000x64, .f32⟩
  | .local _ .vmem, ⟨29, _⟩ => ⟨S8000x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S64x32, .f32⟩
  | .local _ .vmem, ⟨35, _⟩ => ⟨S1x32, .f32⟩
  | .local _ .vmem, ⟨36, _⟩ => ⟨S8000x32, .f32⟩
  | .local _ .vmem, ⟨37, _⟩ => ⟨S8000x32, .f32⟩
  | .local _ .vmem, ⟨38, _⟩ => ⟨S1x8x32, .f32⟩
  | .local _ .vmem, ⟨39, _⟩ => ⟨S1x8x32, .f32⟩
  | .local _ .vmem, ⟨40, _⟩ => ⟨S1x8x32, .f32⟩
  | .local _ .vmem, ⟨41, _⟩ => ⟨S1x8x32, .f32⟩
  | .local _ .vmem, ⟨42, _⟩ => ⟨S8000x32, .f32⟩
  | .local _ .vmem, ⟨43, _⟩ => ⟨S8000x32, .f32⟩
  | .local _ .vmem, ⟨44, _⟩ => ⟨S1x32, .f32⟩
  | .local _ .vmem, ⟨45, _⟩ => ⟨S1x32, .f32⟩
  | .local _ .vmem, ⟨46, _⟩ => ⟨S1x32, .f32⟩
  | .local _ .vmem, ⟨47, _⟩ => ⟨S1x32, .f32⟩
  | .local _ .vmem, ⟨48, _⟩ => ⟨S32x2, .f32⟩
  | .local _ .vmem, ⟨49, _⟩ => ⟨S1x2, .f32⟩
  | .local _ .vmem, ⟨50, _⟩ => ⟨S8000x2, .f32⟩
  | .local _ .vmem, ⟨51, _⟩ => ⟨S8000x2, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v14 : Ref sig .tc := ⟨.hbm, 38, rfl⟩
abbrev main_c : Ref sig .tc := ⟨.hbm, 39, rfl⟩
abbrev main_v15 : Ref sig .tc := ⟨.hbm, 40, rfl⟩
abbrev main_v16 : Ref sig .tc := ⟨.hbm, 41, rfl⟩
abbrev main_c_3 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c_4 : Ref sig .tc := ⟨.hbm, 48, rfl⟩
abbrev main_v22 : Ref sig .tc := ⟨.hbm, 49, rfl⟩
abbrev main_v23 : Ref sig .tc := ⟨.hbm, 50, rfl⟩
abbrev main_c_5 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_6 : Ref sig .tc := ⟨.hbm, 59, rfl⟩
abbrev main_v31 : Ref sig .tc := ⟨.hbm, 60, rfl⟩
abbrev main_v32 : Ref sig .tc := ⟨.hbm, 61, rfl⟩
abbrev main_c_7 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_8 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_call1_cst : Ref sig .tc := ⟨.hbm, 78, rfl⟩
abbrev main_call1_v0 : Ref sig .tc := ⟨.hbm, 79, rfl⟩
abbrev main_v47 : Ref sig .tc := ⟨.hbm, 80, rfl⟩
abbrev main_v48 : Ref sig .tc := ⟨.hbm, 81, rfl⟩
abbrev main_c_9 : Ref sig .tc := ⟨.hbm, 82, rfl⟩
abbrev main_v49 : Ref sig .tc := ⟨.hbm, 83, rfl⟩
abbrev main_v50 : Ref sig .tc := ⟨.hbm, 84, rfl⟩
abbrev main_c_10 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_11 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_call2_cst : Ref sig .tc := ⟨.hbm, 101, rfl⟩
abbrev main_call2_v0 : Ref sig .tc := ⟨.hbm, 102, rfl⟩
abbrev main_v65 : Ref sig .tc := ⟨.hbm, 103, rfl⟩
abbrev main_v66 : Ref sig .tc := ⟨.hbm, 104, rfl⟩
abbrev main_c_12 : Ref sig .tc := ⟨.hbm, 105, rfl⟩
abbrev main_v67 : Ref sig .tc := ⟨.hbm, 106, rfl⟩
abbrev main_v68 : Ref sig .tc := ⟨.hbm, 107, rfl⟩
abbrev main_c_13 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_14 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_c_15 : Ref sig .tc := ⟨.hbm, 128, rfl⟩
abbrev main_v87 : Ref sig .tc := ⟨.hbm, 129, rfl⟩
abbrev main_v88 : Ref sig .tc := ⟨.hbm, 130, rfl⟩
abbrev main_c_16 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_c_17 : Ref sig .tc := ⟨.hbm, 137, rfl⟩
abbrev main_v94 : Ref sig .tc := ⟨.hbm, 138, rfl⟩
abbrev main_v95 : Ref sig .tc := ⟨.hbm, 139, rfl⟩
abbrev main_c_18 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104_0 : Ref sig .tc := ⟨.hbm, 149, rfl⟩
abbrev main_v104_1 : Ref sig .tc := ⟨.hbm, 150, rfl⟩
abbrev main_v104_2 : Ref sig .tc := ⟨.hbm, 151, rfl⟩
abbrev main_v105 : Ref sig .tc := ⟨.hbm, 152, rfl⟩
abbrev main_v106 : Ref sig .tc := ⟨.hbm, 153, rfl⟩
abbrev main_cst_19 : Ref sig .tc := ⟨.hbm, 154, rfl⟩
abbrev main_v107 : Ref sig .tc := ⟨.hbm, 155, rfl⟩
abbrev main_cst_20 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_cst_21 : Ref sig .tc := ⟨.hbm, 161, rfl⟩
abbrev main_v112 : Ref sig .tc := ⟨.hbm, 162, rfl⟩
abbrev main_cst_22 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122_0 : Ref sig .tc := ⟨.hbm, 173, rfl⟩
abbrev main_v122_1 : Ref sig .tc := ⟨.hbm, 174, rfl⟩
abbrev main_v122_2 : Ref sig .tc := ⟨.hbm, 175, rfl⟩
abbrev main_v123 : Ref sig .tc := ⟨.hbm, 176, rfl⟩
abbrev main_v124 : Ref sig .tc := ⟨.hbm, 177, rfl⟩
abbrev main_cst_23 : Ref sig .tc := ⟨.hbm, 178, rfl⟩
abbrev main_v125 : Ref sig .tc := ⟨.hbm, 179, rfl⟩
abbrev main_cst_24 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_cst_25 : Ref sig .tc := ⟨.hbm, 185, rfl⟩
abbrev main_v130 : Ref sig .tc := ⟨.hbm, 186, rfl⟩
abbrev main_cst_26 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg4_0 : Ref sig .tc := ⟨.vmem, 21, rfl⟩
abbrev cc3_stg5_0 : Ref sig .tc := ⟨.vmem, 22, rfl⟩
abbrev cc3_stg5_1 : Ref sig .tc := ⟨.vmem, 23, rfl⟩
abbrev cc3_stg6_0 : Ref sig .tc := ⟨.vmem, 24, rfl⟩
abbrev cc3_stg6_1 : Ref sig .tc := ⟨.vmem, 25, rfl⟩
abbrev cc3_stg7_0 : Ref sig .tc := ⟨.vmem, 26, rfl⟩
abbrev cc3_stg7_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg6_0 : Ref sig .tc := ⟨.vmem, 35, rfl⟩
abbrev cc4_stg7_0 : Ref sig .tc := ⟨.vmem, 36, rfl⟩
abbrev cc4_stg7_1 : Ref sig .tc := ⟨.vmem, 37, rfl⟩
abbrev cc4_stg8_0 : Ref sig .tc := ⟨.vmem, 38, rfl⟩
abbrev cc4_stg8_1 : Ref sig .tc := ⟨.vmem, 39, rfl⟩
abbrev cc4_stg9_0 : Ref sig .tc := ⟨.vmem, 40, rfl⟩
abbrev cc4_stg9_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg6_0 : Ref sig .tc := ⟨.vmem, 49, rfl⟩
abbrev cc5_stg7_0 : Ref sig .tc := ⟨.vmem, 50, rfl⟩
abbrev cc5_stg7_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem3_0 : DmaSem sig := 20
abbrev cc3_sem4_0 : DmaSem sig := 21
abbrev cc3_sem5_0 : DmaSem sig := 22
abbrev cc3_sem5_1 : DmaSem sig := 23
abbrev cc3_sem6_0 : DmaSem sig := 24
abbrev cc3_sem6_1 : DmaSem sig := 25
abbrev cc3_sem7_0 : DmaSem sig := 26
abbrev cc3_sem7_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem5_0 : DmaSem sig := 34
abbrev cc4_sem6_0 : DmaSem sig := 35
abbrev cc4_sem7_0 : DmaSem sig := 36
abbrev cc4_sem7_1 : DmaSem sig := 37
abbrev cc4_sem8_0 : DmaSem sig := 38
abbrev cc4_sem8_1 : DmaSem sig := 39
abbrev cc4_sem9_0 : DmaSem sig := 40
abbrev cc4_sem9_1 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem4_0 : DmaSem sig := 47
abbrev cc5_sem5_0 : DmaSem sig := 48
abbrev cc5_sem6_0 : DmaSem sig := 49
abbrev cc5_sem7_0 : DmaSem sig := 50
abbrev cc5_sem7_1 : DmaSem sig := 51

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S8000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x8x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x8x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_9 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S8000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x32 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S8000x32 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S1x8x32 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S1x8x32 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![200], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S32x2 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x2 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S8000x2 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x3_S10000x3_0_0 : ∀ a, (![0, 0] : Fin 2 → Nat) a + S10000x3.size a ≤ S10000x3.size a
  h_S10000x3 : 0 < S10000x3.numel
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S128x64_S64x64_0_0 : S128x64.Slices ![0, 0] S64x64
  slices_S128x64_S64x64_64_0 : S128x64.Slices ![64, 0] S64x64
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  reduces_S8000x64_S64 : S8000x64.Reduces [0] S64
  shapeCasts_S64_S1x1x64 : S64.ShapeCasts S1x1x64
  shapeCasts_S1x1x64_S1x1x64 : S1x1x64.ShapeCasts S1x1x64
  broadcasts_S1x1x64_S1x8x64 : S1x1x64.Broadcasts S1x8x64
  inb_S1x8x64_S1x8x64_0_0_0 : ∀ a, (![0, 0, 0] : Fin 3 → Nat) a + S1x8x64.size a ≤ S1x8x64.size a
  h_S1x8x64 : 0 < S1x8x64.numel
  slices_S200x8x64_S200x1x64_0_0_0 : S200x8x64.Slices ![0, 0, 0] S200x1x64
  shapeCasts_S200x1x64_S200x64 : S200x1x64.ShapeCasts S200x64
  reducesTo_S200x64_S64_d0 : S200x64.ReducesTo [0] S64
  h_S_ : 0 < S_.numel
  bcast_S_S64 : S_.BroadcastsInDim S64 (![] : Fin 0 → Fin S64.rank)
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  inb_S8000x32_S8000x32_0_0 : ∀ a, (![0, 0] : Fin 2 → Nat) a + S8000x32.size a ≤ S8000x32.size a
  h_S8000x32 : 0 < S8000x32.numel
  reduces_S8000x32_S32 : S8000x32.Reduces [0] S32
  shapeCasts_S32_S1x1x32 : S32.ShapeCasts S1x1x32
  shapeCasts_S1x1x32_S1x1x32 : S1x1x32.ShapeCasts S1x1x32
  broadcasts_S1x1x32_S1x8x32 : S1x1x32.Broadcasts S1x8x32
  inb_S1x8x32_S1x8x32_0_0_0 : ∀ a, (![0, 0, 0] : Fin 3 → Nat) a + S1x8x32.size a ≤ S1x8x32.size a
  h_S1x8x32 : 0 < S1x8x32.numel
  slices_S200x8x32_S200x1x32_0_0_0 : S200x8x32.Slices ![0, 0, 0] S200x1x32
  shapeCasts_S200x1x32_S200x32 : S200x1x32.ShapeCasts S200x32
  reducesTo_S200x32_S32_d0 : S200x32.ReducesTo [0] S32
  bcast_S_S32 : S_.BroadcastsInDim S32 (![] : Fin 0 → Fin S32.rank)
  shapeCasts_S2_S1x2 : S2.ShapeCasts S1x2
  shapeCasts_S8000x32_S8000x32 : S8000x32.ShapeCasts S8000x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8000x2 : S1x2.Broadcasts S8000x2
  inb_S8000x2_S8000x2_0_0 : ∀ a, (![0, 0] : Fin 2 → Nat) a + S8000x2.size a ≤ S8000x2.size a
  h_S8000x2 : 0 < S8000x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x3_S3x64_S10000x64_1_0_0_1_n_n_wf : DotDims.WF S10000x3 S3x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  dot_S8000x64_S64x64_S8000x64_1_0_0_1_n_n_wf : DotDims.WF S8000x64 S64x64 S8000x64 [1] [0] [0] [1] [] []
  dot_S8000x64_S64x32_S8000x32_1_0_0_1_n_n_wf : DotDims.WF S8000x64 S64x32 S8000x32 [1] [0] [0] [1] [] []
  dot_S8000x32_S32x2_S8000x2_1_0_0_1_n_n_wf : DotDims.WF S8000x32 S32x2 S8000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S100000x3.size a
  hwx0_0 : ∀ i : grid0.Coords, EltTy.bits .f32 = 32 ∨ (Rect.block (s := S100000x3) S10000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S1600000x64.size a
  hwx3_0 : ∀ i : grid3.Coords, EltTy.bits .f32 = 32 ∨ (Rect.block (s := S1600000x64) S8000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x64.size a ≤ S1600000x64.size a
  hwx3_1 : ∀ i : grid3.Coords, EltTy.bits .f32 = 32 ∨ (Rect.block (s := S1600000x64) S8000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S8000x64.size a ≤ S1600000x64.size a
  hwx3_5 : ∀ i : grid3.Coords, EltTy.bits .f32 = 32 ∨ (Rect.block (s := S1600000x64) S8000x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x8x64.size a ≤ S200x8x64.size a
  hwx3_6 : ∀ i : grid3.Coords, EltTy.bits .f32 = 32 ∨ (Rect.block (s := S200x8x64) S1x8x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1x8x64.size a ≤ S200x8x64.size a
  hwx3_7 : ∀ i : grid3.Coords, EltTy.bits .f32 = 32 ∨ (Rect.block (s := S200x8x64) S1x8x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x64.size a ≤ S1600000x64.size a
  hwx4_0 : ∀ i : grid4.Coords, EltTy.bits .f32 = 32 ∨ (Rect.block (s := S1600000x64) S8000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x32.size a ≤ S64x32.size a
  hwx4_5 : ∀ i : grid4.Coords, EltTy.bits .f32 = 32 ∨ (Rect.block (s := S64x32) S64x32.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x32.size a ≤ S1x32.size a
  hwx4_6 : ∀ i : grid4.Coords, EltTy.bits .f32 = 32 ∨ (Rect.block (s := S1x32) S1x32.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S8000x32.size a ≤ S1600000x32.size a
  hwx4_7 : ∀ i : grid4.Coords, EltTy.bits .f32 = 32 ∨ (Rect.block (s := S1600000x32) S8000x32.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S1x8x32.size a ≤ S200x8x32.size a
  hwx4_8 : ∀ i : grid4.Coords, EltTy.bits .f32 = 32 ∨ (Rect.block (s := S200x8x32) S1x8x32.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S1x8x32.size a ≤ S200x8x32.size a
  hwx4_9 : ∀ i : grid4.Coords, EltTy.bits .f32 = 32 ∨ (Rect.block (s := S200x8x32) S1x8x32.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x32.size a ≤ S1600000x32.size a
  hwx5_0 : ∀ i : grid5.Coords, EltTy.bits .f32 = 32 ∨ (Rect.block (s := S1600000x32) S8000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x32.size a ≤ S1x32.size a
  hwx5_4 : ∀ i : grid5.Coords, EltTy.bits .f32 = 32 ∨ (Rect.block (s := S1x32) S1x32.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S32x2.size a ≤ S32x2.size a
  hwx5_5 : ∀ i : grid5.Coords, EltTy.bits .f32 = 32 ∨ (Rect.block (s := S32x2) S32x2.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x2.size a ≤ S1x2.size a
  hwx5_6 : ∀ i : grid5.Coords, EltTy.bits .f32 = 32 ∨ (Rect.block (s := S1x2) S1x2.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S8000x2.size a ≤ S1600000x2.size a
  hwx5_7 : ∀ i : grid5.Coords, EltTy.bits .f32 = 32 ∨ (Rect.block (s := S1600000x2) S8000x2.size (cc5_transform_7 i) (hinb5_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x3_S3x64_S10000x64_1_0_0_1_n_n : DotDims S10000x3 S3x64 S10000x64 where
  lhsContracting := [1]
  rhsContracting := [0]
  lhsNonContracting := [0]
  rhsNonContracting := [1]
  lhsBatch := []
  rhsBatch := []
  wf := dot_S10000x3_S3x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x64_S64x32_S8000x32_1_0_0_1_n_n : DotDims S8000x64 S64x32 S8000x32 where
  lhsContracting := [1]
  rhsContracting := [0]
  lhsNonContracting := [0]
  rhsNonContracting := [1]
  lhsBatch := []
  rhsBatch := []
  wf := dot_S8000x64_S64x32_S8000x32_1_0_0_1_n_n_wf
def dot_S8000x32_S32x2_S8000x2_1_0_0_1_n_n : DotDims S8000x32 S32x2 S8000x2 where
  lhsContracting := [1]
  rhsContracting := [0]
  lhsNonContracting := [0]
  rhsNonContracting := [1]
  lhsBatch := []
  rhsBatch := []
  wf := dot_S8000x32_S32x2_S8000x2_1_0_0_1_n_n_wf

abbrev win0_0 : Pipeline.Window sig grid0 :=
  Pipeline.Window.ofSpec (Memref.whole main_arg0) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v93) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v100) S8000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v101) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v102) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v103) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v104_0) S8000x64.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v104_1) S1x8x64.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v104_2) S1x8x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v104_0) S8000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v117) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v118) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v119) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v120) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg12) S64x32.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v121) S1x32.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v122_0) S8000x32.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v122_1) S1x8x32.size cc4_transform_8 reads4_8 true false 2 stage4_8 sem4_8
    hrank4 hreads4_8 hinb4_8 nbuf4_8 (Memref.isWhole_whole _) hwx4_8 hstage4_8

abbrev win4_9 : Pipeline.Window sig grid4 :=
  Pipeline.Window.ofSpec (Memref.whole main_v122_2) S1x8x32.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v122_0) S8000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v135) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v136) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v137) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v138) S1x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg16) S32x2.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v139) S1x2.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v140) S8000x2.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S100000x3 : Shape := ⟨2, ![100000, 3]⟩
abbrev S2x1600000 : Shape := ⟨2, ![2, 1600000]⟩
abbrev S3x64 : Shape := ⟨2, ![3, 64]⟩
abbrev S64 : Shape := ⟨1, ![64]⟩
abbrev S64x64 : Shape := ⟨2, ![64, 64]⟩
abbrev S128x64 : Shape := ⟨2, ![128, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S1600000x1 : Shape := ⟨2, ![1600000, 1]⟩
abbrev S1600000x64 : Shape := ⟨2, ![1600000, 64]⟩
abbrev S1600000x128 : Shape := ⟨2, ![1600000, 128]⟩
abbrev S1600000x32 : Shape := ⟨2, ![1600000, 32]⟩
abbrev S1x32 : Shape := ⟨2, ![1, 32]⟩
abbrev S1600000x2 : Shape := ⟨2, ![1600000, 2]⟩
abbrev S1x2 : Shape := ⟨2, ![1, 2]⟩

abbrev nBuf : Space → Nat
  | .hbm => 291
  | .vmem => 0
  | .smem => 0
  | _ => 0

abbrev hbmTy0_0 (i : Nat) : BufTy := match i % 128 with
  | 0 => ⟨S100000x3, .f32⟩
  | 1 => ⟨S2x1600000, .i32⟩
  | 2 => ⟨S3x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S128x64, .f32⟩
  | 9 => ⟨S64, .f32⟩
  | 10 => ⟨S64, .f32⟩
  | 11 => ⟨S64, .f32⟩
  | 12 => ⟨S64x32, .f32⟩
  | 13 => ⟨S32, .f32⟩
  | 14 => ⟨S32, .f32⟩
  | 15 => ⟨S32, .f32⟩
  | 16 => ⟨S32x2, .f32⟩
  | 17 => ⟨S2, .f32⟩
  | 18 => ⟨S100000, .i32⟩
  | 19 => ⟨S1x1600000, .i32⟩
  | 20 => ⟨S1600000, .i32⟩
  | 21 => ⟨S1700000, .i32⟩
  | 22 => ⟨S1x1600000, .i32⟩
  | 23 => ⟨S1600000, .i32⟩
  | 24 => ⟨S1700000, .i32⟩
  | 25 => ⟨S100000x64, .f32⟩
  | 26 => ⟨S_, .f32⟩
  | 27 => ⟨S1700000, .f32⟩
  | 28 => ⟨S_, .f32⟩
  | 29 => ⟨S100000, .f32⟩
  | 30 => ⟨S1700000x1, .i32⟩
  | 31 => ⟨S100000, .f32⟩
  | 32 => ⟨S_, .f32⟩
  | 33 => ⟨S100000, .f32⟩
  | 34 => ⟨S100000, .i1⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000, .f32⟩
  | 58 => ⟨S1700000, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000x64, .f32⟩
  | 68 => ⟨S1700000x1, .f32⟩
  | 69 => ⟨S1700000x64, .f32⟩
  | 70 => ⟨S1700000x64, .f32⟩
  | 71 => ⟨S_, .f32⟩
  | 72 => ⟨S100000x64, .f32⟩
  | 73 => ⟨S1700000x1, .i32⟩
  | 74 => ⟨S100000x64, .f32⟩
  | 75 => ⟨S1x64, .f32⟩
  | 76 => ⟨S100000x64, .f32⟩
  | 77 => ⟨S100000x64, .f32⟩
  | 78 => ⟨S_, .f32⟩
  | 79 => ⟨S100000x64, .f32⟩
  | 80 => ⟨S100000x64, .f32⟩
  | 81 => ⟨S100000x64, .f32⟩
  | 82 => ⟨S_, .f32⟩
  | 83 => ⟨S1700000, .f32⟩
  | 84 => ⟨S_, .f32⟩
  | 85 => ⟨S100000, .f32⟩
  | 86 => ⟨S1700000x1, .i32⟩
  | 87 => ⟨S100000, .f32⟩
  | 88 => ⟨S_, .f32⟩
  | 89 => ⟨S100000, .f32⟩
  | 90 => ⟨S100000, .i1⟩
  | 91 => ⟨S100000, .f32⟩
  | 92 => ⟨S_, .f32⟩
  | 93 => ⟨S_, .f32⟩
  | 94 => ⟨S100000, .f32⟩
  | 95 => ⟨S100000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000, .f32⟩
  | 114 => ⟨S1700000, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000x64, .f32⟩
  | 124 => ⟨S1700000x1, .f32⟩
  | 125 => ⟨S1700000x64, .f32⟩
  | 126 => ⟨S1700000x64, .f32⟩
  | 127 => ⟨S_, .f32⟩
  | _ => ⟨S100000x3, .f32⟩

abbrev hbmTy0_1 (i : Nat) : BufTy := match i % 128 with
  | 0 => ⟨S100000x64, .f32⟩
  | 1 => ⟨S1700000x1, .i32⟩
  | 2 => ⟨S100000x64, .f32⟩
  | 3 => ⟨S1x64, .f32⟩
  | 4 => ⟨S100000x64, .f32⟩
  | 5 => ⟨S100000x64, .f32⟩
  | 6 => ⟨S_, .f32⟩
  | 7 => ⟨S100000x64, .f32⟩
  | 8 => ⟨S100000x64, .f32⟩
  | 9 => ⟨S100000x64, .f32⟩
  | 10 => ⟨S_, .f32⟩
  | 11 => ⟨S1700000, .f32⟩
  | 12 => ⟨S_, .f32⟩
  | 13 => ⟨S100000, .f32⟩
  | 14 => ⟨S1700000x1, .i32⟩
  | 15 => ⟨S100000, .f32⟩
  | 16 => ⟨S_, .f32⟩
  | 17 => ⟨S100000, .f32⟩
  | 18 => ⟨S100000, .i1⟩
  | 19 => ⟨S100000, .f32⟩
  | 20 => ⟨S_, .f32⟩
  | 21 => ⟨S_, .f32⟩
  | 22 => ⟨S100000, .f32⟩
  | 23 => ⟨S100000, .f32⟩
  | 24 => ⟨S_, .i32⟩
  | 25 => ⟨S1700000, .i32⟩
  | 26 => ⟨S1700000, .i1⟩
  | 27 => ⟨S_, .i32⟩
  | 28 => ⟨S1700000, .i32⟩
  | 29 => ⟨S1700000, .i32⟩
  | 30 => ⟨S1700000, .i32⟩
  | 31 => ⟨S1700000x1, .i32⟩
  | 32 => ⟨S1700000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000x64, .f32⟩
  | 52 => ⟨S1700000x1, .f32⟩
  | 53 => ⟨S1700000x64, .f32⟩
  | 54 => ⟨S1700000x64, .f32⟩
  | 55 => ⟨S_, .f32⟩
  | 56 => ⟨S100000x64, .f32⟩
  | 57 => ⟨S1700000x1, .i32⟩
  | 58 => ⟨S100000x64, .f32⟩
  | 59 => ⟨S1x64, .f32⟩
  | 60 => ⟨S100000x64, .f32⟩
  | 61 => ⟨S100000x64, .f32⟩
  | 62 => ⟨S1x1600000, .i32⟩
  | 63 => ⟨S1600000, .i32⟩
  | 64 => ⟨S1x1600000, .i32⟩
  | 65 => ⟨S1600000, .i32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x64, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x64, .f32⟩
  | 84 => ⟨S1600000x128, .f32⟩
  | 85 => ⟨S1600000x64, .f32⟩
  | 86 => ⟨S1x64, .f32⟩
  | 87 => ⟨S1600000x64, .f32⟩
  | 88 => ⟨S1600000x64, .f32⟩
  | 89 => ⟨S_, .f32⟩
  | 90 => ⟨S1600000x64, .f32⟩
  | 91 => ⟨S1600000x64, .f32⟩
  | 92 => ⟨S_, .f32⟩
  | 93 => ⟨S64, .f32⟩
  | 94 => ⟨S_, .f32⟩
  | 95 => ⟨S64, .f32⟩
  | 96 => ⟨S64, .f32⟩
  | 97 => ⟨S1x64, .f32⟩
  | 98 => ⟨S1600000x64, .f32⟩
  | 99 => ⟨S1600000x64, .f32⟩
  | 100 => ⟨S1600000x64, .f32⟩
  | 101 => ⟨S_, .f32⟩
  | 102 => ⟨S64, .f32⟩
  | 103 => ⟨S_, .f32⟩
  | 104 => ⟨S64, .f32⟩
  | 105 => ⟨S64, .f32⟩
  | 106 => ⟨S1x64, .f32⟩
  | 107 => ⟨S1600000x64, .f32⟩
  | 108 => ⟨S1600000x64, .f32⟩
  | 109 => ⟨S_, .f32⟩
  | 110 => ⟨S64, .f32⟩
  | 111 => ⟨S64, .f32⟩
  | 112 => ⟨S64, .f32⟩
  | 113 => ⟨S1x64, .f32⟩
  | 114 => ⟨S1600000x64, .f32⟩
  | 115 => ⟨S1600000x64, .f32⟩
  | 116 => ⟨S1x64, .f32⟩
  | 117 => ⟨S1600000x64, .f32⟩
  | 118 => ⟨S1600000x64, .f32⟩
  | 119 => ⟨S1x64, .f32⟩
  | 120 => ⟨S1600000x64, .f32⟩
  | 121 => ⟨S1600000x64, .f32⟩
  | 122 => ⟨S1600000x32, .f32⟩
  | 123 => ⟨S1x32, .f32⟩
  | 124 => ⟨S1600000x32, .f32⟩
  | 125 => ⟨S1600000x32, .f32⟩
  | 126 => ⟨S_, .f32⟩
  | 127 => ⟨S1600000x32, .f32⟩
  | _ => ⟨S100000x3, .f32⟩

abbrev hbmTy0_2 (i : Nat) : BufTy := match i % 128 with
  | 0 => ⟨S1600000x32, .f32⟩
  | 1 => ⟨S_, .f32⟩
  | 2 => ⟨S32, .f32⟩
  | 3 => ⟨S_, .f32⟩
  | 4 => ⟨S32, .f32⟩
  | 5 => ⟨S32, .f32⟩
  | 6 => ⟨S1x32, .f32⟩
  | 7 => ⟨S1600000x32, .f32⟩
  | 8 => ⟨S1600000x32, .f32⟩
  | 9 => ⟨S1600000x32, .f32⟩
  | 10 => ⟨S_, .f32⟩
  | 11 => ⟨S32, .f32⟩
  | 12 => ⟨S_, .f32⟩
  | 13 => ⟨S32, .f32⟩
  | 14 => ⟨S32, .f32⟩
  | 15 => ⟨S1x32, .f32⟩
  | 16 => ⟨S1600000x32, .f32⟩
  | 17 => ⟨S1600000x32, .f32⟩
  | 18 => ⟨S_, .f32⟩
  | 19 => ⟨S32, .f32⟩
  | 20 => ⟨S32, .f32⟩
  | 21 => ⟨S32, .f32⟩
  | 22 => ⟨S1x32, .f32⟩
  | 23 => ⟨S1600000x32, .f32⟩
  | 24 => ⟨S1600000x32, .f32⟩
  | 25 => ⟨S1x32, .f32⟩
  | 26 => ⟨S1600000x32, .f32⟩
  | 27 => ⟨S1600000x32, .f32⟩
  | 28 => ⟨S1x32, .f32⟩
  | 29 => ⟨S1600000x32, .f32⟩
  | 30 => ⟨S1600000x32, .f32⟩
  | 31 => ⟨S1600000x2, .f32⟩
  | 32 => ⟨S1x2, .f32⟩
  | 33 => ⟨S1600000x2, .f32⟩
  | 34 => ⟨S1600000x2, .f32⟩
  | _ => ⟨S100000x3, .f32⟩

abbrev hbmTy (i : Nat) : BufTy := match i / 128 with
  | 0 => hbmTy0_0 i
  | 1 => hbmTy0_1 i
  | 2 => hbmTy0_2 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v15 : Ref sig .tc := ⟨.hbm, 39, rfl⟩
abbrev main_c : Ref sig .tc := ⟨.hbm, 40, rfl⟩
abbrev main_v16 : Ref sig .tc := ⟨.hbm, 41, rfl⟩
abbrev main_v17 : Ref sig .tc := ⟨.hbm, 42, rfl⟩
abbrev main_c_3 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c_4 : Ref sig .tc := ⟨.hbm, 49, rfl⟩
abbrev main_v23 : Ref sig .tc := ⟨.hbm, 50, rfl⟩
abbrev main_v24 : Ref sig .tc := ⟨.hbm, 51, rfl⟩
abbrev main_c_5 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_6 : Ref sig .tc := ⟨.hbm, 59, rfl⟩
abbrev main_v31 : Ref sig .tc := ⟨.hbm, 60, rfl⟩
abbrev main_v32 : Ref sig .tc := ⟨.hbm, 61, rfl⟩
abbrev main_c_7 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_8 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_call1_cst : Ref sig .tc := ⟨.hbm, 78, rfl⟩
abbrev main_call1_v0 : Ref sig .tc := ⟨.hbm, 79, rfl⟩
abbrev main_v47 : Ref sig .tc := ⟨.hbm, 80, rfl⟩
abbrev main_v48 : Ref sig .tc := ⟨.hbm, 81, rfl⟩
abbrev main_cst_9 : Ref sig .tc := ⟨.hbm, 82, rfl⟩
abbrev main_v49 : Ref sig .tc := ⟨.hbm, 83, rfl⟩
abbrev main_cst_10 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_11 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_12 : Ref sig .tc := ⟨.hbm, 92, rfl⟩
abbrev main_call2_v0 : Ref sig .tc := ⟨.hbm, 93, rfl⟩
abbrev main_call2_v1 : Ref sig .tc := ⟨.hbm, 94, rfl⟩
abbrev main_v56 : Ref sig .tc := ⟨.hbm, 95, rfl⟩
abbrev main_c_13 : Ref sig .tc := ⟨.hbm, 96, rfl⟩
abbrev main_v57 : Ref sig .tc := ⟨.hbm, 97, rfl⟩
abbrev main_v58 : Ref sig .tc := ⟨.hbm, 98, rfl⟩
abbrev main_c_14 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_c_15 : Ref sig .tc := ⟨.hbm, 105, rfl⟩
abbrev main_v64 : Ref sig .tc := ⟨.hbm, 106, rfl⟩
abbrev main_v65 : Ref sig .tc := ⟨.hbm, 107, rfl⟩
abbrev main_c_16 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_c_17 : Ref sig .tc := ⟨.hbm, 115, rfl⟩
abbrev main_v72 : Ref sig .tc := ⟨.hbm, 116, rfl⟩
abbrev main_v73 : Ref sig .tc := ⟨.hbm, 117, rfl⟩
abbrev main_c_18 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_cst_19 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_call3_cst : Ref sig .tc := ⟨.hbm, 134, rfl⟩
abbrev main_call3_v0 : Ref sig .tc := ⟨.hbm, 135, rfl⟩
abbrev main_v88 : Ref sig .tc := ⟨.hbm, 136, rfl⟩
abbrev main_v89 : Ref sig .tc := ⟨.hbm, 137, rfl⟩
abbrev main_cst_20 : Ref sig .tc := ⟨.hbm, 138, rfl⟩
abbrev main_v90 : Ref sig .tc := ⟨.hbm, 139, rfl⟩
abbrev main_cst_21 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_cst_22 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_cst_23 : Ref sig .tc := ⟨.hbm, 148, rfl⟩
abbrev main_call4_v0 : Ref sig .tc := ⟨.hbm, 149, rfl⟩
abbrev main_call4_v1 : Ref sig .tc := ⟨.hbm, 150, rfl⟩
abbrev main_v97 : Ref sig .tc := ⟨.hbm, 151, rfl⟩
abbrev main_c_24 : Ref sig .tc := ⟨.hbm, 152, rfl⟩
abbrev main_v98 : Ref sig .tc := ⟨.hbm, 153, rfl⟩
abbrev main_v99 : Ref sig .tc := ⟨.hbm, 154, rfl⟩
abbrev main_c_25 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_c_26 : Ref sig .tc := ⟨.hbm, 161, rfl⟩
abbrev main_v105 : Ref sig .tc := ⟨.hbm, 162, rfl⟩
abbrev main_v106 : Ref sig .tc := ⟨.hbm, 163, rfl⟩
abbrev main_c_27 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_c_28 : Ref sig .tc := ⟨.hbm, 171, rfl⟩
abbrev main_v113 : Ref sig .tc := ⟨.hbm, 172, rfl⟩
abbrev main_v114 : Ref sig .tc := ⟨.hbm, 173, rfl⟩
abbrev main_c_29 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_cst_30 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_c_31 : Ref sig .tc := ⟨.hbm, 194, rfl⟩
abbrev main_v133 : Ref sig .tc := ⟨.hbm, 195, rfl⟩
abbrev main_v134 : Ref sig .tc := ⟨.hbm, 196, rfl⟩
abbrev main_c_32 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_c_33 : Ref sig .tc := ⟨.hbm, 203, rfl⟩
abbrev main_v140 : Ref sig .tc := ⟨.hbm, 204, rfl⟩
abbrev main_v141 : Ref sig .tc := ⟨.hbm, 205, rfl⟩
abbrev main_c_34 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_call5_cst : Ref sig .tc := ⟨.hbm, 217, rfl⟩
abbrev main_call5_v0 : Ref sig .tc := ⟨.hbm, 218, rfl⟩
abbrev main_v152 : Ref sig .tc := ⟨.hbm, 219, rfl⟩
abbrev main_cst_35 : Ref sig .tc := ⟨.hbm, 220, rfl⟩
abbrev main_v153 : Ref sig .tc := ⟨.hbm, 221, rfl⟩
abbrev main_cst_36 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_cst_37 : Ref sig .tc := ⟨.hbm, 229, rfl⟩
abbrev main_v160 : Ref sig .tc := ⟨.hbm, 230, rfl⟩
abbrev main_cst_38 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_cst_39 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_call6_cst : Ref sig .tc := ⟨.hbm, 254, rfl⟩
abbrev main_call6_v0 : Ref sig .tc := ⟨.hbm, 255, rfl⟩
abbrev main_v182 : Ref sig .tc := ⟨.hbm, 256, rfl⟩
abbrev main_cst_40 : Ref sig .tc := ⟨.hbm, 257, rfl⟩
abbrev main_v183 : Ref sig .tc := ⟨.hbm, 258, rfl⟩
abbrev main_cst_41 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_cst_42 : Ref sig .tc := ⟨.hbm, 266, rfl⟩
abbrev main_v190 : Ref sig .tc := ⟨.hbm, 267, rfl⟩
abbrev main_cst_43 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩
abbrev main_v194 : Ref sig .tc := ⟨.hbm, 272, rfl⟩
abbrev main_v195 : Ref sig .tc := ⟨.hbm, 273, rfl⟩
abbrev main_cst_44 : Ref sig .tc := ⟨.hbm, 274, rfl⟩
abbrev main_v196 : Ref sig .tc := ⟨.hbm, 275, rfl⟩
abbrev main_v197 : Ref sig .tc := ⟨.hbm, 276, rfl⟩
abbrev main_v198 : Ref sig .tc := ⟨.hbm, 277, rfl⟩
abbrev main_v199 : Ref sig .tc := ⟨.hbm, 278, rfl⟩
abbrev main_v200 : Ref sig .tc := ⟨.hbm, 279, rfl⟩
abbrev main_v201 : Ref sig .tc := ⟨.hbm, 280, rfl⟩
abbrev main_v202 : Ref sig .tc := ⟨.hbm, 281, rfl⟩
abbrev main_v203 : Ref sig .tc := ⟨.hbm, 282, rfl⟩
abbrev main_v204 : Ref sig .tc := ⟨.hbm, 283, rfl⟩
abbrev main_v205 : Ref sig .tc := ⟨.hbm, 284, rfl⟩
abbrev main_v206 : Ref sig .tc := ⟨.hbm, 285, rfl⟩
abbrev main_v207 : Ref sig .tc := ⟨.hbm, 286, rfl⟩
abbrev main_v208 : Ref sig .tc := ⟨.hbm, 287, rfl⟩
abbrev main_v209 : Ref sig .tc := ⟨.hbm, 288, rfl⟩
abbrev main_v210 : Ref sig .tc := ⟨.hbm, 289, rfl⟩
abbrev main_v211 : Ref sig .tc := ⟨.hbm, 290, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  reducesTo_S1600000x64_S64_d0 : S1600000x64.ReducesTo [0] S64
  h_S_ : 0 < S_.numel
  bcast_S_S64 : S_.BroadcastsInDim S64 (![] : Fin 0 → Fin S64.rank)
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  reducesTo_S1600000x32_S32_d0 : S1600000x32.ReducesTo [0] S32
  bcast_S_S32 : S_.BroadcastsInDim S32 (![] : Fin 0 → Fin S32.rank)
  bcast_S2_S1x2_1 : S2.BroadcastsInDim S1x2 (![1] : Fin 1 → Fin S1x2.rank)
  bcast_S1x2_S1600000x2_0_1 : S1x2.BroadcastsInDim S1600000x2 (![0, 1] : Fin 2 → Fin S1600000x2.rank)
  dot_S100000x3_S3x64_S100000x64_1_0_0_1_n_n_wf : DotDims.WF S100000x3 S3x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  dot_S1600000x128_S128x64_S1600000x64_1_0_0_1_n_n_wf : DotDims.WF S1600000x128 S128x64 S1600000x64 [1] [0] [0] [1] [] []
  dot_S1600000x64_S64x32_S1600000x32_1_0_0_1_n_n_wf : DotDims.WF S1600000x64 S64x32 S1600000x32 [1] [0] [0] [1] [] []
  dot_S1600000x32_S32x2_S1600000x2_1_0_0_1_n_n_wf : DotDims.WF S1600000x32 S32x2 S1600000x2 [1] [0] [0] [1] [] []

variable [Facts₀]

def dot_S100000x3_S3x64_S100000x64_1_0_0_1_n_n : DotDims S100000x3 S3x64 S100000x64 where
  lhsContracting := [1]
  rhsContracting := [0]
  lhsNonContracting := [0]
  rhsNonContracting := [1]
  lhsBatch := []
  rhsBatch := []
  wf := dot_S100000x3_S3x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def dot_S1600000x64_S64x32_S1600000x32_1_0_0_1_n_n : DotDims S1600000x64 S64x32 S1600000x32 where
  lhsContracting := [1]
  rhsContracting := [0]
  lhsNonContracting := [0]
  rhsNonContracting := [1]
  lhsBatch := []
  rhsBatch := []
  wf := dot_S1600000x64_S64x32_S1600000x32_1_0_0_1_n_n_wf
def dot_S1600000x32_S32x2_S1600000x2_1_0_0_1_n_n : DotDims S1600000x32 S32x2 S1600000x2 where
  lhsContracting := [1]
  rhsContracting := [0]
  lhsNonContracting := [0]
  rhsNonContracting := [1]
  lhsBatch := []
  rhsBatch := []
  wf := dot_S1600000x32_S32x2_S1600000x2_1_0_0_1_n_n_wf

class Facts : Prop extends Facts₀ where

variable [Facts]
-- ==== Proof.KernelRun.lean ====
/-
  The idealized kernel's run with its result named.  @main is six pipelined regions among stretches of host
  operations; the generated frame walks the buffer contents through every segment boundary (the fold `Gen.W0 … Gen.W16`).
  The same launch, read at the result buffer as well as at the arguments, says: every weakly fair execution
  terminates, the result buffer holds the fold's last contents at it, and the arguments are as launched.
-/
import proofs.«123034_j51127290692283_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates without a fault; the result buffer then
    holds the last boundary contents of the fold at it, and every argument array is as launched. -/
theorem run : θ_run defs (onTc (τ := τ) (main (F := F))) ⟨m, fun _ => 0, ρ⟩ (fun r => ∀ c : Dev nD,
      r.2.mem ((c.tc : Thread nD τ).loc main_v140) = W16 m ρ c (Proc.devRef .tc main_v140)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v140 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c),
       (h c _ (mem_uc main_arg15 (by decide))).trans (W16_main_arg15 m ρ c),
       (h c _ (mem_uc main_arg16 (by decide))).trans (W16_main_arg16 m ρ c),
       (h c _ (mem_uc main_arg17 (by decide))).trans (W16_main_arg17 m ρ c)⟩)

end Cert.KernelIdeal.KRun

end
-- ==== Proof.RefFoldA.lean ====
/- The reference's operations 0 to 118 in segments: what each segment leaves in the buffers later segments read. -/
import proofs.«123034_j51127290692283_2_alg».proof.Proof.RefReadP
import proofs.«123034_j51127290692283_2_alg».proof.Proof.RefRunP

set_option maxRecDepth 8192

noncomputable section

namespace Cert.ReferenceIdeal.RefFold

open Cert.ReferenceIdeal Cert.ReferenceIdeal.Gen Cert.ReferenceIdeal.ReadP Idealize.ShloMosaic Idealize.ShloMosaic.TcCoe
open Idealize.SL.Sem Idealize.ShloMosaic.StableHlo

variable {F : FTy → Type} [FloatOps F]
variable (x0 : (⟨S100000x3, .f32⟩ : BufTy).Contents (Elt F)) (x1 : (⟨S2x1600000, .i32⟩ : BufTy).Contents (Elt F))
  (x2 : (⟨S3x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S128x64, .f32⟩ : BufTy).Contents (Elt F)) (x9 : (⟨S64, .f32⟩ : BufTy).Contents (Elt F)) (x10 : (⟨S64, .f32⟩ : BufTy).Contents (Elt F)) (x11 : (⟨S64, .f32⟩ : BufTy).Contents (Elt F)) (x12 : (⟨S64x32, .f32⟩ : BufTy).Contents (Elt F)) (x13 : (⟨S32, .f32⟩ : BufTy).Contents (Elt F)) (x14 : (⟨S32, .f32⟩ : BufTy).Contents (Elt F)) (x15 : (⟨S32, .f32⟩ : BufTy).Contents (Elt F)) (x16 : (⟨S32x2, .f32⟩ : BufTy).Contents (Elt F)) (x17 : (⟨S2, .f32⟩ : BufTy).Contents (Elt F))

/-- Operations 0 to 2 of the reference, in order. -/
abbrev ops0 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000 ]

set_option maxHeartbeats 4000000 in
/-- Operations 0 to 2 leave each buffer that is read later at its stage's value, when the buffers they read from
    earlier stages hold theirs. -/
theorem seg0 (X : Valuation τ sig (Elt F))
    (h_main_arg0 : X (Proc.devRef .tc main_arg0) = x0)
    (h_main_arg1 : X (Proc.devRef .tc main_arg1) = x1)
    (h_main_arg2 : X (Proc.devRef .tc main_arg2) = x2)
    (h_main_arg3 : X (Proc.devRef .tc main_arg3) = x3)
    (h_main_arg4 : X (Proc.devRef .tc main_arg4) = x4)
    (h_main_arg5 : X (Proc.devRef .tc main_arg5) = x5)
    (h_main_arg6 : X (Proc.devRef .tc main_arg6) = x6)
    (h_main_arg7 : X (Proc.devRef .tc main_arg7) = x7)
    (h_main_arg8 : X (Proc.devRef .tc main_arg8) = x8)
    (h_main_arg9 : X (Proc.devRef .tc main_arg9) = x9)
    (h_main_arg10 : X (Proc.devRef .tc main_arg10) = x10)
    (h_main_arg11 : X (Proc.devRef .tc main_arg11) = x11)
    (h_main_arg12 : X (Proc.devRef .tc main_arg12) = x12)
    (h_main_arg13 : X (Proc.devRef .tc main_arg13) = x13)
    (h_main_arg14 : X (Proc.devRef .tc main_arg14) = x14)
    (h_main_arg15 : X (Proc.devRef .tc main_arg15) = x15)
    (h_main_arg16 : X (Proc.devRef .tc main_arg16) = x16)
    (h_main_arg17 : X (Proc.devRef .tc main_arg17) = x17) :
    after (ops0 (F := F)) X (Proc.devRef .tc main_arg0) = x0
    ∧ after (ops0 (F := F)) X (Proc.devRef .tc main_arg1) = x1
    ∧ after (ops0 (F := F)) X (Proc.devRef .tc main_arg2) = x2
    ∧ after (ops0 (F := F)) X (Proc.devRef .tc main_arg3) = x3
    ∧ after (ops0 (F := F)) X (Proc.devRef .tc main_arg4) = x4
    ∧ after (ops0 (F := F)) X (Proc.devRef .tc main_arg5) = x5
    ∧ after (ops0 (F := F)) X (Proc.devRef .tc main_arg6) = x6
    ∧ after (ops0 (F := F)) X (Proc.devRef .tc main_arg7) = x7
    ∧ after (ops0 (F := F)) X (Proc.devRef .tc main_arg8) = x8
    ∧ after (ops0 (F := F)) X (Proc.devRef .tc main_arg9) = x9
    ∧ after (ops0 (F := F)) X (Proc.devRef .tc main_arg10) = x10
    ∧ after (ops0 (F := F)) X (Proc.devRef .tc main_arg11) = x11
    ∧ after (ops0 (F := F)) X (Proc.devRef .tc main_arg12) = x12
    ∧ after (ops0 (F := F)) X (Proc.devRef .tc main_arg13) = x13
    ∧ after (ops0 (F := F)) X (Proc.devRef .tc main_arg14) = x14
    ∧ after (ops0 (F := F)) X (Proc.devRef .tc main_arg15) = x15
    ∧ after (ops0 (F := F)) X (Proc.devRef .tc main_arg16) = x16
    ∧ after (ops0 (F := F)) X (Proc.devRef .tc main_arg17) = x17
    ∧ after (ops0 (F := F)) X (Proc.devRef .tc main_v0) = val_main_v0 (F := F)
    ∧ after (ops0 (F := F)) X (Proc.devRef .tc main_v2) = val_main_v2 (F := F) x1 := by
  refine ⟨?_, ?_, ?_, ?_, ?_, ?_, ?_, ?_, ?_, ?_, ?_, ?_, ?_, ?_, ?_, ?_, ?_, ?_, ?_, ?_⟩
  · after_results_simp
    exact h_main_arg0
  · after_results_simp
    exact h_main_arg1
  · after_results_simp
    exact h_main_arg2
  · after_results_simp
    exact h_main_arg3
  · after_results_simp
    exact h_main_arg4
  · after_results_simp
    exact h_main_arg5
  · after_results_simp
    exact h_main_arg6
  · after_results_simp
    exact h_main_arg7
  · after_results_simp
    exact h_main_arg8
  · after_results_simp
    exact h_main_arg9
  · after_results_simp
    exact h_main_arg10
  · after_results_simp
    exact h_main_arg11
  · after_results_simp
    exact h_main_arg12
  · after_results_simp
    exact h_main_arg13
  · after_results_simp
    exact h_main_arg14
  · after_results_simp
    exact h_main_arg15
  · after_results_simp
    exact h_main_arg16
  · after_results_simp
    exact h_main_arg17
  · after_results_simp
    try simp only [h_main_arg0, h_main_arg1, h_main_arg2, h_main_arg3, h_main_arg4, h_main_arg5, h_main_arg6, h_main_arg7, h_main_arg8, h_main_arg9, h_main_arg10, h_main_arg11, h_main_arg12, h_main_arg13, h_main_arg14, h_main_arg15, h_main_arg16, h_main_arg17]
    all_goals rfl
  · after_results_simp
    try simp only [h_main_arg0, h_main_arg1, h_main_arg2, h_main_arg3, h_main_arg4, h_main_arg5, h_main_arg6, h_main_arg7, h_main_arg8, h_main_arg9, h_main_arg10, h_main_arg11, h_main_arg12, h_main_arg13, h_main_arg14, h_main_arg15, h_main_arg16, h_main_arg17]
    all_goals rfl

/-- Operations 3 to 3 of the reference, in order. -/
abbrev ops1 : List (HloOp τ sig (Elt F)) :=
  [ binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

set_option maxHeartbeats 4000000 in
/-- Operations 3 to 3 leave each buffer that is read later at its stage's value, when the buffers they read from
    earlier stages hold theirs. -/
theorem seg1 (X : Valuation τ sig (Elt F))
    (h_main_arg0 : X (Proc.devRef .tc main_arg0) = x0)
    (h_main_arg1 : X (Proc.devRef .tc main_arg1) = x1)
    (h_main_arg2 : X (Proc.devRef .tc main_arg2) = x2)
    (h_main_arg3 : X (Proc.devRef .tc main_arg3) = x3)
    (h_main_arg4 : X (Proc.devRef .tc main_arg4) = x4)
    (h_main_arg5 : X (Proc.devRef .tc main_arg5) = x5)
    (h_main_arg6 : X (Proc.devRef .tc main_arg6) = x6)
    (h_main_arg7 : X (Proc.devRef .tc main_arg7) = x7)
    (h_main_arg8 : X (Proc.devRef .tc main_arg8) = x8)
    (h_main_arg9 : X (Proc.devRef .tc main_arg9) = x9)
    (h_main_arg10 : X (Proc.devRef .tc main_arg10) = x10)
    (h_main_arg11 : X (Proc.devRef .tc main_arg11) = x11)
    (h_main_arg12 : X (Proc.devRef .tc main_arg12) = x12)
    (h_main_arg13 : X (Proc.devRef .tc main_arg13) = x13)
    (h_main_arg14 : X (Proc.devRef .tc main_arg14) = x14)
    (h_main_arg15 : X (Proc.devRef .tc main_arg15) = x15)
    (h_main_arg16 : X (Proc.devRef .tc main_arg16) = x16)
    (h_main_arg17 : X (Proc.devRef .tc main_arg17) = x17)
    (h_main_v0 : X (Proc.devRef .tc main_v0) = val_main_v0 (F := F))
    (h_main_v2 : X (Proc.devRef .tc main_v2) = val_main_v2 (F := F) x1) :
    after (ops1 (F := F)) X (Proc.devRef .tc main_arg0) = x0
    ∧ after (ops1 (F := F)) X (Proc.devRef .tc main_arg1) = x1
    ∧ after (ops1 (F := F)) X (Proc.devRef .tc main_arg2) = x2
    ∧ after (ops1 (F := F)) X (Proc.devRef .tc main_arg3) = x3
    ∧ after (ops1 (F := F)) X (Proc.devRef .tc main_arg4) = x4
    ∧ after (ops1 (F := F)) X (Proc.devRef .tc main_arg5) = x5
    ∧ after (ops1 (F := F)) X (Proc.devRef .tc main_arg6) = x6
    ∧ after (ops1 (F := F)) X (Proc.devRef .tc main_arg7) = x7
    ∧ after (ops1 (F := F)) X (Proc.devRef .tc main_arg8) = x8
    ∧ after (ops1 (F := F)) X (Proc.devRef .tc main_arg9) = x9
    ∧ after (ops1 (F := F)) X (Proc.devRef .tc main_arg10) = x10
    ∧ after (ops1 (F := F)) X (Proc.devRef .tc main_arg11) = x11
    ∧ after (ops1 (F := F)) X (Proc.devRef .tc main_arg12) = x12
    ∧ after (ops1 (F := F)) X (Proc.devRef .tc main_arg13) = x13
    ∧ after (ops1 (F := F)) X (Proc.devRef .tc main_arg14) = x14
    ∧ after (ops1 (F := F)) X (Proc.devRef .tc main_arg15) = x15
    ∧ after (ops1 (F := F)) X (Proc.devRef .tc main_arg16) = x16
    ∧ after (ops1 (F := F)) X (Proc.devRef .tc main_arg17) = x17
    ∧ after (ops1 (F := F)) X (Proc.devRef .tc main_v0) = val_main_v0 (F := F)
    ∧ after (ops1 (F := F)) X (Proc.devRef .tc main_v3) = val_main_v3 (F := F) x1 := by
  refine ⟨?_, ?_, ?_, ?_, ?_, ?_, ?_, ?_, ?_, ?_, ?_, ?_, ?_, ?_, ?_, ?_, ?_, ?_, ?_, ?_⟩
  · after_results_simp
    exact h_main_arg0
  · after_results_simp
    exact h_main_arg1
  · after_results_simp
    exact h_main_arg2
  · after_results_simp
    exact h_main_arg3
  · after_results_simp
    exact h_main_arg4
  · after_results_simp
    exact h_main_arg5
  · after_results_simp
    exact h_main_arg6
  · after_results_simp
    exact h_main_arg7
  · after_results_simp
    exact h_main_arg8
  · after_results_simp
    exact h_main_arg9
  · after_results_simp
    exact h_main_arg10
  · after_results_simp
    exact h_main_arg11
  · after_results_simp
    exact h_main_arg12
  · after_results_simp
    exact h_main_arg13
  · after_results_simp
    exact h_main_arg14
  · after_results_simp
    exact h_main_arg15
  · after_results_simp
    exact h_main_arg16
  · after_results_simp
    exact h_main_arg17
  · after_results_simp
    exact h_main_v0
  · simp only [after_cons, after_nil]
    rw [binary_result, h_main_v2, h_main_v0]
    rfl

/-- Operations 4 to 5 of the reference, in order. -/
abbrev ops2 : List (HloOp τ sig (Elt F)) :=
  [ unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000 ]

set_option maxHeartbeats 4000000 in
/-- Operations 4 to 5 leave each buffer that is read later at its stage's value, when the buffers they read from
    earlier stages hold theirs. -/
theorem seg2 (X : Valuation τ sig (Elt F))
    (h_main_arg0 : X (Proc.devRef .tc main_arg0) = x0)
    (h_main_arg1 : X (Proc.devRef .tc main_arg1) = x1)
    (h_main_arg2 : X (Proc.devRef .tc main_arg2) = x2)
    (h_main_arg3 : X (Proc.devRef .tc main_arg3) = x3)
    (h_main_arg4 : X (Proc.devRef .tc main_arg4) = x4)
    (h_main_arg5 : X (Proc.devRef .tc main_arg5) = x5)
    (h_main_arg6 : X (Proc.devRef .tc main_arg6) = x6)
    (h_main_arg7 : X (Proc.devRef .tc main_arg7) = x7)
    (h_main_arg8 : X (Proc.devRef .tc main_arg8) = x8)
    (h_main_arg9 : X (Proc.devRef .tc main_arg9) = x9)
    (h_main_arg10 : X (Proc.devRef .tc main_arg10) = x10)
    (h_main_arg11 : X (Proc.devRef .tc main_arg11) = x11)
    (h_main_arg12 : X (Proc.devRef .tc main_arg12) = x12)
    (h_main_arg13 : X (Proc.devRef .tc main_arg13) = x13)
    (h_main_arg14 : X (Proc.devRef .tc main_arg14) = x14)
    (h_main_arg15 : X (Proc.devRef .tc main_arg15) = x15)
    (h_main_arg16 : X (Proc.devRef .tc main_arg16) = x16)
    (h_main_arg17 : X (Proc.devRef .tc main_arg17) = x17)
    (h_main_v0 : X (Proc.devRef .tc main_v0) = val_main_v0 (F := F))
    (h_main_v3 : X (Proc.devRef .tc main_v3) = val_main_v3 (F := F) x1) :
    after (ops2 (F := F)) X (Proc.devRef .tc main_arg0) = x0
    ∧ after (ops2 (F := F)) X (Proc.devRef .tc main_arg1) = x1
    ∧ after (ops2 (F := F)) X (Proc.devRef .tc main_arg2) = x2
    ∧ after (ops2 (F := F)) X (Proc.devRef .tc main_arg3) = x3
    ∧ after (ops2 (F := F)) X (Proc.devRef .tc main_arg4) = x4
    ∧ after (ops2 (F := F)) X (Proc.devRef .tc main_arg5) = x5
    ∧ after (ops2 (F := F)) X (Proc.devRef .tc main_arg6) = x6
    ∧ after (ops2 (F := F)) X (Proc.devRef .tc main_arg7) = x7
    ∧ after (ops2 (F := F)) X (Proc.devRef .tc main_arg8) = x8
    ∧ after (ops2 (F := F)) X (Proc.devRef .tc main_arg9) = x9
    ∧ after (ops2 (F := F)) X (Proc.devRef .tc main_arg10) = x10
    ∧ after (ops2 (F := F)) X (Proc.devRef .tc main_arg11) = x11
    ∧ after (ops2 (F := F)) X (Proc.devRef .tc main_arg12) = x12
    ∧ after (ops2 (F := F)) X (Proc.devRef .tc main_arg13) = x13
    ∧ after (ops2 (F := F)) X (Proc.devRef .tc main_arg14) = x14
    ∧ after (ops2 (F := F)) X (Proc.devRef .tc main_arg15) = x15
    ∧ after (ops2 (F := F)) X (Proc.devRef .tc main_arg16) = x16
    ∧ after (ops2 (F := F)) X (Proc.devRef .tc main_arg17) = x17
    ∧ after (ops2 (F := F)) X (Proc.devRef .tc main_v0) = val_main_v0 (F := F)
    ∧ after (ops2 (F := F)) X (Proc.devRef .tc main_v3) = val_main_v3 (F := F) x1
    ∧ after (ops2 (F := F)) X (Proc.devRef .tc main_v5) = val_main_v5 (F := F) x1 := by
  refine ⟨?_, ?_, ?_, ?_, ?_, ?_, ?_, ?_, ?_, ?_, ?_, ?_, ?_, ?_, ?_, ?_, ?_, ?_, ?_, ?_, ?_⟩
  · after_results_simp
    exact h_main_arg0
  · after_results_simp
    exact h_main_arg1
  · after_results_simp
    exact h_main_arg2
  · after_results_simp
    exact h_main_arg3
  · after_results_simp
    exact h_main_arg4
  · after_results_simp
    exact h_main_arg5
  · after_results_simp
    exact h_main_arg6
  · after_results_simp
    exact h_main_arg7
  · after_results_simp
    exact h_main_arg8
  · after_results_simp
    exact h_main_arg9
  · after_results_simp
    exact h_main_arg10
  · after_results_simp
    exact h_main_arg11
  · after_results_simp
    exact h_main_arg12
  · after_results_simp
    exact h_main_arg13
  · after_results_simp
    exact h_main_arg14
  · after_results_simp
    exact h_main_arg15
  · after_results_simp
    exact h_main_arg16
  · after_results_simp
    exact h_main_arg17
  · after_results_simp
    exact h_main_v0
  · after_results_simp
    exact h_main_v3
  · after_results_simp
    try simp only [h_main_arg0, h_main_arg1, h_main_arg2, h_main_arg3, h_main_arg4, h_main_arg5, h_main_arg6, h_main_arg7, h_main_arg8, h_main_arg9, h_main_arg10, h_main_arg11, h_main_arg12, h_main_arg13, h_main_arg14, h_main_arg15, h_main_arg16, h_main_arg17, h_main_v0, h_main_v3]
    all_goals rfl

/-- Operations 6 to 6 of the reference, in order. -/
abbrev ops3 : List (HloOp τ sig (Elt F)) :=
  [ binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

set_option maxHeartbeats 4000000 in
/-- Operations 6 to 6 leave each buffer that is read later at its stage's value, when the buffers they read from
    earlier stages hold theirs. -/
theorem seg3 (X : Valuation τ sig (Elt F))
    (h_main_arg0 : X (Proc.devRef .tc main_arg0) = x0)
    (h_main_arg1 : X (Proc.devRef .tc main_arg1) = x1)
    (h_main_arg2 : X (Proc.devRef .tc main_arg2) = x2)
    (h_main_arg3 : X (Proc.devRef .tc main_arg3) = x3)
    (h_main_arg4 : X (Proc.devRef .tc main_arg4) = x4)
    (h_main_arg5 : X (Proc.devRef .tc main_arg5) = x5)
    (h_main_arg6 : X (Proc.devRef .tc main_arg6) = x6)
    (h_main_arg7 : X (Proc.devRef .tc main_arg7) = x7)
    (h_main_arg8 : X (Proc.devRef .tc main_arg8) = x8)
    (h_main_arg9 : X (Proc.devRef .tc main_arg9) = x9)
    (h_main_arg10 : X (Proc.devRef .tc main_arg10) = x10)
    (h_main_arg11 : X (Proc.devRef .tc main_arg11) = x11)
    (h_main_arg12 : X (Proc.devRef .tc main_arg12) = x12)
    (h_main_arg13 : X (Proc.devRef .tc main_arg13) = x13)
    (h_main_arg14 : X (Proc.devRef .tc main_arg14) = x14)
    (h_main_arg15 : X (Proc.devRef .tc main_arg15) = x15)
    (h_main_arg16 : X (Proc.devRef .tc main_arg16) = x16)
    (h_main_arg17 : X (Proc.devRef .tc main_arg17) = x17)
    (h_main_v0 : X (Proc.devRef .tc main_v0) = val_main_v0 (F := F))
    (h_main_v3 : X (Proc.devRef .tc main_v3) = val_main_v3 (F := F) x1)
    (h_main_v5 : X (Proc.devRef .tc main_v5) = val_main_v5 (F := F) x1) :
    after (ops3 (F := F)) X (Proc.devRef .tc main_arg0) = x0
    ∧ after (ops3 (F := F)) X (Proc.devRef .tc main_arg1) = x1
    ∧ after (ops3 (F := F)) X (Proc.devRef .tc main_arg2) = x2
    ∧ after (ops3 (F := F)) X (Proc.devRef .tc main_arg3) = x3
    ∧ after (ops3 (F := F)) X (Proc.devRef .tc main_arg4) = x4
    ∧ after (ops3 (F := F)) X (Proc.devRef .tc main_arg5) = x5
    ∧ after (ops3 (F := F)) X (Proc.devRef .tc main_arg6) = x6
    ∧ after (ops3 (F := F)) X (Proc.devRef .tc main_arg7) = x7
    ∧ after (ops3 (F := F)) X (Proc.devRef .tc main_arg8) = x8
    ∧ after (ops3 (F := F)) X (Proc.devRef .tc main_arg9) = x9
    ∧ after (ops3 (F := F)) X (Proc.devRef .tc main_arg10) = x10
    ∧ after (ops3 (F := F)) X (Proc.devRef .tc main_arg11) = x11
    ∧ after (ops3 (F := F)) X (Proc.devRef .tc main_arg12) = x12
    ∧ after (ops3 (F := F)) X (Proc.devRef .tc main_arg13) = x13
    ∧ after (ops3 (F := F)) X (Proc.devRef .tc main_arg14) = x14
    ∧ after (ops3 (F := F)) X (Proc.devRef .tc main_arg15) = x15
    ∧ after (ops3 (F := F)) X (Proc.devRef .tc main_arg16) = x16
    ∧ after (ops3 (F := F)) X (Proc.devRef .tc main_arg17) = x17
    ∧ after (ops3 (F := F)) X (Proc.devRef .tc main_v3) = val_main_v3 (F := F) x1
    ∧ after (ops3 (F := F)) X (Proc.devRef .tc main_v6) = val_main_v6 (F := F) x1 := by
  refine ⟨?_, ?_, ?_, ?_, ?_, ?_, ?_, ?_, ?_, ?_, ?_, ?_, ?_, ?_, ?_, ?_, ?_, ?_, ?_, ?_⟩
  · after_results_simp
    exact h_main_arg0
  · after_results_simp
    exact h_main_arg1
  · after_results_simp
    exact h_main_arg2
  · after_results_simp
    exact h_main_arg3
  · after_results_simp
    exact h_main_arg4
  · after_results_simp
    exact h_main_arg5
  · after_results_simp
    exact h_main_arg6
  · after_results_simp
    exact h_main_arg7
  · after_results_simp
    exact h_main_arg8
  · after_results_simp
    exact h_main_arg9
  · after_results_simp
    exact h_main_arg10
  · after_results_simp
    exact h_main_arg11
  · after_results_simp
    exact h_main_arg12
  · after_results_simp
    exact h_main_arg13
  · after_results_simp
    exact h_main_arg14
  · after_results_simp
    exact h_main_arg15
  · after_results_simp
    exact h_main_arg16
  · after_results_simp
    exact h_main_arg17
  · after_results_simp
    exact h_main_v3
  · simp only [after_cons, after_nil]
    rw [binary_result, h_main_v5, h_main_v0]
    rfl

/-- Operations 7 to 18 of the reference, in order. -/
abbrev ops4 : List (HloOp τ sig (Elt F)) :=
  [ binary main_arg0 main_arg2 main_v7 ((fun l r => Host.dotGeneral dot_S100000x3_S3x64_S100000x64_1_0_0_1_n_n none l r) : (⟨S100000x3, .f32⟩ : BufTy).Contents (Elt F) → (⟨S3x64, .f32⟩ : BufTy).Contents (Elt F) → (⟨S100000x64, .f32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32) ]

set_option maxHeartbeats 4000000 in
/-- Operations 7 to 18 leave each buffer that is read later at its stage's value, when the buffers they read from
    earlier stages hold theirs. -/
theorem seg4 (X : Valuation τ sig (Elt F))
    (h_main_arg0 : X (Proc.devRef .tc main_arg0) = x0)
    (h_main_arg1 : X (Proc.devRef .tc main_arg1) = x1)
    (h_main_arg2 : X (Proc.devRef .tc main_arg2) = x2)
    (h_main_arg3 : X (Proc.devRef .tc main_arg3) = x3)
    (h_main_arg4 : X (Proc.devRef .tc main_arg4) = x4)
    (h_main_arg5 : X (Proc.devRef .tc main_arg5) = x5)
    (h_main_arg6 : X (Proc.devRef .tc main_arg6) = x6)
    (h_main_arg7 : X (Proc.devRef .tc main_arg7) = x7)
    (h_main_arg8 : X (Proc.devRef .tc main_arg8) = x8)
    (h_main_arg9 : X (Proc.devRef .tc main_arg9) = x9)
    (h_main_arg10 : X (Proc.devRef .tc main_arg10) = x10)
    (h_main_arg11 : X (Proc.devRef .tc main_arg11) = x11)
    (h_main_arg12 : X (Proc.devRef .tc main_arg12) = x12)
    (h_main_arg13 : X (Proc.devRef .tc main_arg13) = x13)
    (h_main_arg14 : X (Proc.devRef .tc main_arg14) = x14)
    (h_main_arg15 : X (Proc.devRef .tc main_arg15) = x15)
    (h_main_arg16 : X (Proc.devRef .tc main_arg16) = x16)
    (h_main_arg17 : X (Proc.devRef .tc main_arg17) = x17)
    (h_main_v3 : X (Proc.devRef .tc main_v3) = val_main_v3 (F := F) x1)
    (h_main_v6 : X (Proc.devRef .tc main_v6) = val_main_v6 (F := F) x1) :
    after (ops4 (F := F)) X (Proc.devRef .tc main_arg1) = x1
    ∧ after (ops4 (F := F)) X (Proc.devRef .tc main_arg3) = x3
    ∧ after (ops4 (F := F)) X (Proc.devRef .tc main_arg4) = x4
    ∧ after (ops4 (F := F)) X (Proc.devRef .tc main_arg5) = x5
    ∧ after (ops4 (F := F)) X (Proc.devRef .tc main_arg6) = x6
    ∧ after (ops4 (F := F)) X (Proc.devRef .tc main_arg7) = x7
    ∧ after (ops4 (F := F)) X (Proc.devRef .tc main_arg8) = x8
    ∧ after (ops4 (F := F)) X (Proc.devRef .tc main_arg9) = x9
    ∧ after (ops4 (F := F)) X (Proc.devRef .tc main_arg10) = x10
    ∧ after (ops4 (F := F)) X (Proc.devRef .tc main_arg11) = x11
    ∧ after (ops4 (F := F)) X (Proc.devRef .tc main_arg12) = x12
    ∧ after (ops4 (F := F)) X (Proc.devRef .tc main_arg13) = x13
    ∧ after (ops4 (F := F)) X (Proc.devRef .tc main_arg14) = x14
    ∧ after (ops4 (F := F)) X (Proc.devRef .tc main_arg15) = x15
    ∧ after (ops4 (F := F)) X (Proc.devRef .tc main_arg16) = x16
    ∧ after (ops4 (F := F)) X (Proc.devRef .tc main_arg17) = x17
    ∧ after (ops4 (F := F)) X (Proc.devRef .tc main_v3) = val_main_v3 (F := F) x1
    ∧ after (ops4 (F := F)) X (Proc.devRef .tc main_v6) = val_main_v6 (F := F) x1
    ∧ after (ops4 (F := F)) X (Proc.devRef .tc main_v7) = val_main_v7 (F := F) x0 x2
    ∧ after (ops4 (F := F)) X (Proc.devRef .tc main_v13) = val_main_v13 (F := F) x1
    ∧ after (ops4 (F := F)) X (Proc.devRef .tc main_v14) = val_main_v14 (F := F) x1
    ∧ after (ops4 (F := F)) X (Proc.devRef .tc main_cst_2) = val_main_cst_2 (F := F) := by
  refine ⟨?_, ?_, ?_, ?_, ?_, ?_, ?_, ?_, ?_, ?_, ?_, ?_, ?_, ?_, ?_, ?_, ?_, ?_, ?_, ?_, ?_, ?_⟩
  · after_results_simp
    exact h_main_arg1
  · after_results_simp
    exact h_main_arg3
  · after_results_simp
    exact h_main_arg4
  · after_results_simp
    exact h_main_arg5
  · after_results_simp
    exact h_main_arg6
  · after_results_simp
    exact h_main_arg7
  · after_results_simp
    exact h_main_arg8
  · after_results_simp
    exact h_main_arg9
  · after_results_simp
    exact h_main_arg10
  · after_results_simp
    exact h_main_arg11
  · after_results_simp
    exact h_main_arg12
  · after_results_simp
    exact h_main_arg13
  · after_results_simp
    exact h_main_arg14
  · after_results_simp
    exact h_main_arg15
  · after_results_simp
    exact h_main_arg16
  · after_results_simp
    exact h_main_arg17
  · after_results_simp
    exact h_main_v3
  · after_results_simp
    exact h_main_v6
  · after_results_simp
    try simp only [h_main_arg0, h_main_arg1, h_main_arg2, h_main_arg3, h_main_arg4, h_main_arg5, h_main_arg6, h_main_arg7, h_main_arg8, h_main_arg9, h_main_arg10, h_main_arg11, h_main_arg12, h_main_arg13, h_main_arg14, h_main_arg15, h_main_arg16, h_main_arg17, h_main_v3, h_main_v6]
    all_goals rfl
  · after_results_simp
    try simp only [h_main_arg0, h_main_arg1, h_main_arg2, h_main_arg3, h_main_arg4, h_main_arg5, h_main_arg6, h_main_arg7, h_main_arg8, h_main_arg9, h_main_arg10, h_main_arg11, h_main_arg12, h_main_arg13, h_main_arg14, h_main_arg15, h_main_arg16, h_main_arg17, h_main_v3, h_main_v6]
    all_goals rfl
  · after_results_simp
    try simp only [h_main_arg0, h_main_arg1, h_main_arg2, h_main_arg3, h_main_arg4, h_main_arg5, h_main_arg6, h_main_arg7, h_main_arg8, h_main_arg9, h_main_arg10, h_main_arg11, h_main_arg12, h_main_arg13, h_main_arg14, h_main_arg15, h_main_arg16, h_main_arg17, h_main_v3, h_main_v6]
    all_goals rfl
  · after_results_simp
    try simp only [h_main_arg0, h_main_arg1, h_main_arg2, h_main_arg3, h_main_arg4, h_main_arg5, h_main_arg6, h_main_arg7, h_main_arg8, h_main_arg9, h_main_arg10, h_main_arg11, h_main_arg12, h_main_arg13, h_main_arg14, h_main_arg15, h_main_arg16, h_main_arg17, h_main_v3, h_main_v6]
    all_goals rfl

/-- Operations 19 to 21 of the reference, in order. -/
abbrev ops5 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]

set_option maxHeartbeats 4000000 in
/-- Operations 19 to 21 leave each buffer that is read later at its stage's value, when the buffers they read from
    earlier stages hold theirs. -/
theorem seg5 (X : Valuation τ sig (Elt F))
    (h_main_arg1 : X (Proc.devRef .tc main_arg1) = x1)
    (h_main_arg3 : X (Proc.devRef .tc main_arg3) = x3)
    (h_main_arg4 : X (Proc.devRef .tc main_arg4) = x4)
    (h_main_arg5 : X (Proc.devRef .tc main_arg5) = x5)
    (h_main_arg6 : X (Proc.devRef .tc main_arg6) = x6)
    (h_main_arg7 : X (Proc.devRef .tc main_arg7) = x7)
    (h_main_arg8 : X (Proc.devRef .tc main_arg8) = x8)
    (h_main_arg9 : X (Proc.devRef .tc main_arg9) = x9)
    (h_main_arg10 : X (Proc.devRef .tc main_arg10) = x10)
    (h_main_arg11 : X (Proc.devRef .tc main_arg11) = x11)
    (h_main_arg12 : X (Proc.devRef .tc main_arg12) = x12)
    (h_main_arg13 : X (Proc.devRef .tc main_arg13) = x13)
    (h_main_arg14 : X (Proc.devRef .tc main_arg14) = x14)
    (h_main_arg15 : X (Proc.devRef .tc main_arg15) = x15)
    (h_main_arg16 : X (Proc.devRef .tc main_arg16) = x16)
    (h_main_arg17 : X (Proc.devRef .tc main_arg17) = x17)
    (h_main_v3 : X (Proc.devRef .tc main_v3) = val_main_v3 (F := F) x1)
    (h_main_v6 : X (Proc.devRef .tc main_v6) = val_main_v6 (F := F) x1)
    (h_main_v7 : X (Proc.devRef .tc main_v7) = val_main_v7 (F := F) x0 x2)
    (h_main_v13 : X (Proc.devRef .tc main_v13) = val_main_v13 (F := F) x1)
    (h_main_v14 : X (Proc.devRef .tc main_v14) = val_main_v14 (F := F) x1)
    (h_main_cst_2 : X (Proc.devRef .tc main_cst_2) = val_main_cst_2 (F := F)) :
    after (ops5 (F := F)) X (Proc.devRef .tc main_arg1) = x1
    ∧ after (ops5 (F := F)) X (Proc.devRef .tc main_arg3) = x3
    ∧ after (ops5 (F := F)) X (Proc.devRef .tc main_arg4) = x4
    ∧ after (ops5 (F := F)) X (Proc.devRef .tc main_arg5) = x5
    ∧ after (ops5 (F := F)) X (Proc.devRef .tc main_arg6) = x6
    ∧ after (ops5 (F := F)) X (Proc.devRef .tc main_arg7) = x7
    ∧ after (ops5 (F := F)) X (Proc.devRef .tc main_arg8) = x8
    ∧ after (ops5 (F := F)) X (Proc.devRef .tc main_arg9) = x9
    ∧ after (ops5 (F := F)) X (Proc.devRef .tc main_arg10) = x10
    ∧ after (ops5 (F := F)) X (Proc.devRef .tc main_arg11) = x11
    ∧ after (ops5 (F := F)) X (Proc.devRef .tc main_arg12) = x12
    ∧ after (ops5 (F := F)) X (Proc.devRef .tc main_arg13) = x13
    ∧ after (ops5 (F := F)) X (Proc.devRef .tc main_arg14) = x14
    ∧ after (ops5 (F := F)) X (Proc.devRef .tc main_arg15) = x15
    ∧ after (ops5 (F := F)) X (Proc.devRef .tc main_arg16) = x16
    ∧ after (ops5 (F := F)) X (Proc.devRef .tc main_arg17) = x17
    ∧ after (ops5 (F := F)) X (Proc.devRef .tc main_v3) = val_main_v3 (F := F) x1
    ∧ after (ops5 (F := F)) X (Proc.devRef .tc main_v6) = val_main_v6 (F := F) x1
    ∧ after (ops5 (F := F)) X (Proc.devRef .tc main_v7) = val_main_v7 (F := F) x0 x2
    ∧ after (ops5 (F := F)) X (Proc.devRef .tc main_v15) = val_main_v15 (F := F) x1 := by
  refine ⟨?_, ?_, ?_, ?_, ?_, ?_, ?_, ?_, ?_, ?_, ?_, ?_, ?_, ?_, ?_, ?_, ?_, ?_, ?_, ?_⟩
  · after_results_simp
    exact h_main_arg1
  · after_results_simp
    exact h_main_arg3
  · after_results_simp
    exact h_main_arg4
  · after_results_simp
    exact h_main_arg5
  · after_results_simp
    exact h_main_arg6
  · after_results_simp
    exact h_main_arg7
  · after_results_simp
    exact h_main_arg8
  · after_results_simp
    exact h_main_arg9
  · after_results_simp
    exact h_main_arg10
  · after_results_simp
    exact h_main_arg11
  · after_results_simp
    exact h_main_arg12
  · after_results_simp
    exact h_main_arg13
  · after_results_simp
    exact h_main_arg14
  · after_results_simp
    exact h_main_arg15
  · after_results_simp
    exact h_main_arg16
  · after_results_simp
    exact h_main_arg17
  · after_results_simp
    exact h_main_v3
  · after_results_simp
    exact h_main_v6
  · after_results_simp
    exact h_main_v7
  · after_results_simp
    try simp only [h_main_arg1, h_main_arg3, h_main_arg4, h_main_arg5, h_main_arg6, h_main_arg7, h_main_arg8, h_main_arg9, h_main_arg10, h_main_arg11, h_main_arg12, h_main_arg13, h_main_arg14, h_main_arg15, h_main_arg16, h_main_arg17, h_main_v3, h_main_v6, h_main_v7, h_main_v13, h_main_v14, h_main_cst_2]
    all_goals rfl

/-- Operations 22 to 40 of the reference, in order. -/
abbrev ops6 : List (HloOp τ sig (Elt F)) :=
  [ nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v3 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v3 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)) ]

set_option maxHeartbeats 4000000 in
/-- Operations 22 to 40 leave each buffer that is read later at its stage's value, when the buffers they read from
    earlier stages hold theirs. -/
theorem seg6 (X : Valuation τ sig (Elt F))
    (h_main_arg1 : X (Proc.devRef .tc main_arg1) = x1)
    (h_main_arg3 : X (Proc.devRef .tc main_arg3) = x3)
    (h_main_arg4 : X (Proc.devRef .tc main_arg4) = x4)
    (h_main_arg5 : X (Proc.devRef .tc main_arg5) = x5)
    (h_main_arg6 : X (Proc.devRef .tc main_arg6) = x6)
    (h_main_arg7 : X (Proc.devRef .tc main_arg7) = x7)
    (h_main_arg8 : X (Proc.devRef .tc main_arg8) = x8)
    (h_main_arg9 : X (Proc.devRef .tc main_arg9) = x9)
    (h_main_arg10 : X (Proc.devRef .tc main_arg10) = x10)
    (h_main_arg11 : X (Proc.devRef .tc main_arg11) = x11)
    (h_main_arg12 : X (Proc.devRef .tc main_arg12) = x12)
    (h_main_arg13 : X (Proc.devRef .tc main_arg13) = x13)
    (h_main_arg14 : X (Proc.devRef .tc main_arg14) = x14)
    (h_main_arg15 : X (Proc.devRef .tc main_arg15) = x15)
    (h_main_arg16 : X (Proc.devRef .tc main_arg16) = x16)
    (h_main_arg17 : X (Proc.devRef .tc main_arg17) = x17)
    (h_main_v3 : X (Proc.devRef .tc main_v3) = val_main_v3 (F := F) x1)
    (h_main_v6 : X (Proc.devRef .tc main_v6) = val_main_v6 (F := F) x1)
    (h_main_v7 : X (Proc.devRef .tc main_v7) = val_main_v7 (F := F) x0 x2)
    (h_main_v15 : X (Proc.devRef .tc main_v15) = val_main_v15 (F := F) x1) :
    after (ops6 (F := F)) X (Proc.devRef .tc main_arg1) = x1
    ∧ after (ops6 (F := F)) X (Proc.devRef .tc main_arg3) = x3
    ∧ after (ops6 (F := F)) X (Proc.devRef .tc main_arg4) = x4
    ∧ after (ops6 (F := F)) X (Proc.devRef .tc main_arg5) = x5
    ∧ after (ops6 (F := F)) X (Proc.devRef .tc main_arg6) = x6
    ∧ after (ops6 (F := F)) X (Proc.devRef .tc main_arg7) = x7
    ∧ after (ops6 (F := F)) X (Proc.devRef .tc main_arg8) = x8
    ∧ after (ops6 (F := F)) X (Proc.devRef .tc main_arg9) = x9
    ∧ after (ops6 (F := F)) X (Proc.devRef .tc main_arg10) = x10
    ∧ after (ops6 (F := F)) X (Proc.devRef .tc main_arg11) = x11
    ∧ after (ops6 (F := F)) X (Proc.devRef .tc main_arg12) = x12
    ∧ after (ops6 (F := F)) X (Proc.devRef .tc main_arg13) = x13
    ∧ after (ops6 (F := F)) X (Proc.devRef .tc main_arg14) = x14
    ∧ after (ops6 (F := F)) X (Proc.devRef .tc main_arg15) = x15
    ∧ after (ops6 (F := F)) X (Proc.devRef .tc main_arg16) = x16
    ∧ after (ops6 (F := F)) X (Proc.devRef .tc main_arg17) = x17
    ∧ after (ops6 (F := F)) X (Proc.devRef .tc main_v3) = val_main_v3 (F := F) x1
    ∧ after (ops6 (F := F)) X (Proc.devRef .tc main_v6) = val_main_v6 (F := F) x1
    ∧ after (ops6 (F := F)) X (Proc.devRef .tc main_v7) = val_main_v7 (F := F) x0 x2
    ∧ after (ops6 (F := F)) X (Proc.devRef .tc main_v30) = val_main_v30 (F := F) x1 := by
  refine ⟨?_, ?_, ?_, ?_, ?_, ?_, ?_, ?_, ?_, ?_, ?_, ?_, ?_, ?_, ?_, ?_, ?_, ?_, ?_, ?_⟩
  · after_results_simp
    exact h_main_arg1
  · after_results_simp
    exact h_main_arg3
  · after_results_simp
    exact h_main_arg4
  · after_results_simp
    exact h_main_arg5
  · after_results_simp
    exact h_main_arg6
  · after_results_simp
    exact h_main_arg7
  · after_results_simp
    exact h_main_arg8
  · after_results_simp
    exact h_main_arg9
  · after_results_simp
    exact h_main_arg10
  · after_results_simp
    exact h_main_arg11
  · after_results_simp
    exact h_main_arg12
  · after_results_simp
    exact h_main_arg13
  · after_results_simp
    exact h_main_arg14
  · after_results_simp
    exact h_main_arg15
  · after_results_simp
    exact h_main_arg16
  · after_results_simp
    exact h_main_arg17
  · after_results_simp
    exact h_main_v3
  · after_results_simp
    exact h_main_v6
  · after_results_simp
    exact h_main_v7
  · after_results_simp
    try simp only [h_main_arg1, h_main_arg3, h_main_arg4, h_main_arg5, h_main_arg6, h_main_arg7, h_main_arg8, h_main_arg9, h_main_arg10, h_main_arg11, h_main_arg12, h_main_arg13, h_main_arg14, h_main_arg15, h_main_arg16, h_main_arg17, h_main_v3, h_main_v6, h_main_v7, h_main_v15]
    all_goals rfl

/-- Operations 41 to 59 of the reference, in order. -/
abbrev ops7 : List (HloOp τ sig (Elt F)) :=
  [ nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v7 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    binary main_v37 main_v39 main_v40 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)) ]

set_option maxHeartbeats 4000000 in
/-- Operations 41 to 59 leave each buffer that is read later at its stage's value, when the buffers they read from
    earlier stages hold theirs. -/
theorem seg7 (X : Valuation τ sig (Elt F))
    (h_main_arg1 : X (Proc.devRef .tc main_arg1) = x1)
    (h_main_arg3 : X (Proc.devRef .tc main_arg3) = x3)
    (h_main_arg4 : X (Proc.devRef .tc main_arg4) = x4)
    (h_main_arg5 : X (Proc.devRef .tc main_arg5) = x5)
    (h_main_arg6 : X (Proc.devRef .tc main_arg6) = x6)
    (h_main_arg7 : X (Proc.devRef .tc main_arg7) = x7)
    (h_main_arg8 : X (Proc.devRef .tc main_arg8) = x8)
    (h_main_arg9 : X (Proc.devRef .tc main_arg9) = x9)
    (h_main_arg10 : X (Proc.devRef .tc main_arg10) = x10)
    (h_main_arg11 : X (Proc.devRef .tc main_arg11) = x11)
    (h_main_arg12 : X (Proc.devRef .tc main_arg12) = x12)
    (h_main_arg13 : X (Proc.devRef .tc main_arg13) = x13)
    (h_main_arg14 : X (Proc.devRef .tc main_arg14) = x14)
    (h_main_arg15 : X (Proc.devRef .tc main_arg15) = x15)
    (h_main_arg16 : X (Proc.devRef .tc main_arg16) = x16)
    (h_main_arg17 : X (Proc.devRef .tc main_arg17) = x17)
    (h_main_v3 : X (Proc.devRef .tc main_v3) = val_main_v3 (F := F) x1)
    (h_main_v6 : X (Proc.devRef .tc main_v6) = val_main_v6 (F := F) x1)
    (h_main_v7 : X (Proc.devRef .tc main_v7) = val_main_v7 (F := F) x0 x2)
    (h_main_v30 : X (Proc.devRef .tc main_v30) = val_main_v30 (F := F) x1) :
    after (ops7 (F := F)) X (Proc.devRef .tc main_arg1) = x1
    ∧ after (ops7 (F := F)) X (Proc.devRef .tc main_arg4) = x4
    ∧ after (ops7 (F := F)) X (Proc.devRef .tc main_arg5) = x5
    ∧ after (ops7 (F := F)) X (Proc.devRef .tc main_arg6) = x6
    ∧ after (ops7 (F := F)) X (Proc.devRef .tc main_arg7) = x7
    ∧ after (ops7 (F := F)) X (Proc.devRef .tc main_arg8) = x8
    ∧ after (ops7 (F := F)) X (Proc.devRef .tc main_arg9) = x9
    ∧ after (ops7 (F := F)) X (Proc.devRef .tc main_arg10) = x10
    ∧ after (ops7 (F := F)) X (Proc.devRef .tc main_arg11) = x11
    ∧ after (ops7 (F := F)) X (Proc.devRef .tc main_arg12) = x12
    ∧ after (ops7 (F := F)) X (Proc.devRef .tc main_arg13) = x13
    ∧ after (ops7 (F := F)) X (Proc.devRef .tc main_arg14) = x14
    ∧ after (ops7 (F := F)) X (Proc.devRef .tc main_arg15) = x15
    ∧ after (ops7 (F := F)) X (Proc.devRef .tc main_arg16) = x16
    ∧ after (ops7 (F := F)) X (Proc.devRef .tc main_arg17) = x17
    ∧ after (ops7 (F := F)) X (Proc.devRef .tc main_v3) = val_main_v3 (F := F) x1
    ∧ after (ops7 (F := F)) X (Proc.devRef .tc main_v6) = val_main_v6 (F := F) x1
    ∧ after (ops7 (F := F)) X (Proc.devRef .tc main_v46) = val_main_v46 (F := F) x0 x1 x2 x3 := by
  refine ⟨?_, ?_, ?_, ?_, ?_, ?_, ?_, ?_, ?_, ?_, ?_, ?_, ?_, ?_, ?_, ?_, ?_, ?_⟩
  · after_results_simp
    exact h_main_arg1
  · after_results_simp
    exact h_main_arg4
  · after_results_simp
    exact h_main_arg5
  · after_results_simp
    exact h_main_arg6
  · after_results_simp
    exact h_main_arg7
  · after_results_simp
    exact h_main_arg8
  · after_results_simp
    exact h_main_arg9
  · after_results_simp
    exact h_main_arg10
  · after_results_simp
    exact h_main_arg11
  · after_results_simp
    exact h_main_arg12
  · after_results_simp
    exact h_main_arg13
  · after_results_simp
    exact h_main_arg14
  · after_results_simp
    exact h_main_arg15
  · after_results_simp
    exact h_main_arg16
  · after_results_simp
    exact h_main_arg17
  · after_results_simp
    exact h_main_v3
  · after_results_simp
    exact h_main_v6
  · after_results_simp
    try simp only [h_main_arg1, h_main_arg3, h_main_arg4, h_main_arg5, h_main_arg6, h_main_arg7, h_main_arg8, h_main_arg9, h_main_arg10, h_main_arg11, h_main_arg12, h_main_arg13, h_main_arg14, h_main_arg15, h_main_arg16, h_main_arg17, h_main_v3, h_main_v6, h_main_v7, h_main_v30]
    all_goals rfl

/-- Operations 60 to 62 of the reference, in order. -/
abbrev ops8 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf ]

set_option maxHeartbeats 4000000 in
/-- Operations 60 to 62 leave each buffer that is read later at its stage's value, when the buffers they read from
    earlier stages hold theirs. -/
theorem seg8 (X : Valuation τ sig (Elt F))
    (h_main_arg1 : X (Proc.devRef .tc main_arg1) = x1)
    (h_main_arg4 : X (Proc.devRef .tc main_arg4) = x4)
    (h_main_arg5 : X (Proc.devRef .tc main_arg5) = x5)
    (h_main_arg6 : X (Proc.devRef .tc main_arg6) = x6)
    (h_main_arg7 : X (Proc.devRef .tc main_arg7) = x7)
    (h_main_arg8 : X (Proc.devRef .tc main_arg8) = x8)
    (h_main_arg9 : X (Proc.devRef .tc main_arg9) = x9)
    (h_main_arg10 : X (Proc.devRef .tc main_arg10) = x10)
    (h_main_arg11 : X (Proc.devRef .tc main_arg11) = x11)
    (h_main_arg12 : X (Proc.devRef .tc main_arg12) = x12)
    (h_main_arg13 : X (Proc.devRef .tc main_arg13) = x13)
    (h_main_arg14 : X (Proc.devRef .tc main_arg14) = x14)
    (h_main_arg15 : X (Proc.devRef .tc main_arg15) = x15)
    (h_main_arg16 : X (Proc.devRef .tc main_arg16) = x16)
    (h_main_arg17 : X (Proc.devRef .tc main_arg17) = x17)
    (h_main_v3 : X (Proc.devRef .tc main_v3) = val_main_v3 (F := F) x1)
    (h_main_v6 : X (Proc.devRef .tc main_v6) = val_main_v6 (F := F) x1)
    (h_main_v46 : X (Proc.devRef .tc main_v46) = val_main_v46 (F := F) x0 x1 x2 x3) :
    after (ops8 (F := F)) X (Proc.devRef .tc main_arg1) = x1
    ∧ after (ops8 (F := F)) X (Proc.devRef .tc main_arg4) = x4
    ∧ after (ops8 (F := F)) X (Proc.devRef .tc main_arg5) = x5
    ∧ after (ops8 (F := F)) X (Proc.devRef .tc main_arg6) = x6
    ∧ after (ops8 (F := F)) X (Proc.devRef .tc main_arg7) = x7
    ∧ after (ops8 (F := F)) X (Proc.devRef .tc main_arg8) = x8
    ∧ after (ops8 (F := F)) X (Proc.devRef .tc main_arg9) = x9
    ∧ after (ops8 (F := F)) X (Proc.devRef .tc main_arg10) = x10
    ∧ after (ops8 (F := F)) X (Proc.devRef .tc main_arg11) = x11
    ∧ after (ops8 (F := F)) X (Proc.devRef .tc main_arg12) = x12
    ∧ after (ops8 (F := F)) X (Proc.devRef .tc main_arg13) = x13
    ∧ after (ops8 (F := F)) X (Proc.devRef .tc main_arg14) = x14
    ∧ after (ops8 (F := F)) X (Proc.devRef .tc main_arg15) = x15
    ∧ after (ops8 (F := F)) X (Proc.devRef .tc main_arg16) = x16
    ∧ after (ops8 (F := F)) X (Proc.devRef .tc main_arg17) = x17
    ∧ after (ops8 (F := F)) X (Proc.devRef .tc main_v3) = val_main_v3 (F := F) x1
    ∧ after (ops8 (F := F)) X (Proc.devRef .tc main_v6) = val_main_v6 (F := F) x1
    ∧ after (ops8 (F := F)) X (Proc.devRef .tc main_v47) = val_main_v47 (F := F) x0 x1 x2 x3 := by
  refine ⟨?_, ?_, ?_, ?_, ?_, ?_, ?_, ?_, ?_, ?_, ?_, ?_, ?_, ?_, ?_, ?_, ?_, ?_⟩
  · after_results_simp
    exact h_main_arg1
  · after_results_simp
    exact h_main_arg4
  · after_results_simp
    exact h_main_arg5
  · after_results_simp
    exact h_main_arg6
  · after_results_simp
    exact h_main_arg7
  · after_results_simp
    exact h_main_arg8
  · after_results_simp
    exact h_main_arg9
  · after_results_simp
    exact h_main_arg10
  · after_results_simp
    exact h_main_arg11
  · after_results_simp
    exact h_main_arg12
  · after_results_simp
    exact h_main_arg13
  · after_results_simp
    exact h_main_arg14
  · after_results_simp
    exact h_main_arg15
  · after_results_simp
    exact h_main_arg16
  · after_results_simp
    exact h_main_arg17
  · after_results_simp
    exact h_main_v3
  · after_results_simp
    exact h_main_v6
  · after_results_simp
    try simp only [h_main_arg1, h_main_arg4, h_main_arg5, h_main_arg6, h_main_arg7, h_main_arg8, h_main_arg9, h_main_arg10, h_main_arg11, h_main_arg12, h_main_arg13, h_main_arg14, h_main_arg15, h_main_arg16, h_main_arg17, h_main_v3, h_main_v6, h_main_v46]
    all_goals rfl

/-- Operations 63 to 74 of the reference, in order. -/
abbrev ops9 : List (HloOp τ sig (Elt F)) :=
  [ binary main_v47 main_arg4 main_v48 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_9 (constant S_ .f32 0x3F800000#32),
    unary main_cst_9 main_v49 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v50 (broadcastInDim S100000 ![] bcast_S_S100000 : (⟨S_, .f32⟩ : BufTy).Contents (Elt F) → (⟨S100000, .f32⟩ : BufTy).Contents (Elt F)),
    unary main_v6 main_v51 (broadcastInDim S1700000x1 ![0] bcast_S1700000_S1700000x1_0 : (⟨S1700000, .i32⟩ : BufTy).Contents (Elt F) → (⟨S1700000x1, .i32⟩ : BufTy).Contents (Elt F)),
    ternary main_v50 main_v51 main_v49 main_v52 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v53 (broadcastInDim S100000 ![] bcast_S_S100000 : (⟨S_, .f32⟩ : BufTy).Contents (Elt F) → (⟨S100000, .f32⟩ : BufTy).Contents (Elt F)),
    binary main_v52 main_v53 main_v54 (cmpf .ogt : (⟨S100000, .f32⟩ : BufTy).Contents (Elt F) → (⟨S100000, .f32⟩ : BufTy).Contents (Elt F) → (⟨S100000, .i1⟩ : BufTy).Contents (Elt F)),
    unary main_v52 main_v55 (Host.rsqrt : (⟨S100000, .f32⟩ : BufTy).Contents (Elt F) → (⟨S100000, .f32⟩ : BufTy).Contents (Elt F)),
    nullary main_cst_12 (constant S_ .f32 0x00000000#32) ]

set_option maxHeartbeats 4000000 in
/-- Operations 63 to 74 leave each buffer that is read later at its stage's value, when the buffers they read from
    earlier stages hold theirs. -/
theorem seg9 (X : Valuation τ sig (Elt F))
    (h_main_arg1 : X (Proc.devRef .tc main_arg1) = x1)
    (h_main_arg4 : X (Proc.devRef .tc main_arg4) = x4)
    (h_main_arg5 : X (Proc.devRef .tc main_arg5) = x5)
    (h_main_arg6 : X (Proc.devRef .tc main_arg6) = x6)
    (h_main_arg7 : X (Proc.devRef .tc main_arg7) = x7)
    (h_main_arg8 : X (Proc.devRef .tc main_arg8) = x8)
    (h_main_arg9 : X (Proc.devRef .tc main_arg9) = x9)
    (h_main_arg10 : X (Proc.devRef .tc main_arg10) = x10)
    (h_main_arg11 : X (Proc.devRef .tc main_arg11) = x11)
    (h_main_arg12 : X (Proc.devRef .tc main_arg12) = x12)
    (h_main_arg13 : X (Proc.devRef .tc main_arg13) = x13)
    (h_main_arg14 : X (Proc.devRef .tc main_arg14) = x14)
    (h_main_arg15 : X (Proc.devRef .tc main_arg15) = x15)
    (h_main_arg16 : X (Proc.devRef .tc main_arg16) = x16)
    (h_main_arg17 : X (Proc.devRef .tc main_arg17) = x17)
    (h_main_v3 : X (Proc.devRef .tc main_v3) = val_main_v3 (F := F) x1)
    (h_main_v6 : X (Proc.devRef .tc main_v6) = val_main_v6 (F := F) x1)
    (h_main_v47 : X (Proc.devRef .tc main_v47) = val_main_v47 (F := F) x0 x1 x2 x3) :
    after (ops9 (F := F)) X (Proc.devRef .tc main_arg1) = x1
    ∧ after (ops9 (F := F)) X (Proc.devRef .tc main_arg5) = x5
    ∧ after (ops9 (F := F)) X (Proc.devRef .tc main_arg6) = x6
    ∧ after (ops9 (F := F)) X (Proc.devRef .tc main_arg7) = x7
    ∧ after (ops9 (F := F)) X (Proc.devRef .tc main_arg8) = x8
    ∧ after (ops9 (F := F)) X (Proc.devRef .tc main_arg9) = x9
    ∧ after (ops9 (F := F)) X (Proc.devRef .tc main_arg10) = x10
    ∧ after (ops9 (F := F)) X (Proc.devRef .tc main_arg11) = x11
    ∧ after (ops9 (F := F)) X (Proc.devRef .tc main_arg12) = x12
    ∧ after (ops9 (F := F)) X (Proc.devRef .tc main_arg13) = x13
    ∧ after (ops9 (F := F)) X (Proc.devRef .tc main_arg14) = x14
    ∧ after (ops9 (F := F)) X (Proc.devRef .tc main_arg15) = x15
    ∧ after (ops9 (F := F)) X (Proc.devRef .tc main_arg16) = x16
    ∧ after (ops9 (F := F)) X (Proc.devRef .tc main_arg17) = x17
    ∧ after (ops9 (F := F)) X (Proc.devRef .tc main_v3) = val_main_v3 (F := F) x1
    ∧ after (ops9 (F := F)) X (Proc.devRef .tc main_v6) = val_main_v6 (F := F) x1
    ∧ after (ops9 (F := F)) X (Proc.devRef .tc main_v48) = val_main_v48 (F := F) x0 x1 x2 x3 x4
    ∧ after (ops9 (F := F)) X (Proc.devRef .tc main_v54) = val_main_v54 (F := F) x1
    ∧ after (ops9 (F := F)) X (Proc.devRef .tc main_v55) = val_main_v55 (F := F) x1
    ∧ after (ops9 (F := F)) X (Proc.devRef .tc main_cst_12) = val_main_cst_12 (F := F) := by
  refine ⟨?_, ?_, ?_, ?_, ?_, ?_, ?_, ?_, ?_, ?_, ?_, ?_, ?_, ?_, ?_, ?_, ?_, ?_, ?_, ?_⟩
  · after_results_simp
    exact h_main_arg1
  · after_results_simp
    exact h_main_arg5
  · after_results_simp
    exact h_main_arg6
  · after_results_simp
    exact h_main_arg7
  · after_results_simp
    exact h_main_arg8
  · after_results_simp
    exact h_main_arg9
  · after_results_simp
    exact h_main_arg10
  · after_results_simp
    exact h_main_arg11
  · after_results_simp
    exact h_main_arg12
  · after_results_simp
    exact h_main_arg13
  · after_results_simp
    exact h_main_arg14
  · after_results_simp
    exact h_main_arg15
  · after_results_simp
    exact h_main_arg16
  · after_results_simp
    exact h_main_arg17
  · after_results_simp
    exact h_main_v3
  · after_results_simp
    exact h_main_v6
  · after_results_simp
    try simp only [h_main_arg1, h_main_arg4, h_main_arg5, h_main_arg6, h_main_arg7, h_main_arg8, h_main_arg9, h_main_arg10, h_main_arg11, h_main_arg12, h_main_arg13, h_main_arg14, h_main_arg15, h_main_arg16, h_main_arg17, h_main_v3, h_main_v6, h_main_v47]
    all_goals rfl
  · after_results_simp
    try simp only [h_main_arg1, h_main_arg4, h_main_arg5, h_main_arg6, h_main_arg7, h_main_arg8, h_main_arg9, h_main_arg10, h_main_arg11, h_main_arg12, h_main_arg13, h_main_arg14, h_main_arg15, h_main_arg16, h_main_arg17, h_main_v3, h_main_v6, h_main_v47]
    all_goals rfl
  · after_results_simp
    try simp only [h_main_arg1, h_main_arg4, h_main_arg5, h_main_arg6, h_main_arg7, h_main_arg8, h_main_arg9, h_main_arg10, h_main_arg11, h_main_arg12, h_main_arg13, h_main_arg14, h_main_arg15, h_main_arg16, h_main_arg17, h_main_v3, h_main_v6, h_main_v47]
    all_goals rfl
  · after_results_simp
    try simp only [h_main_arg1, h_main_arg4, h_main_arg5, h_main_arg6, h_main_arg7, h_main_arg8, h_main_arg9, h_main_arg10, h_main_arg11, h_main_arg12, h_main_arg13, h_main_arg14, h_main_arg15, h_main_arg16, h_main_arg17, h_main_v3, h_main_v6, h_main_v47]
    all_goals rfl

/-- Operations 75 to 77 of the reference, in order. -/
abbrev ops10 : List (HloOp τ sig (Elt F)) :=
  [ TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v54) (TRef.of (T := ⟨S100000, .f32⟩) main_v55) (TRef.of (T := ⟨S100000, .f32⟩) main_call2_v1) (TRef.of (T := ⟨S100000, .f32⟩) main_v56) select ]

set_option maxHeartbeats 4000000 in
/-- Operations 75 to 77 leave each buffer that is read later at its stage's value, when the buffers they read from
    earlier stages hold theirs. -/
theorem seg10 (X : Valuation τ sig (Elt F))
    (h_main_arg1 : X (Proc.devRef .tc main_arg1) = x1)
    (h_main_arg5 : X (Proc.devRef .tc main_arg5) = x5)
    (h_main_arg6 : X (Proc.devRef .tc main_arg6) = x6)
    (h_main_arg7 : X (Proc.devRef .tc main_arg7) = x7)
    (h_main_arg8 : X (Proc.devRef .tc main_arg8) = x8)
    (h_main_arg9 : X (Proc.devRef .tc main_arg9) = x9)
    (h_main_arg10 : X (Proc.devRef .tc main_arg10) = x10)
    (h_main_arg11 : X (Proc.devRef .tc main_arg11) = x11)
    (h_main_arg12 : X (Proc.devRef .tc main_arg12) = x12)
    (h_main_arg13 : X (Proc.devRef .tc main_arg13) = x13)
    (h_main_arg14 : X (Proc.devRef .tc main_arg14) = x14)
    (h_main_arg15 : X (Proc.devRef .tc main_arg15) = x15)
    (h_main_arg16 : X (Proc.devRef .tc main_arg16) = x16)
    (h_main_arg17 : X (Proc.devRef .tc main_arg17) = x17)
    (h_main_v3 : X (Proc.devRef .tc main_v3) = val_main_v3 (F := F) x1)
    (h_main_v6 : X (Proc.devRef .tc main_v6) = val_main_v6 (F := F) x1)
    (h_main_v48 : X (Proc.devRef .tc main_v48) = val_main_v48 (F := F) x0 x1 x2 x3 x4)
    (h_main_v54 : X (Proc.devRef .tc main_v54) = val_main_v54 (F := F) x1)
    (h_main_v55 : X (Proc.devRef .tc main_v55) = val_main_v55 (F := F) x1)
    (h_main_cst_12 : X (Proc.devRef .tc main_cst_12) = val_main_cst_12 (F := F)) :
    after (ops10 (F := F)) X (Proc.devRef .tc main_arg1) = x1
    ∧ after (ops10 (F := F)) X (Proc.devRef .tc main_arg5) = x5
    ∧ after (ops10 (F := F)) X (Proc.devRef .tc main_arg6) = x6
    ∧ after (ops10 (F := F)) X (Proc.devRef .tc main_arg7) = x7
    ∧ after (ops10 (F := F)) X (Proc.devRef .tc main_arg8) = x8
    ∧ after (ops10 (F := F)) X (Proc.devRef .tc main_arg9) = x9
    ∧ after (ops10 (F := F)) X (Proc.devRef .tc main_arg10) = x10
    ∧ after (ops10 (F := F)) X (Proc.devRef .tc main_arg11) = x11
    ∧ after (ops10 (F := F)) X (Proc.devRef .tc main_arg12) = x12
    ∧ after (ops10 (F := F)) X (Proc.devRef .tc main_arg13) = x13
    ∧ after (ops10 (F := F)) X (Proc.devRef .tc main_arg14) = x14
    ∧ after (ops10 (F := F)) X (Proc.devRef .tc main_arg15) = x15
    ∧ after (ops10 (F := F)) X (Proc.devRef .tc main_arg16) = x16
    ∧ after (ops10 (F := F)) X (Proc.devRef .tc main_arg17) = x17
    ∧ after (ops10 (F := F)) X (Proc.devRef .tc main_v3) = val_main_v3 (F := F) x1
    ∧ after (ops10 (F := F)) X (Proc.devRef .tc main_v6) = val_main_v6 (F := F) x1
    ∧ after (ops10 (F := F)) X (Proc.devRef .tc main_v48) = val_main_v48 (F := F) x0 x1 x2 x3 x4
    ∧ after (ops10 (F := F)) X (Proc.devRef .tc main_v56) = val_main_v56 (F := F) x1 := by
  refine ⟨?_, ?_, ?_, ?_, ?_, ?_, ?_, ?_, ?_, ?_, ?_, ?_, ?_, ?_, ?_, ?_, ?_, ?_⟩
  · after_results_simp
    exact h_main_arg1
  · after_results_simp
    exact h_main_arg5
  · after_results_simp
    exact h_main_arg6
  · after_results_simp
    exact h_main_arg7
  · after_results_simp
    exact h_main_arg8
  · after_results_simp
    exact h_main_arg9
  · after_results_simp
    exact h_main_arg10
  · after_results_simp
    exact h_main_arg11
  · after_results_simp
    exact h_main_arg12
  · after_results_simp
    exact h_main_arg13
  · after_results_simp
    exact h_main_arg14
  · after_results_simp
    exact h_main_arg15
  · after_results_simp
    exact h_main_arg16
  · after_results_simp
    exact h_main_arg17
  · after_results_simp
    exact h_main_v3
  · after_results_simp
    exact h_main_v6
  · after_results_simp
    exact h_main_v48
  · after_results_simp
    try simp only [h_main_arg1, h_main_arg5, h_main_arg6, h_main_arg7, h_main_arg8, h_main_arg9, h_main_arg10, h_main_arg11, h_main_arg12, h_main_arg13, h_main_arg14, h_main_arg15, h_main_arg16, h_main_arg17, h_main_v3, h_main_v6, h_main_v48, h_main_v54, h_main_v55, h_main_cst_12]
    all_goals rfl

/-- Operations 78 to 96 of the reference, in order. -/
abbrev ops11 : List (HloOp τ sig (Elt F)) :=
  [ nullary main_c_13 (constantI S_ 32 0#32),
    unary main_c_13 main_v57 (broadcastInDim S1700000 ![] bcast_S_S1700000 : (⟨S_, .i32⟩ : BufTy).Contents (Elt F) → (⟨S1700000, .i32⟩ : BufTy).Contents (Elt F)),
    binary main_v3 main_v57 main_v58 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v59 (broadcastInDim S1700000 ![] bcast_S_S1700000 : (⟨S_, .i32⟩ : BufTy).Contents (Elt F) → (⟨S1700000, .i32⟩ : BufTy).Contents (Elt F)),
    binary main_v3 main_v59 main_v60 (addi : (⟨S1700000, .i32⟩ : BufTy).Contents (Elt F) → (⟨S1700000, .i32⟩ : BufTy).Contents (Elt F) → (⟨S1700000, .i32⟩ : BufTy).Contents (Elt F)),
    ternary main_v58 main_v60 main_v3 main_v61 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v61 main_v62 (broadcastInDim S1700000x1 ![0] bcast_S1700000_S1700000x1_0 : (⟨S1700000, .i32⟩ : BufTy).Contents (Elt F) → (⟨S1700000x1, .i32⟩ : BufTy).Contents (Elt F)),
    binary main_v56 main_v62 main_v63 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v64 (broadcastInDim S1700000 ![] bcast_S_S1700000 : (⟨S_, .i32⟩ : BufTy).Contents (Elt F) → (⟨S1700000, .i32⟩ : BufTy).Contents (Elt F)),
    binary main_v6 main_v64 main_v65 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v66 (broadcastInDim S1700000 ![] bcast_S_S1700000 : (⟨S_, .i32⟩ : BufTy).Contents (Elt F) → (⟨S1700000, .i32⟩ : BufTy).Contents (Elt F)),
    binary main_v6 main_v66 main_v67 (addi : (⟨S1700000, .i32⟩ : BufTy).Contents (Elt F) → (⟨S1700000, .i32⟩ : BufTy).Contents (Elt F) → (⟨S1700000, .i32⟩ : BufTy).Contents (Elt F)),
    ternary main_v65 main_v67 main_v6 main_v68 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v68 main_v69 (broadcastInDim S1700000x1 ![0] bcast_S1700000_S1700000x1_0 : (⟨S1700000, .i32⟩ : BufTy).Contents (Elt F) → (⟨S1700000x1, .i32⟩ : BufTy).Contents (Elt F)),
    binary main_v56 main_v69 main_v70 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v63 main_v70 main_v71 (mulf : (⟨S1700000, .f32⟩ : BufTy).Contents (Elt F) → (⟨S1700000, .f32⟩ : BufTy).Contents (Elt F) → (⟨S1700000, .f32⟩ : BufTy).Contents (Elt F)) ]

set_option maxHeartbeats 4000000 in
/-- Operations 78 to 96 leave each buffer that is read later at its stage's value, when the buffers they read from
    earlier stages hold theirs. -/
theorem seg11 (X : Valuation τ sig (Elt F))
    (h_main_arg1 : X (Proc.devRef .tc main_arg1) = x1)
    (h_main_arg5 : X (Proc.devRef .tc main_arg5) = x5)
    (h_main_arg6 : X (Proc.devRef .tc main_arg6) = x6)
    (h_main_arg7 : X (Proc.devRef .tc main_arg7) = x7)
    (h_main_arg8 : X (Proc.devRef .tc main_arg8) = x8)
    (h_main_arg9 : X (Proc.devRef .tc main_arg9) = x9)
    (h_main_arg10 : X (Proc.devRef .tc main_arg10) = x10)
    (h_main_arg11 : X (Proc.devRef .tc main_arg11) = x11)
    (h_main_arg12 : X (Proc.devRef .tc main_arg12) = x12)
    (h_main_arg13 : X (Proc.devRef .tc main_arg13) = x13)
    (h_main_arg14 : X (Proc.devRef .tc main_arg14) = x14)
    (h_main_arg15 : X (Proc.devRef .tc main_arg15) = x15)
    (h_main_arg16 : X (Proc.devRef .tc main_arg16) = x16)
    (h_main_arg17 : X (Proc.devRef .tc main_arg17) = x17)
    (h_main_v3 : X (Proc.devRef .tc main_v3) = val_main_v3 (F := F) x1)
    (h_main_v6 : X (Proc.devRef .tc main_v6) = val_main_v6 (F := F) x1)
    (h_main_v48 : X (Proc.devRef .tc main_v48) = val_main_v48 (F := F) x0 x1 x2 x3 x4)
    (h_main_v56 : X (Proc.devRef .tc main_v56) = val_main_v56 (F := F) x1) :
    after (ops11 (F := F)) X (Proc.devRef .tc main_arg1) = x1
    ∧ after (ops11 (F := F)) X (Proc.devRef .tc main_arg5) = x5
    ∧ after (ops11 (F := F)) X (Proc.devRef .tc main_arg6) = x6
    ∧ after (ops11 (F := F)) X (Proc.devRef .tc main_arg7) = x7
    ∧ after (ops11 (F := F)) X (Proc.devRef .tc main_arg8) = x8
    ∧ after (ops11 (F := F)) X (Proc.devRef .tc main_arg9) = x9
    ∧ after (ops11 (F := F)) X (Proc.devRef .tc main_arg10) = x10
    ∧ after (ops11 (F := F)) X (Proc.devRef .tc main_arg11) = x11
    ∧ after (ops11 (F := F)) X (Proc.devRef .tc main_arg12) = x12
    ∧ after (ops11 (F := F)) X (Proc.devRef .tc main_arg13) = x13
    ∧ after (ops11 (F := F)) X (Proc.devRef .tc main_arg14) = x14
    ∧ after (ops11 (F := F)) X (Proc.devRef .tc main_arg15) = x15
    ∧ after (ops11 (F := F)) X (Proc.devRef .tc main_arg16) = x16
    ∧ after (ops11 (F := F)) X (Proc.devRef .tc main_arg17) = x17
    ∧ after (ops11 (F := F)) X (Proc.devRef .tc main_v3) = val_main_v3 (F := F) x1
    ∧ after (ops11 (F := F)) X (Proc.devRef .tc main_v6) = val_main_v6 (F := F) x1
    ∧ after (ops11 (F := F)) X (Proc.devRef .tc main_v48) = val_main_v48 (F := F) x0 x1 x2 x3 x4
    ∧ after (ops11 (F := F)) X (Proc.devRef .tc main_v71) = val_main_v71 (F := F) x1 := by
  refine ⟨?_, ?_, ?_, ?_, ?_, ?_, ?_, ?_, ?_, ?_, ?_, ?_, ?_, ?_, ?_, ?_, ?_, ?_⟩
  · after_results_simp
    exact h_main_arg1
  · after_results_simp
    exact h_main_arg5
  · after_results_simp
    exact h_main_arg6
  · after_results_simp
    exact h_main_arg7
  · after_results_simp
    exact h_main_arg8
  · after_results_simp
    exact h_main_arg9
  · after_results_simp
    exact h_main_arg10
  · after_results_simp
    exact h_main_arg11
  · after_results_simp
    exact h_main_arg12
  · after_results_simp
    exact h_main_arg13
  · after_results_simp
    exact h_main_arg14
  · after_results_simp
    exact h_main_arg15
  · after_results_simp
    exact h_main_arg16
  · after_results_simp
    exact h_main_arg17
  · after_results_simp
    exact h_main_v3
  · after_results_simp
    exact h_main_v6
  · after_results_simp
    exact h_main_v48
  · after_results_simp
    try simp only [h_main_arg1, h_main_arg5, h_main_arg6, h_main_arg7, h_main_arg8, h_main_arg9, h_main_arg10, h_main_arg11, h_main_arg12, h_main_arg13, h_main_arg14, h_main_arg15, h_main_arg16, h_main_arg17, h_main_v3, h_main_v6, h_main_v48, h_main_v56]
    all_goals rfl

/-- Operations 97 to 115 of the reference, in order. -/
abbrev ops12 : List (HloOp τ sig (Elt F)) :=
  [ nullary main_c_17 (constantI S_ 32 0#32),
    unary main_c_17 main_v72 (broadcastInDim S1700000 ![] bcast_S_S1700000 : (⟨S_, .i32⟩ : BufTy).Contents (Elt F) → (⟨S1700000, .i32⟩ : BufTy).Contents (Elt F)),
    binary main_v3 main_v72 main_v73 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v74 (broadcastInDim S1700000 ![] bcast_S_S1700000 : (⟨S_, .i32⟩ : BufTy).Contents (Elt F) → (⟨S1700000, .i32⟩ : BufTy).Contents (Elt F)),
    binary main_v3 main_v74 main_v75 (addi : (⟨S1700000, .i32⟩ : BufTy).Contents (Elt F) → (⟨S1700000, .i32⟩ : BufTy).Contents (Elt F) → (⟨S1700000, .i32⟩ : BufTy).Contents (Elt F)),
    ternary main_v73 main_v75 main_v3 main_v76 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v76 main_v77 (broadcastInDim S1700000x1 ![0] bcast_S1700000_S1700000x1_0 : (⟨S1700000, .i32⟩ : BufTy).Contents (Elt F) → (⟨S1700000x1, .i32⟩ : BufTy).Contents (Elt F)),
    binary main_v48 main_v77 main_v78 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v71 main_v79 (broadcastInDim S1700000x1 ![0] bcast_S1700000_S1700000x1_0 : (⟨S1700000, .f32⟩ : BufTy).Contents (Elt F) → (⟨S1700000x1, .f32⟩ : BufTy).Contents (Elt F)),
    unary main_v79 main_v80 (broadcastInDim S1700000x64 ![0, 1] bcast_S1700000x1_S1700000x64_0_1 : (⟨S1700000x1, .f32⟩ : BufTy).Contents (Elt F) → (⟨S1700000x64, .f32⟩ : BufTy).Contents (Elt F)),
    binary main_v78 main_v80 main_v81 (mulf : (⟨S1700000x64, .f32⟩ : BufTy).Contents (Elt F) → (⟨S1700000x64, .f32⟩ : BufTy).Contents (Elt F) → (⟨S1700000x64, .f32⟩ : BufTy).Contents (Elt F)),
    nullary main_cst_19 (constant S_ .f32 0x00000000#32),
    unary main_cst_19 main_v82 (broadcastInDim S100000x64 ![] bcast_S_S100000x64 : (⟨S_, .f32⟩ : BufTy).Contents (Elt F) → (⟨S100000x64, .f32⟩ : BufTy).Contents (Elt F)),
    unary main_v6 main_v83 (broadcastInDim S1700000x1 ![0] bcast_S1700000_S1700000x1_0 : (⟨S1700000, .i32⟩ : BufTy).Contents (Elt F) → (⟨S1700000x1, .i32⟩ : BufTy).Contents (Elt F)),
    ternary main_v82 main_v83 main_v81 main_v84 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg5 main_v85 (broadcastInDim S1x64 ![1] bcast_S64_S1x64_1 : (⟨S64, .f32⟩ : BufTy).Contents (Elt F) → (⟨S1x64, .f32⟩ : BufTy).Contents (Elt F)),
    unary main_v85 main_v86 (broadcastInDim S100000x64 ![0, 1] bcast_S1x64_S100000x64_0_1 : (⟨S1x64, .f32⟩ : BufTy).Contents (Elt F) → (⟨S100000x64, .f32⟩ : BufTy).Contents (Elt F)),
    binary main_v84 main_v86 main_v87 (addf : (⟨S100000x64, .f32⟩ : BufTy).Contents (Elt F) → (⟨S100000x64, .f32⟩ : BufTy).Contents (Elt F) → (⟨S100000x64, .f32⟩ : BufTy).Contents (Elt F)) ]

set_option maxHeartbeats 4000000 in
/-- Operations 97 to 115 leave each buffer that is read later at its stage's value, when the buffers they read from
    earlier stages hold theirs. -/
theorem seg12 (X : Valuation τ sig (Elt F))
    (h_main_arg1 : X (Proc.devRef .tc main_arg1) = x1)
    (h_main_arg5 : X (Proc.devRef .tc main_arg5) = x5)
    (h_main_arg6 : X (Proc.devRef .tc main_arg6) = x6)
    (h_main_arg7 : X (Proc.devRef .tc main_arg7) = x7)
    (h_main_arg8 : X (Proc.devRef .tc main_arg8) = x8)
    (h_main_arg9 : X (Proc.devRef .tc main_arg9) = x9)
    (h_main_arg10 : X (Proc.devRef .tc main_arg10) = x10)
    (h_main_arg11 : X (Proc.devRef .tc main_arg11) = x11)
    (h_main_arg12 : X (Proc.devRef .tc main_arg12) = x12)
    (h_main_arg13 : X (Proc.devRef .tc main_arg13) = x13)
    (h_main_arg14 : X (Proc.devRef .tc main_arg14) = x14)
    (h_main_arg15 : X (Proc.devRef .tc main_arg15) = x15)
    (h_main_arg16 : X (Proc.devRef .tc main_arg16) = x16)
    (h_main_arg17 : X (Proc.devRef .tc main_arg17) = x17)
    (h_main_v3 : X (Proc.devRef .tc main_v3) = val_main_v3 (F := F) x1)
    (h_main_v6 : X (Proc.devRef .tc main_v6) = val_main_v6 (F := F) x1)
    (h_main_v48 : X (Proc.devRef .tc main_v48) = val_main_v48 (F := F) x0 x1 x2 x3 x4)
    (h_main_v71 : X (Proc.devRef .tc main_v71) = val_main_v71 (F := F) x1) :
    after (ops12 (F := F)) X (Proc.devRef .tc main_arg1) = x1
    ∧ after (ops12 (F := F)) X (Proc.devRef .tc main_arg6) = x6
    ∧ after (ops12 (F := F)) X (Proc.devRef .tc main_arg7) = x7
    ∧ after (ops12 (F := F)) X (Proc.devRef .tc main_arg8) = x8
    ∧ after (ops12 (F := F)) X (Proc.devRef .tc main_arg9) = x9
    ∧ after (ops12 (F := F)) X (Proc.devRef .tc main_arg10) = x10
    ∧ after (ops12 (F := F)) X (Proc.devRef .tc main_arg11) = x11
    ∧ after (ops12 (F := F)) X (Proc.devRef .tc main_arg12) = x12
    ∧ after (ops12 (F := F)) X (Proc.devRef .tc main_arg13) = x13
    ∧ after (ops12 (F := F)) X (Proc.devRef .tc main_arg14) = x14
    ∧ after (ops12 (F := F)) X (Proc.devRef .tc main_arg15) = x15
    ∧ after (ops12 (F := F)) X (Proc.devRef .tc main_arg16) = x16
    ∧ after (ops12 (F := F)) X (Proc.devRef .tc main_arg17) = x17
    ∧ after (ops12 (F := F)) X (Proc.devRef .tc main_v3) = val_main_v3 (F := F) x1
    ∧ after (ops12 (F := F)) X (Proc.devRef .tc main_v6) = val_main_v6 (F := F) x1
    ∧ after (ops12 (F := F)) X (Proc.devRef .tc main_v87) = val_main_v87 (F := F) x0 x1 x2 x3 x4 x5 := by
  refine ⟨?_, ?_, ?_, ?_, ?_, ?_, ?_, ?_, ?_, ?_, ?_, ?_, ?_, ?_, ?_, ?_⟩
  · after_results_simp
    exact h_main_arg1
  · after_results_simp
    exact h_main_arg6
  · after_results_simp
    exact h_main_arg7
  · after_results_simp
    exact h_main_arg8
  · after_results_simp
    exact h_main_arg9
  · after_results_simp
    exact h_main_arg10
  · after_results_simp
    exact h_main_arg11
  · after_results_simp
    exact h_main_arg12
  · after_results_simp
    exact h_main_arg13
  · after_results_simp
    exact h_main_arg14
  · after_results_simp
    exact h_main_arg15
  · after_results_simp
    exact h_main_arg16
  · after_results_simp
    exact h_main_arg17
  · after_results_simp
    exact h_main_v3
  · after_results_simp
    exact h_main_v6
  · after_results_simp
    try simp only [h_main_arg1, h_main_arg5, h_main_arg6, h_main_arg7, h_main_arg8, h_main_arg9, h_main_arg10, h_main_arg11, h_main_arg12, h_main_arg13, h_main_arg14, h_main_arg15, h_main_arg16, h_main_arg17, h_main_v3, h_main_v6, h_main_v48, h_main_v71]
    all_goals rfl

/-- Operations 116 to 118 of the reference, in order. -/
abbrev ops13 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v87) (TRef.of (T := ⟨S100000x64, .f32⟩) main_call3_v0) (TRef.of (T := ⟨S100000x64, .f32⟩) main_v88) maximumf ]

set_option maxHeartbeats 4000000 in
/-- Operations 116 to 118 leave each buffer that is read later at its stage's value, when the buffers they read from
    earlier stages hold theirs. -/
theorem seg13 (X : Valuation τ sig (Elt F))
    (h_main_arg1 : X (Proc.devRef .tc main_arg1) = x1)
    (h_main_arg6 : X (Proc.devRef .tc main_arg6) = x6)
    (h_main_arg7 : X (Proc.devRef .tc main_arg7) = x7)
    (h_main_arg8 : X (Proc.devRef .tc main_arg8) = x8)
    (h_main_arg9 : X (Proc.devRef .tc main_arg9) = x9)
    (h_main_arg10 : X (Proc.devRef .tc main_arg10) = x10)
    (h_main_arg11 : X (Proc.devRef .tc main_arg11) = x11)
    (h_main_arg12 : X (Proc.devRef .tc main_arg12) = x12)
    (h_main_arg13 : X (Proc.devRef .tc main_arg13) = x13)
    (h_main_arg14 : X (Proc.devRef .tc main_arg14) = x14)
    (h_main_arg15 : X (Proc.devRef .tc main_arg15) = x15)
    (h_main_arg16 : X (Proc.devRef .tc main_arg16) = x16)
    (h_main_arg17 : X (Proc.devRef .tc main_arg17) = x17)
    (h_main_v3 : X (Proc.devRef .tc main_v3) = val_main_v3 (F := F) x1)
    (h_main_v6 : X (Proc.devRef .tc main_v6) = val_main_v6 (F := F) x1)
    (h_main_v87 : X (Proc.devRef .tc main_v87) = val_main_v87 (F := F) x0 x1 x2 x3 x4 x5) :
    after (ops13 (F := F)) X (Proc.devRef .tc main_arg1) = x1
    ∧ after (ops13 (F := F)) X (Proc.devRef .tc main_arg6) = x6
    ∧ after (ops13 (F := F)) X (Proc.devRef .tc main_arg7) = x7
    ∧ after (ops13 (F := F)) X (Proc.devRef .tc main_arg8) = x8
    ∧ after (ops13 (F := F)) X (Proc.devRef .tc main_arg9) = x9
    ∧ after (ops13 (F := F)) X (Proc.devRef .tc main_arg10) = x10
    ∧ after (ops13 (F := F)) X (Proc.devRef .tc main_arg11) = x11
    ∧ after (ops13 (F := F)) X (Proc.devRef .tc main_arg12) = x12
    ∧ after (ops13 (F := F)) X (Proc.devRef .tc main_arg13) = x13
    ∧ after (ops13 (F := F)) X (Proc.devRef .tc main_arg14) = x14
    ∧ after (ops13 (F := F)) X (Proc.devRef .tc main_arg15) = x15
    ∧ after (ops13 (F := F)) X (Proc.devRef .tc main_arg16) = x16
    ∧ after (ops13 (F := F)) X (Proc.devRef .tc main_arg17) = x17
    ∧ after (ops13 (F := F)) X (Proc.devRef .tc main_v3) = val_main_v3 (F := F) x1
    ∧ after (ops13 (F := F)) X (Proc.devRef .tc main_v6) = val_main_v6 (F := F) x1
    ∧ after (ops13 (F := F)) X (Proc.devRef .tc main_v88) = val_main_v88 (F := F) x0 x1 x2 x3 x4 x5 := by
  refine ⟨?_, ?_, ?_, ?_, ?_, ?_, ?_, ?_, ?_, ?_, ?_, ?_, ?_, ?_, ?_, ?_⟩
  · after_results_simp
    exact h_main_arg1
  · after_results_simp
    exact h_main_arg6
  · after_results_simp
    exact h_main_arg7
  · after_results_simp
    exact h_main_arg8
  · after_results_simp
    exact h_main_arg9
  · after_results_simp
    exact h_main_arg10
  · after_results_simp
    exact h_main_arg11
  · after_results_simp
    exact h_main_arg12
  · after_results_simp
    exact h_main_arg13
  · after_results_simp
    exact h_main_arg14
  · after_results_simp
    exact h_main_arg15
  · after_results_simp
    exact h_main_arg16
  · after_results_simp
    exact h_main_arg17
  · after_results_simp
    exact h_main_v3
  · after_results_simp
    exact h_main_v6
  · after_results_simp
    try simp only [h_main_arg1, h_main_arg6, h_main_arg7, h_main_arg8, h_main_arg9, h_main_arg10, h_main_arg11, h_main_arg12, h_main_arg13, h_main_arg14, h_main_arg15, h_main_arg16, h_main_arg17, h_main_v3, h_main_v6, h_main_v87]
    all_goals rfl

end Cert.ReferenceIdeal.RefFold

end
-- ==== Proof.RefFoldB.lean ====
/- The reference's operations 119 to 272 in segments: what each segment leaves in the buffers later segments read. -/
import proofs.«123034_j51127290692283_2_alg».proof.Proof.RefReadP
import proofs.«123034_j51127290692283_2_alg».proof.Proof.RefRunP

set_option maxRecDepth 8192

noncomputable section

namespace Cert.ReferenceIdeal.RefFold

open Cert.ReferenceIdeal Cert.ReferenceIdeal.Gen Cert.ReferenceIdeal.ReadP Idealize.ShloMosaic Idealize.ShloMosaic.TcCoe
open Idealize.SL.Sem Idealize.ShloMosaic.StableHlo

variable {F : FTy → Type} [FloatOps F]
variable (x0 : (⟨S100000x3, .f32⟩ : BufTy).Contents (Elt F)) (x1 : (⟨S2x1600000, .i32⟩ : BufTy).Contents (Elt F))
  (x2 : (⟨S3x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S128x64, .f32⟩ : BufTy).Contents (Elt F)) (x9 : (⟨S64, .f32⟩ : BufTy).Contents (Elt F)) (x10 : (⟨S64, .f32⟩ : BufTy).Contents (Elt F)) (x11 : (⟨S64, .f32⟩ : BufTy).Contents (Elt F)) (x12 : (⟨S64x32, .f32⟩ : BufTy).Contents (Elt F)) (x13 : (⟨S32, .f32⟩ : BufTy).Contents (Elt F)) (x14 : (⟨S32, .f32⟩ : BufTy).Contents (Elt F)) (x15 : (⟨S32, .f32⟩ : BufTy).Contents (Elt F)) (x16 : (⟨S32x2, .f32⟩ : BufTy).Contents (Elt F)) (x17 : (⟨S2, .f32⟩ : BufTy).Contents (Elt F))

/-- Operations 119 to 130 of the reference, in order. -/
abbrev ops14 : List (HloOp τ sig (Elt F)) :=
  [ binary main_v88 main_arg6 main_v89 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_20 (constant S_ .f32 0x3F800000#32),
    unary main_cst_20 main_v90 (broadcastInDim S1700000 ![] bcast_S_S1700000 : (⟨S_, .f32⟩ : BufTy).Contents (Elt F) → (⟨S1700000, .f32⟩ : BufTy).Contents (Elt F)),
    nullary main_cst_21 (constant S_ .f32 0x00000000#32),
    unary main_cst_21 main_v91 (broadcastInDim S100000 ![] bcast_S_S100000 : (⟨S_, .f32⟩ : BufTy).Contents (Elt F) → (⟨S100000, .f32⟩ : BufTy).Contents (Elt F)),
    unary main_v6 main_v92 (broadcastInDim S1700000x1 ![0] bcast_S1700000_S1700000x1_0 : (⟨S1700000, .i32⟩ : BufTy).Contents (Elt F) → (⟨S1700000x1, .i32⟩ : BufTy).Contents (Elt F)),
    ternary main_v91 main_v92 main_v90 main_v93 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_22 (constant S_ .f32 0x00000000#32),
    unary main_cst_22 main_v94 (broadcastInDim S100000 ![] bcast_S_S100000 : (⟨S_, .f32⟩ : BufTy).Contents (Elt F) → (⟨S100000, .f32⟩ : BufTy).Contents (Elt F)),
    binary main_v93 main_v94 main_v95 (cmpf .ogt : (⟨S100000, .f32⟩ : BufTy).Contents (Elt F) → (⟨S100000, .f32⟩ : BufTy).Contents (Elt F) → (⟨S100000, .i1⟩ : BufTy).Contents (Elt F)),
    unary main_v93 main_v96 (Host.rsqrt : (⟨S100000, .f32⟩ : BufTy).Contents (Elt F) → (⟨S100000, .f32⟩ : BufTy).Contents (Elt F)),
    nullary main_cst_23 (constant S_ .f32 0x00000000#32) ]

set_option maxHeartbeats 4000000 in
/-- Operations 119 to 130 leave each buffer that is read later at its stage's value, when the buffers they read from
    earlier stages hold theirs. -/
theorem seg14 (X : Valuation τ sig (Elt F))
    (h_main_arg1 : X (Proc.devRef .tc main_arg1) = x1)
    (h_main_arg6 : X (Proc.devRef .tc main_arg6) = x6)
    (h_main_arg7 : X (Proc.devRef .tc main_arg7) = x7)
    (h_main_arg8 : X (Proc.devRef .tc main_arg8) = x8)
    (h_main_arg9 : X (Proc.devRef .tc main_arg9) = x9)
    (h_main_arg10 : X (Proc.devRef .tc main_arg10) = x10)
    (h_main_arg11 : X (Proc.devRef .tc main_arg11) = x11)
    (h_main_arg12 : X (Proc.devRef .tc main_arg12) = x12)
    (h_main_arg13 : X (Proc.devRef .tc main_arg13) = x13)
    (h_main_arg14 : X (Proc.devRef .tc main_arg14) = x14)
    (h_main_arg15 : X (Proc.devRef .tc main_arg15) = x15)
    (h_main_arg16 : X (Proc.devRef .tc main_arg16) = x16)
    (h_main_arg17 : X (Proc.devRef .tc main_arg17) = x17)
    (h_main_v3 : X (Proc.devRef .tc main_v3) = val_main_v3 (F := F) x1)
    (h_main_v6 : X (Proc.devRef .tc main_v6) = val_main_v6 (F := F) x1)
    (h_main_v88 : X (Proc.devRef .tc main_v88) = val_main_v88 (F := F) x0 x1 x2 x3 x4 x5) :
    after (ops14 (F := F)) X (Proc.devRef .tc main_arg1) = x1
    ∧ after (ops14 (F := F)) X (Proc.devRef .tc main_arg7) = x7
    ∧ after (ops14 (F := F)) X (Proc.devRef .tc main_arg8) = x8
    ∧ after (ops14 (F := F)) X (Proc.devRef .tc main_arg9) = x9
    ∧ after (ops14 (F := F)) X (Proc.devRef .tc main_arg10) = x10
    ∧ after (ops14 (F := F)) X (Proc.devRef .tc main_arg11) = x11
    ∧ after (ops14 (F := F)) X (Proc.devRef .tc main_arg12) = x12
    ∧ after (ops14 (F := F)) X (Proc.devRef .tc main_arg13) = x13
    ∧ after (ops14 (F := F)) X (Proc.devRef .tc main_arg14) = x14
    ∧ after (ops14 (F := F)) X (Proc.devRef .tc main_arg15) = x15
    ∧ after (ops14 (F := F)) X (Proc.devRef .tc main_arg16) = x16
    ∧ after (ops14 (F := F)) X (Proc.devRef .tc main_arg17) = x17
    ∧ after (ops14 (F := F)) X (Proc.devRef .tc main_v3) = val_main_v3 (F := F) x1
    ∧ after (ops14 (F := F)) X (Proc.devRef .tc main_v6) = val_main_v6 (F := F) x1
    ∧ after (ops14 (F := F)) X (Proc.devRef .tc main_v89) = val_main_v89 (F := F) x0 x1 x2 x3 x4 x5 x6
    ∧ after (ops14 (F := F)) X (Proc.devRef .tc main_v95) = val_main_v95 (F := F) x1
    ∧ after (ops14 (F := F)) X (Proc.devRef .tc main_v96) = val_main_v96 (F := F) x1
    ∧ after (ops14 (F := F)) X (Proc.devRef .tc main_cst_23) = val_main_cst_23 (F := F) := by
  refine ⟨?_, ?_, ?_, ?_, ?_, ?_, ?_, ?_, ?_, ?_, ?_, ?_, ?_, ?_, ?_, ?_, ?_, ?_⟩
  · after_results_simp
    exact h_main_arg1
  · after_results_simp
    exact h_main_arg7
  · after_results_simp
    exact h_main_arg8
  · after_results_simp
    exact h_main_arg9
  · after_results_simp
    exact h_main_arg10
  · after_results_simp
    exact h_main_arg11
  · after_results_simp
    exact h_main_arg12
  · after_results_simp
    exact h_main_arg13
  · after_results_simp
    exact h_main_arg14
  · after_results_simp
    exact h_main_arg15
  · after_results_simp
    exact h_main_arg16
  · after_results_simp
    exact h_main_arg17
  · after_results_simp
    exact h_main_v3
  · after_results_simp
    exact h_main_v6
  · after_results_simp
    try simp only [h_main_arg1, h_main_arg6, h_main_arg7, h_main_arg8, h_main_arg9, h_main_arg10, h_main_arg11, h_main_arg12, h_main_arg13, h_main_arg14, h_main_arg15, h_main_arg16, h_main_arg17, h_main_v3, h_main_v6, h_main_v88]
    all_goals rfl
  · after_results_simp
    try simp only [h_main_arg1, h_main_arg6, h_main_arg7, h_main_arg8, h_main_arg9, h_main_arg10, h_main_arg11, h_main_arg12, h_main_arg13, h_main_arg14, h_main_arg15, h_main_arg16, h_main_arg17, h_main_v3, h_main_v6, h_main_v88]
    all_goals rfl
  · after_results_simp
    try simp only [h_main_arg1, h_main_arg6, h_main_arg7, h_main_arg8, h_main_arg9, h_main_arg10, h_main_arg11, h_main_arg12, h_main_arg13, h_main_arg14, h_main_arg15, h_main_arg16, h_main_arg17, h_main_v3, h_main_v6, h_main_v88]
    all_goals rfl
  · after_results_simp
    try simp only [h_main_arg1, h_main_arg6, h_main_arg7, h_main_arg8, h_main_arg9, h_main_arg10, h_main_arg11, h_main_arg12, h_main_arg13, h_main_arg14, h_main_arg15, h_main_arg16, h_main_arg17, h_main_v3, h_main_v6, h_main_v88]
    all_goals rfl

/-- Operations 131 to 133 of the reference, in order. -/
abbrev ops15 : List (HloOp τ sig (Elt F)) :=
  [ TRef.unary (TRef.of (T := ⟨S_, .f32⟩) main_cst_23) (TRef.of (T := ⟨S_, .f32⟩) main_call4_v0) id,
    TRef.unary (TRef.of (T := ⟨S_, .f32⟩) main_call4_v0) (TRef.of (T := ⟨S100000, .f32⟩) main_call4_v1) (broadcastInDim S100000 ![] bcast_S_S100000),
    TRef.ternary (TRef.of (T := ⟨S100000, .i1⟩) main_v95) (TRef.of (T := ⟨S100000, .f32⟩) main_v96) (TRef.of (T := ⟨S100000, .f32⟩) main_call4_v1) (TRef.of (T := ⟨S100000, .f32⟩) main_v97) select ]

set_option maxHeartbeats 4000000 in
/-- Operations 131 to 133 leave each buffer that is read later at its stage's value, when the buffers they read from
    earlier stages hold theirs. -/
theorem seg15 (X : Valuation τ sig (Elt F))
    (h_main_arg1 : X (Proc.devRef .tc main_arg1) = x1)
    (h_main_arg7 : X (Proc.devRef .tc main_arg7) = x7)
    (h_main_arg8 : X (Proc.devRef .tc main_arg8) = x8)
    (h_main_arg9 : X (Proc.devRef .tc main_arg9) = x9)
    (h_main_arg10 : X (Proc.devRef .tc main_arg10) = x10)
    (h_main_arg11 : X (Proc.devRef .tc main_arg11) = x11)
    (h_main_arg12 : X (Proc.devRef .tc main_arg12) = x12)
    (h_main_arg13 : X (Proc.devRef .tc main_arg13) = x13)
    (h_main_arg14 : X (Proc.devRef .tc main_arg14) = x14)
    (h_main_arg15 : X (Proc.devRef .tc main_arg15) = x15)
    (h_main_arg16 : X (Proc.devRef .tc main_arg16) = x16)
    (h_main_arg17 : X (Proc.devRef .tc main_arg17) = x17)
    (h_main_v3 : X (Proc.devRef .tc main_v3) = val_main_v3 (F := F) x1)
    (h_main_v6 : X (Proc.devRef .tc main_v6) = val_main_v6 (F := F) x1)
    (h_main_v89 : X (Proc.devRef .tc main_v89) = val_main_v89 (F := F) x0 x1 x2 x3 x4 x5 x6)
    (h_main_v95 : X (Proc.devRef .tc main_v95) = val_main_v95 (F := F) x1)
    (h_main_v96 : X (Proc.devRef .tc main_v96) = val_main_v96 (F := F) x1)
    (h_main_cst_23 : X (Proc.devRef .tc main_cst_23) = val_main_cst_23 (F := F)) :
    after (ops15 (F := F)) X (Proc.devRef .tc main_arg1) = x1
    ∧ after (ops15 (F := F)) X (Proc.devRef .tc main_arg7) = x7
    ∧ after (ops15 (F := F)) X (Proc.devRef .tc main_arg8) = x8
    ∧ after (ops15 (F := F)) X (Proc.devRef .tc main_arg9) = x9
    ∧ after (ops15 (F := F)) X (Proc.devRef .tc main_arg10) = x10
    ∧ after (ops15 (F := F)) X (Proc.devRef .tc main_arg11) = x11
    ∧ after (ops15 (F := F)) X (Proc.devRef .tc main_arg12) = x12
    ∧ after (ops15 (F := F)) X (Proc.devRef .tc main_arg13) = x13
    ∧ after (ops15 (F := F)) X (Proc.devRef .tc main_arg14) = x14
    ∧ after (ops15 (F := F)) X (Proc.devRef .tc main_arg15) = x15
    ∧ after (ops15 (F := F)) X (Proc.devRef .tc main_arg16) = x16
    ∧ after (ops15 (F := F)) X (Proc.devRef .tc main_arg17) = x17
    ∧ after (ops15 (F := F)) X (Proc.devRef .tc main_v3) = val_main_v3 (F := F) x1
    ∧ after (ops15 (F := F)) X (Proc.devRef .tc main_v6) = val_main_v6 (F := F) x1
    ∧ after (ops15 (F := F)) X (Proc.devRef .tc main_v89) = val_main_v89 (F := F) x0 x1 x2 x3 x4 x5 x6
    ∧ after (ops15 (F := F)) X (Proc.devRef .tc main_v97) = val_main_v97 (F := F) x1 := by
  refine ⟨?_, ?_, ?_, ?_, ?_, ?_, ?_, ?_, ?_, ?_, ?_, ?_, ?_, ?_, ?_, ?_⟩
  · after_results_simp
    exact h_main_arg1
  · after_results_simp
    exact h_main_arg7
  · after_results_simp
    exact h_main_arg8
  · after_results_simp
    exact h_main_arg9
  · after_results_simp
    exact h_main_arg10
  · after_results_simp
    exact h_main_arg11
  · after_results_simp
    exact h_main_arg12
  · after_results_simp
    exact h_main_arg13
  · after_results_simp
    exact h_main_arg14
  · after_results_simp
    exact h_main_arg15
  · after_results_simp
    exact h_main_arg16
  · after_results_simp
    exact h_main_arg17
  · after_results_simp
    exact h_main_v3
  · after_results_simp
    exact h_main_v6
  · after_results_simp
    exact h_main_v89
  · after_results_simp
    try simp only [h_main_arg1, h_main_arg7, h_main_arg8, h_main_arg9, h_main_arg10, h_main_arg11, h_main_arg12, h_main_arg13, h_main_arg14, h_main_arg15, h_main_arg16, h_main_arg17, h_main_v3, h_main_v6, h_main_v89, h_main_v95, h_main_v96, h_main_cst_23]
    all_goals rfl

/-- Operations 134 to 152 of the reference, in order. -/
abbrev ops16 : List (HloOp τ sig (Elt F)) :=
  [ nullary main_c_24 (constantI S_ 32 0#32),
    unary main_c_24 main_v98 (broadcastInDim S1700000 ![] bcast_S_S1700000 : (⟨S_, .i32⟩ : BufTy).Contents (Elt F) → (⟨S1700000, .i32⟩ : BufTy).Contents (Elt F)),
    binary main_v3 main_v98 main_v99 (cmpi .slt : (⟨S1700000, .i32⟩ : BufTy).Contents (Elt F) → (⟨S1700000, .i32⟩ : BufTy).Contents (Elt F) → (⟨S1700000, .i1⟩ : BufTy).Contents (Elt F)),
    nullary main_c_25 (constantI S_ 32 100000#32),
    unary main_c_25 main_v100 (broadcastInDim S1700000 ![] bcast_S_S1700000 : (⟨S_, .i32⟩ : BufTy).Contents (Elt F) → (⟨S1700000, .i32⟩ : BufTy).Contents (Elt F)),
    binary main_v3 main_v100 main_v101 (addi : (⟨S1700000, .i32⟩ : BufTy).Contents (Elt F) → (⟨S1700000, .i32⟩ : BufTy).Contents (Elt F) → (⟨S1700000, .i32⟩ : BufTy).Contents (Elt F)),
    ternary main_v99 main_v101 main_v3 main_v102 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v102 main_v103 (broadcastInDim S1700000x1 ![0] bcast_S1700000_S1700000x1_0 : (⟨S1700000, .i32⟩ : BufTy).Contents (Elt F) → (⟨S1700000x1, .i32⟩ : BufTy).Contents (Elt F)),
    binary main_v97 main_v103 main_v104 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_26 (constantI S_ 32 0#32),
    unary main_c_26 main_v105 (broadcastInDim S1700000 ![] bcast_S_S1700000 : (⟨S_, .i32⟩ : BufTy).Contents (Elt F) → (⟨S1700000, .i32⟩ : BufTy).Contents (Elt F)),
    binary main_v6 main_v105 main_v106 (cmpi .slt : (⟨S1700000, .i32⟩ : BufTy).Contents (Elt F) → (⟨S1700000, .i32⟩ : BufTy).Contents (Elt F) → (⟨S1700000, .i1⟩ : BufTy).Contents (Elt F)),
    nullary main_c_27 (constantI S_ 32 100000#32),
    unary main_c_27 main_v107 (broadcastInDim S1700000 ![] bcast_S_S1700000 : (⟨S_, .i32⟩ : BufTy).Contents (Elt F) → (⟨S1700000, .i32⟩ : BufTy).Contents (Elt F)),
    binary main_v6 main_v107 main_v108 (addi : (⟨S1700000, .i32⟩ : BufTy).Contents (Elt F) → (⟨S1700000, .i32⟩ : BufTy).Contents (Elt F) → (⟨S1700000, .i32⟩ : BufTy).Contents (Elt F)),
    ternary main_v106 main_v108 main_v6 main_v109 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v109 main_v110 (broadcastInDim S1700000x1 ![0] bcast_S1700000_S1700000x1_0 : (⟨S1700000, .i32⟩ : BufTy).Contents (Elt F) → (⟨S1700000x1, .i32⟩ : BufTy).Contents (Elt F)),
    binary main_v97 main_v110 main_v111 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v104 main_v111 main_v112 (mulf : (⟨S1700000, .f32⟩ : BufTy).Contents (Elt F) → (⟨S1700000, .f32⟩ : BufTy).Contents (Elt F) → (⟨S1700000, .f32⟩ : BufTy).Contents (Elt F)) ]

set_option maxHeartbeats 4000000 in
/-- Operations 134 to 152 leave each buffer that is read later at its stage's value, when the buffers they read from
    earlier stages hold theirs. -/
theorem seg16 (X : Valuation τ sig (Elt F))
    (h_main_arg1 : X (Proc.devRef .tc main_arg1) = x1)
    (h_main_arg7 : X (Proc.devRef .tc main_arg7) = x7)
    (h_main_arg8 : X (Proc.devRef .tc main_arg8) = x8)
    (h_main_arg9 : X (Proc.devRef .tc main_arg9) = x9)
    (h_main_arg10 : X (Proc.devRef .tc main_arg10) = x10)
    (h_main_arg11 : X (Proc.devRef .tc main_arg11) = x11)
    (h_main_arg12 : X (Proc.devRef .tc main_arg12) = x12)
    (h_main_arg13 : X (Proc.devRef .tc main_arg13) = x13)
    (h_main_arg14 : X (Proc.devRef .tc main_arg14) = x14)
    (h_main_arg15 : X (Proc.devRef .tc main_arg15) = x15)
    (h_main_arg16 : X (Proc.devRef .tc main_arg16) = x16)
    (h_main_arg17 : X (Proc.devRef .tc main_arg17) = x17)
    (h_main_v3 : X (Proc.devRef .tc main_v3) = val_main_v3 (F := F) x1)
    (h_main_v6 : X (Proc.devRef .tc main_v6) = val_main_v6 (F := F) x1)
    (h_main_v89 : X (Proc.devRef .tc main_v89) = val_main_v89 (F := F) x0 x1 x2 x3 x4 x5 x6)
    (h_main_v97 : X (Proc.devRef .tc main_v97) = val_main_v97 (F := F) x1) :
    after (ops16 (F := F)) X (Proc.devRef .tc main_arg1) = x1
    ∧ after (ops16 (F := F)) X (Proc.devRef .tc main_arg7) = x7
    ∧ after (ops16 (F := F)) X (Proc.devRef .tc main_arg8) = x8
    ∧ after (ops16 (F := F)) X (Proc.devRef .tc main_arg9) = x9
    ∧ after (ops16 (F := F)) X (Proc.devRef .tc main_arg10) = x10
    ∧ after (ops16 (F := F)) X (Proc.devRef .tc main_arg11) = x11
    ∧ after (ops16 (F := F)) X (Proc.devRef .tc main_arg12) = x12
    ∧ after (ops16 (F := F)) X (Proc.devRef .tc main_arg13) = x13
    ∧ after (ops16 (F := F)) X (Proc.devRef .tc main_arg14) = x14
    ∧ after (ops16 (F := F)) X (Proc.devRef .tc main_arg15) = x15
    ∧ after (ops16 (F := F)) X (Proc.devRef .tc main_arg16) = x16
    ∧ after (ops16 (F := F)) X (Proc.devRef .tc main_arg17) = x17
    ∧ after (ops16 (F := F)) X (Proc.devRef .tc main_v3) = val_main_v3 (F := F) x1
    ∧ after (ops16 (F := F)) X (Proc.devRef .tc main_v6) = val_main_v6 (F := F) x1
    ∧ after (ops16 (F := F)) X (Proc.devRef .tc main_v89) = val_main_v89 (F := F) x0 x1 x2 x3 x4 x5 x6
    ∧ after (ops16 (F := F)) X (Proc.devRef .tc main_v112) = val_main_v112 (F := F) x1 := by
  refine ⟨?_, ?_, ?_, ?_, ?_, ?_, ?_, ?_, ?_, ?_, ?_, ?_, ?_, ?_, ?_, ?_⟩
  · after_results_simp
    exact h_main_arg1
  · after_results_simp
    exact h_main_arg7
  · after_results_simp
    exact h_main_arg8
  · after_results_simp
    exact h_main_arg9
  · after_results_simp
    exact h_main_arg10
  · after_results_simp
    exact h_main_arg11
  · after_results_simp
    exact h_main_arg12
  · after_results_simp
    exact h_main_arg13
  · after_results_simp
    exact h_main_arg14
  · after_results_simp
    exact h_main_arg15
  · after_results_simp
    exact h_main_arg16
  · after_results_simp
    exact h_main_arg17
  · after_results_simp
    exact h_main_v3
  · after_results_simp
    exact h_main_v6
  · after_results_simp
    exact h_main_v89
  · after_results_simp
    try simp only [h_main_arg1, h_main_arg7, h_main_arg8, h_main_arg9, h_main_arg10, h_main_arg11, h_main_arg12, h_main_arg13, h_main_arg14, h_main_arg15, h_main_arg16, h_main_arg17, h_main_v3, h_main_v6, h_main_v89, h_main_v97]
    all_goals rfl

/-- Operations 153 to 171 of the reference, in order. -/
abbrev ops17 : List (HloOp τ sig (Elt F)) :=
  [ nullary main_c_28 (constantI S_ 32 0#32),
    unary main_c_28 main_v113 (broadcastInDim S1700000 ![] bcast_S_S1700000 : (⟨S_, .i32⟩ : BufTy).Contents (Elt F) → (⟨S1700000, .i32⟩ : BufTy).Contents (Elt F)),
    binary main_v3 main_v113 main_v114 (cmpi .slt : (⟨S1700000, .i32⟩ : BufTy).Contents (Elt F) → (⟨S1700000, .i32⟩ : BufTy).Contents (Elt F) → (⟨S1700000, .i1⟩ : BufTy).Contents (Elt F)),
    nullary main_c_29 (constantI S_ 32 100000#32),
    unary main_c_29 main_v115 (broadcastInDim S1700000 ![] bcast_S_S1700000 : (⟨S_, .i32⟩ : BufTy).Contents (Elt F) → (⟨S1700000, .i32⟩ : BufTy).Contents (Elt F)),
    binary main_v3 main_v115 main_v116 (addi : (⟨S1700000, .i32⟩ : BufTy).Contents (Elt F) → (⟨S1700000, .i32⟩ : BufTy).Contents (Elt F) → (⟨S1700000, .i32⟩ : BufTy).Contents (Elt F)),
    ternary main_v114 main_v116 main_v3 main_v117 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v117 main_v118 (broadcastInDim S1700000x1 ![0] bcast_S1700000_S1700000x1_0 : (⟨S1700000, .i32⟩ : BufTy).Contents (Elt F) → (⟨S1700000x1, .i32⟩ : BufTy).Contents (Elt F)),
    binary main_v89 main_v118 main_v119 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v112 main_v120 (broadcastInDim S1700000x1 ![0] bcast_S1700000_S1700000x1_0 : (⟨S1700000, .f32⟩ : BufTy).Contents (Elt F) → (⟨S1700000x1, .f32⟩ : BufTy).Contents (Elt F)),
    unary main_v120 main_v121 (broadcastInDim S1700000x64 ![0, 1] bcast_S1700000x1_S1700000x64_0_1 : (⟨S1700000x1, .f32⟩ : BufTy).Contents (Elt F) → (⟨S1700000x64, .f32⟩ : BufTy).Contents (Elt F)),
    binary main_v119 main_v121 main_v122 (mulf : (⟨S1700000x64, .f32⟩ : BufTy).Contents (Elt F) → (⟨S1700000x64, .f32⟩ : BufTy).Contents (Elt F) → (⟨S1700000x64, .f32⟩ : BufTy).Contents (Elt F)),
    nullary main_cst_30 (constant S_ .f32 0x00000000#32),
    unary main_cst_30 main_v123 (broadcastInDim S100000x64 ![] bcast_S_S100000x64 : (⟨S_, .f32⟩ : BufTy).Contents (Elt F) → (⟨S100000x64, .f32⟩ : BufTy).Contents (Elt F)),
    unary main_v6 main_v124 (broadcastInDim S1700000x1 ![0] bcast_S1700000_S1700000x1_0 : (⟨S1700000, .i32⟩ : BufTy).Contents (Elt F) → (⟨S1700000x1, .i32⟩ : BufTy).Contents (Elt F)),
    ternary main_v123 main_v124 main_v122 main_v125 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg7 main_v126 (broadcastInDim S1x64 ![1] bcast_S64_S1x64_1 : (⟨S64, .f32⟩ : BufTy).Contents (Elt F) → (⟨S1x64, .f32⟩ : BufTy).Contents (Elt F)),
    unary main_v126 main_v127 (broadcastInDim S100000x64 ![0, 1] bcast_S1x64_S100000x64_0_1 : (⟨S1x64, .f32⟩ : BufTy).Contents (Elt F) → (⟨S100000x64, .f32⟩ : BufTy).Contents (Elt F)),
    binary main_v125 main_v127 main_v128 (addf : (⟨S100000x64, .f32⟩ : BufTy).Contents (Elt F) → (⟨S100000x64, .f32⟩ : BufTy).Contents (Elt F) → (⟨S100000x64, .f32⟩ : BufTy).Contents (Elt F)) ]

set_option maxHeartbeats 4000000 in
/-- Operations 153 to 171 leave each buffer that is read later at its stage's value, when the buffers they read from
    earlier stages hold theirs. -/
theorem seg17 (X : Valuation τ sig (Elt F))
    (h_main_arg1 : X (Proc.devRef .tc main_arg1) = x1)
    (h_main_arg7 : X (Proc.devRef .tc main_arg7) = x7)
    (h_main_arg8 : X (Proc.devRef .tc main_arg8) = x8)
    (h_main_arg9 : X (Proc.devRef .tc main_arg9) = x9)
    (h_main_arg10 : X (Proc.devRef .tc main_arg10) = x10)
    (h_main_arg11 : X (Proc.devRef .tc main_arg11) = x11)
    (h_main_arg12 : X (Proc.devRef .tc main_arg12) = x12)
    (h_main_arg13 : X (Proc.devRef .tc main_arg13) = x13)
    (h_main_arg14 : X (Proc.devRef .tc main_arg14) = x14)
    (h_main_arg15 : X (Proc.devRef .tc main_arg15) = x15)
    (h_main_arg16 : X (Proc.devRef .tc main_arg16) = x16)
    (h_main_arg17 : X (Proc.devRef .tc main_arg17) = x17)
    (h_main_v3 : X (Proc.devRef .tc main_v3) = val_main_v3 (F := F) x1)
    (h_main_v6 : X (Proc.devRef .tc main_v6) = val_main_v6 (F := F) x1)
    (h_main_v89 : X (Proc.devRef .tc main_v89) = val_main_v89 (F := F) x0 x1 x2 x3 x4 x5 x6)
    (h_main_v112 : X (Proc.devRef .tc main_v112) = val_main_v112 (F := F) x1) :
    after (ops17 (F := F)) X (Proc.devRef .tc main_arg1) = x1
    ∧ after (ops17 (F := F)) X (Proc.devRef .tc main_arg8) = x8
    ∧ after (ops17 (F := F)) X (Proc.devRef .tc main_arg9) = x9
    ∧ after (ops17 (F := F)) X (Proc.devRef .tc main_arg10) = x10
    ∧ after (ops17 (F := F)) X (Proc.devRef .tc main_arg11) = x11
    ∧ after (ops17 (F := F)) X (Proc.devRef .tc main_arg12) = x12
    ∧ after (ops17 (F := F)) X (Proc.devRef .tc main_arg13) = x13
    ∧ after (ops17 (F := F)) X (Proc.devRef .tc main_arg14) = x14
    ∧ after (ops17 (F := F)) X (Proc.devRef .tc main_arg15) = x15
    ∧ after (ops17 (F := F)) X (Proc.devRef .tc main_arg16) = x16
    ∧ after (ops17 (F := F)) X (Proc.devRef .tc main_arg17) = x17
    ∧ after (ops17 (F := F)) X (Proc.devRef .tc main_v128) = val_main_v128 (F := F) x0 x1 x2 x3 x4 x5 x6 x7 := by
  refine ⟨?_, ?_, ?_, ?_, ?_, ?_, ?_, ?_, ?_, ?_, ?_, ?_⟩
  · after_results_simp
    exact h_main_arg1
  · after_results_simp
    exact h_main_arg8
  · after_results_simp
    exact h_main_arg9
  · after_results_simp
    exact h_main_arg10
  · after_results_simp
    exact h_main_arg11
  · after_results_simp
    exact h_main_arg12
  · after_results_simp
    exact h_main_arg13
  · after_results_simp
    exact h_main_arg14
  · after_results_simp
    exact h_main_arg15
  · after_results_simp
    exact h_main_arg16
  · after_results_simp
    exact h_main_arg17
  · after_results_simp
    try simp only [h_main_arg1, h_main_arg7, h_main_arg8, h_main_arg9, h_main_arg10, h_main_arg11, h_main_arg12, h_main_arg13, h_main_arg14, h_main_arg15, h_main_arg16, h_main_arg17, h_main_v3, h_main_v6, h_main_v89, h_main_v112]
    all_goals rfl

/-- Operations 172 to 193 of the reference, in order. -/
abbrev ops18 : List (HloOp τ sig (Elt F)) :=
  [ unary main_arg1 main_v129 ((extractStridedSlice S1x1600000 ![0, 0] · slices_S2x1600000_S1x1600000_0_0) : (⟨S2x1600000, .i32⟩ : BufTy).Contents (Elt F) → (⟨S1x1600000, .i32⟩ : BufTy).Contents (Elt F)),
    reshape main_v129 main_v130 rfl shapeCasts_S1x1600000_S1600000,
    unary main_arg1 main_v131 ((extractStridedSlice S1x1600000 ![1, 0] · slices_S2x1600000_S1x1600000_1_0) : (⟨S2x1600000, .i32⟩ : BufTy).Contents (Elt F) → (⟨S1x1600000, .i32⟩ : BufTy).Contents (Elt F)),
    reshape main_v131 main_v132 rfl shapeCasts_S1x1600000_S1600000,
    nullary main_c_31 (constantI S_ 32 0#32),
    unary main_c_31 main_v133 (broadcastInDim S1600000 ![] bcast_S_S1600000 : (⟨S_, .i32⟩ : BufTy).Contents (Elt F) → (⟨S1600000, .i32⟩ : BufTy).Contents (Elt F)),
    binary main_v130 main_v133 main_v134 (cmpi .slt : (⟨S1600000, .i32⟩ : BufTy).Contents (Elt F) → (⟨S1600000, .i32⟩ : BufTy).Contents (Elt F) → (⟨S1600000, .i1⟩ : BufTy).Contents (Elt F)),
    nullary main_c_32 (constantI S_ 32 100000#32),
    unary main_c_32 main_v135 (broadcastInDim S1600000 ![] bcast_S_S1600000 : (⟨S_, .i32⟩ : BufTy).Contents (Elt F) → (⟨S1600000, .i32⟩ : BufTy).Contents (Elt F)),
    binary main_v130 main_v135 main_v136 (addi : (⟨S1600000, .i32⟩ : BufTy).Contents (Elt F) → (⟨S1600000, .i32⟩ : BufTy).Contents (Elt F) → (⟨S1600000, .i32⟩ : BufTy).Contents (Elt F)),
    ternary main_v134 main_v136 main_v130 main_v137 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v137 main_v138 (broadcastInDim S1600000x1 ![0] bcast_S1600000_S1600000x1_0 : (⟨S1600000, .i32⟩ : BufTy).Contents (Elt F) → (⟨S1600000x1, .i32⟩ : BufTy).Contents (Elt F)),
    binary main_v128 main_v138 main_v139 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_c_33 (constantI S_ 32 0#32),
    unary main_c_33 main_v140 (broadcastInDim S1600000 ![] bcast_S_S1600000 : (⟨S_, .i32⟩ : BufTy).Contents (Elt F) → (⟨S1600000, .i32⟩ : BufTy).Contents (Elt F)),
    binary main_v132 main_v140 main_v141 (cmpi .slt : (⟨S1600000, .i32⟩ : BufTy).Contents (Elt F) → (⟨S1600000, .i32⟩ : BufTy).Contents (Elt F) → (⟨S1600000, .i1⟩ : BufTy).Contents (Elt F)),
    nullary main_c_34 (constantI S_ 32 100000#32),
    unary main_c_34 main_v142 (broadcastInDim S1600000 ![] bcast_S_S1600000 : (⟨S_, .i32⟩ : BufTy).Contents (Elt F) → (⟨S1600000, .i32⟩ : BufTy).Contents (Elt F)),
    binary main_v132 main_v142 main_v143 (addi : (⟨S1600000, .i32⟩ : BufTy).Contents (Elt F) → (⟨S1600000, .i32⟩ : BufTy).Contents (Elt F) → (⟨S1600000, .i32⟩ : BufTy).Contents (Elt F)),
    ternary main_v141 main_v143 main_v132 main_v144 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v144 main_v145 (broadcastInDim S1600000x1 ![0] bcast_S1600000_S1600000x1_0 : (⟨S1600000, .i32⟩ : BufTy).Contents (Elt F) → (⟨S1600000x1, .i32⟩ : BufTy).Contents (Elt F)),
    binary main_v128 main_v145 main_v146 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) ]

set_option maxHeartbeats 4000000 in
/-- Operations 172 to 193 leave each buffer that is read later at its stage's value, when the buffers they read from
    earlier stages hold theirs. -/
theorem seg18 (X : Valuation τ sig (Elt F))
    (h_main_arg1 : X (Proc.devRef .tc main_arg1) = x1)
    (h_main_arg8 : X (Proc.devRef .tc main_arg8) = x8)
    (h_main_arg9 : X (Proc.devRef .tc main_arg9) = x9)
    (h_main_arg10 : X (Proc.devRef .tc main_arg10) = x10)
    (h_main_arg11 : X (Proc.devRef .tc main_arg11) = x11)
    (h_main_arg12 : X (Proc.devRef .tc main_arg12) = x12)
    (h_main_arg13 : X (Proc.devRef .tc main_arg13) = x13)
    (h_main_arg14 : X (Proc.devRef .tc main_arg14) = x14)
    (h_main_arg15 : X (Proc.devRef .tc main_arg15) = x15)
    (h_main_arg16 : X (Proc.devRef .tc main_arg16) = x16)
    (h_main_arg17 : X (Proc.devRef .tc main_arg17) = x17)
    (h_main_v128 : X (Proc.devRef .tc main_v128) = val_main_v128 (F := F) x0 x1 x2 x3 x4 x5 x6 x7) :
    after (ops18 (F := F)) X (Proc.devRef .tc main_arg8) = x8
    ∧ after (ops18 (F := F)) X (Proc.devRef .tc main_arg9) = x9
    ∧ after (ops18 (F := F)) X (Proc.devRef .tc main_arg10) = x10
    ∧ after (ops18 (F := F)) X (Proc.devRef .tc main_arg11) = x11
    ∧ after (ops18 (F := F)) X (Proc.devRef .tc main_arg12) = x12
    ∧ after (ops18 (F := F)) X (Proc.devRef .tc main_arg13) = x13
    ∧ after (ops18 (F := F)) X (Proc.devRef .tc main_arg14) = x14
    ∧ after (ops18 (F := F)) X (Proc.devRef .tc main_arg15) = x15
    ∧ after (ops18 (F := F)) X (Proc.devRef .tc main_arg16) = x16
    ∧ after (ops18 (F := F)) X (Proc.devRef .tc main_arg17) = x17
    ∧ after (ops18 (F := F)) X (Proc.devRef .tc main_v139) = val_main_v139 (F := F) x0 x1 x2 x3 x4 x5 x6 x7
    ∧ after (ops18 (F := F)) X (Proc.devRef .tc main_v146) = val_main_v146 (F := F) x0 x1 x2 x3 x4 x5 x6 x7 := by
  refine ⟨?_, ?_, ?_, ?_, ?_, ?_, ?_, ?_, ?_, ?_, ?_, ?_⟩
  · after_results_simp
    exact h_main_arg8
  · after_results_simp
    exact h_main_arg9
  · after_results_simp
    exact h_main_arg10
  · after_results_simp
    exact h_main_arg11
  · after_results_simp
    exact h_main_arg12
  · after_results_simp
    exact h_main_arg13
  · after_results_simp
    exact h_main_arg14
  · after_results_simp
    exact h_main_arg15
  · after_results_simp
    exact h_main_arg16
  · after_results_simp
    exact h_main_arg17
  · after_results_simp
    try simp only [h_main_arg1, h_main_arg8, h_main_arg9, h_main_arg10, h_main_arg11, h_main_arg12, h_main_arg13, h_main_arg14, h_main_arg15, h_main_arg16, h_main_arg17, h_main_v128]
    all_goals rfl
  · after_results_simp
    try simp only [h_main_arg1, h_main_arg8, h_main_arg9, h_main_arg10, h_main_arg11, h_main_arg12, h_main_arg13, h_main_arg14, h_main_arg15, h_main_arg16, h_main_arg17, h_main_v128]
    all_goals rfl

/-- Operations 194 to 194 of the reference, in order. -/
abbrev ops19 : List (HloOp τ sig (Elt F)) :=
  [ binary main_v139 main_v146 main_v147 ((fun a b => concatenate S1600000x128 1 [⟨S1600000x64, a⟩, ⟨S1600000x64, b⟩] concatenates_S1600000x64_S1600000x64_S1600000x128_d1) : (⟨S1600000x64, .f32⟩ : BufTy).Contents (Elt F) → (⟨S1600000x64, .f32⟩ : BufTy).Contents (Elt F) → (⟨S1600000x128, .f32⟩ : BufTy).Contents (Elt F)) ]

set_option maxHeartbeats 4000000 in
/-- Operations 194 to 194 leave each buffer that is read later at its stage's value, when the buffers they read from
    earlier stages hold theirs. -/
theorem seg19 (X : Valuation τ sig (Elt F))
    (h_main_arg8 : X (Proc.devRef .tc main_arg8) = x8)
    (h_main_arg9 : X (Proc.devRef .tc main_arg9) = x9)
    (h_main_arg10 : X (Proc.devRef .tc main_arg10) = x10)
    (h_main_arg11 : X (Proc.devRef .tc main_arg11) = x11)
    (h_main_arg12 : X (Proc.devRef .tc main_arg12) = x12)
    (h_main_arg13 : X (Proc.devRef .tc main_arg13) = x13)
    (h_main_arg14 : X (Proc.devRef .tc main_arg14) = x14)
    (h_main_arg15 : X (Proc.devRef .tc main_arg15) = x15)
    (h_main_arg16 : X (Proc.devRef .tc main_arg16) = x16)
    (h_main_arg17 : X (Proc.devRef .tc main_arg17) = x17)
    (h_main_v139 : X (Proc.devRef .tc main_v139) = val_main_v139 (F := F) x0 x1 x2 x3 x4 x5 x6 x7)
    (h_main_v146 : X (Proc.devRef .tc main_v146) = val_main_v146 (F := F) x0 x1 x2 x3 x4 x5 x6 x7) :
    after (ops19 (F := F)) X (Proc.devRef .tc main_arg8) = x8
    ∧ after (ops19 (F := F)) X (Proc.devRef .tc main_arg9) = x9
    ∧ after (ops19 (F := F)) X (Proc.devRef .tc main_arg10) = x10
    ∧ after (ops19 (F := F)) X (Proc.devRef .tc main_arg11) = x11
    ∧ after (ops19 (F := F)) X (Proc.devRef .tc main_arg12) = x12
    ∧ after (ops19 (F := F)) X (Proc.devRef .tc main_arg13) = x13
    ∧ after (ops19 (F := F)) X (Proc.devRef .tc main_arg14) = x14
    ∧ after (ops19 (F := F)) X (Proc.devRef .tc main_arg15) = x15
    ∧ after (ops19 (F := F)) X (Proc.devRef .tc main_arg16) = x16
    ∧ after (ops19 (F := F)) X (Proc.devRef .tc main_arg17) = x17
    ∧ after (ops19 (F := F)) X (Proc.devRef .tc main_v147) = val_main_v147 (F := F) x0 x1 x2 x3 x4 x5 x6 x7 := by
  refine ⟨?_, ?_, ?_, ?_, ?_, ?_, ?_, ?_, ?_, ?_, ?_⟩
  · after_results_simp
    exact h_main_arg8
  · after_results_simp
    exact h_main_arg9
  · after_results_simp
    exact h_main_arg10
  · after_results_simp
    exact h_main_arg11
  · after_results_simp
    exact h_main_arg12
  · after_results_simp
    exact h_main_arg13
  · after_results_simp
    exact h_main_arg14
  · after_results_simp
    exact h_main_arg15
  · after_results_simp
    exact h_main_arg16
  · after_results_simp
    exact h_main_arg17
  · simp only [after_cons, after_nil]
    rw [binary_result, h_main_v139, h_main_v146]
    rfl

/-- Operations 195 to 198 of the reference, in order. -/
abbrev ops20 : List (HloOp τ sig (Elt F)) :=
  [ binary main_v147 main_arg8 main_v148 ((fun l r => Host.dotGeneral dot_S1600000x128_S128x64_S1600000x64_1_0_0_1_n_n none l r) : (⟨S1600000x128, .f32⟩ : BufTy).Contents (Elt F) → (⟨S128x64, .f32⟩ : BufTy).Contents (Elt F) → (⟨S1600000x64, .f32⟩ : BufTy).Contents (Elt F)),
    unary main_arg9 main_v149 (broadcastInDim S1x64 ![1] bcast_S64_S1x64_1 : (⟨S64, .f32⟩ : BufTy).Contents (Elt F) → (⟨S1x64, .f32⟩ : BufTy).Contents (Elt F)),
    unary main_v149 main_v150 (broadcastInDim S1600000x64 ![0, 1] bcast_S1x64_S1600000x64_0_1 : (⟨S1x64, .f32⟩ : BufTy).Contents (Elt F) → (⟨S1600000x64, .f32⟩ : BufTy).Contents (Elt F)),
    binary main_v148 main_v150 main_v151 (addf : (⟨S1600000x64, .f32⟩ : BufTy).Contents (Elt F) → (⟨S1600000x64, .f32⟩ : BufTy).Contents (Elt F) → (⟨S1600000x64, .f32⟩ : BufTy).Contents (Elt F)) ]

set_option maxHeartbeats 4000000 in
/-- Operations 195 to 198 leave each buffer that is read later at its stage's value, when the buffers they read from
    earlier stages hold theirs. -/
theorem seg20 (X : Valuation τ sig (Elt F))
    (h_main_arg8 : X (Proc.devRef .tc main_arg8) = x8)
    (h_main_arg9 : X (Proc.devRef .tc main_arg9) = x9)
    (h_main_arg10 : X (Proc.devRef .tc main_arg10) = x10)
    (h_main_arg11 : X (Proc.devRef .tc main_arg11) = x11)
    (h_main_arg12 : X (Proc.devRef .tc main_arg12) = x12)
    (h_main_arg13 : X (Proc.devRef .tc main_arg13) = x13)
    (h_main_arg14 : X (Proc.devRef .tc main_arg14) = x14)
    (h_main_arg15 : X (Proc.devRef .tc main_arg15) = x15)
    (h_main_arg16 : X (Proc.devRef .tc main_arg16) = x16)
    (h_main_arg17 : X (Proc.devRef .tc main_arg17) = x17)
    (h_main_v147 : X (Proc.devRef .tc main_v147) = val_main_v147 (F := F) x0 x1 x2 x3 x4 x5 x6 x7) :
    after (ops20 (F := F)) X (Proc.devRef .tc main_arg10) = x10
    ∧ after (ops20 (F := F)) X (Proc.devRef .tc main_arg11) = x11
    ∧ after (ops20 (F := F)) X (Proc.devRef .tc main_arg12) = x12
    ∧ after (ops20 (F := F)) X (Proc.devRef .tc main_arg13) = x13
    ∧ after (ops20 (F := F)) X (Proc.devRef .tc main_arg14) = x14
    ∧ after (ops20 (F := F)) X (Proc.devRef .tc main_arg15) = x15
    ∧ after (ops20 (F := F)) X (Proc.devRef .tc main_arg16) = x16
    ∧ after (ops20 (F := F)) X (Proc.devRef .tc main_arg17) = x17
    ∧ after (ops20 (F := F)) X (Proc.devRef .tc main_v151) = val_main_v151 (F := F) x0 x1 x2 x3 x4 x5 x6 x7 x8 x9 := by
  refine ⟨?_, ?_, ?_, ?_, ?_, ?_, ?_, ?_, ?_⟩
  · after_results_simp
    exact h_main_arg10
  · after_results_simp
    exact h_main_arg11
  · after_results_simp
    exact h_main_arg12
  · after_results_simp
    exact h_main_arg13
  · after_results_simp
    exact h_main_arg14
  · after_results_simp
    exact h_main_arg15
  · after_results_simp
    exact h_main_arg16
  · after_results_simp
    exact h_main_arg17
  · after_results_simp
    try simp only [h_main_arg8, h_main_arg9, h_main_arg10, h_main_arg11, h_main_arg12, h_main_arg13, h_main_arg14, h_main_arg15, h_main_arg16, h_main_arg17, h_main_v147]
    all_goals rfl

/-- Operations 199 to 201 of the reference, in order. -/
abbrev ops21 : List (HloOp τ sig (Elt F)) :=
  [ TRef.nullary (TRef.of (T := ⟨S_, .f32⟩) main_call5_cst) (constant S_ .f32 0x00000000#32),
    TRef.unary (TRef.of (T := ⟨S_, .f32⟩) main_call5_cst) (TRef.of (T := ⟨S1600000x64, .f32⟩) main_call5_v0) (broadcastInDim S1600000x64 ![] bcast_S_S1600000x64),
    TRef.binary (TRef.of (T := ⟨S1600000x64, .f32⟩) main_v151) (TRef.of (T := ⟨S1600000x64, .f32⟩) main_call5_v0) (TRef.of (T := ⟨S1600000x64, .f32⟩) main_v152) maximumf ]

set_option maxHeartbeats 4000000 in
/-- Operations 199 to 201 leave each buffer that is read later at its stage's value, when the buffers they read from
    earlier stages hold theirs. -/
theorem seg21 (X : Valuation τ sig (Elt F))
    (h_main_arg10 : X (Proc.devRef .tc main_arg10) = x10)
    (h_main_arg11 : X (Proc.devRef .tc main_arg11) = x11)
    (h_main_arg12 : X (Proc.devRef .tc main_arg12) = x12)
    (h_main_arg13 : X (Proc.devRef .tc main_arg13) = x13)
    (h_main_arg14 : X (Proc.devRef .tc main_arg14) = x14)
    (h_main_arg15 : X (Proc.devRef .tc main_arg15) = x15)
    (h_main_arg16 : X (Proc.devRef .tc main_arg16) = x16)
    (h_main_arg17 : X (Proc.devRef .tc main_arg17) = x17)
    (h_main_v151 : X (Proc.devRef .tc main_v151) = val_main_v151 (F := F) x0 x1 x2 x3 x4 x5 x6 x7 x8 x9) :
    after (ops21 (F := F)) X (Proc.devRef .tc main_arg10) = x10
    ∧ after (ops21 (F := F)) X (Proc.devRef .tc main_arg11) = x11
    ∧ after (ops21 (F := F)) X (Proc.devRef .tc main_arg12) = x12
    ∧ after (ops21 (F := F)) X (Proc.devRef .tc main_arg13) = x13
    ∧ after (ops21 (F := F)) X (Proc.devRef .tc main_arg14) = x14
    ∧ after (ops21 (F := F)) X (Proc.devRef .tc main_arg15) = x15
    ∧ after (ops21 (F := F)) X (Proc.devRef .tc main_arg16) = x16
    ∧ after (ops21 (F := F)) X (Proc.devRef .tc main_arg17) = x17
    ∧ after (ops21 (F := F)) X (Proc.devRef .tc main_v152) = val_main_v152 (F := F) x0 x1 x2 x3 x4 x5 x6 x7 x8 x9 := by
  refine ⟨?_, ?_, ?_, ?_, ?_, ?_, ?_, ?_, ?_⟩
  · after_results_simp
    exact h_main_arg10
  · after_results_simp
    exact h_main_arg11
  · after_results_simp
    exact h_main_arg12
  · after_results_simp
    exact h_main_arg13
  · after_results_simp
    exact h_main_arg14
  · after_results_simp
    exact h_main_arg15
  · after_results_simp
    exact h_main_arg16
  · after_results_simp
    exact h_main_arg17
  · after_results_simp
    try simp only [h_main_arg10, h_main_arg11, h_main_arg12, h_main_arg13, h_main_arg14, h_main_arg15, h_main_arg16, h_main_arg17, h_main_v151]
    all_goals rfl

/-- Operations 202 to 215 of the reference, in order. -/
abbrev ops22 : List (HloOp τ sig (Elt F)) :=
  [ nullary main_cst_35 (constant S_ .f32 0x00000000#32),
    binary main_v152 main_cst_35 main_v153 ((fun x v => Host.reduceAdd x v reducesTo_S1600000x64_S64_d0 h_S_) : (⟨S1600000x64, .f32⟩ : BufTy).Contents (Elt F) → (⟨S_, .f32⟩ : BufTy).Contents (Elt F) → (⟨S64, .f32⟩ : BufTy).Contents (Elt F)),
    nullary main_cst_36 (constant S_ .f32 0x49C35000#32),
    unary main_cst_36 main_v154 (broadcastInDim S64 ![] bcast_S_S64 : (⟨S_, .f32⟩ : BufTy).Contents (Elt F) → (⟨S64, .f32⟩ : BufTy).Contents (Elt F)),
    binary main_v153 main_v154 main_v155 (Host.divf : (⟨S64, .f32⟩ : BufTy).Contents (Elt F) → (⟨S64, .f32⟩ : BufTy).Contents (Elt F) → (⟨S64, .f32⟩ : BufTy).Contents (Elt F)),
    unary main_v155 main_v156 (broadcastInDim S1x64 ![1] bcast_S64_S1x64_1 : (⟨S64, .f32⟩ : BufTy).Contents (Elt F) → (⟨S1x64, .f32⟩ : BufTy).Contents (Elt F)),
    unary main_v156 main_v157 (broadcastInDim S1600000x64 ![0, 1] bcast_S1x64_S1600000x64_0_1 : (⟨S1x64, .f32⟩ : BufTy).Contents (Elt F) → (⟨S1600000x64, .f32⟩ : BufTy).Contents (Elt F)),
    binary main_v152 main_v157 main_v158 (subf : (⟨S1600000x64, .f32⟩ : BufTy).Contents (Elt F) → (⟨S1600000x64, .f32⟩ : BufTy).Contents (Elt F) → (⟨S1600000x64, .f32⟩ : BufTy).Contents (Elt F)),
    binary main_v158 main_v158 main_v159 (mulf : (⟨S1600000x64, .f32⟩ : BufTy).Contents (Elt F) → (⟨S1600000x64, .f32⟩ : BufTy).Contents (Elt F) → (⟨S1600000x64, .f32⟩ : BufTy).Contents (Elt F)),
    nullary main_cst_37 (constant S_ .f32 0x00000000#32),
    binary main_v159 main_cst_37 main_v160 ((fun x v => Host.reduceAdd x v reducesTo_S1600000x64_S64_d0 h_S_) : (⟨S1600000x64, .f32⟩ : BufTy).Contents (Elt F) → (⟨S_, .f32⟩ : BufTy).Contents (Elt F) → (⟨S64, .f32⟩ : BufTy).Contents (Elt F)),
    nullary main_cst_38 (constant S_ .f32 0x49C35000#32),
    unary main_cst_38 main_v161 (broadcastInDim S64 ![] bcast_S_S64 : (⟨S_, .f32⟩ : BufTy).Contents (Elt F) → (⟨S64, .f32⟩ : BufTy).Contents (Elt F)),
    binary main_v160 main_v161 main_v162 (Host.divf : (⟨S64, .f32⟩ : BufTy).Contents (Elt F) → (⟨S64, .f32⟩ : BufTy).Contents (Elt F) → (⟨S64, .f32⟩ : BufTy).Contents (Elt F)) ]

set_option maxHeartbeats 4000000 in
/-- Operations 202 to 215 leave each buffer that is read later at its stage's value, when the buffers they read from
    earlier stages hold theirs. -/
theorem seg22 (X : Valuation τ sig (Elt F))
    (h_main_arg10 : X (Proc.devRef .tc main_arg10) = x10)
    (h_main_arg11 : X (Proc.devRef .tc main_arg11) = x11)
    (h_main_arg12 : X (Proc.devRef .tc main_arg12) = x12)
    (h_main_arg13 : X (Proc.devRef .tc main_arg13) = x13)
    (h_main_arg14 : X (Proc.devRef .tc main_arg14) = x14)
    (h_main_arg15 : X (Proc.devRef .tc main_arg15) = x15)
    (h_main_arg16 : X (Proc.devRef .tc main_arg16) = x16)
    (h_main_arg17 : X (Proc.devRef .tc main_arg17) = x17)
    (h_main_v152 : X (Proc.devRef .tc main_v152) = val_main_v152 (F := F) x0 x1 x2 x3 x4 x5 x6 x7 x8 x9) :
    after (ops22 (F := F)) X (Proc.devRef .tc main_arg10) = x10
    ∧ after (ops22 (F := F)) X (Proc.devRef .tc main_arg11) = x11
    ∧ after (ops22 (F := F)) X (Proc.devRef .tc main_arg12) = x12
    ∧ after (ops22 (F := F)) X (Proc.devRef .tc main_arg13) = x13
    ∧ after (ops22 (F := F)) X (Proc.devRef .tc main_arg14) = x14
    ∧ after (ops22 (F := F)) X (Proc.devRef .tc main_arg15) = x15
    ∧ after (ops22 (F := F)) X (Proc.devRef .tc main_arg16) = x16
    ∧ after (ops22 (F := F)) X (Proc.devRef .tc main_arg17) = x17
    ∧ after (ops22 (F := F)) X (Proc.devRef .tc main_v152) = val_main_v152 (F := F) x0 x1 x2 x3 x4 x5 x6 x7 x8 x9
    ∧ after (ops22 (F := F)) X (Proc.devRef .tc main_v155) = val_main_v155 (F := F) x0 x1 x2 x3 x4 x5 x6 x7 x8 x9
    ∧ after (ops22 (F := F)) X (Proc.devRef .tc main_v162) = val_main_v162 (F := F) x0 x1 x2 x3 x4 x5 x6 x7 x8 x9 := by
  refine ⟨?_, ?_, ?_, ?_, ?_, ?_, ?_, ?_, ?_, ?_, ?_⟩
  · after_results_simp
    exact h_main_arg10
  · after_results_simp
    exact h_main_arg11
  · after_results_simp
    exact h_main_arg12
  · after_results_simp
    exact h_main_arg13
  · after_results_simp
    exact h_main_arg14
  · after_results_simp
    exact h_main_arg15
  · after_results_simp
    exact h_main_arg16
  · after_results_simp
    exact h_main_arg17
  · after_results_simp
    exact h_main_v152
  · after_results_simp
    try simp only [h_main_arg10, h_main_arg11, h_main_arg12, h_main_arg13, h_main_arg14, h_main_arg15, h_main_arg16, h_main_arg17, h_main_v152]
    all_goals rfl
  · after_results_simp
    try simp only [h_main_arg10, h_main_arg11, h_main_arg12, h_main_arg13, h_main_arg14, h_main_arg15, h_main_arg16, h_main_arg17, h_main_v152]
    all_goals rfl

/-- Operations 216 to 235 of the reference, in order. -/
abbrev ops23 : List (HloOp τ sig (Elt F)) :=
  [ unary main_v155 main_v163 (broadcastInDim S1x64 ![1] bcast_S64_S1x64_1 : (⟨S64, .f32⟩ : BufTy).Contents (Elt F) → (⟨S1x64, .f32⟩ : BufTy).Contents (Elt F)),
    unary main_v163 main_v164 (broadcastInDim S1600000x64 ![0, 1] bcast_S1x64_S1600000x64_0_1 : (⟨S1x64, .f32⟩ : BufTy).Contents (Elt F) → (⟨S1600000x64, .f32⟩ : BufTy).Contents (Elt F)),
    binary main_v152 main_v164 main_v165 (subf : (⟨S1600000x64, .f32⟩ : BufTy).Contents (Elt F) → (⟨S1600000x64, .f32⟩ : BufTy).Contents (Elt F) → (⟨S1600000x64, .f32⟩ : BufTy).Contents (Elt F)),
    nullary main_cst_39 (constant S_ .f32 0x3727C5AC#32),
    unary main_cst_39 main_v166 (broadcastInDim S64 ![] bcast_S_S64 : (⟨S_, .f32⟩ : BufTy).Contents (Elt F) → (⟨S64, .f32⟩ : BufTy).Contents (Elt F)),
    binary main_v162 main_v166 main_v167 (addf : (⟨S64, .f32⟩ : BufTy).Contents (Elt F) → (⟨S64, .f32⟩ : BufTy).Contents (Elt F) → (⟨S64, .f32⟩ : BufTy).Contents (Elt F)),
    unary main_v167 main_v168 (Host.rsqrt : (⟨S64, .f32⟩ : BufTy).Contents (Elt F) → (⟨S64, .f32⟩ : BufTy).Contents (Elt F)),
    unary main_v168 main_v169 (broadcastInDim S1x64 ![1] bcast_S64_S1x64_1 : (⟨S64, .f32⟩ : BufTy).Contents (Elt F) → (⟨S1x64, .f32⟩ : BufTy).Contents (Elt F)),
    unary main_v169 main_v170 (broadcastInDim S1600000x64 ![0, 1] bcast_S1x64_S1600000x64_0_1 : (⟨S1x64, .f32⟩ : BufTy).Contents (Elt F) → (⟨S1600000x64, .f32⟩ : BufTy).Contents (Elt F)),
    binary main_v165 main_v170 main_v171 (mulf : (⟨S1600000x64, .f32⟩ : BufTy).Contents (Elt F) → (⟨S1600000x64, .f32⟩ : BufTy).Contents (Elt F) → (⟨S1600000x64, .f32⟩ : BufTy).Contents (Elt F)),
    unary main_arg10 main_v172 (broadcastInDim S1x64 ![1] bcast_S64_S1x64_1 : (⟨S64, .f32⟩ : BufTy).Contents (Elt F) → (⟨S1x64, .f32⟩ : BufTy).Contents (Elt F)),
    unary main_v172 main_v173 (broadcastInDim S1600000x64 ![0, 1] bcast_S1x64_S1600000x64_0_1 : (⟨S1x64, .f32⟩ : BufTy).Contents (Elt F) → (⟨S1600000x64, .f32⟩ : BufTy).Contents (Elt F)),
    binary main_v171 main_v173 main_v174 (mulf : (⟨S1600000x64, .f32⟩ : BufTy).Contents (Elt F) → (⟨S1600000x64, .f32⟩ : BufTy).Contents (Elt F) → (⟨S1600000x64, .f32⟩ : BufTy).Contents (Elt F)),
    unary main_arg11 main_v175 (broadcastInDim S1x64 ![1] bcast_S64_S1x64_1 : (⟨S64, .f32⟩ : BufTy).Contents (Elt F) → (⟨S1x64, .f32⟩ : BufTy).Contents (Elt F)),
    unary main_v175 main_v176 (broadcastInDim S1600000x64 ![0, 1] bcast_S1x64_S1600000x64_0_1 : (⟨S1x64, .f32⟩ : BufTy).Contents (Elt F) → (⟨S1600000x64, .f32⟩ : BufTy).Contents (Elt F)),
    binary main_v174 main_v176 main_v177 (addf : (⟨S1600000x64, .f32⟩ : BufTy).Contents (Elt F) → (⟨S1600000x64, .f32⟩ : BufTy).Contents (Elt F) → (⟨S1600000x64, .f32⟩ : BufTy).Contents (Elt F)),
    binary main_v177 main_arg12 main_v178 ((fun l r => Host.dotGeneral dot_S1600000x64_S64x32_S1600000x32_1_0_0_1_n_n none l r) : (⟨S1600000x64, .f32⟩ : BufTy).Contents (Elt F) → (⟨S64x32, .f32⟩ : BufTy).Contents (Elt F) → (⟨S1600000x32, .f32⟩ : BufTy).Contents (Elt F)),
    unary main_arg13 main_v179 (broadcastInDim S1x32 ![1] bcast_S32_S1x32_1 : (⟨S32, .f32⟩ : BufTy).Contents (Elt F) → (⟨S1x32, .f32⟩ : BufTy).Contents (Elt F)),
    unary main_v179 main_v180 (broadcastInDim S1600000x32 ![0, 1] bcast_S1x32_S1600000x32_0_1 : (⟨S1x32, .f32⟩ : BufTy).Contents (Elt F) → (⟨S1600000x32, .f32⟩ : BufTy).Contents (Elt F)),
    binary main_v178 main_v180 main_v181 (addf : (⟨S1600000x32, .f32⟩ : BufTy).Contents (Elt F) → (⟨S1600000x32, .f32⟩ : BufTy).Contents (Elt F) → (⟨S1600000x32, .f32⟩ : BufTy).Contents (Elt F)) ]

set_option maxHeartbeats 4000000 in
/-- Operations 216 to 235 leave each buffer that is read later at its stage's value, when the buffers they read from
    earlier stages hold theirs. -/
theorem seg23 (X : Valuation τ sig (Elt F))
    (h_main_arg10 : X (Proc.devRef .tc main_arg10) = x10)
    (h_main_arg11 : X (Proc.devRef .tc main_arg11) = x11)
    (h_main_arg12 : X (Proc.devRef .tc main_arg12) = x12)
    (h_main_arg13 : X (Proc.devRef .tc main_arg13) = x13)
    (h_main_arg14 : X (Proc.devRef .tc main_arg14) = x14)
    (h_main_arg15 : X (Proc.devRef .tc main_arg15) = x15)
    (h_main_arg16 : X (Proc.devRef .tc main_arg16) = x16)
    (h_main_arg17 : X (Proc.devRef .tc main_arg17) = x17)
    (h_main_v152 : X (Proc.devRef .tc main_v152) = val_main_v152 (F := F) x0 x1 x2 x3 x4 x5 x6 x7 x8 x9)
    (h_main_v155 : X (Proc.devRef .tc main_v155) = val_main_v155 (F := F) x0 x1 x2 x3 x4 x5 x6 x7 x8 x9)
    (h_main_v162 : X (Proc.devRef .tc main_v162) = val_main_v162 (F := F) x0 x1 x2 x3 x4 x5 x6 x7 x8 x9) :
    after (ops23 (F := F)) X (Proc.devRef .tc main_arg14) = x14
    ∧ after (ops23 (F := F)) X (Proc.devRef .tc main_arg15) = x15
    ∧ after (ops23 (F := F)) X (Proc.devRef .tc main_arg16) = x16
    ∧ after (ops23 (F := F)) X (Proc.devRef .tc main_arg17) = x17
    ∧ after (ops23 (F := F)) X (Proc.devRef .tc main_v181) = val_main_v181 (F := F) x0 x1 x2 x3 x4 x5 x6 x7 x8 x9 x10 x11 x12 x13 := by
  refine ⟨?_, ?_, ?_, ?_, ?_⟩
  · after_results_simp
    exact h_main_arg14
  · after_results_simp
    exact h_main_arg15
  · after_results_simp
    exact h_main_arg16
  · after_results_simp
    exact h_main_arg17
  · after_results_simp
    try simp only [h_main_arg10, h_main_arg11, h_main_arg12, h_main_arg13, h_main_arg14, h_main_arg15, h_main_arg16, h_main_arg17, h_main_v152, h_main_v155, h_main_v162]
    all_goals rfl

/-- Operations 236 to 238 of the reference, in order. -/
abbrev ops24 : List (HloOp τ sig (Elt F)) :=
  [ TRef.nullary (TRef.of (T := ⟨S_, .f32⟩) main_call6_cst) (constant S_ .f32 0x00000000#32),
    TRef.unary (TRef.of (T := ⟨S_, .f32⟩) main_call6_cst) (TRef.of (T := ⟨S1600000x32, .f32⟩) main_call6_v0) (broadcastInDim S1600000x32 ![] bcast_S_S1600000x32),
    TRef.binary (TRef.of (T := ⟨S1600000x32, .f32⟩) main_v181) (TRef.of (T := ⟨S1600000x32, .f32⟩) main_call6_v0) (TRef.of (T := ⟨S1600000x32, .f32⟩) main_v182) maximumf ]

set_option maxHeartbeats 4000000 in
/-- Operations 236 to 238 leave each buffer that is read later at its stage's value, when the buffers they read from
    earlier stages hold theirs. -/
theorem seg24 (X : Valuation τ sig (Elt F))
    (h_main_arg14 : X (Proc.devRef .tc main_arg14) = x14)
    (h_main_arg15 : X (Proc.devRef .tc main_arg15) = x15)
    (h_main_arg16 : X (Proc.devRef .tc main_arg16) = x16)
    (h_main_arg17 : X (Proc.devRef .tc main_arg17) = x17)
    (h_main_v181 : X (Proc.devRef .tc main_v181) = val_main_v181 (F := F) x0 x1 x2 x3 x4 x5 x6 x7 x8 x9 x10 x11 x12 x13) :
    after (ops24 (F := F)) X (Proc.devRef .tc main_arg14) = x14
    ∧ after (ops24 (F := F)) X (Proc.devRef .tc main_arg15) = x15
    ∧ after (ops24 (F := F)) X (Proc.devRef .tc main_arg16) = x16
    ∧ after (ops24 (F := F)) X (Proc.devRef .tc main_arg17) = x17
    ∧ after (ops24 (F := F)) X (Proc.devRef .tc main_v182) = val_main_v182 (F := F) x0 x1 x2 x3 x4 x5 x6 x7 x8 x9 x10 x11 x12 x13 := by
  refine ⟨?_, ?_, ?_, ?_, ?_⟩
  · after_results_simp
    exact h_main_arg14
  · after_results_simp
    exact h_main_arg15
  · after_results_simp
    exact h_main_arg16
  · after_results_simp
    exact h_main_arg17
  · after_results_simp
    try simp only [h_main_arg14, h_main_arg15, h_main_arg16, h_main_arg17, h_main_v181]
    all_goals rfl

/-- Operations 239 to 252 of the reference, in order. -/
abbrev ops25 : List (HloOp τ sig (Elt F)) :=
  [ nullary main_cst_40 (constant S_ .f32 0x00000000#32),
    binary main_v182 main_cst_40 main_v183 ((fun x v => Host.reduceAdd x v reducesTo_S1600000x32_S32_d0 h_S_) : (⟨S1600000x32, .f32⟩ : BufTy).Contents (Elt F) → (⟨S_, .f32⟩ : BufTy).Contents (Elt F) → (⟨S32, .f32⟩ : BufTy).Contents (Elt F)),
    nullary main_cst_41 (constant S_ .f32 0x49C35000#32),
    unary main_cst_41 main_v184 (broadcastInDim S32 ![] bcast_S_S32 : (⟨S_, .f32⟩ : BufTy).Contents (Elt F) → (⟨S32, .f32⟩ : BufTy).Contents (Elt F)),
    binary main_v183 main_v184 main_v185 (Host.divf : (⟨S32, .f32⟩ : BufTy).Contents (Elt F) → (⟨S32, .f32⟩ : BufTy).Contents (Elt F) → (⟨S32, .f32⟩ : BufTy).Contents (Elt F)),
    unary main_v185 main_v186 (broadcastInDim S1x32 ![1] bcast_S32_S1x32_1 : (⟨S32, .f32⟩ : BufTy).Contents (Elt F) → (⟨S1x32, .f32⟩ : BufTy).Contents (Elt F)),
    unary main_v186 main_v187 (broadcastInDim S1600000x32 ![0, 1] bcast_S1x32_S1600000x32_0_1 : (⟨S1x32, .f32⟩ : BufTy).Contents (Elt F) → (⟨S1600000x32, .f32⟩ : BufTy).Contents (Elt F)),
    binary main_v182 main_v187 main_v188 (subf : (⟨S1600000x32, .f32⟩ : BufTy).Contents (Elt F) → (⟨S1600000x32, .f32⟩ : BufTy).Contents (Elt F) → (⟨S1600000x32, .f32⟩ : BufTy).Contents (Elt F)),
    binary main_v188 main_v188 main_v189 (mulf : (⟨S1600000x32, .f32⟩ : BufTy).Contents (Elt F) → (⟨S1600000x32, .f32⟩ : BufTy).Contents (Elt F) → (⟨S1600000x32, .f32⟩ : BufTy).Contents (Elt F)),
    nullary main_cst_42 (constant S_ .f32 0x00000000#32),
    binary main_v189 main_cst_42 main_v190 ((fun x v => Host.reduceAdd x v reducesTo_S1600000x32_S32_d0 h_S_) : (⟨S1600000x32, .f32⟩ : BufTy).Contents (Elt F) → (⟨S_, .f32⟩ : BufTy).Contents (Elt F) → (⟨S32, .f32⟩ : BufTy).Contents (Elt F)),
    nullary main_cst_43 (constant S_ .f32 0x49C35000#32),
    unary main_cst_43 main_v191 (broadcastInDim S32 ![] bcast_S_S32 : (⟨S_, .f32⟩ : BufTy).Contents (Elt F) → (⟨S32, .f32⟩ : BufTy).Contents (Elt F)),
    binary main_v190 main_v191 main_v192 (Host.divf : (⟨S32, .f32⟩ : BufTy).Contents (Elt F) → (⟨S32, .f32⟩ : BufTy).Contents (Elt F) → (⟨S32, .f32⟩ : BufTy).Contents (Elt F)) ]

set_option maxHeartbeats 4000000 in
/-- Operations 239 to 252 leave each buffer that is read later at its stage's value, when the buffers they read from
    earlier stages hold theirs. -/
theorem seg25 (X : Valuation τ sig (Elt F))
    (h_main_arg14 : X (Proc.devRef .tc main_arg14) = x14)
    (h_main_arg15 : X (Proc.devRef .tc main_arg15) = x15)
    (h_main_arg16 : X (Proc.devRef .tc main_arg16) = x16)
    (h_main_arg17 : X (Proc.devRef .tc main_arg17) = x17)
    (h_main_v182 : X (Proc.devRef .tc main_v182) = val_main_v182 (F := F) x0 x1 x2 x3 x4 x5 x6 x7 x8 x9 x10 x11 x12 x13) :
    after (ops25 (F := F)) X (Proc.devRef .tc main_arg14) = x14
    ∧ after (ops25 (F := F)) X (Proc.devRef .tc main_arg15) = x15
    ∧ after (ops25 (F := F)) X (Proc.devRef .tc main_arg16) = x16
    ∧ after (ops25 (F := F)) X (Proc.devRef .tc main_arg17) = x17
    ∧ after (ops25 (F := F)) X (Proc.devRef .tc main_v182) = val_main_v182 (F := F) x0 x1 x2 x3 x4 x5 x6 x7 x8 x9 x10 x11 x12 x13
    ∧ after (ops25 (F := F)) X (Proc.devRef .tc main_v185) = val_main_v185 (F := F) x0 x1 x2 x3 x4 x5 x6 x7 x8 x9 x10 x11 x12 x13
    ∧ after (ops25 (F := F)) X (Proc.devRef .tc main_v192) = val_main_v192 (F := F) x0 x1 x2 x3 x4 x5 x6 x7 x8 x9 x10 x11 x12 x13 := by
  refine ⟨?_, ?_, ?_, ?_, ?_, ?_, ?_⟩
  · after_results_simp
    exact h_main_arg14
  · after_results_simp
    exact h_main_arg15
  · after_results_simp
    exact h_main_arg16
  · after_results_simp
    exact h_main_arg17
  · after_results_simp
    exact h_main_v182
  · after_results_simp
    try simp only [h_main_arg14, h_main_arg15, h_main_arg16, h_main_arg17, h_main_v182]
    all_goals rfl
  · after_results_simp
    try simp only [h_main_arg14, h_main_arg15, h_main_arg16, h_main_arg17, h_main_v182]
    all_goals rfl

/-- Operations 253 to 272 of the reference, in order. -/
abbrev ops26 : List (HloOp τ sig (Elt F)) :=
  [ unary main_v185 main_v193 (broadcastInDim S1x32 ![1] bcast_S32_S1x32_1 : (⟨S32, .f32⟩ : BufTy).Contents (Elt F) → (⟨S1x32, .f32⟩ : BufTy).Contents (Elt F)),
    unary main_v193 main_v194 (broadcastInDim S1600000x32 ![0, 1] bcast_S1x32_S1600000x32_0_1 : (⟨S1x32, .f32⟩ : BufTy).Contents (Elt F) → (⟨S1600000x32, .f32⟩ : BufTy).Contents (Elt F)),
    binary main_v182 main_v194 main_v195 (subf : (⟨S1600000x32, .f32⟩ : BufTy).Contents (Elt F) → (⟨S1600000x32, .f32⟩ : BufTy).Contents (Elt F) → (⟨S1600000x32, .f32⟩ : BufTy).Contents (Elt F)),
    nullary main_cst_44 (constant S_ .f32 0x3727C5AC#32),
    unary main_cst_44 main_v196 (broadcastInDim S32 ![] bcast_S_S32 : (⟨S_, .f32⟩ : BufTy).Contents (Elt F) → (⟨S32, .f32⟩ : BufTy).Contents (Elt F)),
    binary main_v192 main_v196 main_v197 (addf : (⟨S32, .f32⟩ : BufTy).Contents (Elt F) → (⟨S32, .f32⟩ : BufTy).Contents (Elt F) → (⟨S32, .f32⟩ : BufTy).Contents (Elt F)),
    unary main_v197 main_v198 (Host.rsqrt : (⟨S32, .f32⟩ : BufTy).Contents (Elt F) → (⟨S32, .f32⟩ : BufTy).Contents (Elt F)),
    unary main_v198 main_v199 (broadcastInDim S1x32 ![1] bcast_S32_S1x32_1 : (⟨S32, .f32⟩ : BufTy).Contents (Elt F) → (⟨S1x32, .f32⟩ : BufTy).Contents (Elt F)),
    unary main_v199 main_v200 (broadcastInDim S1600000x32 ![0, 1] bcast_S1x32_S1600000x32_0_1 : (⟨S1x32, .f32⟩ : BufTy).Contents (Elt F) → (⟨S1600000x32, .f32⟩ : BufTy).Contents (Elt F)),
    binary main_v195 main_v200 main_v201 (mulf : (⟨S1600000x32, .f32⟩ : BufTy).Contents (Elt F) → (⟨S1600000x32, .f32⟩ : BufTy).Contents (Elt F) → (⟨S1600000x32, .f32⟩ : BufTy).Contents (Elt F)),
    unary main_arg14 main_v202 (broadcastInDim S1x32 ![1] bcast_S32_S1x32_1 : (⟨S32, .f32⟩ : BufTy).Contents (Elt F) → (⟨S1x32, .f32⟩ : BufTy).Contents (Elt F)),
    unary main_v202 main_v203 (broadcastInDim S1600000x32 ![0, 1] bcast_S1x32_S1600000x32_0_1 : (⟨S1x32, .f32⟩ : BufTy).Contents (Elt F) → (⟨S1600000x32, .f32⟩ : BufTy).Contents (Elt F)),
    binary main_v201 main_v203 main_v204 (mulf : (⟨S1600000x32, .f32⟩ : BufTy).Contents (Elt F) → (⟨S1600000x32, .f32⟩ : BufTy).Contents (Elt F) → (⟨S1600000x32, .f32⟩ : BufTy).Contents (Elt F)),
    unary main_arg15 main_v205 (broadcastInDim S1x32 ![1] bcast_S32_S1x32_1 : (⟨S32, .f32⟩ : BufTy).Contents (Elt F) → (⟨S1x32, .f32⟩ : BufTy).Contents (Elt F)),
    unary main_v205 main_v206 (broadcastInDim S1600000x32 ![0, 1] bcast_S1x32_S1600000x32_0_1 : (⟨S1x32, .f32⟩ : BufTy).Contents (Elt F) → (⟨S1600000x32, .f32⟩ : BufTy).Contents (Elt F)),
    binary main_v204 main_v206 main_v207 (addf : (⟨S1600000x32, .f32⟩ : BufTy).Contents (Elt F) → (⟨S1600000x32, .f32⟩ : BufTy).Contents (Elt F) → (⟨S1600000x32, .f32⟩ : BufTy).Contents (Elt F)),
    binary main_v207 main_arg16 main_v208 ((fun l r => Host.dotGeneral dot_S1600000x32_S32x2_S1600000x2_1_0_0_1_n_n none l r) : (⟨S1600000x32, .f32⟩ : BufTy).Contents (Elt F) → (⟨S32x2, .f32⟩ : BufTy).Contents (Elt F) → (⟨S1600000x2, .f32⟩ : BufTy).Contents (Elt F)),
    unary main_arg17 main_v209 (broadcastInDim S1x2 ![1] bcast_S2_S1x2_1 : (⟨S2, .f32⟩ : BufTy).Contents (Elt F) → (⟨S1x2, .f32⟩ : BufTy).Contents (Elt F)),
    unary main_v209 main_v210 (broadcastInDim S1600000x2 ![0, 1] bcast_S1x2_S1600000x2_0_1 : (⟨S1x2, .f32⟩ : BufTy).Contents (Elt F) → (⟨S1600000x2, .f32⟩ : BufTy).Contents (Elt F)),
    binary main_v208 main_v210 main_v211 (addf : (⟨S1600000x2, .f32⟩ : BufTy).Contents (Elt F) → (⟨S1600000x2, .f32⟩ : BufTy).Contents (Elt F) → (⟨S1600000x2, .f32⟩ : BufTy).Contents (Elt F)) ]

set_option maxHeartbeats 4000000 in
/-- Operations 253 to 272 leave each buffer that is read later at its stage's value, when the buffers they read from
    earlier stages hold theirs. -/
theorem seg26 (X : Valuation τ sig (Elt F))
    (h_main_arg14 : X (Proc.devRef .tc main_arg14) = x14)
    (h_main_arg15 : X (Proc.devRef .tc main_arg15) = x15)
    (h_main_arg16 : X (Proc.devRef .tc main_arg16) = x16)
    (h_main_arg17 : X (Proc.devRef .tc main_arg17) = x17)
    (h_main_v182 : X (Proc.devRef .tc main_v182) = val_main_v182 (F := F) x0 x1 x2 x3 x4 x5 x6 x7 x8 x9 x10 x11 x12 x13)
    (h_main_v185 : X (Proc.devRef .tc main_v185) = val_main_v185 (F := F) x0 x1 x2 x3 x4 x5 x6 x7 x8 x9 x10 x11 x12 x13)
    (h_main_v192 : X (Proc.devRef .tc main_v192) = val_main_v192 (F := F) x0 x1 x2 x3 x4 x5 x6 x7 x8 x9 x10 x11 x12 x13) :
    after (ops26 (F := F)) X (Proc.devRef .tc main_v211) = val_main_v211 (F := F) x0 x1 x2 x3 x4 x5 x6 x7 x8 x9 x10 x11 x12 x13 x14 x15 x16 x17 := by
  · after_results_simp
    try simp only [h_main_arg14, h_main_arg15, h_main_arg16, h_main_arg17, h_main_v182, h_main_v185, h_main_v192]
    all_goals rfl

end Cert.ReferenceIdeal.RefFold

end
-- ==== Proof.RefFold.lean ====
/- The reference's run as a fold of its operations is the stage-by-stage reading: the segments' facts chained. -/
import proofs.«123034_j51127290692283_2_alg».proof.Proof.RefFoldA
import proofs.«123034_j51127290692283_2_alg».proof.Proof.RefFoldB

set_option maxRecDepth 8192

noncomputable section

namespace Cert.ReferenceIdeal.RefFold

open Cert.ReferenceIdeal Cert.ReferenceIdeal.Gen Cert.ReferenceIdeal.ReadP Idealize.ShloMosaic Idealize.ShloMosaic.TcCoe
open Idealize.SL.Sem Idealize.ShloMosaic.StableHlo

variable {F : FTy → Type} [FloatOps F]
variable (x0 : (⟨S100000x3, .f32⟩ : BufTy).Contents (Elt F)) (x1 : (⟨S2x1600000, .i32⟩ : BufTy).Contents (Elt F))
  (x2 : (⟨S3x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S128x64, .f32⟩ : BufTy).Contents (Elt F)) (x9 : (⟨S64, .f32⟩ : BufTy).Contents (Elt F)) (x10 : (⟨S64, .f32⟩ : BufTy).Contents (Elt F)) (x11 : (⟨S64, .f32⟩ : BufTy).Contents (Elt F)) (x12 : (⟨S64x32, .f32⟩ : BufTy).Contents (Elt F)) (x13 : (⟨S32, .f32⟩ : BufTy).Contents (Elt F)) (x14 : (⟨S32, .f32⟩ : BufTy).Contents (Elt F)) (x15 : (⟨S32, .f32⟩ : BufTy).Contents (Elt F)) (x16 : (⟨S32x2, .f32⟩ : BufTy).Contents (Elt F)) (x17 : (⟨S2, .f32⟩ : BufTy).Contents (Elt F))

/-- A fold over a concatenation is the fold over the second list from the fold over the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- The operation list is its segments, in order. -/
theorem ops_eq : (ValueP.ops (F := F)) = ops0 ++ (ops1 ++ (ops2 ++ (ops3 ++ (ops4 ++ (ops5 ++ (ops6 ++ (ops7 ++ (ops8 ++ (ops9 ++ (ops10 ++ (ops11 ++ (ops12 ++ (ops13 ++ (ops14 ++ (ops15 ++ (ops16 ++ (ops17 ++ (ops18 ++ (ops19 ++ (ops20 ++ (ops21 ++ (ops22 ++ (ops23 ++ (ops24 ++ (ops25 ++ (ops26)))))))))))))))))))))))))) := rfl

/-- The reference's result buffer after all its operations, from the launch contents, is the last stage's value of the
    argument arrays. -/
theorem res_eq (m : (ℓ : Loc nD τ sig) → Buf (Elt F) ℓ) (c : Dev nD) :
    ValueP.res_main_v211 (F := F) m c = val_main_v211 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  unfold ValueP.res_main_v211
  rw [ops_eq]
  simp only [after_append]
  obtain ⟨h0_main_arg0, h0_main_arg1, h0_main_arg2, h0_main_arg3, h0_main_arg4, h0_main_arg5, h0_main_arg6, h0_main_arg7, h0_main_arg8, h0_main_arg9, h0_main_arg10, h0_main_arg11, h0_main_arg12, h0_main_arg13, h0_main_arg14, h0_main_arg15, h0_main_arg16, h0_main_arg17, h0_main_v0, h0_main_v2⟩ := seg0 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (launchContents m c) rfl rfl rfl rfl rfl rfl rfl rfl rfl rfl rfl rfl rfl rfl rfl rfl rfl rfl
  obtain ⟨h1_main_arg0, h1_main_arg1, h1_main_arg2, h1_main_arg3, h1_main_arg4, h1_main_arg5, h1_main_arg6, h1_main_arg7, h1_main_arg8, h1_main_arg9, h1_main_arg10, h1_main_arg11, h1_main_arg12, h1_main_arg13, h1_main_arg14, h1_main_arg15, h1_main_arg16, h1_main_arg17, h1_main_v0, h1_main_v3⟩ := seg1 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (after (ops0 (F := F)) (launchContents m c)) h0_main_arg0 h0_main_arg1 h0_main_arg2 h0_main_arg3 h0_main_arg4 h0_main_arg5 h0_main_arg6 h0_main_arg7 h0_main_arg8 h0_main_arg9 h0_main_arg10 h0_main_arg11 h0_main_arg12 h0_main_arg13 h0_main_arg14 h0_main_arg15 h0_main_arg16 h0_main_arg17 h0_main_v0 h0_main_v2
  obtain ⟨h2_main_arg0, h2_main_arg1, h2_main_arg2, h2_main_arg3, h2_main_arg4, h2_main_arg5, h2_main_arg6, h2_main_arg7, h2_main_arg8, h2_main_arg9, h2_main_arg10, h2_main_arg11, h2_main_arg12, h2_main_arg13, h2_main_arg14, h2_main_arg15, h2_main_arg16, h2_main_arg17, h2_main_v0, h2_main_v3, h2_main_v5⟩ := seg2 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (after (ops1 (F := F)) (after (ops0 (F := F)) (launchContents m c))) h1_main_arg0 h1_main_arg1 h1_main_arg2 h1_main_arg3 h1_main_arg4 h1_main_arg5 h1_main_arg6 h1_main_arg7 h1_main_arg8 h1_main_arg9 h1_main_arg10 h1_main_arg11 h1_main_arg12 h1_main_arg13 h1_main_arg14 h1_main_arg15 h1_main_arg16 h1_main_arg17 h1_main_v0 h1_main_v3
  obtain ⟨h3_main_arg0, h3_main_arg1, h3_main_arg2, h3_main_arg3, h3_main_arg4, h3_main_arg5, h3_main_arg6, h3_main_arg7, h3_main_arg8, h3_main_arg9, h3_main_arg10, h3_main_arg11, h3_main_arg12, h3_main_arg13, h3_main_arg14, h3_main_arg15, h3_main_arg16, h3_main_arg17, h3_main_v3, h3_main_v6⟩ := seg3 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (after (ops2 (F := F)) (after (ops1 (F := F)) (after (ops0 (F := F)) (launchContents m c)))) h2_main_arg0 h2_main_arg1 h2_main_arg2 h2_main_arg3 h2_main_arg4 h2_main_arg5 h2_main_arg6 h2_main_arg7 h2_main_arg8 h2_main_arg9 h2_main_arg10 h2_main_arg11 h2_main_arg12 h2_main_arg13 h2_main_arg14 h2_main_arg15 h2_main_arg16 h2_main_arg17 h2_main_v0 h2_main_v3 h2_main_v5
  obtain ⟨h4_main_arg1, h4_main_arg3, h4_main_arg4, h4_main_arg5, h4_main_arg6, h4_main_arg7, h4_main_arg8, h4_main_arg9, h4_main_arg10, h4_main_arg11, h4_main_arg12, h4_main_arg13, h4_main_arg14, h4_main_arg15, h4_main_arg16, h4_main_arg17, h4_main_v3, h4_main_v6, h4_main_v7, h4_main_v13, h4_main_v14, h4_main_cst_2⟩ := seg4 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (after (ops3 (F := F)) (after (ops2 (F := F)) (after (ops1 (F := F)) (after (ops0 (F := F)) (launchContents m c))))) h3_main_arg0 h3_main_arg1 h3_main_arg2 h3_main_arg3 h3_main_arg4 h3_main_arg5 h3_main_arg6 h3_main_arg7 h3_main_arg8 h3_main_arg9 h3_main_arg10 h3_main_arg11 h3_main_arg12 h3_main_arg13 h3_main_arg14 h3_main_arg15 h3_main_arg16 h3_main_arg17 h3_main_v3 h3_main_v6
  obtain ⟨h5_main_arg1, h5_main_arg3, h5_main_arg4, h5_main_arg5, h5_main_arg6, h5_main_arg7, h5_main_arg8, h5_main_arg9, h5_main_arg10, h5_main_arg11, h5_main_arg12, h5_main_arg13, h5_main_arg14, h5_main_arg15, h5_main_arg16, h5_main_arg17, h5_main_v3, h5_main_v6, h5_main_v7, h5_main_v15⟩ := seg5 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (after (ops4 (F := F)) (after (ops3 (F := F)) (after (ops2 (F := F)) (after (ops1 (F := F)) (after (ops0 (F := F)) (launchContents m c)))))) h4_main_arg1 h4_main_arg3 h4_main_arg4 h4_main_arg5 h4_main_arg6 h4_main_arg7 h4_main_arg8 h4_main_arg9 h4_main_arg10 h4_main_arg11 h4_main_arg12 h4_main_arg13 h4_main_arg14 h4_main_arg15 h4_main_arg16 h4_main_arg17 h4_main_v3 h4_main_v6 h4_main_v7 h4_main_v13 h4_main_v14 h4_main_cst_2
  obtain ⟨h6_main_arg1, h6_main_arg3, h6_main_arg4, h6_main_arg5, h6_main_arg6, h6_main_arg7, h6_main_arg8, h6_main_arg9, h6_main_arg10, h6_main_arg11, h6_main_arg12, h6_main_arg13, h6_main_arg14, h6_main_arg15, h6_main_arg16, h6_main_arg17, h6_main_v3, h6_main_v6, h6_main_v7, h6_main_v30⟩ := seg6 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (after (ops5 (F := F)) (after (ops4 (F := F)) (after (ops3 (F := F)) (after (ops2 (F := F)) (after (ops1 (F := F)) (after (ops0 (F := F)) (launchContents m c))))))) h5_main_arg1 h5_main_arg3 h5_main_arg4 h5_main_arg5 h5_main_arg6 h5_main_arg7 h5_main_arg8 h5_main_arg9 h5_main_arg10 h5_main_arg11 h5_main_arg12 h5_main_arg13 h5_main_arg14 h5_main_arg15 h5_main_arg16 h5_main_arg17 h5_main_v3 h5_main_v6 h5_main_v7 h5_main_v15
  obtain ⟨h7_main_arg1, h7_main_arg4, h7_main_arg5, h7_main_arg6, h7_main_arg7, h7_main_arg8, h7_main_arg9, h7_main_arg10, h7_main_arg11, h7_main_arg12, h7_main_arg13, h7_main_arg14, h7_main_arg15, h7_main_arg16, h7_main_arg17, h7_main_v3, h7_main_v6, h7_main_v46⟩ := seg7 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (after (ops6 (F := F)) (after (ops5 (F := F)) (after (ops4 (F := F)) (after (ops3 (F := F)) (after (ops2 (F := F)) (after (ops1 (F := F)) (after (ops0 (F := F)) (launchContents m c)))))))) h6_main_arg1 h6_main_arg3 h6_main_arg4 h6_main_arg5 h6_main_arg6 h6_main_arg7 h6_main_arg8 h6_main_arg9 h6_main_arg10 h6_main_arg11 h6_main_arg12 h6_main_arg13 h6_main_arg14 h6_main_arg15 h6_main_arg16 h6_main_arg17 h6_main_v3 h6_main_v6 h6_main_v7 h6_main_v30
  obtain ⟨h8_main_arg1, h8_main_arg4, h8_main_arg5, h8_main_arg6, h8_main_arg7, h8_main_arg8, h8_main_arg9, h8_main_arg10, h8_main_arg11, h8_main_arg12, h8_main_arg13, h8_main_arg14, h8_main_arg15, h8_main_arg16, h8_main_arg17, h8_main_v3, h8_main_v6, h8_main_v47⟩ := seg8 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (after (ops7 (F := F)) (after (ops6 (F := F)) (after (ops5 (F := F)) (after (ops4 (F := F)) (after (ops3 (F := F)) (after (ops2 (F := F)) (after (ops1 (F := F)) (after (ops0 (F := F)) (launchContents m c))))))))) h7_main_arg1 h7_main_arg4 h7_main_arg5 h7_main_arg6 h7_main_arg7 h7_main_arg8 h7_main_arg9 h7_main_arg10 h7_main_arg11 h7_main_arg12 h7_main_arg13 h7_main_arg14 h7_main_arg15 h7_main_arg16 h7_main_arg17 h7_main_v3 h7_main_v6 h7_main_v46
  obtain ⟨h9_main_arg1, h9_main_arg5, h9_main_arg6, h9_main_arg7, h9_main_arg8, h9_main_arg9, h9_main_arg10, h9_main_arg11, h9_main_arg12, h9_main_arg13, h9_main_arg14, h9_main_arg15, h9_main_arg16, h9_main_arg17, h9_main_v3, h9_main_v6, h9_main_v48, h9_main_v54, h9_main_v55, h9_main_cst_12⟩ := seg9 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))) h8_main_arg1 h8_main_arg4 h8_main_arg5 h8_main_arg6 h8_main_arg7 h8_main_arg8 h8_main_arg9 h8_main_arg10 h8_main_arg11 h8_main_arg12 h8_main_arg13 h8_main_arg14 h8_main_arg15 h8_main_arg16 h8_main_arg17 h8_main_v3 h8_main_v6 h8_main_v47
  obtain ⟨h10_main_arg1, h10_main_arg5, h10_main_arg6, h10_main_arg7, h10_main_arg8, h10_main_arg9, h10_main_arg10, h10_main_arg11, h10_main_arg12, h10_main_arg13, h10_main_arg14, h10_main_arg15, h10_main_arg16, h10_main_arg17, h10_main_v3, h10_main_v6, h10_main_v48, h10_main_v56⟩ := seg10 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))) h9_main_arg1 h9_main_arg5 h9_main_arg6 h9_main_arg7 h9_main_arg8 h9_main_arg9 h9_main_arg10 h9_main_arg11 h9_main_arg12 h9_main_arg13 h9_main_arg14 h9_main_arg15 h9_main_arg16 h9_main_arg17 h9_main_v3 h9_main_v6 h9_main_v48 h9_main_v54 h9_main_v55 h9_main_cst_12
  obtain ⟨h11_main_arg1, h11_main_arg5, h11_main_arg6, h11_main_arg7, h11_main_arg8, h11_main_arg9, h11_main_arg10, h11_main_arg11, h11_main_arg12, h11_main_arg13, h11_main_arg14, h11_main_arg15, h11_main_arg16, h11_main_arg17, h11_main_v3, h11_main_v6, h11_main_v48, h11_main_v71⟩ := seg11 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))))) h10_main_arg1 h10_main_arg5 h10_main_arg6 h10_main_arg7 h10_main_arg8 h10_main_arg9 h10_main_arg10 h10_main_arg11 h10_main_arg12 h10_main_arg13 h10_main_arg14 h10_main_arg15 h10_main_arg16 h10_main_arg17 h10_main_v3 h10_main_v6 h10_main_v48 h10_main_v56
  obtain ⟨h12_main_arg1, h12_main_arg6, h12_main_arg7, h12_main_arg8, h12_main_arg9, h12_main_arg10, h12_main_arg11, h12_main_arg12, h12_main_arg13, h12_main_arg14, h12_main_arg15, h12_main_arg16, h12_main_arg17, h12_main_v3, h12_main_v6, h12_main_v87⟩ := seg12 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))))) h11_main_arg1 h11_main_arg5 h11_main_arg6 h11_main_arg7 h11_main_arg8 h11_main_arg9 h11_main_arg10 h11_main_arg11 h11_main_arg12 h11_main_arg13 h11_main_arg14 h11_main_arg15 h11_main_arg16 h11_main_arg17 h11_main_v3 h11_main_v6 h11_main_v48 h11_main_v71
  obtain ⟨h13_main_arg1, h13_main_arg6, h13_main_arg7, h13_main_arg8, h13_main_arg9, h13_main_arg10, h13_main_arg11, h13_main_arg12, h13_main_arg13, h13_main_arg14, h13_main_arg15, h13_main_arg16, h13_main_arg17, h13_main_v3, h13_main_v6, h13_main_v88⟩ := seg13 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (after (ops12 (F := F)) (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))))))) h12_main_arg1 h12_main_arg6 h12_main_arg7 h12_main_arg8 h12_main_arg9 h12_main_arg10 h12_main_arg11 h12_main_arg12 h12_main_arg13 h12_main_arg14 h12_main_arg15 h12_main_arg16 h12_main_arg17 h12_main_v3 h12_main_v6 h12_main_v87
  obtain ⟨h14_main_arg1, h14_main_arg7, h14_main_arg8, h14_main_arg9, h14_main_arg10, h14_main_arg11, h14_main_arg12, h14_main_arg13, h14_main_arg14, h14_main_arg15, h14_main_arg16, h14_main_arg17, h14_main_v3, h14_main_v6, h14_main_v89, h14_main_v95, h14_main_v96, h14_main_cst_23⟩ := seg14 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (after (ops13 (F := F)) (after (ops12 (F := F)) (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))))))) h13_main_arg1 h13_main_arg6 h13_main_arg7 h13_main_arg8 h13_main_arg9 h13_main_arg10 h13_main_arg11 h13_main_arg12 h13_main_arg13 h13_main_arg14 h13_main_arg15 h13_main_arg16 h13_main_arg17 h13_main_v3 h13_main_v6 h13_main_v88
  obtain ⟨h15_main_arg1, h15_main_arg7, h15_main_arg8, h15_main_arg9, h15_main_arg10, h15_main_arg11, h15_main_arg12, h15_main_arg13, h15_main_arg14, h15_main_arg15, h15_main_arg16, h15_main_arg17, h15_main_v3, h15_main_v6, h15_main_v89, h15_main_v97⟩ := seg15 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (after (ops14 (F := F)) (after (ops13 (F := F)) (after (ops12 (F := F)) (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))))))))) h14_main_arg1 h14_main_arg7 h14_main_arg8 h14_main_arg9 h14_main_arg10 h14_main_arg11 h14_main_arg12 h14_main_arg13 h14_main_arg14 h14_main_arg15 h14_main_arg16 h14_main_arg17 h14_main_v3 h14_main_v6 h14_main_v89 h14_main_v95 h14_main_v96 h14_main_cst_23
  obtain ⟨h16_main_arg1, h16_main_arg7, h16_main_arg8, h16_main_arg9, h16_main_arg10, h16_main_arg11, h16_main_arg12, h16_main_arg13, h16_main_arg14, h16_main_arg15, h16_main_arg16, h16_main_arg17, h16_main_v3, h16_main_v6, h16_main_v89, h16_main_v112⟩ := seg16 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (after (ops15 (F := F)) (after (ops14 (F := F)) (after (ops13 (F := F)) (after (ops12 (F := F)) (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))))))))) h15_main_arg1 h15_main_arg7 h15_main_arg8 h15_main_arg9 h15_main_arg10 h15_main_arg11 h15_main_arg12 h15_main_arg13 h15_main_arg14 h15_main_arg15 h15_main_arg16 h15_main_arg17 h15_main_v3 h15_main_v6 h15_main_v89 h15_main_v97
  obtain ⟨h17_main_arg1, h17_main_arg8, h17_main_arg9, h17_main_arg10, h17_main_arg11, h17_main_arg12, h17_main_arg13, h17_main_arg14, h17_main_arg15, h17_main_arg16, h17_main_arg17, h17_main_v128⟩ := seg17 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (after (ops16 (F := F)) (after (ops15 (F := F)) (after (ops14 (F := F)) (after (ops13 (F := F)) (after (ops12 (F := F)) (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))))))))))) h16_main_arg1 h16_main_arg7 h16_main_arg8 h16_main_arg9 h16_main_arg10 h16_main_arg11 h16_main_arg12 h16_main_arg13 h16_main_arg14 h16_main_arg15 h16_main_arg16 h16_main_arg17 h16_main_v3 h16_main_v6 h16_main_v89 h16_main_v112
  obtain ⟨h18_main_arg8, h18_main_arg9, h18_main_arg10, h18_main_arg11, h18_main_arg12, h18_main_arg13, h18_main_arg14, h18_main_arg15, h18_main_arg16, h18_main_arg17, h18_main_v139, h18_main_v146⟩ := seg18 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (after (ops17 (F := F)) (after (ops16 (F := F)) (after (ops15 (F := F)) (after (ops14 (F := F)) (after (ops13 (F := F)) (after (ops12 (F := F)) (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))))))))))) h17_main_arg1 h17_main_arg8 h17_main_arg9 h17_main_arg10 h17_main_arg11 h17_main_arg12 h17_main_arg13 h17_main_arg14 h17_main_arg15 h17_main_arg16 h17_main_arg17 h17_main_v128
  obtain ⟨h19_main_arg8, h19_main_arg9, h19_main_arg10, h19_main_arg11, h19_main_arg12, h19_main_arg13, h19_main_arg14, h19_main_arg15, h19_main_arg16, h19_main_arg17, h19_main_v147⟩ := seg19 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (after (ops18 (F := F)) (after (ops17 (F := F)) (after (ops16 (F := F)) (after (ops15 (F := F)) (after (ops14 (F := F)) (after (ops13 (F := F)) (after (ops12 (F := F)) (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))))))))))))) h18_main_arg8 h18_main_arg9 h18_main_arg10 h18_main_arg11 h18_main_arg12 h18_main_arg13 h18_main_arg14 h18_main_arg15 h18_main_arg16 h18_main_arg17 h18_main_v139 h18_main_v146
  obtain ⟨h20_main_arg10, h20_main_arg11, h20_main_arg12, h20_main_arg13, h20_main_arg14, h20_main_arg15, h20_main_arg16, h20_main_arg17, h20_main_v151⟩ := seg20 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (after (ops19 (F := F)) (after (ops18 (F := F)) (after (ops17 (F := F)) (after (ops16 (F := F)) (after (ops15 (F := F)) (after (ops14 (F := F)) (after (ops13 (F := F)) (after (ops12 (F := F)) (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))))))))))))) h19_main_arg8 h19_main_arg9 h19_main_arg10 h19_main_arg11 h19_main_arg12 h19_main_arg13 h19_main_arg14 h19_main_arg15 h19_main_arg16 h19_main_arg17 h19_main_v147
  obtain ⟨h21_main_arg10, h21_main_arg11, h21_main_arg12, h21_main_arg13, h21_main_arg14, h21_main_arg15, h21_main_arg16, h21_main_arg17, h21_main_v152⟩ := seg21 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (after (ops20 (F := F)) (after (ops19 (F := F)) (after (ops18 (F := F)) (after (ops17 (F := F)) (after (ops16 (F := F)) (after (ops15 (F := F)) (after (ops14 (F := F)) (after (ops13 (F := F)) (after (ops12 (F := F)) (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))))))))))))))) h20_main_arg10 h20_main_arg11 h20_main_arg12 h20_main_arg13 h20_main_arg14 h20_main_arg15 h20_main_arg16 h20_main_arg17 h20_main_v151
  obtain ⟨h22_main_arg10, h22_main_arg11, h22_main_arg12, h22_main_arg13, h22_main_arg14, h22_main_arg15, h22_main_arg16, h22_main_arg17, h22_main_v152, h22_main_v155, h22_main_v162⟩ := seg22 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (after (ops21 (F := F)) (after (ops20 (F := F)) (after (ops19 (F := F)) (after (ops18 (F := F)) (after (ops17 (F := F)) (after (ops16 (F := F)) (after (ops15 (F := F)) (after (ops14 (F := F)) (after (ops13 (F := F)) (after (ops12 (F := F)) (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))))))))))))))) h21_main_arg10 h21_main_arg11 h21_main_arg12 h21_main_arg13 h21_main_arg14 h21_main_arg15 h21_main_arg16 h21_main_arg17 h21_main_v152
  obtain ⟨h23_main_arg14, h23_main_arg15, h23_main_arg16, h23_main_arg17, h23_main_v181⟩ := seg23 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (after (ops22 (F := F)) (after (ops21 (F := F)) (after (ops20 (F := F)) (after (ops19 (F := F)) (after (ops18 (F := F)) (after (ops17 (F := F)) (after (ops16 (F := F)) (after (ops15 (F := F)) (after (ops14 (F := F)) (after (ops13 (F := F)) (after (ops12 (F := F)) (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))))))))))))))))) h22_main_arg10 h22_main_arg11 h22_main_arg12 h22_main_arg13 h22_main_arg14 h22_main_arg15 h22_main_arg16 h22_main_arg17 h22_main_v152 h22_main_v155 h22_main_v162
  obtain ⟨h24_main_arg14, h24_main_arg15, h24_main_arg16, h24_main_arg17, h24_main_v182⟩ := seg24 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (after (ops23 (F := F)) (after (ops22 (F := F)) (after (ops21 (F := F)) (after (ops20 (F := F)) (after (ops19 (F := F)) (after (ops18 (F := F)) (after (ops17 (F := F)) (after (ops16 (F := F)) (after (ops15 (F := F)) (after (ops14 (F := F)) (after (ops13 (F := F)) (after (ops12 (F := F)) (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))))))))))))))))) h23_main_arg14 h23_main_arg15 h23_main_arg16 h23_main_arg17 h23_main_v181
  obtain ⟨h25_main_arg14, h25_main_arg15, h25_main_arg16, h25_main_arg17, h25_main_v182, h25_main_v185, h25_main_v192⟩ := seg25 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (after (ops24 (F := F)) (after (ops23 (F := F)) (after (ops22 (F := F)) (after (ops21 (F := F)) (after (ops20 (F := F)) (after (ops19 (F := F)) (after (ops18 (F := F)) (after (ops17 (F := F)) (after (ops16 (F := F)) (after (ops15 (F := F)) (after (ops14 (F := F)) (after (ops13 (F := F)) (after (ops12 (F := F)) (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))))))))))))))))))) h24_main_arg14 h24_main_arg15 h24_main_arg16 h24_main_arg17 h24_main_v182
  have h26_main_v211 := seg26 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (after (ops25 (F := F)) (after (ops24 (F := F)) (after (ops23 (F := F)) (after (ops22 (F := F)) (after (ops21 (F := F)) (after (ops20 (F := F)) (after (ops19 (F := F)) (after (ops18 (F := F)) (after (ops17 (F := F)) (after (ops16 (F := F)) (after (ops15 (F := F)) (after (ops14 (F := F)) (after (ops13 (F := F)) (after (ops12 (F := F)) (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))))))))))))))))))) h25_main_arg14 h25_main_arg15 h25_main_arg16 h25_main_arg17 h25_main_v182 h25_main_v185 h25_main_v192
  exact h26_main_v211

end Cert.ReferenceIdeal.RefFold

end
-- ==== Proof.BridgeA.lean ====
/-
  The kernel's host glue before its first region, read off the fold of buffer contents: the source and target node of every
  message (the edge list followed by the self loops) and the symmetric normalisation dinv[row] * dinv[col] (dinv the
  reciprocal square root of the in-degree where it is positive, zero elsewhere) are the same functions of the edge list as
  the reference's, operation for operation — at any float instance.
-/
import proofs.«123034_j51127290692283_2_alg».proof.Proof.Gen.KernelIdeal.Frame
import proofs.«123034_j51127290692283_2_alg».proof.Proof.RefReadP

set_option maxRecDepth 16384

noncomputable section

namespace Cert.KernelIdeal.Bridge

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F]
variable (m : (ℓ : Loc nD τ sig) → Buf (Elt F) ℓ) (ρ : Dev nD → PrngReg) (c : Dev nD)

/-- The message sources: the edge list's first row followed by 0 … 99999. -/
theorem w1_v3 : W1 m ρ c (Proc.devRef .tc main_v3) = Cert.ReferenceIdeal.ReadP.val_main_v3 (F := F) (m ((c.tc : Thread nD τ).loc main_arg1)) := by
  after_results_simp
  rfl
/-- The message targets: the edge list's second row followed by 0 … 99999. -/
theorem w1_v6 : W1 m ρ c (Proc.devRef .tc main_v6) = Cert.ReferenceIdeal.ReadP.val_main_v6 (F := F) (m ((c.tc : Thread nD τ).loc main_arg1)) := by
  after_results_simp
  rfl
/-- Where the in-degree is positive. -/
theorem w1_v12 : W1 m ρ c (Proc.devRef .tc main_v12) = Cert.ReferenceIdeal.ReadP.val_main_v13 (F := F) (m ((c.tc : Thread nD τ).loc main_arg1)) := by
  after_results_simp
  rfl
/-- The reciprocal square root of the in-degree. -/
theorem w1_v13 : W1 m ρ c (Proc.devRef .tc main_v13) = Cert.ReferenceIdeal.ReadP.val_main_v14 (F := F) (m ((c.tc : Thread nD τ).loc main_arg1)) := by
  after_results_simp
  rfl
theorem w1_cst2 : W1 m ρ c (Proc.devRef .tc main_cst_2) = Cert.ReferenceIdeal.ReadP.val_main_cst_2 (F := F) := by
  after_results_simp
  rfl
/-- dinv: the reciprocal square root of the in-degree where that is positive, zero elsewhere. -/
theorem w2_v14 : W2 m ρ c (Proc.devRef .tc main_v14) = Cert.ReferenceIdeal.ReadP.val_main_v15 (F := F) (m ((c.tc : Thread nD τ).loc main_arg1)) := by
  have h0 := w1_v12 m ρ c
  have h1 := w1_v13 m ρ c
  have h2 := w1_cst2 m ρ c
  show StableHlo.after hostOps0_1 (W1 m ρ c) (Proc.devRef .tc main_v14) = _
  generalize W1 m ρ c = X at h0 h1 h2 ⊢
  after_results_simp
  simp only [h0, h1, h2]
  rfl
theorem w2_v3 : W2 m ρ c (Proc.devRef .tc main_v3) = Cert.ReferenceIdeal.ReadP.val_main_v3 (F := F) (m ((c.tc : Thread nD τ).loc main_arg1)) := by
  have h0 := w1_v3 m ρ c
  show StableHlo.after hostOps0_1 (W1 m ρ c) (Proc.devRef .tc main_v3) = _
  generalize W1 m ρ c = X at h0 ⊢
  after_results_simp
  exact h0
theorem w2_v6 : W2 m ρ c (Proc.devRef .tc main_v6) = Cert.ReferenceIdeal.ReadP.val_main_v6 (F := F) (m ((c.tc : Thread nD τ).loc main_arg1)) := by
  have h0 := w1_v6 m ρ c
  show StableHlo.after hostOps0_1 (W1 m ρ c) (Proc.devRef .tc main_v6) = _
  generalize W1 m ρ c = X at h0 ⊢
  after_results_simp
  exact h0
/-- The normalisation of every message: dinv at its source times dinv at its target. -/
theorem w3_v29 : W3 m ρ c (Proc.devRef .tc main_v29) = Cert.ReferenceIdeal.ReadP.val_main_v30 (F := F) (m ((c.tc : Thread nD τ).loc main_arg1)) := by
  have h0 := w2_v14 m ρ c
  have h1 := w2_v3 m ρ c
  have h2 := w2_v6 m ρ c
  show StableHlo.after hostOps0_2 (W2 m ρ c) (Proc.devRef .tc main_v29) = _
  generalize W2 m ρ c = X at h0 h1 h2 ⊢
  after_results_simp
  simp only [h0, h1, h2]
  rfl
theorem w3_v3 : W3 m ρ c (Proc.devRef .tc main_v3) = Cert.ReferenceIdeal.ReadP.val_main_v3 (F := F) (m ((c.tc : Thread nD τ).loc main_arg1)) := by
  have h0 := w2_v3 m ρ c
  show StableHlo.after hostOps0_2 (W2 m ρ c) (Proc.devRef .tc main_v3) = _
  generalize W2 m ρ c = X at h0 ⊢
  after_results_simp
  exact h0
theorem w3_v6 : W3 m ρ c (Proc.devRef .tc main_v6) = Cert.ReferenceIdeal.ReadP.val_main_v6 (F := F) (m ((c.tc : Thread nD τ).loc main_arg1)) := by
  have h0 := w2_v6 m ρ c
  show StableHlo.after hostOps0_2 (W2 m ρ c) (Proc.devRef .tc main_v6) = _
  generalize W2 m ρ c = X at h0 ⊢
  after_results_simp
  exact h0
theorem w3_arg0 : W3 m ρ c (Proc.devRef .tc main_arg0) = (m ((c.tc : Thread nD τ).loc main_arg0)) := by
  after_results_simp
theorem w3_arg1 : W3 m ρ c (Proc.devRef .tc main_arg1) = (m ((c.tc : Thread nD τ).loc main_arg1)) := by
  after_results_simp
theorem w3_arg2 : W3 m ρ c (Proc.devRef .tc main_arg2) = (m ((c.tc : Thread nD τ).loc main_arg2)) := by
  after_results_simp
theorem w3_arg3 : W3 m ρ c (Proc.devRef .tc main_arg3) = (m ((c.tc : Thread nD τ).loc main_arg3)) := by
  after_results_simp
theorem w3_arg4 : W3 m ρ c (Proc.devRef .tc main_arg4) = (m ((c.tc : Thread nD τ).loc main_arg4)) := by
  after_results_simp
theorem w3_arg5 : W3 m ρ c (Proc.devRef .tc main_arg5) = (m ((c.tc : Thread nD τ).loc main_arg5)) := by
  after_results_simp
theorem w3_arg6 : W3 m ρ c (Proc.devRef .tc main_arg6) = (m ((c.tc : Thread nD τ).loc main_arg6)) := by
  after_results_simp
theorem w3_arg7 : W3 m ρ c (Proc.devRef .tc main_arg7) = (m ((c.tc : Thread nD τ).loc main_arg7)) := by
  after_results_simp
theorem w3_arg8 : W3 m ρ c (Proc.devRef .tc main_arg8) = (m ((c.tc : Thread nD τ).loc main_arg8)) := by
  after_results_simp
theorem w3_arg9 : W3 m ρ c (Proc.devRef .tc main_arg9) = (m ((c.tc : Thread nD τ).loc main_arg9)) := by
  after_results_simp
theorem w3_arg10 : W3 m ρ c (Proc.devRef .tc main_arg10) = (m ((c.tc : Thread nD τ).loc main_arg10)) := by
  after_results_simp
theorem w3_arg11 : W3 m ρ c (Proc.devRef .tc main_arg11) = (m ((c.tc : Thread nD τ).loc main_arg11)) := by
  after_results_simp
theorem w3_arg12 : W3 m ρ c (Proc.devRef .tc main_arg12) = (m ((c.tc : Thread nD τ).loc main_arg12)) := by
  after_results_simp
theorem w3_arg13 : W3 m ρ c (Proc.devRef .tc main_arg13) = (m ((c.tc : Thread nD τ).loc main_arg13)) := by
  after_results_simp
theorem w3_arg14 : W3 m ρ c (Proc.devRef .tc main_arg14) = (m ((c.tc : Thread nD τ).loc main_arg14)) := by
  after_results_simp
theorem w3_arg15 : W3 m ρ c (Proc.devRef .tc main_arg15) = (m ((c.tc : Thread nD τ).loc main_arg15)) := by
  after_results_simp
theorem w3_arg16 : W3 m ρ c (Proc.devRef .tc main_arg16) = (m ((c.tc : Thread nD τ).loc main_arg16)) := by
  after_results_simp
theorem w3_arg17 : W3 m ρ c (Proc.devRef .tc main_arg17) = (m ((c.tc : Thread nD τ).loc main_arg17)) := by
  after_results_simp

end Cert.KernelIdeal.Bridge

end
-- ==== Proof.KKeep.lean ====
/-
  Buffers that the kernel's later segments do not write keep their contents across them: the arguments stay as launched, and
  the message sources, targets and normalisation stay what the first stretch computed.
-/
import proofs.«123034_j51127290692283_2_alg».proof.Proof.BridgeA

set_option maxRecDepth 16384

noncomputable section

namespace Cert.KernelIdeal.Bridge

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F]
variable (m : (ℓ : Loc nD τ sig) → Buf (Elt F) ℓ) (ρ : Dev nD → PrngReg) (c : Dev nD)

theorem w4_arg3 : W4 m ρ c (Proc.devRef .tc main_arg3) = (m ((c.tc : Thread nD τ).loc main_arg3)) :=
  (W4_of_ne m ρ c main_arg3 (by decide)).trans (w3_arg3 m ρ c)
theorem w4_arg4 : W4 m ρ c (Proc.devRef .tc main_arg4) = (m ((c.tc : Thread nD τ).loc main_arg4)) :=
  (W4_of_ne m ρ c main_arg4 (by decide)).trans (w3_arg4 m ρ c)
theorem w5_arg4 : W5 m ρ c (Proc.devRef .tc main_arg4) = (m ((c.tc : Thread nD τ).loc main_arg4)) := by
  have h0 := w4_arg4 m ρ c
  show StableHlo.after hostOps1 (W4 m ρ c) (Proc.devRef .tc main_arg4) = _
  generalize W4 m ρ c = X at h0 ⊢
  after_results_simp
  exact h0
theorem w6_arg4 : W6 m ρ c (Proc.devRef .tc main_arg4) = (m ((c.tc : Thread nD τ).loc main_arg4)) := by
  have h0 := w5_arg4 m ρ c
  show StableHlo.after hostOps1_1 (W5 m ρ c) (Proc.devRef .tc main_arg4) = _
  generalize W5 m ρ c = X at h0 ⊢
  after_results_simp
  exact h0
theorem w4_arg5 : W4 m ρ c (Proc.devRef .tc main_arg5) = (m ((c.tc : Thread nD τ).loc main_arg5)) :=
  (W4_of_ne m ρ c main_arg5 (by decide)).trans (w3_arg5 m ρ c)
theorem w5_arg5 : W5 m ρ c (Proc.devRef .tc main_arg5) = (m ((c.tc : Thread nD τ).loc main_arg5)) := by
  have h0 := w4_arg5 m ρ c
  show StableHlo.after hostOps1 (W4 m ρ c) (Proc.devRef .tc main_arg5) = _
  generalize W4 m ρ c = X at h0 ⊢
  after_results_simp
  exact h0
theorem w6_arg5 : W6 m ρ c (Proc.devRef .tc main_arg5) = (m ((c.tc : Thread nD τ).loc main_arg5)) := by
  have h0 := w5_arg5 m ρ c
  show StableHlo.after hostOps1_1 (W5 m ρ c) (Proc.devRef .tc main_arg5) = _
  generalize W5 m ρ c = X at h0 ⊢
  after_results_simp
  exact h0
theorem w7_arg5 : W7 m ρ c (Proc.devRef .tc main_arg5) = (m ((c.tc : Thread nD τ).loc main_arg5)) :=
  (W7_of_ne m ρ c main_arg5 (by decide)).trans (w6_arg5 m ρ c)
theorem w4_arg6 : W4 m ρ c (Proc.devRef .tc main_arg6) = (m ((c.tc : Thread nD τ).loc main_arg6)) :=
  (W4_of_ne m ρ c main_arg6 (by decide)).trans (w3_arg6 m ρ c)
theorem w5_arg6 : W5 m ρ c (Proc.devRef .tc main_arg6) = (m ((c.tc : Thread nD τ).loc main_arg6)) := by
  have h0 := w4_arg6 m ρ c
  show StableHlo.after hostOps1 (W4 m ρ c) (Proc.devRef .tc main_arg6) = _
  generalize W4 m ρ c = X at h0 ⊢
  after_results_simp
  exact h0
theorem w6_arg6 : W6 m ρ c (Proc.devRef .tc main_arg6) = (m ((c.tc : Thread nD τ).loc main_arg6)) := by
  have h0 := w5_arg6 m ρ c
  show StableHlo.after hostOps1_1 (W5 m ρ c) (Proc.devRef .tc main_arg6) = _
  generalize W5 m ρ c = X at h0 ⊢
  after_results_simp
  exact h0
theorem w7_arg6 : W7 m ρ c (Proc.devRef .tc main_arg6) = (m ((c.tc : Thread nD τ).loc main_arg6)) :=
  (W7_of_ne m ρ c main_arg6 (by decide)).trans (w6_arg6 m ρ c)
theorem w8_arg6 : W8 m ρ c (Proc.devRef .tc main_arg6) = (m ((c.tc : Thread nD τ).loc main_arg6)) := by
  have h0 := w7_arg6 m ρ c
  show StableHlo.after hostOps2 (W7 m ρ c) (Proc.devRef .tc main_arg6) = _
  generalize W7 m ρ c = X at h0 ⊢
  after_results_simp
  exact h0
theorem w9_arg6 : W9 m ρ c (Proc.devRef .tc main_arg6) = (m ((c.tc : Thread nD τ).loc main_arg6)) := by
  have h0 := w8_arg6 m ρ c
  show StableHlo.after hostOps2_1 (W8 m ρ c) (Proc.devRef .tc main_arg6) = _
  generalize W8 m ρ c = X at h0 ⊢
  after_results_simp
  exact h0
theorem w4_arg7 : W4 m ρ c (Proc.devRef .tc main_arg7) = (m ((c.tc : Thread nD τ).loc main_arg7)) :=
  (W4_of_ne m ρ c main_arg7 (by decide)).trans (w3_arg7 m ρ c)
theorem w5_arg7 : W5 m ρ c (Proc.devRef .tc main_arg7) = (m ((c.tc : Thread nD τ).loc main_arg7)) := by
  have h0 := w4_arg7 m ρ c
  show StableHlo.after hostOps1 (W4 m ρ c) (Proc.devRef .tc main_arg7) = _
  generalize W4 m ρ c = X at h0 ⊢
  after_results_simp
  exact h0
theorem w6_arg7 : W6 m ρ c (Proc.devRef .tc main_arg7) = (m ((c.tc : Thread nD τ).loc main_arg7)) := by
  have h0 := w5_arg7 m ρ c
  show StableHlo.after hostOps1_1 (W5 m ρ c) (Proc.devRef .tc main_arg7) = _
  generalize W5 m ρ c = X at h0 ⊢
  after_results_simp
  exact h0
theorem w7_arg7 : W7 m ρ c (Proc.devRef .tc main_arg7) = (m ((c.tc : Thread nD τ).loc main_arg7)) :=
  (W7_of_ne m ρ c main_arg7 (by decide)).trans (w6_arg7 m ρ c)
theorem w8_arg7 : W8 m ρ c (Proc.devRef .tc main_arg7) = (m ((c.tc : Thread nD τ).loc main_arg7)) := by
  have h0 := w7_arg7 m ρ c
  show StableHlo.after hostOps2 (W7 m ρ c) (Proc.devRef .tc main_arg7) = _
  generalize W7 m ρ c = X at h0 ⊢
  after_results_simp
  exact h0
theorem w9_arg7 : W9 m ρ c (Proc.devRef .tc main_arg7) = (m ((c.tc : Thread nD τ).loc main_arg7)) := by
  have h0 := w8_arg7 m ρ c
  show StableHlo.after hostOps2_1 (W8 m ρ c) (Proc.devRef .tc main_arg7) = _
  generalize W8 m ρ c = X at h0 ⊢
  after_results_simp
  exact h0
theorem w10_arg7 : W10 m ρ c (Proc.devRef .tc main_arg7) = (m ((c.tc : Thread nD τ).loc main_arg7)) :=
  (W10_of_ne m ρ c main_arg7 (by decide)).trans (w9_arg7 m ρ c)
theorem w4_arg1 : W4 m ρ c (Proc.devRef .tc main_arg1) = (m ((c.tc : Thread nD τ).loc main_arg1)) :=
  (W4_of_ne m ρ c main_arg1 (by decide)).trans (w3_arg1 m ρ c)
theorem w5_arg1 : W5 m ρ c (Proc.devRef .tc main_arg1) = (m ((c.tc : Thread nD τ).loc main_arg1)) := by
  have h0 := w4_arg1 m ρ c
  show StableHlo.after hostOps1 (W4 m ρ c) (Proc.devRef .tc main_arg1) = _
  generalize W4 m ρ c = X at h0 ⊢
  after_results_simp
  exact h0
theorem w6_arg1 : W6 m ρ c (Proc.devRef .tc main_arg1) = (m ((c.tc : Thread nD τ).loc main_arg1)) := by
  have h0 := w5_arg1 m ρ c
  show StableHlo.after hostOps1_1 (W5 m ρ c) (Proc.devRef .tc main_arg1) = _
  generalize W5 m ρ c = X at h0 ⊢
  after_results_simp
  exact h0
theorem w7_arg1 : W7 m ρ c (Proc.devRef .tc main_arg1) = (m ((c.tc : Thread nD τ).loc main_arg1)) :=
  (W7_of_ne m ρ c main_arg1 (by decide)).trans (w6_arg1 m ρ c)
theorem w8_arg1 : W8 m ρ c (Proc.devRef .tc main_arg1) = (m ((c.tc : Thread nD τ).loc main_arg1)) := by
  have h0 := w7_arg1 m ρ c
  show StableHlo.after hostOps2 (W7 m ρ c) (Proc.devRef .tc main_arg1) = _
  generalize W7 m ρ c = X at h0 ⊢
  after_results_simp
  exact h0
theorem w9_arg1 : W9 m ρ c (Proc.devRef .tc main_arg1) = (m ((c.tc : Thread nD τ).loc main_arg1)) := by
  have h0 := w8_arg1 m ρ c
  show StableHlo.after hostOps2_1 (W8 m ρ c) (Proc.devRef .tc main_arg1) = _
  generalize W8 m ρ c = X at h0 ⊢
  after_results_simp
  exact h0
theorem w10_arg1 : W10 m ρ c (Proc.devRef .tc main_arg1) = (m ((c.tc : Thread nD τ).loc main_arg1)) :=
  (W10_of_ne m ρ c main_arg1 (by decide)).trans (w9_arg1 m ρ c)
theorem w4_arg8 : W4 m ρ c (Proc.devRef .tc main_arg8) = (m ((c.tc : Thread nD τ).loc main_arg8)) :=
  (W4_of_ne m ρ c main_arg8 (by decide)).trans (w3_arg8 m ρ c)
theorem w5_arg8 : W5 m ρ c (Proc.devRef .tc main_arg8) = (m ((c.tc : Thread nD τ).loc main_arg8)) := by
  have h0 := w4_arg8 m ρ c
  show StableHlo.after hostOps1 (W4 m ρ c) (Proc.devRef .tc main_arg8) = _
  generalize W4 m ρ c = X at h0 ⊢
  after_results_simp
  exact h0
theorem w6_arg8 : W6 m ρ c (Proc.devRef .tc main_arg8) = (m ((c.tc : Thread nD τ).loc main_arg8)) := by
  have h0 := w5_arg8 m ρ c
  show StableHlo.after hostOps1_1 (W5 m ρ c) (Proc.devRef .tc main_arg8) = _
  generalize W5 m ρ c = X at h0 ⊢
  after_results_simp
  exact h0
theorem w7_arg8 : W7 m ρ c (Proc.devRef .tc main_arg8) = (m ((c.tc : Thread nD τ).loc main_arg8)) :=
  (W7_of_ne m ρ c main_arg8 (by decide)).trans (w6_arg8 m ρ c)
theorem w8_arg8 : W8 m ρ c (Proc.devRef .tc main_arg8) = (m ((c.tc : Thread nD τ).loc main_arg8)) := by
  have h0 := w7_arg8 m ρ c
  show StableHlo.after hostOps2 (W7 m ρ c) (Proc.devRef .tc main_arg8) = _
  generalize W7 m ρ c = X at h0 ⊢
  after_results_simp
  exact h0
theorem w9_arg8 : W9 m ρ c (Proc.devRef .tc main_arg8) = (m ((c.tc : Thread nD τ).loc main_arg8)) := by
  have h0 := w8_arg8 m ρ c
  show StableHlo.after hostOps2_1 (W8 m ρ c) (Proc.devRef .tc main_arg8) = _
  generalize W8 m ρ c = X at h0 ⊢
  after_results_simp
  exact h0
theorem w10_arg8 : W10 m ρ c (Proc.devRef .tc main_arg8) = (m ((c.tc : Thread nD τ).loc main_arg8)) :=
  (W10_of_ne m ρ c main_arg8 (by decide)).trans (w9_arg8 m ρ c)
theorem w4_arg9 : W4 m ρ c (Proc.devRef .tc main_arg9) = (m ((c.tc : Thread nD τ).loc main_arg9)) :=
  (W4_of_ne m ρ c main_arg9 (by decide)).trans (w3_arg9 m ρ c)
theorem w5_arg9 : W5 m ρ c (Proc.devRef .tc main_arg9) = (m ((c.tc : Thread nD τ).loc main_arg9)) := by
  have h0 := w4_arg9 m ρ c
  show StableHlo.after hostOps1 (W4 m ρ c) (Proc.devRef .tc main_arg9) = _
  generalize W4 m ρ c = X at h0 ⊢
  after_results_simp
  exact h0
theorem w6_arg9 : W6 m ρ c (Proc.devRef .tc main_arg9) = (m ((c.tc : Thread nD τ).loc main_arg9)) := by
  have h0 := w5_arg9 m ρ c
  show StableHlo.after hostOps1_1 (W5 m ρ c) (Proc.devRef .tc main_arg9) = _
  generalize W5 m ρ c = X at h0 ⊢
  after_results_simp
  exact h0
theorem w7_arg9 : W7 m ρ c (Proc.devRef .tc main_arg9) = (m ((c.tc : Thread nD τ).loc main_arg9)) :=
  (W7_of_ne m ρ c main_arg9 (by decide)).trans (w6_arg9 m ρ c)
theorem w8_arg9 : W8 m ρ c (Proc.devRef .tc main_arg9) = (m ((c.tc : Thread nD τ).loc main_arg9)) := by
  have h0 := w7_arg9 m ρ c
  show StableHlo.after hostOps2 (W7 m ρ c) (Proc.devRef .tc main_arg9) = _
  generalize W7 m ρ c = X at h0 ⊢
  after_results_simp
  exact h0
theorem w9_arg9 : W9 m ρ c (Proc.devRef .tc main_arg9) = (m ((c.tc : Thread nD τ).loc main_arg9)) := by
  have h0 := w8_arg9 m ρ c
  show StableHlo.after hostOps2_1 (W8 m ρ c) (Proc.devRef .tc main_arg9) = _
  generalize W8 m ρ c = X at h0 ⊢
  after_results_simp
  exact h0
theorem w10_arg9 : W10 m ρ c (Proc.devRef .tc main_arg9) = (m ((c.tc : Thread nD τ).loc main_arg9)) :=
  (W10_of_ne m ρ c main_arg9 (by decide)).trans (w9_arg9 m ρ c)
theorem w4_arg10 : W4 m ρ c (Proc.devRef .tc main_arg10) = (m ((c.tc : Thread nD τ).loc main_arg10)) :=
  (W4_of_ne m ρ c main_arg10 (by decide)).trans (w3_arg10 m ρ c)
theorem w5_arg10 : W5 m ρ c (Proc.devRef .tc main_arg10) = (m ((c.tc : Thread nD τ).loc main_arg10)) := by
  have h0 := w4_arg10 m ρ c
  show StableHlo.after hostOps1 (W4 m ρ c) (Proc.devRef .tc main_arg10) = _
  generalize W4 m ρ c = X at h0 ⊢
  after_results_simp
  exact h0
theorem w6_arg10 : W6 m ρ c (Proc.devRef .tc main_arg10) = (m ((c.tc : Thread nD τ).loc main_arg10)) := by
  have h0 := w5_arg10 m ρ c
  show StableHlo.after hostOps1_1 (W5 m ρ c) (Proc.devRef .tc main_arg10) = _
  generalize W5 m ρ c = X at h0 ⊢
  after_results_simp
  exact h0
theorem w7_arg10 : W7 m ρ c (Proc.devRef .tc main_arg10) = (m ((c.tc : Thread nD τ).loc main_arg10)) :=
  (W7_of_ne m ρ c main_arg10 (by decide)).trans (w6_arg10 m ρ c)
theorem w8_arg10 : W8 m ρ c (Proc.devRef .tc main_arg10) = (m ((c.tc : Thread nD τ).loc main_arg10)) := by
  have h0 := w7_arg10 m ρ c
  show StableHlo.after hostOps2 (W7 m ρ c) (Proc.devRef .tc main_arg10) = _
  generalize W7 m ρ c = X at h0 ⊢
  after_results_simp
  exact h0
theorem w9_arg10 : W9 m ρ c (Proc.devRef .tc main_arg10) = (m ((c.tc : Thread nD τ).loc main_arg10)) := by
  have h0 := w8_arg10 m ρ c
  show StableHlo.after hostOps2_1 (W8 m ρ c) (Proc.devRef .tc main_arg10) = _
  generalize W8 m ρ c = X at h0 ⊢
  after_results_simp
  exact h0
theorem w10_arg10 : W10 m ρ c (Proc.devRef .tc main_arg10) = (m ((c.tc : Thread nD τ).loc main_arg10)) :=
  (W10_of_ne m ρ c main_arg10 (by decide)).trans (w9_arg10 m ρ c)
theorem w11_arg10 : W11 m ρ c (Proc.devRef .tc main_arg10) = (m ((c.tc : Thread nD τ).loc main_arg10)) := by
  have h0 := w10_arg10 m ρ c
  show StableHlo.after hostOps3 (W10 m ρ c) (Proc.devRef .tc main_arg10) = _
  generalize W10 m ρ c = X at h0 ⊢
  after_results_simp
  exact h0
theorem w12_arg10 : W12 m ρ c (Proc.devRef .tc main_arg10) = (m ((c.tc : Thread nD τ).loc main_arg10)) :=
  (W12_of_ne m ρ c main_arg10 (by decide)).trans (w11_arg10 m ρ c)
theorem w4_arg11 : W4 m ρ c (Proc.devRef .tc main_arg11) = (m ((c.tc : Thread nD τ).loc main_arg11)) :=
  (W4_of_ne m ρ c main_arg11 (by decide)).trans (w3_arg11 m ρ c)
theorem w5_arg11 : W5 m ρ c (Proc.devRef .tc main_arg11) = (m ((c.tc : Thread nD τ).loc main_arg11)) := by
  have h0 := w4_arg11 m ρ c
  show StableHlo.after hostOps1 (W4 m ρ c) (Proc.devRef .tc main_arg11) = _
  generalize W4 m ρ c = X at h0 ⊢
  after_results_simp
  exact h0
theorem w6_arg11 : W6 m ρ c (Proc.devRef .tc main_arg11) = (m ((c.tc : Thread nD τ).loc main_arg11)) := by
  have h0 := w5_arg11 m ρ c
  show StableHlo.after hostOps1_1 (W5 m ρ c) (Proc.devRef .tc main_arg11) = _
  generalize W5 m ρ c = X at h0 ⊢
  after_results_simp
  exact h0
theorem w7_arg11 : W7 m ρ c (Proc.devRef .tc main_arg11) = (m ((c.tc : Thread nD τ).loc main_arg11)) :=
  (W7_of_ne m ρ c main_arg11 (by decide)).trans (w6_arg11 m ρ c)
theorem w8_arg11 : W8 m ρ c (Proc.devRef .tc main_arg11) = (m ((c.tc : Thread nD τ).loc main_arg11)) := by
  have h0 := w7_arg11 m ρ c
  show StableHlo.after hostOps2 (W7 m ρ c) (Proc.devRef .tc main_arg11) = _
  generalize W7 m ρ c = X at h0 ⊢
  after_results_simp
  exact h0
theorem w9_arg11 : W9 m ρ c (Proc.devRef .tc main_arg11) = (m ((c.tc : Thread nD τ).loc main_arg11)) := by
  have h0 := w8_arg11 m ρ c
  show StableHlo.after hostOps2_1 (W8 m ρ c) (Proc.devRef .tc main_arg11) = _
  generalize W8 m ρ c = X at h0 ⊢
  after_results_simp
  exact h0
theorem w10_arg11 : W10 m ρ c (Proc.devRef .tc main_arg11) = (m ((c.tc : Thread nD τ).loc main_arg11)) :=
  (W10_of_ne m ρ c main_arg11 (by decide)).trans (w9_arg11 m ρ c)
theorem w11_arg11 : W11 m ρ c (Proc.devRef .tc main_arg11) = (m ((c.tc : Thread nD τ).loc main_arg11)) := by
  have h0 := w10_arg11 m ρ c
  show StableHlo.after hostOps3 (W10 m ρ c) (Proc.devRef .tc main_arg11) = _
  generalize W10 m ρ c = X at h0 ⊢
  after_results_simp
  exact h0
theorem w12_arg11 : W12 m ρ c (Proc.devRef .tc main_arg11) = (m ((c.tc : Thread nD τ).loc main_arg11)) :=
  (W12_of_ne m ρ c main_arg11 (by decide)).trans (w11_arg11 m ρ c)
theorem w4_arg13 : W4 m ρ c (Proc.devRef .tc main_arg13) = (m ((c.tc : Thread nD τ).loc main_arg13)) :=
  (W4_of_ne m ρ c main_arg13 (by decide)).trans (w3_arg13 m ρ c)
theorem w5_arg13 : W5 m ρ c (Proc.devRef .tc main_arg13) = (m ((c.tc : Thread nD τ).loc main_arg13)) := by
  have h0 := w4_arg13 m ρ c
  show StableHlo.after hostOps1 (W4 m ρ c) (Proc.devRef .tc main_arg13) = _
  generalize W4 m ρ c = X at h0 ⊢
  after_results_simp
  exact h0
theorem w6_arg13 : W6 m ρ c (Proc.devRef .tc main_arg13) = (m ((c.tc : Thread nD τ).loc main_arg13)) := by
  have h0 := w5_arg13 m ρ c
  show StableHlo.after hostOps1_1 (W5 m ρ c) (Proc.devRef .tc main_arg13) = _
  generalize W5 m ρ c = X at h0 ⊢
  after_results_simp
  exact h0
theorem w7_arg13 : W7 m ρ c (Proc.devRef .tc main_arg13) = (m ((c.tc : Thread nD τ).loc main_arg13)) :=
  (W7_of_ne m ρ c main_arg13 (by decide)).trans (w6_arg13 m ρ c)
theorem w8_arg13 : W8 m ρ c (Proc.devRef .tc main_arg13) = (m ((c.tc : Thread nD τ).loc main_arg13)) := by
  have h0 := w7_arg13 m ρ c
  show StableHlo.after hostOps2 (W7 m ρ c) (Proc.devRef .tc main_arg13) = _
  generalize W7 m ρ c = X at h0 ⊢
  after_results_simp
  exact h0
theorem w9_arg13 : W9 m ρ c (Proc.devRef .tc main_arg13) = (m ((c.tc : Thread nD τ).loc main_arg13)) := by
  have h0 := w8_arg13 m ρ c
  show StableHlo.after hostOps2_1 (W8 m ρ c) (Proc.devRef .tc main_arg13) = _
  generalize W8 m ρ c = X at h0 ⊢
  after_results_simp
  exact h0
theorem w10_arg13 : W10 m ρ c (Proc.devRef .tc main_arg13) = (m ((c.tc : Thread nD τ).loc main_arg13)) :=
  (W10_of_ne m ρ c main_arg13 (by decide)).trans (w9_arg13 m ρ c)
theorem w11_arg13 : W11 m ρ c (Proc.devRef .tc main_arg13) = (m ((c.tc : Thread nD τ).loc main_arg13)) := by
  have h0 := w10_arg13 m ρ c
  show StableHlo.after hostOps3 (W10 m ρ c) (Proc.devRef .tc main_arg13) = _
  generalize W10 m ρ c = X at h0 ⊢
  after_results_simp
  exact h0
theorem w12_arg13 : W12 m ρ c (Proc.devRef .tc main_arg13) = (m ((c.tc : Thread nD τ).loc main_arg13)) :=
  (W12_of_ne m ρ c main_arg13 (by decide)).trans (w11_arg13 m ρ c)
theorem w4_arg12 : W4 m ρ c (Proc.devRef .tc main_arg12) = (m ((c.tc : Thread nD τ).loc main_arg12)) :=
  (W4_of_ne m ρ c main_arg12 (by decide)).trans (w3_arg12 m ρ c)
theorem w5_arg12 : W5 m ρ c (Proc.devRef .tc main_arg12) = (m ((c.tc : Thread nD τ).loc main_arg12)) := by
  have h0 := w4_arg12 m ρ c
  show StableHlo.after hostOps1 (W4 m ρ c) (Proc.devRef .tc main_arg12) = _
  generalize W4 m ρ c = X at h0 ⊢
  after_results_simp
  exact h0
theorem w6_arg12 : W6 m ρ c (Proc.devRef .tc main_arg12) = (m ((c.tc : Thread nD τ).loc main_arg12)) := by
  have h0 := w5_arg12 m ρ c
  show StableHlo.after hostOps1_1 (W5 m ρ c) (Proc.devRef .tc main_arg12) = _
  generalize W5 m ρ c = X at h0 ⊢
  after_results_simp
  exact h0
theorem w7_arg12 : W7 m ρ c (Proc.devRef .tc main_arg12) = (m ((c.tc : Thread nD τ).loc main_arg12)) :=
  (W7_of_ne m ρ c main_arg12 (by decide)).trans (w6_arg12 m ρ c)
theorem w8_arg12 : W8 m ρ c (Proc.devRef .tc main_arg12) = (m ((c.tc : Thread nD τ).loc main_arg12)) := by
  have h0 := w7_arg12 m ρ c
  show StableHlo.after hostOps2 (W7 m ρ c) (Proc.devRef .tc main_arg12) = _
  generalize W7 m ρ c = X at h0 ⊢
  after_results_simp
  exact h0
theorem w9_arg12 : W9 m ρ c (Proc.devRef .tc main_arg12) = (m ((c.tc : Thread nD τ).loc main_arg12)) := by
  have h0 := w8_arg12 m ρ c
  show StableHlo.after hostOps2_1 (W8 m ρ c) (Proc.devRef .tc main_arg12) = _
  generalize W8 m ρ c = X at h0 ⊢
  after_results_simp
  exact h0
theorem w10_arg12 : W10 m ρ c (Proc.devRef .tc main_arg12) = (m ((c.tc : Thread nD τ).loc main_arg12)) :=
  (W10_of_ne m ρ c main_arg12 (by decide)).trans (w9_arg12 m ρ c)
theorem w11_arg12 : W11 m ρ c (Proc.devRef .tc main_arg12) = (m ((c.tc : Thread nD τ).loc main_arg12)) := by
  have h0 := w10_arg12 m ρ c
  show StableHlo.after hostOps3 (W10 m ρ c) (Proc.devRef .tc main_arg12) = _
  generalize W10 m ρ c = X at h0 ⊢
  after_results_simp
  exact h0
theorem w12_arg12 : W12 m ρ c (Proc.devRef .tc main_arg12) = (m ((c.tc : Thread nD τ).loc main_arg12)) :=
  (W12_of_ne m ρ c main_arg12 (by decide)).trans (w11_arg12 m ρ c)
theorem w13_arg12 : W13 m ρ c (Proc.devRef .tc main_arg12) = (m ((c.tc : Thread nD τ).loc main_arg12)) := by
  have h0 := w12_arg12 m ρ c
  show StableHlo.after hostOps4 (W12 m ρ c) (Proc.devRef .tc main_arg12) = _
  generalize W12 m ρ c = X at h0 ⊢
  after_results_simp
  exact h0
theorem w4_arg14 : W4 m ρ c (Proc.devRef .tc main_arg14) = (m ((c.tc : Thread nD τ).loc main_arg14)) :=
  (W4_of_ne m ρ c main_arg14 (by decide)).trans (w3_arg14 m ρ c)
theorem w5_arg14 : W5 m ρ c (Proc.devRef .tc main_arg14) = (m ((c.tc : Thread nD τ).loc main_arg14)) := by
  have h0 := w4_arg14 m ρ c
  show StableHlo.after hostOps1 (W4 m ρ c) (Proc.devRef .tc main_arg14) = _
  generalize W4 m ρ c = X at h0 ⊢
  after_results_simp
  exact h0
theorem w6_arg14 : W6 m ρ c (Proc.devRef .tc main_arg14) = (m ((c.tc : Thread nD τ).loc main_arg14)) := by
  have h0 := w5_arg14 m ρ c
  show StableHlo.after hostOps1_1 (W5 m ρ c) (Proc.devRef .tc main_arg14) = _
  generalize W5 m ρ c = X at h0 ⊢
  after_results_simp
  exact h0
theorem w7_arg14 : W7 m ρ c (Proc.devRef .tc main_arg14) = (m ((c.tc : Thread nD τ).loc main_arg14)) :=
  (W7_of_ne m ρ c main_arg14 (by decide)).trans (w6_arg14 m ρ c)
theorem w8_arg14 : W8 m ρ c (Proc.devRef .tc main_arg14) = (m ((c.tc : Thread nD τ).loc main_arg14)) := by
  have h0 := w7_arg14 m ρ c
  show StableHlo.after hostOps2 (W7 m ρ c) (Proc.devRef .tc main_arg14) = _
  generalize W7 m ρ c = X at h0 ⊢
  after_results_simp
  exact h0
theorem w9_arg14 : W9 m ρ c (Proc.devRef .tc main_arg14) = (m ((c.tc : Thread nD τ).loc main_arg14)) := by
  have h0 := w8_arg14 m ρ c
  show StableHlo.after hostOps2_1 (W8 m ρ c) (Proc.devRef .tc main_arg14) = _
  generalize W8 m ρ c = X at h0 ⊢
  after_results_simp
  exact h0
theorem w10_arg14 : W10 m ρ c (Proc.devRef .tc main_arg14) = (m ((c.tc : Thread nD τ).loc main_arg14)) :=
  (W10_of_ne m ρ c main_arg14 (by decide)).trans (w9_arg14 m ρ c)
theorem w11_arg14 : W11 m ρ c (Proc.devRef .tc main_arg14) = (m ((c.tc : Thread nD τ).loc main_arg14)) := by
  have h0 := w10_arg14 m ρ c
  show StableHlo.after hostOps3 (W10 m ρ c) (Proc.devRef .tc main_arg14) = _
  generalize W10 m ρ c = X at h0 ⊢
  after_results_simp
  exact h0
theorem w12_arg14 : W12 m ρ c (Proc.devRef .tc main_arg14) = (m ((c.tc : Thread nD τ).loc main_arg14)) :=
  (W12_of_ne m ρ c main_arg14 (by decide)).trans (w11_arg14 m ρ c)
theorem w13_arg14 : W13 m ρ c (Proc.devRef .tc main_arg14) = (m ((c.tc : Thread nD τ).loc main_arg14)) := by
  have h0 := w12_arg14 m ρ c
  show StableHlo.after hostOps4 (W12 m ρ c) (Proc.devRef .tc main_arg14) = _
  generalize W12 m ρ c = X at h0 ⊢
  after_results_simp
  exact h0
theorem w14_arg14 : W14 m ρ c (Proc.devRef .tc main_arg14) = (m ((c.tc : Thread nD τ).loc main_arg14)) :=
  (W14_of_ne m ρ c main_arg14 (by decide)).trans (w13_arg14 m ρ c)
theorem w4_arg15 : W4 m ρ c (Proc.devRef .tc main_arg15) = (m ((c.tc : Thread nD τ).loc main_arg15)) :=
  (W4_of_ne m ρ c main_arg15 (by decide)).trans (w3_arg15 m ρ c)
theorem w5_arg15 : W5 m ρ c (Proc.devRef .tc main_arg15) = (m ((c.tc : Thread nD τ).loc main_arg15)) := by
  have h0 := w4_arg15 m ρ c
  show StableHlo.after hostOps1 (W4 m ρ c) (Proc.devRef .tc main_arg15) = _
  generalize W4 m ρ c = X at h0 ⊢
  after_results_simp
  exact h0
theorem w6_arg15 : W6 m ρ c (Proc.devRef .tc main_arg15) = (m ((c.tc : Thread nD τ).loc main_arg15)) := by
  have h0 := w5_arg15 m ρ c
  show StableHlo.after hostOps1_1 (W5 m ρ c) (Proc.devRef .tc main_arg15) = _
  generalize W5 m ρ c = X at h0 ⊢
  after_results_simp
  exact h0
theorem w7_arg15 : W7 m ρ c (Proc.devRef .tc main_arg15) = (m ((c.tc : Thread nD τ).loc main_arg15)) :=
  (W7_of_ne m ρ c main_arg15 (by decide)).trans (w6_arg15 m ρ c)
theorem w8_arg15 : W8 m ρ c (Proc.devRef .tc main_arg15) = (m ((c.tc : Thread nD τ).loc main_arg15)) := by
  have h0 := w7_arg15 m ρ c
  show StableHlo.after hostOps2 (W7 m ρ c) (Proc.devRef .tc main_arg15) = _
  generalize W7 m ρ c = X at h0 ⊢
  after_results_simp
  exact h0
theorem w9_arg15 : W9 m ρ c (Proc.devRef .tc main_arg15) = (m ((c.tc : Thread nD τ).loc main_arg15)) := by
  have h0 := w8_arg15 m ρ c
  show StableHlo.after hostOps2_1 (W8 m ρ c) (Proc.devRef .tc main_arg15) = _
  generalize W8 m ρ c = X at h0 ⊢
  after_results_simp
  exact h0
theorem w10_arg15 : W10 m ρ c (Proc.devRef .tc main_arg15) = (m ((c.tc : Thread nD τ).loc main_arg15)) :=
  (W10_of_ne m ρ c main_arg15 (by decide)).trans (w9_arg15 m ρ c)
theorem w11_arg15 : W11 m ρ c (Proc.devRef .tc main_arg15) = (m ((c.tc : Thread nD τ).loc main_arg15)) := by
  have h0 := w10_arg15 m ρ c
  show StableHlo.after hostOps3 (W10 m ρ c) (Proc.devRef .tc main_arg15) = _
  generalize W10 m ρ c = X at h0 ⊢
  after_results_simp
  exact h0
theorem w12_arg15 : W12 m ρ c (Proc.devRef .tc main_arg15) = (m ((c.tc : Thread nD τ).loc main_arg15)) :=
  (W12_of_ne m ρ c main_arg15 (by decide)).trans (w11_arg15 m ρ c)
theorem w13_arg15 : W13 m ρ c (Proc.devRef .tc main_arg15) = (m ((c.tc : Thread nD τ).loc main_arg15)) := by
  have h0 := w12_arg15 m ρ c
  show StableHlo.after hostOps4 (W12 m ρ c) (Proc.devRef .tc main_arg15) = _
  generalize W12 m ρ c = X at h0 ⊢
  after_results_simp
  exact h0
theorem w14_arg15 : W14 m ρ c (Proc.devRef .tc main_arg15) = (m ((c.tc : Thread nD τ).loc main_arg15)) :=
  (W14_of_ne m ρ c main_arg15 (by decide)).trans (w13_arg15 m ρ c)
theorem w4_arg17 : W4 m ρ c (Proc.devRef .tc main_arg17) = (m ((c.tc : Thread nD τ).loc main_arg17)) :=
  (W4_of_ne m ρ c main_arg17 (by decide)).trans (w3_arg17 m ρ c)
theorem w5_arg17 : W5 m ρ c (Proc.devRef .tc main_arg17) = (m ((c.tc : Thread nD τ).loc main_arg17)) := by
  have h0 := w4_arg17 m ρ c
  show StableHlo.after hostOps1 (W4 m ρ c) (Proc.devRef .tc main_arg17) = _
  generalize W4 m ρ c = X at h0 ⊢
  after_results_simp
  exact h0
theorem w6_arg17 : W6 m ρ c (Proc.devRef .tc main_arg17) = (m ((c.tc : Thread nD τ).loc main_arg17)) := by
  have h0 := w5_arg17 m ρ c
  show StableHlo.after hostOps1_1 (W5 m ρ c) (Proc.devRef .tc main_arg17) = _
  generalize W5 m ρ c = X at h0 ⊢
  after_results_simp
  exact h0
theorem w7_arg17 : W7 m ρ c (Proc.devRef .tc main_arg17) = (m ((c.tc : Thread nD τ).loc main_arg17)) :=
  (W7_of_ne m ρ c main_arg17 (by decide)).trans (w6_arg17 m ρ c)
theorem w8_arg17 : W8 m ρ c (Proc.devRef .tc main_arg17) = (m ((c.tc : Thread nD τ).loc main_arg17)) := by
  have h0 := w7_arg17 m ρ c
  show StableHlo.after hostOps2 (W7 m ρ c) (Proc.devRef .tc main_arg17) = _
  generalize W7 m ρ c = X at h0 ⊢
  after_results_simp
  exact h0
theorem w9_arg17 : W9 m ρ c (Proc.devRef .tc main_arg17) = (m ((c.tc : Thread nD τ).loc main_arg17)) := by
  have h0 := w8_arg17 m ρ c
  show StableHlo.after hostOps2_1 (W8 m ρ c) (Proc.devRef .tc main_arg17) = _
  generalize W8 m ρ c = X at h0 ⊢
  after_results_simp
  exact h0
theorem w10_arg17 : W10 m ρ c (Proc.devRef .tc main_arg17) = (m ((c.tc : Thread nD τ).loc main_arg17)) :=
  (W10_of_ne m ρ c main_arg17 (by decide)).trans (w9_arg17 m ρ c)
theorem w11_arg17 : W11 m ρ c (Proc.devRef .tc main_arg17) = (m ((c.tc : Thread nD τ).loc main_arg17)) := by
  have h0 := w10_arg17 m ρ c
  show StableHlo.after hostOps3 (W10 m ρ c) (Proc.devRef .tc main_arg17) = _
  generalize W10 m ρ c = X at h0 ⊢
  after_results_simp
  exact h0
theorem w12_arg17 : W12 m ρ c (Proc.devRef .tc main_arg17) = (m ((c.tc : Thread nD τ).loc main_arg17)) :=
  (W12_of_ne m ρ c main_arg17 (by decide)).trans (w11_arg17 m ρ c)
theorem w13_arg17 : W13 m ρ c (Proc.devRef .tc main_arg17) = (m ((c.tc : Thread nD τ).loc main_arg17)) := by
  have h0 := w12_arg17 m ρ c
  show StableHlo.after hostOps4 (W12 m ρ c) (Proc.devRef .tc main_arg17) = _
  generalize W12 m ρ c = X at h0 ⊢
  after_results_simp
  exact h0
theorem w14_arg17 : W14 m ρ c (Proc.devRef .tc main_arg17) = (m ((c.tc : Thread nD τ).loc main_arg17)) :=
  (W14_of_ne m ρ c main_arg17 (by decide)).trans (w13_arg17 m ρ c)
theorem w4_arg16 : W4 m ρ c (Proc.devRef .tc main_arg16) = (m ((c.tc : Thread nD τ).loc main_arg16)) :=
  (W4_of_ne m ρ c main_arg16 (by decide)).trans (w3_arg16 m ρ c)
theorem w5_arg16 : W5 m ρ c (Proc.devRef .tc main_arg16) = (m ((c.tc : Thread nD τ).loc main_arg16)) := by
  have h0 := w4_arg16 m ρ c
  show StableHlo.after hostOps1 (W4 m ρ c) (Proc.devRef .tc main_arg16) = _
  generalize W4 m ρ c = X at h0 ⊢
  after_results_simp
  exact h0
theorem w6_arg16 : W6 m ρ c (Proc.devRef .tc main_arg16) = (m ((c.tc : Thread nD τ).loc main_arg16)) := by
  have h0 := w5_arg16 m ρ c
  show StableHlo.after hostOps1_1 (W5 m ρ c) (Proc.devRef .tc main_arg16) = _
  generalize W5 m ρ c = X at h0 ⊢
  after_results_simp
  exact h0
theorem w7_arg16 : W7 m ρ c (Proc.devRef .tc main_arg16) = (m ((c.tc : Thread nD τ).loc main_arg16)) :=
  (W7_of_ne m ρ c main_arg16 (by decide)).trans (w6_arg16 m ρ c)
theorem w8_arg16 : W8 m ρ c (Proc.devRef .tc main_arg16) = (m ((c.tc : Thread nD τ).loc main_arg16)) := by
  have h0 := w7_arg16 m ρ c
  show StableHlo.after hostOps2 (W7 m ρ c) (Proc.devRef .tc main_arg16) = _
  generalize W7 m ρ c = X at h0 ⊢
  after_results_simp
  exact h0
theorem w9_arg16 : W9 m ρ c (Proc.devRef .tc main_arg16) = (m ((c.tc : Thread nD τ).loc main_arg16)) := by
  have h0 := w8_arg16 m ρ c
  show StableHlo.after hostOps2_1 (W8 m ρ c) (Proc.devRef .tc main_arg16) = _
  generalize W8 m ρ c = X at h0 ⊢
  after_results_simp
  exact h0
theorem w10_arg16 : W10 m ρ c (Proc.devRef .tc main_arg16) = (m ((c.tc : Thread nD τ).loc main_arg16)) :=
  (W10_of_ne m ρ c main_arg16 (by decide)).trans (w9_arg16 m ρ c)
theorem w11_arg16 : W11 m ρ c (Proc.devRef .tc main_arg16) = (m ((c.tc : Thread nD τ).loc main_arg16)) := by
  have h0 := w10_arg16 m ρ c
  show StableHlo.after hostOps3 (W10 m ρ c) (Proc.devRef .tc main_arg16) = _
  generalize W10 m ρ c = X at h0 ⊢
  after_results_simp
  exact h0
theorem w12_arg16 : W12 m ρ c (Proc.devRef .tc main_arg16) = (m ((c.tc : Thread nD τ).loc main_arg16)) :=
  (W12_of_ne m ρ c main_arg16 (by decide)).trans (w11_arg16 m ρ c)
theorem w13_arg16 : W13 m ρ c (Proc.devRef .tc main_arg16) = (m ((c.tc : Thread nD τ).loc main_arg16)) := by
  have h0 := w12_arg16 m ρ c
  show StableHlo.after hostOps4 (W12 m ρ c) (Proc.devRef .tc main_arg16) = _
  generalize W12 m ρ c = X at h0 ⊢
  after_results_simp
  exact h0
theorem w14_arg16 : W14 m ρ c (Proc.devRef .tc main_arg16) = (m ((c.tc : Thread nD τ).loc main_arg16)) :=
  (W14_of_ne m ρ c main_arg16 (by decide)).trans (w13_arg16 m ρ c)
theorem w15_arg16 : W15 m ρ c (Proc.devRef .tc main_arg16) = (m ((c.tc : Thread nD τ).loc main_arg16)) := by
  have h0 := w14_arg16 m ρ c
  show StableHlo.after hostOps5 (W14 m ρ c) (Proc.devRef .tc main_arg16) = _
  generalize W14 m ρ c = X at h0 ⊢
  after_results_simp
  exact h0
theorem w4_v3 : W4 m ρ c (Proc.devRef .tc main_v3) = Cert.ReferenceIdeal.ReadP.val_main_v3 (F := F) (m ((c.tc : Thread nD τ).loc main_arg1)) :=
  (W4_of_ne m ρ c main_v3 (by decide)).trans (w3_v3 m ρ c)
theorem w5_v3 : W5 m ρ c (Proc.devRef .tc main_v3) = Cert.ReferenceIdeal.ReadP.val_main_v3 (F := F) (m ((c.tc : Thread nD τ).loc main_arg1)) := by
  have h0 := w4_v3 m ρ c
  show StableHlo.after hostOps1 (W4 m ρ c) (Proc.devRef .tc main_v3) = _
  generalize W4 m ρ c = X at h0 ⊢
  after_results_simp
  exact h0
theorem w6_v3 : W6 m ρ c (Proc.devRef .tc main_v3) = Cert.ReferenceIdeal.ReadP.val_main_v3 (F := F) (m ((c.tc : Thread nD τ).loc main_arg1)) := by
  have h0 := w5_v3 m ρ c
  show StableHlo.after hostOps1_1 (W5 m ρ c) (Proc.devRef .tc main_v3) = _
  generalize W5 m ρ c = X at h0 ⊢
  after_results_simp
  exact h0
theorem w7_v3 : W7 m ρ c (Proc.devRef .tc main_v3) = Cert.ReferenceIdeal.ReadP.val_main_v3 (F := F) (m ((c.tc : Thread nD τ).loc main_arg1)) :=
  (W7_of_ne m ρ c main_v3 (by decide)).trans (w6_v3 m ρ c)
theorem w8_v3 : W8 m ρ c (Proc.devRef .tc main_v3) = Cert.ReferenceIdeal.ReadP.val_main_v3 (F := F) (m ((c.tc : Thread nD τ).loc main_arg1)) := by
  have h0 := w7_v3 m ρ c
  show StableHlo.after hostOps2 (W7 m ρ c) (Proc.devRef .tc main_v3) = _
  generalize W7 m ρ c = X at h0 ⊢
  after_results_simp
  exact h0
theorem w9_v3 : W9 m ρ c (Proc.devRef .tc main_v3) = Cert.ReferenceIdeal.ReadP.val_main_v3 (F := F) (m ((c.tc : Thread nD τ).loc main_arg1)) := by
  have h0 := w8_v3 m ρ c
  show StableHlo.after hostOps2_1 (W8 m ρ c) (Proc.devRef .tc main_v3) = _
  generalize W8 m ρ c = X at h0 ⊢
  after_results_simp
  exact h0
theorem w10_v3 : W10 m ρ c (Proc.devRef .tc main_v3) = Cert.ReferenceIdeal.ReadP.val_main_v3 (F := F) (m ((c.tc : Thread nD τ).loc main_arg1)) :=
  (W10_of_ne m ρ c main_v3 (by decide)).trans (w9_v3 m ρ c)
theorem w4_v6 : W4 m ρ c (Proc.devRef .tc main_v6) = Cert.ReferenceIdeal.ReadP.val_main_v6 (F := F) (m ((c.tc : Thread nD τ).loc main_arg1)) :=
  (W4_of_ne m ρ c main_v6 (by decide)).trans (w3_v6 m ρ c)
theorem w5_v6 : W5 m ρ c (Proc.devRef .tc main_v6) = Cert.ReferenceIdeal.ReadP.val_main_v6 (F := F) (m ((c.tc : Thread nD τ).loc main_arg1)) := by
  have h0 := w4_v6 m ρ c
  show StableHlo.after hostOps1 (W4 m ρ c) (Proc.devRef .tc main_v6) = _
  generalize W4 m ρ c = X at h0 ⊢
  after_results_simp
  exact h0
theorem w6_v6 : W6 m ρ c (Proc.devRef .tc main_v6) = Cert.ReferenceIdeal.ReadP.val_main_v6 (F := F) (m ((c.tc : Thread nD τ).loc main_arg1)) := by
  have h0 := w5_v6 m ρ c
  show StableHlo.after hostOps1_1 (W5 m ρ c) (Proc.devRef .tc main_v6) = _
  generalize W5 m ρ c = X at h0 ⊢
  after_results_simp
  exact h0
theorem w7_v6 : W7 m ρ c (Proc.devRef .tc main_v6) = Cert.ReferenceIdeal.ReadP.val_main_v6 (F := F) (m ((c.tc : Thread nD τ).loc main_arg1)) :=
  (W7_of_ne m ρ c main_v6 (by decide)).trans (w6_v6 m ρ c)
theorem w8_v6 : W8 m ρ c (Proc.devRef .tc main_v6) = Cert.ReferenceIdeal.ReadP.val_main_v6 (F := F) (m ((c.tc : Thread nD τ).loc main_arg1)) := by
  have h0 := w7_v6 m ρ c
  show StableHlo.after hostOps2 (W7 m ρ c) (Proc.devRef .tc main_v6) = _
  generalize W7 m ρ c = X at h0 ⊢
  after_results_simp
  exact h0
theorem w9_v6 : W9 m ρ c (Proc.devRef .tc main_v6) = Cert.ReferenceIdeal.ReadP.val_main_v6 (F := F) (m ((c.tc : Thread nD τ).loc main_arg1)) := by
  have h0 := w8_v6 m ρ c
  show StableHlo.after hostOps2_1 (W8 m ρ c) (Proc.devRef .tc main_v6) = _
  generalize W8 m ρ c = X at h0 ⊢
  after_results_simp
  exact h0
theorem w10_v6 : W10 m ρ c (Proc.devRef .tc main_v6) = Cert.ReferenceIdeal.ReadP.val_main_v6 (F := F) (m ((c.tc : Thread nD τ).loc main_arg1)) :=
  (W10_of_ne m ρ c main_v6 (by decide)).trans (w9_v6 m ρ c)
theorem w4_v29 : W4 m ρ c (Proc.devRef .tc main_v29) = Cert.ReferenceIdeal.ReadP.val_main_v30 (F := F) (m ((c.tc : Thread nD τ).loc main_arg1)) :=
  (W4_of_ne m ρ c main_v29 (by decide)).trans (w3_v29 m ρ c)
theorem w5_v29 : W5 m ρ c (Proc.devRef .tc main_v29) = Cert.ReferenceIdeal.ReadP.val_main_v30 (F := F) (m ((c.tc : Thread nD τ).loc main_arg1)) := by
  have h0 := w4_v29 m ρ c
  show StableHlo.after hostOps1 (W4 m ρ c) (Proc.devRef .tc main_v29) = _
  generalize W4 m ρ c = X at h0 ⊢
  after_results_simp
  exact h0
theorem w6_v29 : W6 m ρ c (Proc.devRef .tc main_v29) = Cert.ReferenceIdeal.ReadP.val_main_v30 (F := F) (m ((c.tc : Thread nD τ).loc main_arg1)) := by
  have h0 := w5_v29 m ρ c
  show StableHlo.after hostOps1_1 (W5 m ρ c) (Proc.devRef .tc main_v29) = _
  generalize W5 m ρ c = X at h0 ⊢
  after_results_simp
  exact h0
theorem w7_v29 : W7 m ρ c (Proc.devRef .tc main_v29) = Cert.ReferenceIdeal.ReadP.val_main_v30 (F := F) (m ((c.tc : Thread nD τ).loc main_arg1)) :=
  (W7_of_ne m ρ c main_v29 (by decide)).trans (w6_v29 m ρ c)
theorem w8_v29 : W8 m ρ c (Proc.devRef .tc main_v29) = Cert.ReferenceIdeal.ReadP.val_main_v30 (F := F) (m ((c.tc : Thread nD τ).loc main_arg1)) := by
  have h0 := w7_v29 m ρ c
  show StableHlo.after hostOps2 (W7 m ρ c) (Proc.devRef .tc main_v29) = _
  generalize W7 m ρ c = X at h0 ⊢
  after_results_simp
  exact h0
theorem w9_v29 : W9 m ρ c (Proc.devRef .tc main_v29) = Cert.ReferenceIdeal.ReadP.val_main_v30 (F := F) (m ((c.tc : Thread nD τ).loc main_arg1)) := by
  have h0 := w8_v29 m ρ c
  show StableHlo.after hostOps2_1 (W8 m ρ c) (Proc.devRef .tc main_v29) = _
  generalize W8 m ρ c = X at h0 ⊢
  after_results_simp
  exact h0
theorem w10_v29 : W10 m ρ c (Proc.devRef .tc main_v29) = Cert.ReferenceIdeal.ReadP.val_main_v30 (F := F) (m ((c.tc : Thread nD τ).loc main_arg1)) :=
  (W10_of_ne m ρ c main_v29 (by decide)).trans (w9_v29 m ρ c)

end Cert.KernelIdeal.Bridge

end
-- ==== Proof.KCalls.lean ====
/- The kernel program's three inlined calls between its stretches of host operations, each read as one function of
   the buffer contents it starts from. The first chooses, entry by entry along the nodes, between a vector and a
   scalar spread along the nodes, by a mask (in the program: the reciprocal square root of a node's degree where the
   degree is positive, zero elsewhere). The other two are rectifiers: the entrywise maximum of a [100000,64] array and
   the zero scalar spread over it. Each call writes its own two temporaries and its result, and leaves every other
   buffer as it was. -/
import proofs.«123034_j51127290692283_2_alg».proof.Proof.Gen.KernelIdeal.Frame
import Idealize.ShloMosaic.PureOps.Ideal.Laws

noncomputable section

namespace Cert.KernelIdeal.KCalls

open Cert.KernelIdeal Cert.KernelIdeal.Gen Idealize.ShloMosaic Idealize.ShloMosaic.TcCoe Idealize.SL.Sem Idealize.ShloMosaic.StableHlo

variable {F : FTy → Type} [FloatOps F]

/-! ## What each call computes -/

/-- The masked value: where the mask holds the second operand, elsewhere the scalar spread along the nodes. -/
theorem where0 (X : Valuation τ sig (Elt F)) :
    StableHlo.after hostOps0_1 X (Proc.devRef .tc main_v14)
      = select (X (Proc.devRef .tc main_v12)) (X (Proc.devRef .tc main_v13))
          (broadcastInDim S100000 ![] bcast_S_S100000 (X (Proc.devRef .tc main_cst_2))) := by
  after_results_simp
  rfl

/-- The first rectifier: the entrywise maximum of its operand and zero. -/
theorem relu1 (X : Valuation τ sig (Elt F)) :
    StableHlo.after hostOps1_1 X (Proc.devRef .tc main_v47)
      = maximumf (X (Proc.devRef .tc main_v46))
          (broadcastInDim S100000x64 ![] bcast_S_S100000x64 (constant S_ .f32 0x00000000#32)) := by
  after_results_simp
  rfl

/-- The second rectifier: the entrywise maximum of its operand and zero. -/
theorem relu2 (X : Valuation τ sig (Elt F)) :
    StableHlo.after hostOps2_1 X (Proc.devRef .tc main_v65)
      = maximumf (X (Proc.devRef .tc main_v64))
          (broadcastInDim S100000x64 ![] bcast_S_S100000x64 (constant S_ .f32 0x00000000#32)) := by
  after_results_simp
  rfl

/-! ## What each call leaves alone -/

/-- The call's three operations write only its own three buffers: every other buffer keeps its contents. -/
theorem keep0 (X : Valuation τ sig (Elt F)) (b : Ref sig .tc)
    (h : b ≠ main_call0_v0 ∧ b ≠ main_call0_v1 ∧ b ≠ main_v14) :
    StableHlo.after hostOps0_1 X (Proc.devRef .tc b) = X (Proc.devRef .tc b) :=
  StableHlo.after_of_forall_not_mem (b := Proc.devRef .tc b) _ _ (List.forall_iff_forall_mem.mp (by
    simp only [hostOps0_1, List.Forall, StableHlo.unary_writes, StableHlo.ternary_writes, Finset.mem_singleton]
    exact ⟨StableHlo.devRef_ne_of_ne h.1, StableHlo.devRef_ne_of_ne h.2.1, StableHlo.devRef_ne_of_ne h.2.2⟩))

/-- The call's three operations write only its own three buffers: every other buffer keeps its contents. -/
theorem keep1 (X : Valuation τ sig (Elt F)) (b : Ref sig .tc)
    (h : b ≠ main_call1_cst ∧ b ≠ main_call1_v0 ∧ b ≠ main_v47) :
    StableHlo.after hostOps1_1 X (Proc.devRef .tc b) = X (Proc.devRef .tc b) :=
  StableHlo.after_of_forall_not_mem (b := Proc.devRef .tc b) _ _ (List.forall_iff_forall_mem.mp (by
    simp only [hostOps1_1, List.Forall, StableHlo.nullary_writes, StableHlo.unary_writes, StableHlo.binary_writes, Finset.mem_singleton]
    exact ⟨StableHlo.devRef_ne_of_ne h.1, StableHlo.devRef_ne_of_ne h.2.1, StableHlo.devRef_ne_of_ne h.2.2⟩))

/-- The call's three operations write only its own three buffers: every other buffer keeps its contents. -/
theorem keep2 (X : Valuation τ sig (Elt F)) (b : Ref sig .tc)
    (h : b ≠ main_call2_cst ∧ b ≠ main_call2_v0 ∧ b ≠ main_v65) :
    StableHlo.after hostOps2_1 X (Proc.devRef .tc b) = X (Proc.devRef .tc b) :=
  StableHlo.after_of_forall_not_mem (b := Proc.devRef .tc b) _ _ (List.forall_iff_forall_mem.mp (by
    simp only [hostOps2_1, List.Forall, StableHlo.nullary_writes, StableHlo.unary_writes, StableHlo.binary_writes, Finset.mem_singleton]
    exact ⟨StableHlo.devRef_ne_of_ne h.1, StableHlo.devRef_ne_of_ne h.2.1, StableHlo.devRef_ne_of_ne h.2.2⟩))

end Cert.KernelIdeal.KCalls

end
-- ==== Proof.RefNorm.lean ====
/-
  The reference recomputes the in-degree, its reciprocal square root and the messages' normalisation once per graph
  convolution, by the same operations on the same edge list: the three copies are one function.
-/
import proofs.«123034_j51127290692283_2_alg».proof.Proof.RefReadP

noncomputable section

namespace Cert.ReferenceIdeal.RefNorm

open Cert.ReferenceIdeal Cert.ReferenceIdeal.ReadP Idealize.ShloMosaic Idealize.ShloMosaic.TcCoe

variable {F : FTy → Type} [FloatOps F] (x1 : (⟨S2x1600000, .i32⟩ : BufTy).Contents (Elt F))

theorem deg2 : val_main_v52 (F := F) x1 = val_main_v11 (F := F) x1 := rfl
theorem dinv2 : val_main_v56 (F := F) x1 = val_main_v15 (F := F) x1 := by
  unfold val_main_v56 val_main_v15 val_main_v54 val_main_v13 val_main_v55 val_main_v14
  rw [deg2]
  rfl
theorem src2 : val_main_v63 (F := F) x1 = val_main_v22 (F := F) x1 := by
  unfold val_main_v63 val_main_v22
  rw [dinv2]
  rfl
theorem dst2 : val_main_v70 (F := F) x1 = val_main_v29 (F := F) x1 := by
  unfold val_main_v70 val_main_v29
  rw [dinv2]
  rfl
/-- The second convolution's normalisation is the first's. -/
theorem norm2 : val_main_v71 (F := F) x1 = val_main_v30 (F := F) x1 := by
  unfold val_main_v71 val_main_v30
  rw [src2, dst2]

theorem deg3 : val_main_v93 (F := F) x1 = val_main_v11 (F := F) x1 := rfl
theorem dinv3 : val_main_v97 (F := F) x1 = val_main_v15 (F := F) x1 := by
  unfold val_main_v97 val_main_v15 val_main_v95 val_main_v13 val_main_v96 val_main_v14
  rw [deg3]
  rfl
theorem src3 : val_main_v104 (F := F) x1 = val_main_v22 (F := F) x1 := by
  unfold val_main_v104 val_main_v22
  rw [dinv3]
  rfl
theorem dst3 : val_main_v111 (F := F) x1 = val_main_v29 (F := F) x1 := by
  unfold val_main_v111 val_main_v29
  rw [dinv3]
  rfl
/-- The third convolution's normalisation is the first's. -/
theorem norm3 : val_main_v112 (F := F) x1 = val_main_v30 (F := F) x1 := by
  unfold val_main_v112 val_main_v30
  rw [src3, dst3]

end Cert.ReferenceIdeal.RefNorm

end
-- ==== Proof.Region0.lean ====
/- The first linear layer of a graph convolution, on the kernel's side: pallas region 0 multiplies a
   [100000,3] array of node features by a [3,64] weight matrix, ten row blocks of 10000 rows at a time.
   Each grid point loads row block `t` of the features and the whole weight matrix, narrows both to bf16
   (the identity on extended reals), multiplies them into a zero accumulator and stores the [10000,64]
   product as row block `t` of the result. Hence entry `(a, b)` of the array the region leaves is
   `∑ k, X (a, k) * W (k, b)`, where `X` and `W` are the two arrays as the region finds them. -/
import proofs.«123034_j51127290692283_2_alg».proof.Proof.Gen.KernelIdeal.Frame
import Idealize.ShloMosaic.Lib.ValueIdx
import Idealize.ShloMosaic.Lib.Pipeline.Value
import Idealize.ShloMosaic.PureOps.Ideal.Laws
import Idealize.ShloMosaic.Lib.ValueLayout

noncomputable section

open Idealize.ShloMosaic Idealize.ShloMosaic.TcCoe Idealize.SL.Sem
open Idealize.ShloMosaic.Pipeline (Dat)

namespace Cert.KernelIdeal.Region0

open Cert.KernelIdeal Cert.KernelIdeal.Gen Idealize.ShloMosaic.ValueIdx

/-! ## The contraction's operand indices: output entry `(r, c)` and contraction index `k` read `(r, k)` and `(k, c)` -/

theorem lhs_0 (i : S10000x64.Idx) (q : dot_S10000x3_S3x64_S10000x64_1_0_0_1_n_n.contr.Idx) :
    (dot_S10000x3_S3x64_S10000x64_1_0_0_1_n_n.lhsIdx i q 0).val = (i 0).val := by
  unfold DotDims.lhsIdx
  rw [dif_neg (show ¬(0 : Fin S10000x3.rank) ∈ dot_S10000x3_S3x64_S10000x64_1_0_0_1_n_n.lhsBatch by decide), dif_pos (show (0 : Fin S10000x3.rank) ∈ dot_S10000x3_S3x64_S10000x64_1_0_0_1_n_n.lhsNonContracting by decide)]
  rfl
theorem lhs_1 (i : S10000x64.Idx) (q : dot_S10000x3_S3x64_S10000x64_1_0_0_1_n_n.contr.Idx) :
    (dot_S10000x3_S3x64_S10000x64_1_0_0_1_n_n.lhsIdx i q 1).val = (q ⟨0, by decide⟩).val :=
  dot_S10000x3_S3x64_S10000x64_1_0_0_1_n_n.lhsIdx_val_of_single rfl i q
theorem rhs_0 (i : S10000x64.Idx) (q : dot_S10000x3_S3x64_S10000x64_1_0_0_1_n_n.contr.Idx) :
    (dot_S10000x3_S3x64_S10000x64_1_0_0_1_n_n.rhsIdx i q 0).val = (q ⟨0, by decide⟩).val :=
  dot_S10000x3_S3x64_S10000x64_1_0_0_1_n_n.rhsIdx_val_of_single rfl i q
theorem rhs_1 (i : S10000x64.Idx) (q : dot_S10000x3_S3x64_S10000x64_1_0_0_1_n_n.contr.Idx) :
    (dot_S10000x3_S3x64_S10000x64_1_0_0_1_n_n.rhsIdx i q 1).val = (i 1).val := by
  unfold DotDims.rhsIdx
  rw [dif_neg (show ¬(1 : Fin S3x64.rank) ∈ dot_S10000x3_S3x64_S10000x64_1_0_0_1_n_n.rhsBatch by decide), dif_pos (show (1 : Fin S3x64.rank) ∈ dot_S10000x3_S3x64_S10000x64_1_0_0_1_n_n.rhsNonContracting by decide)]
  rfl

/-! ## The body's stored value, entry by entry -/

/-- The body's one stored value at row `p`, column `q` of its block: the two narrowings are the identity on
    extended reals and the accumulator is zero, so it is the plain sum over the contraction index. -/
theorem pay_apply (x0 : Vec Ideal S10000x3 .f32) (x1 : Vec Ideal S3x64 .f32) (p : Fin 10000) (q : Fin 64) :
    k0_pay1 (F := Ideal) x0 x1 (ix2 p q) = ∑ k : Fin 3, x0 (ix2 p k) * x1 (ix2 k q) := by
  unfold k0_pay1
  refine (Ideal.matmul_constant_zero_apply dot_S10000x3_S3x64_S10000x64_1_0_0_1_n_n none _ _ (ix2 p q)).trans ?_
  rw [← Equiv.sum_comp (ValueIdx.contrEquiv1 dot_S10000x3_S3x64_S10000x64_1_0_0_1_n_n 3 rfl rfl).symm]
  refine Finset.sum_congr rfl fun k _ => ?_
  have hk := ValueIdx.contrEquiv1_symm_val dot_S10000x3_S3x64_S10000x64_1_0_0_1_n_n 3 rfl rfl k
  have el : dot_S10000x3_S3x64_S10000x64_1_0_0_1_n_n.lhsIdx (ix2 p q) ((ValueIdx.contrEquiv1 dot_S10000x3_S3x64_S10000x64_1_0_0_1_n_n 3 rfl rfl).symm k) = ix2 p k := funext fun a => Fin.ext (by
    match a with
    | ⟨0, _⟩ => exact lhs_0 _ _
    | ⟨1, _⟩ => exact (lhs_1 _ _).trans hk)
  have er : dot_S10000x3_S3x64_S10000x64_1_0_0_1_n_n.rhsIdx (ix2 p q) ((ValueIdx.contrEquiv1 dot_S10000x3_S3x64_S10000x64_1_0_0_1_n_n 3 rfl rfl).symm k) = ix2 k q := funext fun a => Fin.ext (by
    match a with
    | ⟨0, _⟩ => exact (rhs_0 _ _).trans hk
    | ⟨1, _⟩ => exact rhs_1 _ _)
  rw [el, er]
  rfl

theorem hz : (![0, 0] : Fin 2 → Nat) = fun _ => 0 := funext fun a => by fin_cases a <;> rfl

/-- What the body leaves in the output window's buffer, entry by entry: its one store covers the buffer. -/
theorem out_apply (x0 : Vec Ideal S10000x3 .f32) (x1 : Vec Ideal S3x64 .f32) (p : Fin 10000) (q : Fin 64) :
    out0_2 (F := Ideal) x0 x1 (ix2 p q) = ∑ k : Fin 3, x0 (ix2 p k) * x1 (ix2 k q) := by
  unfold out0_2
  rw [View.canon_unit_zero hz]
  simp only [View.ld_unit_zero (S := S10000x3) hz, View.ld_unit_zero (S := S3x64) hz]
  exact pay_apply x0 x1 p q

/-! ## From row blocks to the array -/

/-- The matrix product of a [100000,3] array and a [3,64] array, entry by entry. -/
def prod (A : S100000x3.Idx → EReal) (B : S3x64.Idx → EReal) : S100000x64.Idx → EReal :=
  fun i => ∑ k : Fin 3, A (ix2 (i 0 : Fin 100000) k) * B (ix2 k (i 1 : Fin 64))

/-- The printed index maps over the grid: at point `t` the left operand's and the result's blocks are
    row block `t`, and the right operand is fetched whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is row block `t` of the product of the two arrays as the region finds them:
    row `p` of the block is row `10000 t + p` of the left array, and the right array is read whole. -/
theorem flushed_eq (c : Dev nD) (t : Fin cfg0.N) :
    (dat0 (F := Ideal) V c).flushed 2 t
      = ((cfg0.win 2).blk t).view.read (Elt Ideal) (prod (V c (Pipeline.arrRef spec0 0)) (V c (Pipeline.arrRef spec0 1))) := by
  show (cfg0.win 2).cut (grid0.coords t) ((dat0 V c).after 2 t) = _
  rw [after0_2]
  obtain ⟨e00, e01, e10, e11, e20, e21⟩ := idx_facts t
  funext j
  obtain ⟨p, q, rfl⟩ : ∃ (p : Fin 10000) (q : Fin 64), j = ix2 p q := ⟨j 0, j 1, eq_ix2 j⟩
  refine (out_apply (iblk0 V c 0 t) (iblk0 V c 1 t) p q).trans ?_
  show _ = prod (V c (Pipeline.arrRef spec0 0)) (V c (Pipeline.arrRef spec0 1)) (((cfg0.win 2).blk t).view.emb (ix2 p q))
  unfold prod
  refine Finset.sum_congr rfl fun k _ => ?_
  refine congrArg₂ (· * ·) ?_ ?_
  · show V c (Pipeline.arrRef spec0 0) (((cfg0.win 0).blk t).view.emb (ix2 p k)) = _
    refine congrArg _ (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 3 + 1 * k.val = k.val; omega
  · show V c (Pipeline.arrRef spec0 1) (((cfg0.win 1).blk t).view.emb (ix2 k q)) = _
    refine congrArg _ (funext fun a => Fin.ext ?_)
    match a with
    | ⟨0, _⟩ => show win0_1.index t (0 : Fin 2) * 3 + 1 * k.val = k.val; omega
    | ⟨1, _⟩ => show win0_1.index t (1 : Fin 2) * 64 + 1 * q.val = win0_2.index t (1 : Fin 2) * 64 + 1 * q.val; omega

/-- An entry of the result array lies in point `t`'s block iff each coordinate is in the block's range. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- The ten row blocks fill the result array: row `r` is in block `r / 10000`. -/
theorem cover (i : S100000x64.Idx) : ∃ t : Fin cfg0.N, (cfg0.win 2).flush t = true ∧ i ∈ ((cfg0.win 2).blk t).view.set := by
  have hN : grid0.N = 10 := N_0
  have hi0 : (i 0).val < 100000 := (i 0).isLt
  have hi1 : (i 1).val < 64 := (i 1).isLt
  have ht : (i 0).val / 10000 < cfg0.N := by show (i 0).val / 10000 < grid0.N; omega
  refine ⟨⟨(i 0).val / 10000, ht⟩, flush0_2 _, ?_⟩
  obtain ⟨-, -, -, -, e20, e21⟩ := idx_facts ⟨(i 0).val / 10000, ht⟩
  have e20' : win0_2.index ⟨(i 0).val / 10000, ht⟩ (0 : Fin 2) = (i 0).val / 10000 := e20
  rw [mem_blk]
  intro a
  match a with
  | ⟨0, _⟩ => show win0_2.index ⟨(i 0).val / 10000, ht⟩ (0 : Fin 2) * 10000 ≤ (i 0).val ∧ (i 0).val < win0_2.index ⟨(i 0).val / 10000, ht⟩ (0 : Fin 2) * 10000 + 10000; omega
  | ⟨1, _⟩ => show win0_2.index ⟨(i 0).val / 10000, ht⟩ (1 : Fin 2) * 64 ≤ (i 1).val ∧ (i 1).val < win0_2.index ⟨(i 0).val / 10000, ht⟩ (1 : Fin 2) * 64 + 64; omega

/-- The array the region leaves is the product of its two entry arrays. -/
theorem arr_eq (c : Dev nD) :
    (dat0 (F := Ideal) V c).arrAt 2 cfg0.N = prod (V c (Pipeline.arrRef spec0 0)) (V c (Pipeline.arrRef spec0 1)) :=
  (dat0 (F := Ideal) V c).arrAt_eq_of_cover 2 _ (fun t _ => flushed_eq V c t) cover

/-- Entry `(a, b)` of the array the region leaves is the sum over `k` of entry `(a, k)` of the left array
    times entry `(k, b)` of the right array, the arrays named `A`, `B` as typed functions. -/
theorem arr_apply_of (c : Dev nD) (A : S100000x3.Idx → EReal) (B : S3x64.Idx → EReal)
    (hA : V c (Pipeline.arrRef spec0 0) = A) (hB : V c (Pipeline.arrRef spec0 1) = B) (a : Fin 100000) (b : Fin 64) :
    (dat0 (F := Ideal) V c).arrAt 2 cfg0.N (ix2 a b) = ∑ k : Fin 3, A (ix2 a k) * B (ix2 k b) := by
  subst hA hB
  exact congrFun (arr_eq V c) (ix2 a b)

/-- The region's left entry array (the node features), as a function on literal-shape indices. -/
abbrev lhsArr (c : Dev nD) : S100000x3.Idx → EReal := V c (Pipeline.arrRef spec0 0)
/-- The region's right entry array (the weights), as a function on literal-shape indices. -/
abbrev rhsArr (c : Dev nD) : S3x64.Idx → EReal := V c (Pipeline.arrRef spec0 1)

/-- Entry `(a, b)` of the array the region leaves is the sum over `k` of entry `(a, k)` of the left entry array
    times entry `(k, b)` of the right entry array. -/
theorem arr_apply (c : Dev nD) (a : Fin 100000) (b : Fin 64) :
    (Gen.dat0 (F := Ideal) V c).arrAt 2 cfg0.N (ValueIdx.ix2 a b)
      = ∑ k : Fin 3, lhsArr V c (ValueIdx.ix2 a k) * rhsArr V c (ValueIdx.ix2 k b) :=
  congrFun (arr_eq V c) (ix2 a b)

end Cert.KernelIdeal.Region0

end
-- ==== Proof.Region1.lean ====
/- The second linear layer of the graph convolutions, on the kernel's side: pallas region 1 multiplies a
   [100000,64] array of node features by a [64,64] weight matrix, ten row blocks of 10000 rows at a time.
   Each grid point loads row block `t` of the features and the whole weight matrix, narrows both to bf16
   (the identity on extended reals), multiplies them into a zero accumulator and stores the [10000,64]
   product as row block `t` of the result. Hence entry `(a, b)` of the array the region leaves is
   `∑ k, X (a, k) * W (k, b)`, where `X` and `W` are the two arrays as the region finds them. -/
import proofs.«123034_j51127290692283_2_alg».proof.Proof.Gen.KernelIdeal.Frame
import Idealize.ShloMosaic.Lib.ValueIdx
import Idealize.ShloMosaic.Lib.Pipeline.Value
import Idealize.ShloMosaic.PureOps.Ideal.Laws
import Idealize.ShloMosaic.Lib.ValueLayout

noncomputable section

open Idealize.ShloMosaic Idealize.ShloMosaic.TcCoe Idealize.SL.Sem
open Idealize.ShloMosaic.Pipeline (Dat)

namespace Cert.KernelIdeal.Region1

open Cert.KernelIdeal Cert.KernelIdeal.Gen Idealize.ShloMosaic.ValueIdx

/-! ## The contraction's operand indices: output entry `(r, c)` and contraction index `k` read `(r, k)` and `(k, c)` -/

theorem lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-! ## The body's stored value, entry by entry -/

/-- The body's one stored value at row `p`, column `q` of its block: the reshape to the same shape and the two
    narrowings are the identity on extended reals and the accumulator is zero, so it is the plain sum over the contraction index. -/
theorem pay_apply (x0 : Vec Ideal S10000x64 .f32) (x1 : Vec Ideal S64x64 .f32) (p : Fin 10000) (q : Fin 64) :
    k1_pay1 (F := Ideal) x0 x1 (ix2 p q) = ∑ k : Fin 64, x0 (ix2 p k) * x1 (ix2 k q) := by
  unfold k1_pay1
  refine (Ideal.matmul_constant_zero_apply dot_S10000x64_S64x64_S10000x64_1_0_0_1_n_n none _ _ (ix2 p q)).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_0 _ _
    | ⟨1, _⟩ => exact (lhs_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_0 _ _).trans hk
    | ⟨1, _⟩ => exact rhs_1 _ _)
  rw [el, er]
  show shapeCast S10000x64 x0 shapeCasts_S10000x64_S10000x64 (ix2 p k) * x1 (ix2 k q) = _
  rw [shapeCast_self]

theorem hz : (![0, 0] : Fin 2 → Nat) = fun _ => 0 := funext fun a => by fin_cases a <;> rfl

/-- What the body leaves in the output window's buffer, entry by entry: its one store covers the buffer. -/
theorem out_apply (x0 : Vec Ideal S10000x64 .f32) (x1 : Vec Ideal S64x64 .f32) (p : Fin 10000) (q : Fin 64) :
    out1_2 (F := Ideal) x0 x1 (ix2 p q) = ∑ k : Fin 64, x0 (ix2 p k) * x1 (ix2 k q) := by
  unfold out1_2
  rw [View.canon_unit_zero hz]
  simp only [View.ld_unit_zero (S := S10000x64) hz, View.ld_unit_zero (S := S64x64) hz]
  exact pay_apply x0 x1 p q

/-! ## From row blocks to the array -/

/-- The matrix product of a [100000,64] array and a [64,64] array, entry by entry. -/
def prod (A : S100000x64.Idx → EReal) (B : S64x64.Idx → EReal) : S100000x64.Idx → EReal :=
  fun i => ∑ k : Fin 64, A (ix2 (i 0 : Fin 100000) k) * B (ix2 k (i 1 : Fin 64))

/-- The printed index maps over the grid: at point `t` the left operand's and the result's blocks are
    row block `t`, and the right operand is fetched whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point `t` writes back is row block `t` of the product of the two arrays as the region finds them:
    row `p` of the block is row `10000 t + p` of the left array, and the right array is read whole. -/
theorem flushed_eq (c : Dev nD) (t : Fin cfg1.N) :
    (dat1 (F := Ideal) V c).flushed 2 t
      = ((cfg1.win 2).blk t).view.read (Elt Ideal) (prod (V c (Pipeline.arrRef spec1 0)) (V c (Pipeline.arrRef spec1 1))) := by
  show (cfg1.win 2).cut (grid1.coords t) ((dat1 V c).after 2 t) = _
  rw [after1_2]
  obtain ⟨e00, e01, e10, e11, e20, e21⟩ := idx_facts t
  funext j
  obtain ⟨p, q, rfl⟩ : ∃ (p : Fin 10000) (q : Fin 64), j = ix2 p q := ⟨j 0, j 1, eq_ix2 j⟩
  refine (out_apply (iblk1 V c 0 t) (iblk1 V c 1 t) p q).trans ?_
  show _ = prod (V c (Pipeline.arrRef spec1 0)) (V c (Pipeline.arrRef spec1 1)) (((cfg1.win 2).blk t).view.emb (ix2 p q))
  unfold prod
  refine Finset.sum_congr rfl fun k _ => ?_
  refine congrArg₂ (· * ·) ?_ ?_
  · show V c (Pipeline.arrRef spec1 0) (((cfg1.win 0).blk t).view.emb (ix2 p k)) = _
    refine congrArg _ (funext fun a => Fin.ext ?_)
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * k.val = k.val; omega
  · show V c (Pipeline.arrRef spec1 1) (((cfg1.win 1).blk t).view.emb (ix2 k q)) = _
    refine congrArg _ (funext fun a => Fin.ext ?_)
    match a with
    | ⟨0, _⟩ => show win1_1.index t (0 : Fin 2) * 64 + 1 * k.val = k.val; omega
    | ⟨1, _⟩ => show win1_1.index t (1 : Fin 2) * 64 + 1 * q.val = win1_2.index t (1 : Fin 2) * 64 + 1 * q.val; omega

/-- An entry of the result array lies in point `t`'s block iff each coordinate is in the block's range. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v48).slice (win1_2.rect t)).set ↔ _
  rw [View.set_slice_whole, Rect.mem_set_unit]
  exact Iff.rfl

/-- The ten row blocks fill the result array: row `r` is in block `r / 10000`. -/
theorem cover (i : S100000x64.Idx) : ∃ t : Fin cfg1.N, (cfg1.win 2).flush t = true ∧ i ∈ ((cfg1.win 2).blk t).view.set := by
  have hN : grid1.N = 10 := N_1
  have hi0 : (i 0).val < 100000 := (i 0).isLt
  have hi1 : (i 1).val < 64 := (i 1).isLt
  have ht : (i 0).val / 10000 < cfg1.N := by show (i 0).val / 10000 < grid1.N; omega
  refine ⟨⟨(i 0).val / 10000, ht⟩, flush1_2 _, ?_⟩
  obtain ⟨-, -, -, -, e20, e21⟩ := idx_facts ⟨(i 0).val / 10000, ht⟩
  have e20' : win1_2.index ⟨(i 0).val / 10000, ht⟩ (0 : Fin 2) = (i 0).val / 10000 := e20
  rw [mem_blk]
  intro a
  match a with
  | ⟨0, _⟩ => show win1_2.index ⟨(i 0).val / 10000, ht⟩ (0 : Fin 2) * 10000 ≤ (i 0).val ∧ (i 0).val < win1_2.index ⟨(i 0).val / 10000, ht⟩ (0 : Fin 2) * 10000 + 10000; omega
  | ⟨1, _⟩ => show win1_2.index ⟨(i 0).val / 10000, ht⟩ (1 : Fin 2) * 64 ≤ (i 1).val ∧ (i 1).val < win1_2.index ⟨(i 0).val / 10000, ht⟩ (1 : Fin 2) * 64 + 64; omega

/-- The array the region leaves is the product of its two entry arrays. -/
theorem arr_eq (c : Dev nD) :
    (dat1 (F := Ideal) V c).arrAt 2 cfg1.N = prod (V c (Pipeline.arrRef spec1 0)) (V c (Pipeline.arrRef spec1 1)) :=
  (dat1 (F := Ideal) V c).arrAt_eq_of_cover 2 _ (fun t _ => flushed_eq V c t) cover

/-- Entry `(a, b)` of the array the region leaves is the sum over `k` of entry `(a, k)` of the left array
    times entry `(k, b)` of the right array, the arrays named `A`, `B` as typed functions. -/
theorem arr_apply_of (c : Dev nD) (A : S100000x64.Idx → EReal) (B : S64x64.Idx → EReal)
    (hA : V c (Pipeline.arrRef spec1 0) = A) (hB : V c (Pipeline.arrRef spec1 1) = B) (a : Fin 100000) (b : Fin 64) :
    (dat1 (F := Ideal) V c).arrAt 2 cfg1.N (ix2 a b) = ∑ k : Fin 64, A (ix2 a k) * B (ix2 k b) := by
  subst hA hB
  exact congrFun (arr_eq V c) (ix2 a b)

/-- The region's left entry array (the node features), as a function on literal-shape indices. -/
abbrev lhsArr (c : Dev nD) : S100000x64.Idx → EReal := V c (Pipeline.arrRef spec1 0)
/-- The region's right entry array (the weights), as a function on literal-shape indices. -/
abbrev rhsArr (c : Dev nD) : S64x64.Idx → EReal := V c (Pipeline.arrRef spec1 1)

/-- Entry `(a, b)` of the array the region leaves is the sum over `k` of entry `(a, k)` of the left entry array
    times entry `(k, b)` of the right entry array. -/
theorem arr_apply (c : Dev nD) (a : Fin 100000) (b : Fin 64) :
    (Gen.dat1 (F := Ideal) V c).arrAt 2 cfg1.N (ValueIdx.ix2 a b)
      = ∑ k : Fin 64, lhsArr V c (ValueIdx.ix2 a k) * rhsArr V c (ValueIdx.ix2 k b) :=
  congrFun (arr_eq V c) (ix2 a b)

end Cert.KernelIdeal.Region1

end
-- ==== Proof.Region2.lean ====
/- The third linear layer of the graph convolutions, on the kernel's side: pallas region 2 multiplies a
   [100000,64] array of node features by a [64,64] weight matrix, ten row blocks of 10000 rows at a time.
   Each grid point loads row block `t` of the features and the whole weight matrix, narrows both to bf16
   (the identity on extended reals), multiplies them into a zero accumulator and stores the [10000,64]
   product as row block `t` of the result. Hence entry `(a, b)` of the array the region leaves is
   `∑ k, X (a, k) * W (k, b)`, where `X` and `W` are the two arrays as the region finds them. -/
import proofs.«123034_j51127290692283_2_alg».proof.Proof.Gen.KernelIdeal.Frame
import Idealize.ShloMosaic.Lib.ValueIdx
import Idealize.ShloMosaic.Lib.Pipeline.Value
import Idealize.ShloMosaic.PureOps.Ideal.Laws
import Idealize.ShloMosaic.Lib.ValueLayout

noncomputable section

open Idealize.ShloMosaic Idealize.ShloMosaic.TcCoe Idealize.SL.Sem
open Idealize.ShloMosaic.Pipeline (Dat)

namespace Cert.KernelIdeal.Region2

open Cert.KernelIdeal Cert.KernelIdeal.Gen Idealize.ShloMosaic.ValueIdx

/-! ## The contraction's operand indices: output entry `(r, c)` and contraction index `k` read `(r, k)` and `(k, c)` -/

theorem lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-! ## The body's stored value, entry by entry -/

/-- The body's one stored value at row `p`, column `q` of its block: the reshape to the same shape and the two
    narrowings are the identity on extended reals and the accumulator is zero, so it is the plain sum over the contraction index. -/
theorem pay_apply (x0 : Vec Ideal S10000x64 .f32) (x1 : Vec Ideal S64x64 .f32) (p : Fin 10000) (q : Fin 64) :
    k2_pay1 (F := Ideal) x0 x1 (ix2 p q) = ∑ k : Fin 64, x0 (ix2 p k) * x1 (ix2 k q) := by
  unfold k2_pay1
  refine (Ideal.matmul_constant_zero_apply dot_S10000x64_S64x64_S10000x64_1_0_0_1_n_n none _ _ (ix2 p q)).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_0 _ _
    | ⟨1, _⟩ => exact (lhs_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_0 _ _).trans hk
    | ⟨1, _⟩ => exact rhs_1 _ _)
  rw [el, er]
  show shapeCast S10000x64 x0 shapeCasts_S10000x64_S10000x64 (ix2 p k) * x1 (ix2 k q) = _
  rw [shapeCast_self]

theorem hz : (![0, 0] : Fin 2 → Nat) = fun _ => 0 := funext fun a => by fin_cases a <;> rfl

/-- What the body leaves in the output window's buffer, entry by entry: its one store covers the buffer. -/
theorem out_apply (x0 : Vec Ideal S10000x64 .f32) (x1 : Vec Ideal S64x64 .f32) (p : Fin 10000) (q : Fin 64) :
    out2_2 (F := Ideal) x0 x1 (ix2 p q) = ∑ k : Fin 64, x0 (ix2 p k) * x1 (ix2 k q) := by
  unfold out2_2
  rw [View.canon_unit_zero hz]
  simp only [View.ld_unit_zero (S := S10000x64) hz, View.ld_unit_zero (S := S64x64) hz]
  exact pay_apply x0 x1 p q

/-! ## From row blocks to the array -/

/-- The matrix product of a [100000,64] array and a [64,64] array, entry by entry. -/
def prod (A : S100000x64.Idx → EReal) (B : S64x64.Idx → EReal) : S100000x64.Idx → EReal :=
  fun i => ∑ k : Fin 64, A (ix2 (i 0 : Fin 100000) k) * B (ix2 k (i 1 : Fin 64))

/-- The printed index maps over the grid: at point `t` the left operand's and the result's blocks are
    row block `t`, and the right operand is fetched whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point `t` writes back is row block `t` of the product of the two arrays as the region finds them:
    row `p` of the block is row `10000 t + p` of the left array, and the right array is read whole. -/
theorem flushed_eq (c : Dev nD) (t : Fin cfg2.N) :
    (dat2 (F := Ideal) V c).flushed 2 t
      = ((cfg2.win 2).blk t).view.read (Elt Ideal) (prod (V c (Pipeline.arrRef spec2 0)) (V c (Pipeline.arrRef spec2 1))) := by
  show (cfg2.win 2).cut (grid2.coords t) ((dat2 V c).after 2 t) = _
  rw [after2_2]
  obtain ⟨e00, e01, e10, e11, e20, e21⟩ := idx_facts t
  funext j
  obtain ⟨p, q, rfl⟩ : ∃ (p : Fin 10000) (q : Fin 64), j = ix2 p q := ⟨j 0, j 1, eq_ix2 j⟩
  refine (out_apply (iblk2 V c 0 t) (iblk2 V c 1 t) p q).trans ?_
  show _ = prod (V c (Pipeline.arrRef spec2 0)) (V c (Pipeline.arrRef spec2 1)) (((cfg2.win 2).blk t).view.emb (ix2 p q))
  unfold prod
  refine Finset.sum_congr rfl fun k _ => ?_
  refine congrArg₂ (· * ·) ?_ ?_
  · show V c (Pipeline.arrRef spec2 0) (((cfg2.win 0).blk t).view.emb (ix2 p k)) = _
    refine congrArg _ (funext fun a => Fin.ext ?_)
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * k.val = k.val; omega
  · show V c (Pipeline.arrRef spec2 1) (((cfg2.win 1).blk t).view.emb (ix2 k q)) = _
    refine congrArg _ (funext fun a => Fin.ext ?_)
    match a with
    | ⟨0, _⟩ => show win2_1.index t (0 : Fin 2) * 64 + 1 * k.val = k.val; omega
    | ⟨1, _⟩ => show win2_1.index t (1 : Fin 2) * 64 + 1 * q.val = win2_2.index t (1 : Fin 2) * 64 + 1 * q.val; omega

/-- An entry of the result array lies in point `t`'s block iff each coordinate is in the block's range. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v66).slice (win2_2.rect t)).set ↔ _
  rw [View.set_slice_whole, Rect.mem_set_unit]
  exact Iff.rfl

/-- The ten row blocks fill the result array: row `r` is in block `r / 10000`. -/
theorem cover (i : S100000x64.Idx) : ∃ t : Fin cfg2.N, (cfg2.win 2).flush t = true ∧ i ∈ ((cfg2.win 2).blk t).view.set := by
  have hN : grid2.N = 10 := N_2
  have hi0 : (i 0).val < 100000 := (i 0).isLt
  have hi1 : (i 1).val < 64 := (i 1).isLt
  have ht : (i 0).val / 10000 < cfg2.N := by show (i 0).val / 10000 < grid2.N; omega
  refine ⟨⟨(i 0).val / 10000, ht⟩, flush2_2 _, ?_⟩
  obtain ⟨-, -, -, -, e20, e21⟩ := idx_facts ⟨(i 0).val / 10000, ht⟩
  have e20' : win2_2.index ⟨(i 0).val / 10000, ht⟩ (0 : Fin 2) = (i 0).val / 10000 := e20
  rw [mem_blk]
  intro a
  match a with
  | ⟨0, _⟩ => show win2_2.index ⟨(i 0).val / 10000, ht⟩ (0 : Fin 2) * 10000 ≤ (i 0).val ∧ (i 0).val < win2_2.index ⟨(i 0).val / 10000, ht⟩ (0 : Fin 2) * 10000 + 10000; omega
  | ⟨1, _⟩ => show win2_2.index ⟨(i 0).val / 10000, ht⟩ (1 : Fin 2) * 64 ≤ (i 1).val ∧ (i 1).val < win2_2.index ⟨(i 0).val / 10000, ht⟩ (1 : Fin 2) * 64 + 64; omega

/-- The array the region leaves is the product of its two entry arrays. -/
theorem arr_eq (c : Dev nD) :
    (dat2 (F := Ideal) V c).arrAt 2 cfg2.N = prod (V c (Pipeline.arrRef spec2 0)) (V c (Pipeline.arrRef spec2 1)) :=
  (dat2 (F := Ideal) V c).arrAt_eq_of_cover 2 _ (fun t _ => flushed_eq V c t) cover

/-- Entry `(a, b)` of the array the region leaves is the sum over `k` of entry `(a, k)` of the left array
    times entry `(k, b)` of the right array, the arrays named `A`, `B` as typed functions. -/
theorem arr_apply_of (c : Dev nD) (A : S100000x64.Idx → EReal) (B : S64x64.Idx → EReal)
    (hA : V c (Pipeline.arrRef spec2 0) = A) (hB : V c (Pipeline.arrRef spec2 1) = B) (a : Fin 100000) (b : Fin 64) :
    (dat2 (F := Ideal) V c).arrAt 2 cfg2.N (ix2 a b) = ∑ k : Fin 64, A (ix2 a k) * B (ix2 k b) := by
  subst hA hB
  exact congrFun (arr_eq V c) (ix2 a b)

/-- The region's left entry array (the node features), as a function on literal-shape indices. -/
abbrev lhsArr (c : Dev nD) : S100000x64.Idx → EReal := V c (Pipeline.arrRef spec2 0)
/-- The region's right entry array (the weights), as a function on literal-shape indices. -/
abbrev rhsArr (c : Dev nD) : S64x64.Idx → EReal := V c (Pipeline.arrRef spec2 1)

/-- Entry `(a, b)` of the array the region leaves is the sum over `k` of entry `(a, k)` of the left entry array
    times entry `(k, b)` of the right entry array. -/
theorem arr_apply (c : Dev nD) (a : Fin 100000) (b : Fin 64) :
    (Gen.dat2 (F := Ideal) V c).arrAt 2 cfg2.N (ValueIdx.ix2 a b)
      = ∑ k : Fin 64, lhsArr V c (ValueIdx.ix2 a k) * rhsArr V c (ValueIdx.ix2 k b) :=
  congrFun (arr_eq V c) (ix2 a b)

end Cert.KernelIdeal.Region2

end
-- ==== Proof.KChainGcn.lean ====
/-
  The three graph convolutions of the kernel, boundary by boundary, are the reference's: each node-linear region leaves the
  matrix product of its entry arrays (the reference's dot_general, both a plain sum of products over the contracted axis), and
  the host glue after it (gather by source, scale by the normalisation, scatter-add by target, bias, relu) is the
  reference's, operation for operation.
-/
import proofs.«123034_j51127290692283_2_alg».proof.Proof.KKeep
import proofs.«123034_j51127290692283_2_alg».proof.Proof.KCalls
import proofs.«123034_j51127290692283_2_alg».proof.Proof.RefNorm
import proofs.«123034_j51127290692283_2_alg».proof.Proof.Region0
import proofs.«123034_j51127290692283_2_alg».proof.Proof.Region1
import proofs.«123034_j51127290692283_2_alg».proof.Proof.Region2

set_option maxRecDepth 16384

noncomputable section

namespace Cert.KernelIdeal.Bridge

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

/-- The reference's first matrix product at an entry: a sum over the three input features. -/
theorem dot7 (x0 : (⟨Cert.ReferenceIdeal.S100000x3, .f32⟩ : BufTy).Contents (Elt Ideal)) (x2 : (⟨Cert.ReferenceIdeal.S3x64, .f32⟩ : BufTy).Contents (Elt Ideal)) (a : Fin 100000) (b : Fin 64) :
    Cert.ReferenceIdeal.ReadP.val_main_v7 (F := Ideal) x0 x2 (ix2 a b) = ∑ k : Fin 3, x0 (ix2 a k) * x2 (ix2 k b) := by
  rw [Cert.ReferenceIdeal.ReadP.val_main_v7_apply]
  refine Finset.sum_congr rfl fun k _ => ?_
  have e1 : Cert.ReferenceIdeal.ReadP.lidx_main_v7 (ix2 a b) k = ix2 a k := funext fun d => Fin.ext (by match d with | ⟨0, _⟩ => rfl | ⟨1, _⟩ => rfl)
  have e2 : Cert.ReferenceIdeal.ReadP.ridx_main_v7 (ix2 a b) k = ix2 k b := funext fun d => Fin.ext (by match d with | ⟨0, _⟩ => rfl | ⟨1, _⟩ => rfl)
  rw [e1, e2]

/-- The reference's second matrix product at an entry. -/
theorem dot48 (x0 : (⟨Cert.ReferenceIdeal.S100000x3, .f32⟩ : BufTy).Contents (Elt Ideal)) (x1 : (⟨Cert.ReferenceIdeal.S2x1600000, .i32⟩ : BufTy).Contents (Elt Ideal)) (x2 : (⟨Cert.ReferenceIdeal.S3x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal)) (a : Fin 100000) (b : Fin 64) :
    Cert.ReferenceIdeal.ReadP.val_main_v48 (F := Ideal) x0 x1 x2 x3 x4 (ix2 a b) = ∑ k : Fin 64, Cert.ReferenceIdeal.ReadP.val_main_v47 (F := Ideal) x0 x1 x2 x3 (ix2 a k) * x4 (ix2 k b) := by
  rw [Cert.ReferenceIdeal.ReadP.val_main_v48_apply]
  refine Finset.sum_congr rfl fun k _ => ?_
  have e1 : Cert.ReferenceIdeal.ReadP.lidx_main_v48 (ix2 a b) k = ix2 a k := funext fun d => Fin.ext (by match d with | ⟨0, _⟩ => rfl | ⟨1, _⟩ => rfl)
  have e2 : Cert.ReferenceIdeal.ReadP.ridx_main_v48 (ix2 a b) k = ix2 k b := funext fun d => Fin.ext (by match d with | ⟨0, _⟩ => rfl | ⟨1, _⟩ => rfl)
  rw [e1, e2]

/-- The reference's third matrix product at an entry. -/
theorem dot89 (x0 : (⟨Cert.ReferenceIdeal.S100000x3, .f32⟩ : BufTy).Contents (Elt Ideal)) (x1 : (⟨Cert.ReferenceIdeal.S2x1600000, .i32⟩ : BufTy).Contents (Elt Ideal)) (x2 : (⟨Cert.ReferenceIdeal.S3x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S64x64, .f32⟩ : BufTy).Contents (Elt Ideal)) (a : Fin 100000) (b : Fin 64) :
    Cert.ReferenceIdeal.ReadP.val_main_v89 (F := Ideal) x0 x1 x2 x3 x4 x5 x6 (ix2 a b) = ∑ k : Fin 64, Cert.ReferenceIdeal.ReadP.val_main_v88 (F := Ideal) x0 x1 x2 x3 x4 x5 (ix2 a k) * x6 (ix2 k b) := by
  rw [Cert.ReferenceIdeal.ReadP.val_main_v89_apply]
  refine Finset.sum_congr rfl fun k _ => ?_
  have e1 : Cert.ReferenceIdeal.ReadP.lidx_main_v89 (ix2 a b) k = ix2 a k := funext fun d => Fin.ext (by match d with | ⟨0, _⟩ => rfl | ⟨1, _⟩ => rfl)
  have e2 : Cert.ReferenceIdeal.ReadP.ridx_main_v89 (ix2 a b) k = ix2 k b := funext fun d => Fin.ext (by match d with | ⟨0, _⟩ => rfl | ⟨1, _⟩ => rfl)
  rw [e1, e2]

/-- After the first node-linear region: x · W1. -/
theorem w4_v30 : W4 m ρ c (Proc.devRef .tc main_v30) = Cert.ReferenceIdeal.ReadP.val_main_v7 (F := Ideal) (m ((c.tc : Thread nD τ).loc main_arg0)) (m ((c.tc : Thread nD τ).loc main_arg2)) := by
  refine (W4_arr m ρ c 2).trans ?_
  funext i
  obtain ⟨a, b, rfl⟩ : ∃ (a : Fin 100000) (b : Fin 64), i = ix2 a b := ⟨i 0, i 1, eq_ix2 i⟩
  exact (Cert.KernelIdeal.Region0.arr_apply_of (V3 m ρ) c _ _ (w3_arg0 m ρ c) (w3_arg2 m ρ c) a b).trans (dot7 _ _ a b).symm
/-- The first convolution before its relu. -/
theorem w5_v46 : W5 m ρ c (Proc.devRef .tc main_v46) = Cert.ReferenceIdeal.ReadP.val_main_v46 (F := Ideal) (m ((c.tc : Thread nD τ).loc main_arg0)) (m ((c.tc : Thread nD τ).loc main_arg1)) (m ((c.tc : Thread nD τ).loc main_arg2)) (m ((c.tc : Thread nD τ).loc main_arg3)) := by
  have h0 := w4_v30 m ρ c
  have h1 := w4_v3 m ρ c
  have h2 := w4_v6 m ρ c
  have h3 := w4_v29 m ρ c
  have h4 := w4_arg3 m ρ c
  show StableHlo.after hostOps1 (W4 m ρ c) (Proc.devRef .tc main_v46) = _
  generalize W4 m ρ c = X at h0 h1 h2 h3 h4 ⊢
  after_results_simp
  simp only [h0, h1, h2, h3, h4]
  rfl
/-- The first convolution's output. -/
theorem w6_v47 : W6 m ρ c (Proc.devRef .tc main_v47) = Cert.ReferenceIdeal.ReadP.val_main_v47 (F := Ideal) (m ((c.tc : Thread nD τ).loc main_arg0)) (m ((c.tc : Thread nD τ).loc main_arg1)) (m ((c.tc : Thread nD τ).loc main_arg2)) (m ((c.tc : Thread nD τ).loc main_arg3)) := by
  refine (Cert.KernelIdeal.KCalls.relu1 (W5 m ρ c)).trans ?_
  rw [w5_v46 m ρ c]
  rfl
/-- After the second node-linear region. -/
theorem w7_v48 : W7 m ρ c (Proc.devRef .tc main_v48) = Cert.ReferenceIdeal.ReadP.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W7_arr m ρ c 2).trans ?_
  funext i
  obtain ⟨a, b, rfl⟩ : ∃ (a : Fin 100000) (b : Fin 64), i = ix2 a b := ⟨i 0, i 1, eq_ix2 i⟩
  exact (Cert.KernelIdeal.Region1.arr_apply_of (V6 m ρ) c _ _ (w6_v47 m ρ c) (w6_arg4 m ρ c) a b).trans (dot48 _ _ _ _ _ a b).symm
theorem w7_norm2 : W7 m ρ c (Proc.devRef .tc main_v29) = Cert.ReferenceIdeal.ReadP.val_main_v71 (F := Ideal) (m ((c.tc : Thread nD τ).loc main_arg1)) :=
  (w7_v29 m ρ c).trans (Cert.ReferenceIdeal.RefNorm.norm2 _).symm
/-- The second convolution before its relu. -/
theorem w8_v64 : W8 m ρ c (Proc.devRef .tc main_v64) = Cert.ReferenceIdeal.ReadP.val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have h0 := w7_v48 m ρ c
  have h1 := w7_v3 m ρ c
  have h2 := w7_v6 m ρ c
  have h3 := w7_norm2 m ρ c
  have h4 := w7_arg5 m ρ c
  show StableHlo.after hostOps2 (W7 m ρ c) (Proc.devRef .tc main_v64) = _
  generalize W7 m ρ c = X at h0 h1 h2 h3 h4 ⊢
  after_results_simp
  simp only [h0, h1, h2, h3, h4]
  rfl
/-- The second convolution's output. -/
theorem w9_v65 : W9 m ρ c (Proc.devRef .tc main_v65) = Cert.ReferenceIdeal.ReadP.val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (Cert.KernelIdeal.KCalls.relu2 (W8 m ρ c)).trans ?_
  rw [w8_v64 m ρ c]
  rfl
/-- After the third node-linear region. -/
theorem w10_v66 : W10 m ρ c (Proc.devRef .tc main_v66) = Cert.ReferenceIdeal.ReadP.val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W10_arr m ρ c 2).trans ?_
  funext i
  obtain ⟨a, b, rfl⟩ : ∃ (a : Fin 100000) (b : Fin 64), i = ix2 a b := ⟨i 0, i 1, eq_ix2 i⟩
  exact (Cert.KernelIdeal.Region2.arr_apply_of (V9 m ρ) c _ _ (w9_v65 m ρ c) (w9_arg6 m ρ c) a b).trans (dot89 _ _ _ _ _ _ _ a b).symm
theorem w10_norm3 : W10 m ρ c (Proc.devRef .tc main_v29) = Cert.ReferenceIdeal.ReadP.val_main_v112 (F := Ideal) (m ((c.tc : Thread nD τ).loc main_arg1)) :=
  (w10_v29 m ρ c).trans (Cert.ReferenceIdeal.RefNorm.norm3 _).symm
/-- The node features gathered at every edge's source. -/
theorem w11_v93 : W11 m ρ c (Proc.devRef .tc main_v93) = Cert.ReferenceIdeal.ReadP.val_main_v139 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have h0 := w10_v66 m ρ c
  have h1 := w10_v3 m ρ c
  have h2 := w10_v6 m ρ c
  have h3 := w10_norm3 m ρ c
  have h4 := w10_arg7 m ρ c
  have h5 := w10_arg1 m ρ c
  show StableHlo.after hostOps3 (W10 m ρ c) (Proc.devRef .tc main_v93) = _
  generalize W10 m ρ c = X at h0 h1 h2 h3 h4 h5 ⊢
  after_results_simp
  simp only [h0, h1, h2, h3, h4, h5]
  rfl
/-- The node features gathered at every edge's target. -/
theorem w11_v100 : W11 m ρ c (Proc.devRef .tc main_v100) = Cert.ReferenceIdeal.ReadP.val_main_v146 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have h0 := w10_v66 m ρ c
  have h1 := w10_v3 m ρ c
  have h2 := w10_v6 m ρ c
  have h3 := w10_norm3 m ρ c
  have h4 := w10_arg7 m ρ c
  have h5 := w10_arg1 m ρ c
  show StableHlo.after hostOps3 (W10 m ρ c) (Proc.devRef .tc main_v100) = _
  generalize W10 m ρ c = X at h0 h1 h2 h3 h4 h5 ⊢
  after_results_simp
  simp only [h0, h1, h2, h3, h4, h5]
  rfl

end Cert.KernelIdeal.Bridge

end
-- ==== Proof.Region3Pay.lean ====
/-
  Edge MLP, first stage, one block of 8000 edges: what the block's three results hold at each index, over the
  extended reals.

  With hs, hd the [8000,64] blocks of source and destination features, wa, wb the two [64,64] weight matrices and
  b the [1,64] bias row, the block's activation is

      z(p, q) = max (Σₖ hs(p,k)·wa(k,q) + Σₖ hd(p,k)·wb(k,q) + b(0,q)) 0,

  and the two statistics tiles [1,8,64] hold, on every one of their 8 sublanes, the column sums Σ_p z(p,q) and
  Σ_p z(p,q)². Narrowing the operands to bf16 before the products is the identity on ideal values, and the products
  accumulate into a zero splat, so nothing but the sums remains.
-/
import proofs.«123034_j51127290692283_2_alg».proof.Proof.Gen.KernelIdeal.Skeleton
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.Region3

open Cert.KernelIdeal Cert.KernelIdeal.Gen Idealize.ShloMosaic Idealize.ShloMosaic.ValueIdx

/-! ## The matrix unit's product at an index

For the plain row-by-column contraction of an [8000,64] block with a [64,64] matrix, the operand indices at output
index (p, q) and contraction coordinate k are (p, k) and (k, q). -/

theorem lhs_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem lhs_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
theorem rhs_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
theorem rhs_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- A product into the zero accumulator, at (p, q): the sum over k of l(p,k) · r(k,q). -/
theorem mm_apply {φ₁ φ₂ : FTy} (l : FVec Ideal S8000x64 φ₁) (r : FVec Ideal S64x64 φ₂) (p : Fin 8000) (q : Fin 64) :
    FloatOps.matmul dot_S8000x64_S64x64_S8000x64_1_0_0_1_n_n none l r (constant S8000x64 .f32 0x00000000#32) (ix2 p q)
      = ∑ k : Fin 64, l (ix2 p k) * r (ix2 k q) := by
  rw [Ideal.matmul_constant_zero_apply, ← Equiv.sum_comp (ValueIdx.contrEquiv1 dot_S8000x64_S64x64_S8000x64_1_0_0_1_n_n 64 rfl rfl).symm]
  refine Finset.sum_congr rfl fun k _ => ?_
  have hk := ValueIdx.contrEquiv1_symm_val dot_S8000x64_S64x64_S8000x64_1_0_0_1_n_n 64 rfl rfl k
  have el : dot_S8000x64_S64x64_S8000x64_1_0_0_1_n_n.lhsIdx (ix2 p q) ((ValueIdx.contrEquiv1 dot_S8000x64_S64x64_S8000x64_1_0_0_1_n_n 64 rfl rfl).symm k) = ix2 p k := funext fun a => Fin.ext (by
    match a with
    | ⟨0, _⟩ => exact lhs_0 _ _
    | ⟨1, _⟩ => exact (lhs_1 _ _).trans hk)
  have er : dot_S8000x64_S64x64_S8000x64_1_0_0_1_n_n.rhsIdx (ix2 p q) ((ValueIdx.contrEquiv1 dot_S8000x64_S64x64_S8000x64_1_0_0_1_n_n 64 rfl rfl).symm k) = ix2 k q := funext fun a => Fin.ext (by
    match a with
    | ⟨0, _⟩ => exact (rhs_0 _ _).trans hk
    | ⟨1, _⟩ => exact rhs_1 _ _)
  rw [el, er]

/-- The bias row copied down the 8000 rows, at (p, q): the row's entry q. -/
theorem bias_apply (v15 : Vec Ideal S1x64 .f32) (p : Fin 8000) (q : Fin 64) :
    broadcastTo S8000x64 v15 broadcasts_S1x64_S8000x64 (ix2 p q) = v15 (ix2 0 q) :=
  broadcastTo_apply v15 broadcasts_S1x64_S8000x64 (ix2 p q) (ix2 0 q) (fun a => by
    match a with
    | ⟨0, _⟩ => rfl
    | ⟨1, _⟩ => rfl)

/-- The block's activation at (p, q). -/
theorem pay1_apply (v0 v3 : Vec Ideal S8000x64 .f32) (v6 v9 : Vec Ideal S64x64 .f32) (v15 : Vec Ideal S1x64 .f32)
    (p : Fin 8000) (q : Fin 64) :
    k3_pay1 (F := Ideal) v0 v3 v6 v9 v15 (ix2 p q)
      = max ((∑ k : Fin 64, v0 (ix2 p k) * v6 (ix2 k q)) + (∑ k : Fin 64, v3 (ix2 p k) * v9 (ix2 k q)) + v15 (ix2 0 q))
          (Ideal.ofBits .f32 0x00000000#32) := by
  unfold k3_pay1
  simp only [shapeCast_self]
  refine (maximumf_apply _ _ _).trans ?_
  refine congrArg₂ max ?_ rfl
  refine (addf_apply _ _ _).trans ?_
  refine congrArg₂ (· + ·) ?_ (bias_apply v15 p q)
  refine (addf_apply _ _ _).trans ?_
  exact congrArg₂ (· + ·) (mm_apply _ _ p q) (mm_apply _ _ p q)

/-! ## The column sums of a block

Summing an [8000,64] block over its rows leaves, at column q, the sum over the 8000 rows; the result is then laid out
as [1,1,64] and copied to each of the 8 sublanes of a [1,8,64] tile. -/

/-- The row reduction at column q. -/
theorem colsum_apply (src : FVec Ideal S8000x64 .f32) (hφ : FKind.Formats .f32)
    (hacc : (0x00000000#32 : BitVec 32) = FKind.add.neutral .f32 hφ) (q : Fin 64) :
    multiReduction .add [0] S64 src 0x00000000#32 reduces_S8000x64_S64 hφ hacc (ix1 q) = ∑ y : Fin 8000, src (ix2 y q) := by
  refine (Ideal.multiReduction_add_single src 0x00000000#32 reduces_S8000x64_S64 hφ hacc (ix1 q)).trans ?_
  refine Finset.sum_congr rfl fun y _ => congrArg src ?_
  funext a
  apply Fin.ext
  match a with
  | ⟨0, _⟩ => rfl
  | ⟨1, _⟩ => rfl

/-- A [64] vector laid out as [1,1,64] and copied along the middle axis to [1,8,64], at (0, u, q): the vector at q. -/
theorem tile_apply (v : FVec Ideal S64 .f32) (u : Fin 8) (q : Fin 64) :
    broadcastTo S1x8x64 (shapeCast S1x1x64 (shapeCast S1x1x64 v shapeCasts_S64_S1x1x64) shapeCasts_S1x1x64_S1x1x64)
      broadcasts_S1x1x64_S1x8x64 (ix3 0 u q) = v (ix1 q) := by
  rw [shapeCast_self]
  refine (broadcastTo_apply _ broadcasts_S1x1x64_S1x8x64 (ix3 0 u q) (ix3 0 0 q) (fun a => by
    match a with
    | ⟨0, _⟩ => rfl
    | ⟨1, _⟩ => rfl
    | ⟨2, _⟩ => rfl)).trans ?_
  refine shapeCast_apply v shapeCasts_S64_S1x1x64 (ix3 0 0 q) (ix1 q) ?_
  rw [Shape.rowMajor_val_one, Shape.rowMajor_val_three]
  show q.val = (0 * 1 + 0) * 64 + q.val
  omega

/-- The first statistic's tile: every sublane holds the block's column sums. -/
theorem pay2_apply (v0 v3 : Vec Ideal S8000x64 .f32) (v6 v9 : Vec Ideal S64x64 .f32) (v15 : Vec Ideal S1x64 .f32)
    (u : Fin 8) (q : Fin 64) :
    k3_pay2 (F := Ideal) v0 v3 v6 v9 v15 (ix3 0 u q) = ∑ y : Fin 8000, k3_pay1 (F := Ideal) v0 v3 v6 v9 v15 (ix2 y q) := by
  unfold k3_pay2
  exact (tile_apply _ u q).trans (colsum_apply _ _ _ q)

/-- The second statistic's tile: every sublane holds the column sums of the block's squares. -/
theorem pay3_apply (v0 v3 : Vec Ideal S8000x64 .f32) (v6 v9 : Vec Ideal S64x64 .f32) (v15 : Vec Ideal S1x64 .f32)
    (u : Fin 8) (q : Fin 64) :
    k3_pay3 (F := Ideal) v0 v3 v6 v9 v15 (ix3 0 u q)
      = ∑ y : Fin 8000, k3_pay1 (F := Ideal) v0 v3 v6 v9 v15 (ix2 y q) * k3_pay1 (F := Ideal) v0 v3 v6 v9 v15 (ix2 y q) := by
  unfold k3_pay3
  exact (tile_apply _ u q).trans (colsum_apply _ _ _ q)

end Cert.KernelIdeal.Region3

end
-- ==== Proof.Region3.lean ====
/-
  Edge MLP, first stage, over all 200 blocks of 8000 edges: what the three result arrays hold after the region, index by
  index, as functions of the five arrays the region reads.

      Z(r, j)        = max (Σₖ hsrc(r,k)·wA(k,j) + Σₖ hdst(r,k)·wB(k,j) + bias(0,j)) 0      the activation, [1600000,64]
      sums(t, u, j)  = Σ_{y<8000} Z(8000·t + y, j)                                          [200,8,64], the same on all 8 sublanes u
      sqs(t, u, j)   = Σ_{y<8000} Z(8000·t + y, j)²                                         [200,8,64]

  Block t of the feature arrays is rows 8000·t … 8000·t+7999, the weights and the bias are read whole at every point,
  so the block computed at point t is block t of Z; every edge r lies in block r / 8000 and every statistics entry
  (t, u, j) in tile t, so the blocks written back fill the three arrays.
-/
import proofs.«123034_j51127290692283_2_alg».proof.Proof.Gen.KernelIdeal.Frame
import proofs.«123034_j51127290692283_2_alg».proof.Proof.Region3Pay
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.Region3

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The arrays the region reads, and the activation as one function of them -/

/-- Source-endpoint features of the 1,600,000 edges. -/
abbrev hsrc (c : Dev nD) : S1600000x64.Idx → EReal := V c (Pipeline.arrRef spec3 0)
/-- Destination-endpoint features. -/
abbrev hdst (c : Dev nD) : S1600000x64.Idx → EReal := V c (Pipeline.arrRef spec3 1)
/-- The weight matrix applied to the source features. -/
abbrev wA (c : Dev nD) : S64x64.Idx → EReal := V c (Pipeline.arrRef spec3 2)
/-- The weight matrix applied to the destination features. -/
abbrev wB (c : Dev nD) : S64x64.Idx → EReal := V c (Pipeline.arrRef spec3 3)
/-- The bias row. -/
abbrev bias (c : Dev nD) : S1x64.Idx → EReal := V c (Pipeline.arrRef spec3 4)

/-- The activation of edge r at feature j: max (hsrc(r,·)·wA(·,j) + hdst(r,·)·wB(·,j) + bias(j)) 0. -/
def Z (c : Dev nD) (r : Fin 1600000) (j : Fin 64) : EReal :=
  max ((∑ k : Fin 64, hsrc V c (ix2 r k) * wA V c (ix2 k j)) + (∑ k : Fin 64, hdst V c (ix2 r k) * wB V c (ix2 k j))
      + bias V c (ix2 0 j))
    (Ideal.ofBits .f32 0x00000000#32)

/-- The zero of the activation's maximum is the real number 0. -/
theorem Z_eq (c : Dev nD) (r : Fin 1600000) (j : Fin 64) :
    Z V c r j = max ((∑ k : Fin 64, hsrc V c (ix2 r k) * wA V c (ix2 k j)) + (∑ k : Fin 64, hdst V c (ix2 r k) * wB V c (ix2 k j))
      + bias V c (ix2 0 j)) 0 := by
  unfold Z
  rw [Ideal.ofBits_zero_f32]

/-- The activation is never negative. -/
theorem Z_nonneg (c : Dev nD) (r : Fin 1600000) (j : Fin 64) : 0 ≤ Z V c r j := by
  rw [Z_eq]; exact le_max_right _ _

/-- The zero offsets of a whole-block access, on two and on three axes. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## Where each window's block sits

At grid point t the two feature windows and the activation window hold rows 8000·t … 8000·t + 7999, the two
statistics windows hold tile t of [200,8,64], and the weights and the bias are held whole at every point: the block
indices, decided once over the 200 points. -/

theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 3) = t.val ∧ win3_6.index t (1 : Fin 3) = 0 ∧ win3_6.index t (2 : Fin 3) = 0
    ∧ win3_7.index t (0 : Fin 3) = t.val ∧ win3_7.index t (1 : Fin 3) = 0 ∧ win3_7.index t (2 : Fin 3) = 0 :=
  (by decide +kernel : ∀ t : Fin grid3.N, _)

/-- Row p of the source-feature block at point t is row 8000·t + p of the array. -/
theorem iblk0_apply (c : Dev nD) (t : Fin cfg3.N) (p : Fin 8000) (k : Fin 64) (r : Fin 1600000) (hr : r.val = 8000 * t.val + p.val) :
    (iblk3 V c 0 t : Vec Ideal S8000x64 .f32) (ix2 p k) = hsrc V c (ix2 r k) := by
  obtain ⟨e0, e1, -⟩ := idx_facts t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 8000 + 1 * p.val = r.val; rw [e0, hr]; omega
  | ⟨1, _⟩ => show win3_0.index t (1 : Fin 2) * 64 + 1 * k.val = k.val; rw [e1]; omega

/-- Row p of the destination-feature block at point t is row 8000·t + p of the array. -/
theorem iblk1_apply (c : Dev nD) (t : Fin cfg3.N) (p : Fin 8000) (k : Fin 64) (r : Fin 1600000) (hr : r.val = 8000 * t.val + p.val) :
    (iblk3 V c 1 t : Vec Ideal S8000x64 .f32) (ix2 p k) = hdst V c (ix2 r k) := by
  obtain ⟨-, -, e0, e1, -⟩ := idx_facts t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 8000 + 1 * p.val = r.val; rw [e0, hr]; omega
  | ⟨1, _⟩ => show win3_1.index t (1 : Fin 2) * 64 + 1 * k.val = k.val; rw [e1]; omega

/-- The first weight window holds its whole matrix at every point. -/
theorem iblk2_apply (c : Dev nD) (t : Fin cfg3.N) (k q : Fin 64) :
    (iblk3 V c 2 t : Vec Ideal S64x64 .f32) (ix2 k q) = wA V c (ix2 k q) := by
  obtain ⟨-, -, -, -, e0, e1, -⟩ := idx_facts t
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 64 + 1 * k.val = k.val; rw [e0]; omega
  | ⟨1, _⟩ => show win3_2.index t (1 : Fin 2) * 64 + 1 * q.val = q.val; rw [e1]; omega

/-- The second weight window likewise. -/
theorem iblk3_apply (c : Dev nD) (t : Fin cfg3.N) (k q : Fin 64) :
    (iblk3 V c 3 t : Vec Ideal S64x64 .f32) (ix2 k q) = wB V c (ix2 k q) := by
  obtain ⟨-, -, -, -, -, -, e0, e1, -⟩ := idx_facts t
  unfold iblk3
  rw [View.read_apply]
  show V c (Pipeline.arrRef spec3 3) _ = V c (Pipeline.arrRef spec3 3) _
  congr 1
  funext a
  apply Fin.ext
  match a with
  | ⟨0, _⟩ => show win3_3.index t (0 : Fin 2) * 64 + 1 * k.val = k.val; rw [e0]; omega
  | ⟨1, _⟩ => show win3_3.index t (1 : Fin 2) * 64 + 1 * q.val = q.val; rw [e1]; omega

/-- The bias window holds the whole row at every point. -/
theorem iblk4_apply (c : Dev nD) (t : Fin cfg3.N) (q : Fin 64) :
    (iblk3 V c 4 t : Vec Ideal S1x64 .f32) (ix2 0 q) = bias V c (ix2 0 q) := by
  obtain ⟨-, -, -, -, -, -, -, -, e0, e1, -⟩ := idx_facts t
  unfold iblk3
  rw [View.read_apply]
  show V c (Pipeline.arrRef spec3 4) _ = V c (Pipeline.arrRef spec3 4) _
  congr 1
  funext a
  apply Fin.ext
  match a with
  | ⟨0, _⟩ => show win3_4.index t (0 : Fin 2) * 1 + 1 * 0 = 0; rw [e0]
  | ⟨1, _⟩ => show win3_4.index t (1 : Fin 2) * 64 + 1 * q.val = q.val; rw [e1]; omega

/-! ## One block's results as the whole-array function -/

/-- The activation block at point t, at (p, q): Z of edge 8000·t + p. -/
theorem z_blk (c : Dev nD) (t : Fin cfg3.N) (p : Fin 8000) (q : Fin 64) (r : Fin 1600000) (hr : r.val = 8000 * t.val + p.val) :
    k3_pay1 (F := Ideal) (iblk3 V c 0 t) (iblk3 V c 1 t) (iblk3 V c 2 t) (iblk3 V c 3 t) (iblk3 V c 4 t) (ix2 p q) = Z V c r q := by
  refine (pay1_apply (iblk3 V c 0 t) (iblk3 V c 1 t) (iblk3 V c 2 t) (iblk3 V c 3 t) (iblk3 V c 4 t) p q).trans ?_
  unfold Z
  refine congrArg₂ max (congrArg₂ (· + ·) (congrArg₂ (· + ·) ?_ ?_) (iblk4_apply V c t q)) rfl
  · exact Finset.sum_congr rfl fun k _ => congrArg₂ (· * ·) (iblk0_apply V c t p k r hr) (iblk2_apply V c t k q)
  · exact Finset.sum_congr rfl fun k _ => congrArg₂ (· * ·) (iblk1_apply V c t p k r hr) (iblk3_apply V c t k q)

/-! ## The activation array -/

/-- Z as a whole [1600000,64] array. -/
def Zarr (c : Dev nD) : S1600000x64.Idx → EReal := fun i => Z V c (i 0) (i 1)

/-- The activation block at point t is block t of Z. -/
theorem blk5_point (c : Dev nD) (t : Fin cfg3.N) (y : S8000x64.Idx) :
    k3_pay1 (F := Ideal) (iblk3 V c 0 t) (iblk3 V c 1 t) (iblk3 V c 2 t) (iblk3 V c 3 t) (iblk3 V c 4 t) y
      = Zarr V c (((cfg3.win 5).blk t).view.emb y) := by
  obtain ⟨p, q, rfl⟩ : ∃ (p : Fin 8000) (q : Fin 64), y = ix2 p q := ⟨y 0, y 1, eq_ix2 y⟩
  obtain ⟨-, -, -, -, -, -, -, -, -, -, e0, e1, -⟩ := idx_facts t
  have hN : cfg3.N = 200 := N_3
  have ht : t.val < 200 := hN ▸ t.isLt
  refine (z_blk V c t p q ⟨8000 * t.val + p.val, by omega⟩ rfl).trans ?_
  unfold Zarr
  congr 1
  · apply Fin.ext
    show 8000 * t.val + p.val = win3_5.index t (0 : Fin 2) * 8000 + 1 * p.val
    rw [e0]; omega
  · apply Fin.ext
    show q.val = win3_5.index t (1 : Fin 2) * 64 + 1 * q.val
    rw [e1]; omega

/-- What point t writes back to the activation array is block t of Z. -/
theorem flushed5_eq (c : Dev nD) (t : Fin cfg3.N) :
    (dat3 V c).flushed 5 t = ((cfg3.win 5).blk t).view.read (Elt Ideal) (Zarr V c) := by
  show (cfg3.win 5).cut (grid3.coords t) ((dat3 V c).after 5 t) = _
  rw [after3_5]
  unfold out3_5
  rw [View.canon_unit_zero hz2]
  simp only [View.ld_unit_zero (S := S8000x64) hz2, View.ld_unit_zero (S := S64x64) hz2, View.ld_unit_zero (S := S1x64) hz2]
  funext y
  exact blk5_point V c t y

/-- An index of the activation array is in point t's block iff each coordinate is in the block's range. -/
theorem mem_blk5 (t : Fin cfg3.N) (i : S1600000x64.Idx) :
    i ∈ ((cfg3.win 5).blk t).view.set ↔ ∀ a : Fin 2, win3_5.index t a * S8000x64.size a ≤ (i a).val ∧ (i a).val < win3_5.index t a * S8000x64.size a + S8000x64.size a := by
  show i ∈ ((View.whole main_v104_0).slice (win3_5.rect t)).set ↔ _
  rw [View.set_slice_whole, Rect.mem_set_unit]
  exact Iff.rfl

/-- Edge r lies in block r / 8000. -/
theorem cover5 (i : S1600000x64.Idx) : ∃ t : Fin cfg3.N, (cfg3.win 5).flush t = true ∧ i ∈ ((cfg3.win 5).blk t).view.set := by
  have hi0 : (i 0).val < 1600000 := (i 0).isLt
  have hi1 : (i 1).val < 64 := (i 1).isLt
  have hN : cfg3.N = 200 := N_3
  have hlt : (i 0).val / 8000 < cfg3.N := by rw [hN]; omega
  obtain ⟨-, -, -, -, -, -, -, -, -, -, e0, e1, -⟩ := idx_facts ⟨(i 0).val / 8000, hlt⟩
  refine ⟨⟨(i 0).val / 8000, hlt⟩, flush3_5 _, ?_⟩
  rw [mem_blk5]
  intro a
  match a with
  | ⟨0, _⟩ =>
    show win3_5.index ⟨(i 0).val / 8000, hlt⟩ (0 : Fin 2) * 8000 ≤ (i 0).val ∧ (i 0).val < win3_5.index ⟨(i 0).val / 8000, hlt⟩ (0 : Fin 2) * 8000 + 8000
    rw [e0]; show (i 0).val / 8000 * 8000 ≤ (i 0).val ∧ (i 0).val < (i 0).val / 8000 * 8000 + 8000; omega
  | ⟨1, _⟩ =>
    show win3_5.index ⟨(i 0).val / 8000, hlt⟩ (1 : Fin 2) * 64 ≤ (i 1).val ∧ (i 1).val < win3_5.index ⟨(i 0).val / 8000, hlt⟩ (1 : Fin 2) * 64 + 64
    rw [e1]; omega

/-- After the region, the activation array holds Z. -/
theorem z_apply (c : Dev nD) (r : Fin 1600000) (j : Fin 64) :
    (dat3 (F := Ideal) V c).arrAt 5 cfg3.N (ix2 r j) = Z V c r j :=
  congrFun ((dat3 V c).arrAt_eq_of_cover 5 (Zarr V c) (fun t _ => flushed5_eq V c t) cover5) (ix2 r j)

/-! ## The two statistics arrays

Tile t of each [200,8,64] statistics array holds, on every sublane u, the sums over block t's 8000 edges of Z and of
Z². -/

/-- Edge y of block t. -/
def rowOf (t : Fin 200) (y : Fin 8000) : Fin 1600000 := ⟨8000 * t.val + y.val, by omega⟩

/-- The block sums of Z as a whole [200,8,64] array. -/
def Sarr (c : Dev nD) : S200x8x64.Idx → EReal := fun i => ∑ y : Fin 8000, Z V c (rowOf (i 0) y) (i 2)

/-- The block sums of Z² as a whole [200,8,64] array. -/
def Qarr (c : Dev nD) : S200x8x64.Idx → EReal := fun i => ∑ y : Fin 8000, Z V c (rowOf (i 0) y) (i 2) * Z V c (rowOf (i 0) y) (i 2)

/-- The first statistics tile at point t is tile t of the block sums of Z. -/
theorem blk6_point (c : Dev nD) (t : Fin cfg3.N) (y : S1x8x64.Idx) :
    k3_pay2 (F := Ideal) (iblk3 V c 0 t) (iblk3 V c 1 t) (iblk3 V c 2 t) (iblk3 V c 3 t) (iblk3 V c 4 t) y
      = Sarr V c (((cfg3.win 6).blk t).view.emb y) := by
  obtain ⟨o, u, q, rfl⟩ : ∃ (o : Fin 1) (u : Fin 8) (q : Fin 64), y = ix3 o u q := ⟨y 0, y 1, y 2, eq_ix3 y⟩
  obtain rfl : o = 0 := Subsingleton.elim _ _
  obtain ⟨-, -, -, -, -, -, -, -, -, -, -, -, e0, e1, e2, -⟩ := idx_facts t
  have hN : cfg3.N = 200 := N_3
  have ht : t.val < 200 := hN ▸ t.isLt
  refine (pay2_apply (iblk3 V c 0 t) (iblk3 V c 1 t) (iblk3 V c 2 t) (iblk3 V c 3 t) (iblk3 V c 4 t) u q).trans ?_
  unfold Sarr
  have h0 : (⟨t.val, ht⟩ : Fin 200) = ((cfg3.win 6).blk t).view.emb (ix3 0 u q) 0 :=
    Fin.ext (by show t.val = win3_6.index t (0 : Fin 3) * 1 + 1 * 0; rw [e0]; omega)
  have h2 : q = ((cfg3.win 6).blk t).view.emb (ix3 0 u q) 2 :=
    Fin.ext (by show q.val = win3_6.index t (2 : Fin 3) * 64 + 1 * q.val; rw [e2]; omega)
  refine Finset.sum_congr rfl fun p _ => ?_
  refine (z_blk V c t p q (rowOf ⟨t.val, ht⟩ p) rfl).trans ?_
  exact congrArg₂ (fun (a : Fin 200) (b : Fin 64) => Z V c (rowOf a p) b) h0 h2

/-- The second statistics tile at point t is tile t of the block sums of Z². -/
theorem blk7_point (c : Dev nD) (t : Fin cfg3.N) (y : S1x8x64.Idx) :
    k3_pay3 (F := Ideal) (iblk3 V c 0 t) (iblk3 V c 1 t) (iblk3 V c 2 t) (iblk3 V c 3 t) (iblk3 V c 4 t) y
      = Qarr V c (((cfg3.win 7).blk t).view.emb y) := by
  obtain ⟨o, u, q, rfl⟩ : ∃ (o : Fin 1) (u : Fin 8) (q : Fin 64), y = ix3 o u q := ⟨y 0, y 1, y 2, eq_ix3 y⟩
  obtain rfl : o = 0 := Subsingleton.elim _ _
  obtain ⟨-, -, -, -, -, -, -, -, -, -, -, -, -, -, -, e0, e1, e2⟩ := idx_facts t
  have hN : cfg3.N = 200 := N_3
  have ht : t.val < 200 := hN ▸ t.isLt
  refine (pay3_apply (iblk3 V c 0 t) (iblk3 V c 1 t) (iblk3 V c 2 t) (iblk3 V c 3 t) (iblk3 V c 4 t) u q).trans ?_
  unfold Qarr
  have h0 : (⟨t.val, ht⟩ : Fin 200) = ((cfg3.win 7).blk t).view.emb (ix3 0 u q) 0 :=
    Fin.ext (by show t.val = win3_7.index t (0 : Fin 3) * 1 + 1 * 0; rw [e0]; omega)
  have h2 : q = ((cfg3.win 7).blk t).view.emb (ix3 0 u q) 2 :=
    Fin.ext (by show q.val = win3_7.index t (2 : Fin 3) * 64 + 1 * q.val; rw [e2]; omega)
  refine Finset.sum_congr rfl fun p _ => ?_
  have hz := (z_blk V c t p q (rowOf ⟨t.val, ht⟩ p) rfl).trans
    (congrArg₂ (fun (a : Fin 200) (b : Fin 64) => Z V c (rowOf a p) b) h0 h2)
  exact congrArg₂ (· * ·) hz hz

/-- What point t writes back to the first statistics array is tile t of the block sums of Z. -/
theorem flushed6_eq (c : Dev nD) (t : Fin cfg3.N) :
    (dat3 V c).flushed 6 t = ((cfg3.win 6).blk t).view.read (Elt Ideal) (Sarr V c) := by
  show (cfg3.win 6).cut (grid3.coords t) ((dat3 V c).after 6 t) = _
  rw [after3_6]
  unfold out3_6
  rw [View.canon_unit_zero hz3]
  simp only [View.ld_unit_zero (S := S8000x64) hz2, View.ld_unit_zero (S := S64x64) hz2, View.ld_unit_zero (S := S1x64) hz2]
  funext y
  exact blk6_point V c t y

/-- What point t writes back to the second statistics array is tile t of the block sums of Z². -/
theorem flushed7_eq (c : Dev nD) (t : Fin cfg3.N) :
    (dat3 V c).flushed 7 t = ((cfg3.win 7).blk t).view.read (Elt Ideal) (Qarr V c) := by
  show (cfg3.win 7).cut (grid3.coords t) ((dat3 V c).after 7 t) = _
  rw [after3_7]
  unfold out3_7
  rw [View.canon_unit_zero hz3]
  simp only [View.ld_unit_zero (S := S8000x64) hz2, View.ld_unit_zero (S := S64x64) hz2, View.ld_unit_zero (S := S1x64) hz2]
  funext y
  exact blk7_point V c t y

/-- An index of the first statistics array is in point t's tile iff each coordinate is in the tile's range. -/
theorem mem_blk6 (t : Fin cfg3.N) (i : S200x8x64.Idx) :
    i ∈ ((cfg3.win 6).blk t).view.set ↔ ∀ a : Fin 3, win3_6.index t a * S1x8x64.size a ≤ (i a).val ∧ (i a).val < win3_6.index t a * S1x8x64.size a + S1x8x64.size a := by
  show i ∈ ((View.whole main_v104_1).slice (win3_6.rect t)).set ↔ _
  rw [View.set_slice_whole, Rect.mem_set_unit]
  exact Iff.rfl

/-- The same for the second statistics array. -/
theorem mem_blk7 (t : Fin cfg3.N) (i : S200x8x64.Idx) :
    i ∈ ((cfg3.win 7).blk t).view.set ↔ ∀ a : Fin 3, win3_7.index t a * S1x8x64.size a ≤ (i a).val ∧ (i a).val < win3_7.index t a * S1x8x64.size a + S1x8x64.size a := by
  show i ∈ ((View.whole main_v104_2).slice (win3_7.rect t)).set ↔ _
  rw [View.set_slice_whole, Rect.mem_set_unit]
  exact Iff.rfl

/-- Entry (t, u, j) of a statistics array lies in tile t. -/
theorem cover6 (i : S200x8x64.Idx) : ∃ t : Fin cfg3.N, (cfg3.win 6).flush t = true ∧ i ∈ ((cfg3.win 6).blk t).view.set := by
  have hi0 : (i 0).val < 200 := (i 0).isLt
  have hi1 : (i 1).val < 8 := (i 1).isLt
  have hi2 : (i 2).val < 64 := (i 2).isLt
  have hN : cfg3.N = 200 := N_3
  have hlt : (i 0).val < cfg3.N := by rw [hN]; omega
  obtain ⟨-, -, -, -, -, -, -, -, -, -, -, -, e0, e1, e2, -⟩ := idx_facts ⟨(i 0).val, hlt⟩
  refine ⟨⟨(i 0).val, hlt⟩, flush3_6 _, ?_⟩
  rw [mem_blk6]
  intro a
  match a with
  | ⟨0, _⟩ =>
    show win3_6.index ⟨(i 0).val, hlt⟩ (0 : Fin 3) * 1 ≤ (i 0).val ∧ (i 0).val < win3_6.index ⟨(i 0).val, hlt⟩ (0 : Fin 3) * 1 + 1
    rw [e0]; show (i 0).val * 1 ≤ (i 0).val ∧ (i 0).val < (i 0).val * 1 + 1; omega
  | ⟨1, _⟩ =>
    show win3_6.index ⟨(i 0).val, hlt⟩ (1 : Fin 3) * 8 ≤ (i 1).val ∧ (i 1).val < win3_6.index ⟨(i 0).val, hlt⟩ (1 : Fin 3) * 8 + 8
    rw [e1]; omega
  | ⟨2, _⟩ =>
    show win3_6.index ⟨(i 0).val, hlt⟩ (2 : Fin 3) * 64 ≤ (i 2).val ∧ (i 2).val < win3_6.index ⟨(i 0).val, hlt⟩ (2 : Fin 3) * 64 + 64
    rw [e2]; omega

/-- The same for the second statistics array. -/
theorem cover7 (i : S200x8x64.Idx) : ∃ t : Fin cfg3.N, (cfg3.win 7).flush t = true ∧ i ∈ ((cfg3.win 7).blk t).view.set := by
  have hi0 : (i 0).val < 200 := (i 0).isLt
  have hi1 : (i 1).val < 8 := (i 1).isLt
  have hi2 : (i 2).val < 64 := (i 2).isLt
  have hN : cfg3.N = 200 := N_3
  have hlt : (i 0).val < cfg3.N := by rw [hN]; omega
  obtain ⟨-, -, -, -, -, -, -, -, -, -, -, -, -, -, -, e0, e1, e2⟩ := idx_facts ⟨(i 0).val, hlt⟩
  refine ⟨⟨(i 0).val, hlt⟩, flush3_7 _, ?_⟩
  rw [mem_blk7]
  intro a
  match a with
  | ⟨0, _⟩ =>
    show win3_7.index ⟨(i 0).val, hlt⟩ (0 : Fin 3) * 1 ≤ (i 0).val ∧ (i 0).val < win3_7.index ⟨(i 0).val, hlt⟩ (0 : Fin 3) * 1 + 1
    rw [e0]; show (i 0).val * 1 ≤ (i 0).val ∧ (i 0).val < (i 0).val * 1 + 1; omega
  | ⟨1, _⟩ =>
    show win3_7.index ⟨(i 0).val, hlt⟩ (1 : Fin 3) * 8 ≤ (i 1).val ∧ (i 1).val < win3_7.index ⟨(i 0).val, hlt⟩ (1 : Fin 3) * 8 + 8
    rw [e1]; omega
  | ⟨2, _⟩ =>
    show win3_7.index ⟨(i 0).val, hlt⟩ (2 : Fin 3) * 64 ≤ (i 2).val ∧ (i 2).val < win3_7.index ⟨(i 0).val, hlt⟩ (2 : Fin 3) * 64 + 64
    rw [e2]; omega

/-- After the region, entry (t, u, j) of the first statistics array is the sum of Z over block t's edges. -/
theorem sum_apply (c : Dev nD) (t : Fin 200) (u : Fin 8) (j : Fin 64) :
    (dat3 (F := Ideal) V c).arrAt 6 cfg3.N (ix3 t u j) = ∑ y : Fin 8000, Z V c ⟨8000 * t.val + y.val, by omega⟩ j :=
  congrFun ((dat3 V c).arrAt_eq_of_cover 6 (Sarr V c) (fun t _ => flushed6_eq V c t) cover6) (ix3 t u j)

/-- After the region, entry (t, u, j) of the second statistics array is the sum of Z² over block t's edges. -/
theorem sq_apply (c : Dev nD) (t : Fin 200) (u : Fin 8) (j : Fin 64) :
    (dat3 (F := Ideal) V c).arrAt 7 cfg3.N (ix3 t u j)
      = ∑ y : Fin 8000, Z V c ⟨8000 * t.val + y.val, by omega⟩ j * Z V c ⟨8000 * t.val + y.val, by omega⟩ j :=
  congrFun ((dat3 V c).arrAt_eq_of_cover 7 (Qarr V c) (fun t _ => flushed7_eq V c t) cover7) (ix3 t u j)

end Cert.KernelIdeal.Region3

end
-- ==== Proof.LibBlockSum.lean ====
/- Regrouping a sum over Fin (nb * bs) into nb consecutive blocks of bs terms, in any additive commutative monoid:
   the index r = bs * t + y runs over every r < nb * bs exactly once as t runs over the blocks and y over the places in
   a block. Stated with the blocks indexed by Fin nb and by a range of naturals, and at 10000 = 50 * 200. -/
import Mathlib.Algebra.BigOperators.Fin
import Mathlib.Data.Fintype.BigOperators
import Mathlib.Logic.Equiv.Fin.Basic

namespace Cert.Lib

/-- The place y of block t lies below nb * bs. -/
theorem block_lt {nb bs : ℕ} (t : Fin nb) (y : Fin bs) : bs * t.val + y.val < nb * bs := by
  have h1 : bs * t.val + y.val < bs * (t.val + 1) := by rw [Nat.mul_succ]; exact Nat.add_lt_add_left y.isLt _
  have h2 : bs * (t.val + 1) ≤ bs * nb := Nat.mul_le_mul_left _ t.isLt
  rw [Nat.mul_comm nb bs]
  exact lt_of_lt_of_le h1 h2

/-- The same when the total is named N = nb * bs. -/
theorem block_lt_of_eq {nb bs N : ℕ} (h : nb * bs = N) (t : Fin nb) (y : Fin bs) : bs * t.val + y.val < N :=
  h ▸ block_lt t y

/-- A sum over Fin (nb * bs) is the sum over the nb blocks of the sums over the bs places of each block. -/
theorem sum_blocks {M : Type*} [AddCommMonoid M] (nb bs : ℕ) (f : Fin (nb * bs) → M) :
    ∑ t : Fin nb, ∑ y : Fin bs, f ⟨bs * t.val + y.val, block_lt t y⟩ = ∑ r : Fin (nb * bs), f r := by
  rw [← Equiv.sum_comp (finProdFinEquiv (m := nb) (n := bs)) f, Fintype.sum_prod_type]
  refine Finset.sum_congr rfl (fun t _ => Finset.sum_congr rfl (fun y _ => ?_))
  refine congrArg f (Fin.ext ?_)
  show bs * t.val + y.val = y.val + bs * t.val
  exact Nat.add_comm _ _

/-- The same for a sum over Fin N with N = nb * bs. -/
theorem sum_blocks_of_eq {M : Type*} [AddCommMonoid M] {nb bs N : ℕ} (h : nb * bs = N) (f : Fin N → M) :
    ∑ t : Fin nb, ∑ y : Fin bs, f ⟨bs * t.val + y.val, block_lt_of_eq h t y⟩ = ∑ r : Fin N, f r := by
  subst h
  exact sum_blocks nb bs f

/-- The blocks indexed by a range of naturals: if B t is the sum of block t for every t < nb, the sum of B over
    range nb is the whole sum. -/
theorem sum_range_blocks_of_eq {M : Type*} [AddCommMonoid M] {nb bs N : ℕ} (h : nb * bs = N) (f : Fin N → M)
    (B : ℕ → M)
    (hB : ∀ (t : ℕ) (ht : t < nb), B t = ∑ y : Fin bs, f ⟨bs * t + y.val, block_lt_of_eq h ⟨t, ht⟩ y⟩) :
    ∑ s ∈ Finset.range nb, B s = ∑ r : Fin N, f r := by
  rw [Finset.sum_range, ← sum_blocks_of_eq h f]
  exact Finset.sum_congr rfl (fun t _ => hB t.val t.isLt)

/-- 10000 terms are 50 blocks of 200. -/
theorem sum_blocks_10000 {M : Type*} [AddCommMonoid M] (f : Fin 10000 → M) :
    ∑ t : Fin 50, ∑ y : Fin 200, f ⟨200 * t.val + y.val, by omega⟩ = ∑ r : Fin 10000, f r :=
  sum_blocks_of_eq (nb := 50) (bs := 200) (N := 10000) rfl f

/-- 10000 terms from a range of 50 block sums. -/
theorem sum_range_blocks_10000 {M : Type*} [AddCommMonoid M] (f : Fin 10000 → M) (B : ℕ → M)
    (hB : ∀ (t : ℕ) (ht : t < 50), B t = ∑ y : Fin 200, f ⟨200 * t + y.val, by omega⟩) :
    ∑ s ∈ Finset.range 50, B s = ∑ r : Fin 10000, f r :=
  sum_range_blocks_of_eq (nb := 50) (bs := 200) (N := 10000) rfl f B hB

/-- A running sum: an accumulator that starts at b 0 and adds b (n + 1) at step n + 1 holds, after step n, the sum of
    b over range (n + 1). -/
theorem running_sum {M : Type*} [AddCommMonoid M] (b acc : ℕ → M) (h0 : acc 0 = b 0)
    (hs : ∀ n, acc (n + 1) = acc n + b (n + 1)) (n : ℕ) : acc n = ∑ t ∈ Finset.range (n + 1), b t := by
  induction n with
  | zero => rw [h0, Finset.sum_range_one]
  | succ n ih => rw [hs n, ih, Finset.sum_range_succ _ (n + 1)]

/-- The same with the steps known only below a bound N. -/
theorem running_sum_lt {M : Type*} [AddCommMonoid M] {N : ℕ} (b acc : ℕ → M) (h0 : acc 0 = b 0)
    (hs : ∀ n, n + 1 < N → acc (n + 1) = acc n + b (n + 1)) (n : ℕ) (hn : n < N) :
    acc n = ∑ t ∈ Finset.range (n + 1), b t := by
  induction n with
  | zero => rw [h0, Finset.sum_range_one]
  | succ n ih => rw [hs n hn, ih (Nat.lt_of_succ_lt hn), Finset.sum_range_succ _ (n + 1)]

/-- The same when the accumulator starts from zero plus the first term. -/
theorem running_sum_lt' {M : Type*} [AddCommMonoid M] {N : ℕ} (b acc : ℕ → M) (h0 : acc 0 = 0 + b 0)
    (hs : ∀ n, n + 1 < N → acc (n + 1) = acc n + b (n + 1)) (n : ℕ) (hn : n < N) :
    acc n = ∑ t ∈ Finset.range (n + 1), b t :=
  running_sum_lt b acc (by rw [h0, zero_add]) hs n hn

/-- An accumulator that starts at zero plus block 0 and adds block n + 1 at step n + 1, for 50 blocks of 200, holds
    after step 49 the sum of all 10000 terms. -/
theorem acc_49_10000 {M : Type*} [AddCommMonoid M] (f : Fin 10000 → M) (b acc : ℕ → M)
    (hb : ∀ (t : ℕ) (ht : t < 50), b t = ∑ y : Fin 200, f ⟨200 * t + y.val, by omega⟩)
    (h0 : acc 0 = 0 + b 0) (hs : ∀ n, n + 1 < 50 → acc (n + 1) = acc n + b (n + 1)) :
    acc 49 = ∑ r : Fin 10000, f r := by
  rw [running_sum_lt' b acc h0 hs 49 (by omega)]
  exact sum_range_blocks_10000 f b hb

end Cert.Lib
-- ==== Proof.LibStats.lean ====
/- Finite calculus on the extended reals. An extended real is called real when it is the image of a real number.
   Sums, differences, products, maxima, finite sums, quotients by a nonzero real and reciprocal square roots of
   positive reals stay real, so that identities of real algebra (which fail at the infinities: distributivity,
   cancellation) can be carried to the extended reals for real-valued data. The main such identity here is the
   one behind batch statistics: the mean of the squared deviations from the mean is the mean of the squares
   minus the square of the mean. Also: 1600000 terms summed as 200 consecutive blocks of 8000. -/
import Mathlib.Data.EReal.Inv
import Mathlib.Algebra.BigOperators.Fin
import Mathlib.Tactic.Ring
import Mathlib.Tactic.FieldSimp
import Mathlib.Tactic.Positivity
import Mathlib.Tactic.NormNum
import Idealize.ShloMosaic.PureOps.Ideal
import proofs.«123034_j51127290692283_2_alg».proof.Proof.LibBlockSum

namespace Cert.Lib

open Idealize.ShloMosaic

/-- An extended real that is (the image of) a real number: neither infinity. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- A real extended real is not the upper infinity. -/
theorem IsReal.ne_top {x : EReal} (h : IsReal x) : x ≠ ⊤ := by
  obtain ⟨r, rfl⟩ := h; exact EReal.coe_ne_top r

/-- A real extended real is not the lower infinity. -/
theorem IsReal.ne_bot {x : EReal} (h : IsReal x) : x ≠ ⊥ := by
  obtain ⟨r, rfl⟩ := h; exact EReal.coe_ne_bot r

/-- An extended real that is neither infinity is real. -/
theorem isReal_of_ne {x : EReal} (ht : x ≠ ⊤) (hb : x ≠ ⊥) : IsReal x := by
  induction x using EReal.rec with
  | bot => exact absurd rfl hb
  | coe r => exact ⟨r, rfl⟩
  | top => exact absurd rfl ht

/-- Being real is being neither infinity. -/
theorem isReal_iff {x : EReal} : IsReal x ↔ x ≠ ⊤ ∧ x ≠ ⊥ :=
  ⟨fun h => ⟨h.ne_top, h.ne_bot⟩, fun h => isReal_of_ne h.1 h.2⟩

/-- The sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The negative of a real is real. -/
theorem IsReal.neg {x : EReal} (hx : IsReal x) : IsReal (-x) := by
  obtain ⟨a, rfl⟩ := hx; exact ⟨-a, (EReal.coe_neg a).symm⟩

/-- The difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The maximum of two images of reals is the image of the maximum. -/
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The minimum of two images of reals is the image of the minimum. -/
theorem coe_min (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

/-- The maximum of two reals is real. -/
theorem IsReal.max {x y : EReal} (hx : IsReal x) (hy : IsReal y) : IsReal (max x y) := by
  obtain ⟨a, rfl⟩ := hx; obtain ⟨b, rfl⟩ := hy; exact ⟨_, coe_max a b⟩

/-- The minimum of two reals is real. -/
theorem IsReal.min {x y : EReal} (hx : IsReal x) (hy : IsReal y) : IsReal (min x y) := by
  obtain ⟨a, rfl⟩ := hx; obtain ⟨b, rfl⟩ := hy; exact ⟨_, coe_min a b⟩

/-- The image of a finite sum of reals is the sum of the images. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih (fun i hi => h i (Finset.mem_insert_of_mem hi)))

/-- A sum of reals over a whole finite type is real. -/
theorem isReal_sum_univ {ι : Type*} [Fintype ι] (f : ι → EReal) (h : ∀ i, IsReal (f i)) :
    IsReal (∑ i, f i) :=
  isReal_sum Finset.univ f (fun i _ => h i)

/-- A family of reals is the image of a family of real numbers. -/
theorem exists_real_family {ι : Type*} (z : ι → EReal) (h : ∀ i, IsReal (z i)) :
    ∃ a : ι → ℝ, z = fun i => (a i : EReal) := by
  choose a ha using h
  exact ⟨a, funext ha⟩

/-- The quotient of the image of a real by a nonzero real number is the image of the product with the reciprocal. -/
theorem div_coe_coe (a : ℝ) {N : ℝ} (hN : N ≠ 0) :
    Ideal.div (a : EReal) (N : EReal) = ((a * (1 / N) : ℝ) : EReal) := by
  rw [Ideal.div_coe hN, EReal.coe_mul]

/-- The quotient of a real by a nonzero real number is real. -/
theorem IsReal.div {x : EReal} (hx : IsReal x) {N : ℝ} (hN : N ≠ 0) : IsReal (Ideal.div x (N : EReal)) := by
  obtain ⟨a, rfl⟩ := hx; exact ⟨_, div_coe_coe a hN⟩

/-- The reciprocal square root of a positive real number is the image of the reciprocal of its square root. -/
theorem rsqrt_coe_of_pos {r : ℝ} (h : 0 < r) : Ideal.rsqrt (r : EReal) = (((Real.sqrt r)⁻¹ : ℝ) : EReal) := by
  rw [Ideal.rsqrt_coe, if_neg (not_lt.mpr h.le), if_neg h.ne']

/-- The reciprocal square root of a positive real number is real. -/
theorem isReal_rsqrt_coe {r : ℝ} (h : 0 < r) : IsReal (Ideal.rsqrt (r : EReal)) :=
  ⟨_, rsqrt_coe_of_pos h⟩

/-- The reciprocal square root of a positive real is real. -/
theorem IsReal.rsqrt {x : EReal} (hx : IsReal x) (h : 0 < x) : IsReal (Ideal.rsqrt x) := by
  obtain ⟨a, rfl⟩ := hx; exact isReal_rsqrt_coe (EReal.coe_pos.mp h)

/-- A nonnegative real number plus a positive one, taken in the extended reals, has a real reciprocal square root. -/
theorem isReal_rsqrt_add {v e : ℝ} (hv : 0 ≤ v) (he : 0 < e) : IsReal (Ideal.rsqrt ((v : EReal) + (e : EReal))) := by
  rw [← EReal.coe_add]; exact isReal_rsqrt_coe (add_pos_of_nonneg_of_pos hv he)

/-- Adding to zero changes nothing (a reduction's initial value 0 in front of its sum). -/
theorem zero_add_ereal (x : EReal) : (0 : EReal) + x = x := zero_add x

/-! ### The mean of squared deviations -/

/-- Over the real numbers, with N the number of terms and mu = (∑ a) / N: the sum of the squared deviations from mu
    is the sum of the squares minus N mu², so their means differ by mu². Division is written as the product with the
    reciprocal. -/
theorem variance_real {n : ℕ} (hn : n ≠ 0) (a : Fin n → ℝ) (N : ℝ) (hN : N = n) :
    (∑ i, (a i - (∑ j, a j) * (1 / N)) * (a i - (∑ j, a j) * (1 / N))) * (1 / N)
      = (∑ i, a i * a i) * (1 / N) - ((∑ j, a j) * (1 / N)) * ((∑ j, a j) * (1 / N)) := by
  have hN0 : N ≠ 0 := by rw [hN]; exact_mod_cast hn
  set S := ∑ j, a j with hS
  have h1 : ∑ i, (a i - S * (1 / N)) * (a i - S * (1 / N))
      = (∑ i, a i * a i) - 2 * (S * (1 / N)) * S + N * ((S * (1 / N)) * (S * (1 / N))) := by
    have : ∀ i, (a i - S * (1 / N)) * (a i - S * (1 / N))
        = a i * a i - 2 * (S * (1 / N)) * a i + (S * (1 / N)) * (S * (1 / N)) := fun i => by ring
    rw [Finset.sum_congr rfl (fun i _ => this i), Finset.sum_add_distrib, Finset.sum_sub_distrib,
      ← Finset.mul_sum, Finset.sum_const, Finset.card_univ, Fintype.card_fin, nsmul_eq_mul, ← hN]
  rw [h1]
  field_simp
  ring

/-- Over the real numbers the mean of the squared deviations is not negative. -/
theorem variance_real_nonneg {n : ℕ} (a : Fin n → ℝ) (mu N : ℝ) (hN : 0 ≤ N) :
    0 ≤ (∑ i, (a i - mu) * (a i - mu)) * (1 / N) :=
  mul_nonneg (Finset.sum_nonneg (fun i _ => mul_self_nonneg _)) (one_div_nonneg.mpr hN)

/-- The identity behind batch statistics, on the extended reals for real-valued data: with N the number n ≠ 0 of terms
    and mu = (∑ z) / N, the mean of the squared deviations from mu is the mean of the squares minus mu², and this
    common value is the image of a real number that is not negative. -/
theorem variance_identity_val {n : ℕ} (hn : n ≠ 0) (z : Fin n → EReal) (hz : ∀ i, IsReal (z i)) (N : ℝ) (hN : N = n) :
    ∃ v : ℝ, 0 ≤ v ∧
      Ideal.div (∑ i, (z i - Ideal.div (∑ j, z j) (N : EReal)) * (z i - Ideal.div (∑ j, z j) (N : EReal))) (N : EReal)
        = (v : EReal) ∧
      Ideal.div (∑ i, z i * z i) (N : EReal)
          - Ideal.div (∑ j, z j) (N : EReal) * Ideal.div (∑ j, z j) (N : EReal) = (v : EReal) := by
  have hN0 : N ≠ 0 := by rw [hN]; exact_mod_cast hn
  have hNn : 0 ≤ N := by rw [hN]; exact Nat.cast_nonneg n
  obtain ⟨a, rfl⟩ := exists_real_family z hz
  have hmu : Ideal.div (∑ j, (a j : EReal)) (N : EReal) = (((∑ j, a j) * (1 / N) : ℝ) : EReal) := by
    rw [← coe_finset_sum, div_coe_coe _ hN0]
  have hD : ∀ mu : ℝ, ∑ i, ((a i : EReal) - (mu : EReal)) * ((a i : EReal) - (mu : EReal))
      = ((∑ i, (a i - mu) * (a i - mu) : ℝ) : EReal) := fun mu => by
    rw [coe_finset_sum]
    exact Finset.sum_congr rfl (fun i _ => by rw [EReal.coe_mul, EReal.coe_sub])
  have hQ : ∑ i, (a i : EReal) * (a i : EReal) = ((∑ i, a i * a i : ℝ) : EReal) := by
    rw [coe_finset_sum]
    exact Finset.sum_congr rfl (fun i _ => by rw [EReal.coe_mul])
  refine ⟨(∑ i, (a i - (∑ j, a j) * (1 / N)) * (a i - (∑ j, a j) * (1 / N))) * (1 / N),
    variance_real_nonneg a _ N hNn, ?_, ?_⟩
  · rw [hmu, hD, div_coe_coe _ hN0]
  · rw [hmu, hQ, div_coe_coe _ hN0, ← EReal.coe_mul, ← EReal.coe_sub, variance_real hn a N hN]

/-- The mean of the squared deviations from the mean is the mean of the squares minus the square of the mean
    (extended reals, real-valued data, N the number n ≠ 0 of terms). -/
theorem variance_identity {n : ℕ} (hn : n ≠ 0) (z : Fin n → EReal) (hz : ∀ i, IsReal (z i)) (N : ℝ) (hN : N = n) :
    Ideal.div (∑ i, (z i - Ideal.div (∑ j, z j) (N : EReal)) * (z i - Ideal.div (∑ j, z j) (N : EReal))) (N : EReal)
      = Ideal.div (∑ i, z i * z i) (N : EReal)
          - Ideal.div (∑ j, z j) (N : EReal) * Ideal.div (∑ j, z j) (N : EReal) := by
  obtain ⟨v, _, h1, h2⟩ := variance_identity_val hn z hz N hN
  rw [h1, h2]

/-- The same with the three sums, the mean and the sum of squared deviations named by equations, so that each may be
    given in whatever arrangement it was computed. -/
theorem variance_identity_of_eq {n : ℕ} (hn : n ≠ 0) (z : Fin n → EReal) (hz : ∀ i, IsReal (z i)) (N : ℝ) (hN : N = n)
    {S Q D mu : EReal} (hS : S = ∑ i, z i) (hQ : Q = ∑ i, z i * z i) (hmu : mu = Ideal.div S (N : EReal))
    (hD : D = ∑ i, (z i - mu) * (z i - mu)) :
    Ideal.div D (N : EReal) = Ideal.div Q (N : EReal) - mu * mu := by
  subst hS hQ hmu hD
  exact variance_identity hn z hz N hN

/-- The same with each sum preceded by a reduction's initial value 0. -/
theorem variance_identity_zero_add {n : ℕ} (hn : n ≠ 0) (z : Fin n → EReal) (hz : ∀ i, IsReal (z i)) (N : ℝ)
    (hN : N = n) :
    Ideal.div (0 + ∑ i, (z i - Ideal.div (0 + ∑ j, z j) (N : EReal)) * (z i - Ideal.div (0 + ∑ j, z j) (N : EReal)))
        (N : EReal)
      = Ideal.div (0 + ∑ i, z i * z i) (N : EReal)
          - Ideal.div (0 + ∑ j, z j) (N : EReal) * Ideal.div (0 + ∑ j, z j) (N : EReal) := by
  simp only [zero_add]
  exact variance_identity hn z hz N hN

/-- The mean of real-valued data is real. -/
theorem isReal_mean {n : ℕ} (z : Fin n → EReal) (hz : ∀ i, IsReal (z i)) {N : ℝ} (hN : N ≠ 0) :
    IsReal (Ideal.div (∑ j, z j) (N : EReal)) :=
  (isReal_sum_univ z hz).div hN

/-- The mean of the squared deviations of real-valued data from their mean is the image of a real number that is not
    negative. -/
theorem variance_nonneg_real {n : ℕ} (hn : n ≠ 0) (z : Fin n → EReal) (hz : ∀ i, IsReal (z i)) (N : ℝ) (hN : N = n) :
    ∃ v : ℝ, 0 ≤ v ∧
      Ideal.div (∑ i, (z i - Ideal.div (∑ j, z j) (N : EReal)) * (z i - Ideal.div (∑ j, z j) (N : EReal))) (N : EReal)
        = (v : EReal) := by
  obtain ⟨v, hv, h1, _⟩ := variance_identity_val hn z hz N hN
  exact ⟨v, hv, h1⟩

/-- The mean of the squares minus the square of the mean, for real-valued data, is the image of a real number that is
    not negative. -/
theorem variance_nonneg_real' {n : ℕ} (hn : n ≠ 0) (z : Fin n → EReal) (hz : ∀ i, IsReal (z i)) (N : ℝ) (hN : N = n) :
    ∃ v : ℝ, 0 ≤ v ∧
      Ideal.div (∑ i, z i * z i) (N : EReal)
          - Ideal.div (∑ j, z j) (N : EReal) * Ideal.div (∑ j, z j) (N : EReal) = (v : EReal) := by
  obtain ⟨v, hv, _, h2⟩ := variance_identity_val hn z hz N hN
  exact ⟨v, hv, h2⟩

/-- Either form of the variance of real-valued data, plus a positive real number, has a real reciprocal square root. -/
theorem isReal_rsqrt_variance_add {n : ℕ} (hn : n ≠ 0) (z : Fin n → EReal) (hz : ∀ i, IsReal (z i)) (N : ℝ) (hN : N = n)
    {e : ℝ} (he : 0 < e) :
    IsReal (Ideal.rsqrt (Ideal.div (∑ i, z i * z i) (N : EReal)
          - Ideal.div (∑ j, z j) (N : EReal) * Ideal.div (∑ j, z j) (N : EReal) + (e : EReal))) := by
  obtain ⟨v, hv, h⟩ := variance_nonneg_real' hn z hz N hN
  rw [h]; exact isReal_rsqrt_add hv he

/-! ### The programs' two float literals, and the spellings of a literal -/

/-- The single-precision pattern 0x49C35000 is the real number 1600000 = (2²³ + 4411392) · 2⁻³. -/
theorem ofBits_1600000 : Ideal.ofBits .f32 0x49C35000#32 = ((1600000 : ℝ) : EReal) := by
  simp [Ideal.ofBits, Ideal.ieee, -EReal.coe_mul]; norm_num

/-- The single-precision pattern 0x3727C5AC (the float nearest to 10⁻⁵) is a positive real number,
    10995116 · 2⁻⁴⁰. -/
theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- 1600000 is the number of terms of a sum over Fin 1600000. -/
theorem cast_1600000 : (1600000 : ℝ) = ((1600000 : ℕ) : ℝ) := by norm_num

/-- A scalar literal, on the extended reals, is what its pattern denotes. -/
theorem scalar_ofBits_ideal (φ : FTy) (w : BitVec φ.bits) : Scalar.ofBits (F := Ideal) φ w = Ideal.ofBits φ w := rfl

/-- A scalar literal spread over a shape is, at every index, what its pattern denotes. -/
theorem broadcast_scalar_ofBits (S : Shape) (φ : FTy) (w : BitVec φ.bits) (i : S.Idx) :
    broadcast S (Scalar.ofBits (F := Ideal) φ w) i = Ideal.ofBits φ w := rfl

/-- A constant array is, at every index, what its pattern denotes. -/
theorem constant_ideal_apply (S : Shape) (φ : FTy) (w : BitVec φ.bits) (i : S.Idx) :
    constant (F := Ideal) S φ w i = Ideal.ofBits φ w := rfl

/-! ### 1600000 terms as 200 blocks of 8000 -/

/-- Place y of block t, for 200 blocks of 8000, lies below 1600000. -/
theorem block_lt_1600000 (t : Fin 200) (y : Fin 8000) : 8000 * t.val + y.val < 1600000 := by omega

/-- 1600000 terms are 200 consecutive blocks of 8000. -/
theorem sum_blocks_1600000 {M : Type*} [AddCommMonoid M] (f : Fin 1600000 → M) :
    ∑ t : Fin 200, ∑ y : Fin 8000, f ⟨8000 * t.val + y.val, by omega⟩ = ∑ r : Fin 1600000, f r :=
  sum_blocks_of_eq (nb := 200) (bs := 8000) (N := 1600000) rfl f

/-- 1600000 terms from a range of 200 block sums. -/
theorem sum_range_blocks_1600000 {M : Type*} [AddCommMonoid M] (f : Fin 1600000 → M) (B : ℕ → M)
    (hB : ∀ (t : ℕ) (ht : t < 200), B t = ∑ y : Fin 8000, f ⟨8000 * t + y.val, by omega⟩) :
    ∑ s ∈ Finset.range 200, B s = ∑ r : Fin 1600000, f r :=
  sum_range_blocks_of_eq (nb := 200) (bs := 8000) (N := 1600000) rfl f B hB

/-- 1600000 terms from 200 block sums indexed by Fin 200. -/
theorem sum_fin_blocks_1600000 {M : Type*} [AddCommMonoid M] (f : Fin 1600000 → M) (B : Fin 200 → M)
    (hB : ∀ t : Fin 200, B t = ∑ y : Fin 8000, f ⟨8000 * t.val + y.val, by omega⟩) :
    ∑ t : Fin 200, B t = ∑ r : Fin 1600000, f r := by
  rw [← sum_blocks_1600000 f]
  exact Finset.sum_congr rfl (fun t _ => hB t)

end Cert.Lib
-- ==== Proof.RefApply.lean ====
/- The reference's edge stages read entry by entry. Each stage is a composition of elementwise operations, broadcasts
   of per-column vectors along the rows, matrix products and column sums; read at one entry (row r, column j) the
   broadcasts disappear and what is left is an explicit formula in the entries of the previous stage:
   z1 = max(h[src]·Wa + h[dst]·Wb + b, 0) where the product with the 128-row matrix, applied to the two 64-column
   halves laid side by side, is the sum of the two half products; the column mean (∑ z)/N and the mean of squared
   deviations (∑ (z − mu)²)/N with N = 1600000; the normalisation ((z − mu)·rsqrt(var + eps))·g + be; the next product
   with bias and max with 0; the same once more at width 32; and the last product with bias. -/
import proofs.«123034_j51127290692283_2_alg».proof.Proof.RefReadP
import proofs.«123034_j51127290692283_2_alg».proof.Proof.LibStats

noncomputable section

namespace Cert.ReferenceIdeal.RefApply

open Cert.ReferenceIdeal Cert.ReferenceIdeal.Gen Cert.ReferenceIdeal.ReadP Idealize.ShloMosaic Idealize.ShloMosaic.ValueIdx
open Cert.Lib

variable (x0 : (⟨S100000x3, .f32⟩ : BufTy).Contents (Elt Ideal)) (x1 : (⟨S2x1600000, .i32⟩ : BufTy).Contents (Elt Ideal))
  (x2 : (⟨S3x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal)) (x8 : (⟨S128x64, .f32⟩ : BufTy).Contents (Elt Ideal))
  (x9 x10 x11 : (⟨S64, .f32⟩ : BufTy).Contents (Elt Ideal)) (x12 : (⟨S64x32, .f32⟩ : BufTy).Contents (Elt Ideal)) (x13 x14 x15 : (⟨S32, .f32⟩ : BufTy).Contents (Elt Ideal))
  (x16 : (⟨S32x2, .f32⟩ : BufTy).Contents (Elt Ideal)) (x17 : (⟨S2, .f32⟩ : BufTy).Contents (Elt Ideal))

/-! ### Stage 1 -/

/-- Entry (r, j) of z1: the row r of the first gathered half times the upper 64 rows of the weight, plus the row r of
    the second gathered half times the lower 64 rows, plus the bias, cut below at zero. -/
theorem z1_apply (r : Fin 1600000) (j : Fin 64) :
    val_main_v152 (F := Ideal) x0 x1 x2 x3 x4 x5 x6 x7 x8 x9 (ix2 r j)
      = (max ((∑ k : Fin 64, val_main_v139 (F := Ideal) x0 x1 x2 x3 x4 x5 x6 x7 (ix2 r k) * x8 (ix2 (⟨k.val, by omega⟩ : Fin 128) j))
          + (∑ k : Fin 64, val_main_v146 (F := Ideal) x0 x1 x2 x3 x4 x5 x6 x7 (ix2 r k) * x8 (ix2 (⟨64 + k.val, by omega⟩ : Fin 128) j))
          + x9 (ix1 j)) 0 : EReal) := by
  rw [val_main_v152_apply, val_main_v151_apply, val_main_v148_apply, val_main_v150_apply, val_main_v149_apply,
    val_main_call5_v0_apply, val_main_call5_cst_apply]
  simp only [Ideal.maximumf_def, Ideal.addf_def, Ideal.ofBits_def, Ideal.ofBits_zero_f32]
  have e9 : idx_main_v149 (idx_main_v150 (ix2 r j)) = ix1 j :=
    funext fun a => Fin.ext (by match a with | ⟨0, _⟩ => rfl)
  rw [e9]
  refine congrArg (fun s : EReal => max (s + x9 (ix1 j)) 0) ?_
  refine (Fin.sum_univ_add (a := 64) (b := 64) (fun k : Fin (64 + 64) =>
    (val_main_v147 (F := Ideal) x0 x1 x2 x3 x4 x5 x6 x7 (lidx_main_v148 (ix2 r j) k) * x8 (ridx_main_v148 (ix2 r j) k) : EReal))).trans ?_
  refine congrArg₂ (fun a b : EReal => a + b) (Finset.sum_congr rfl fun k _ => ?_) (Finset.sum_congr rfl fun k _ => ?_)
  · refine congrArg₂ (fun a b : EReal => a * b) ?_ ?_
    · unfold val_main_v147
      exact concatenate_pair_apply_left (s₁ := S1600000x64) (s₂ := S1600000x64) 1 _ _ _ (lidx_main_v148 (ix2 r j) (Fin.castAdd 64 k)) rfl (ix2 r k)
        (fun b => by match b with | ⟨0, _⟩ => rfl | ⟨1, _⟩ => rfl)
    · exact congrArg x8 (funext fun a => Fin.ext (by match a with | ⟨0, _⟩ => rfl | ⟨1, _⟩ => rfl))
  · refine congrArg₂ (fun a b : EReal => a * b) ?_ ?_
    · unfold val_main_v147
      exact concatenate_pair_apply_right (s₁ := S1600000x64) (s₂ := S1600000x64) 1 _ _ _ (lidx_main_v148 (ix2 r j) (Fin.natAdd 64 k)) rfl rfl (ix2 r k)
        (fun b hb => by match b, hb with | ⟨0, _⟩, _ => rfl | ⟨1, _⟩, hb => exact absurd rfl hb)
        (by show k.val + 64 = 64 + k.val; omega)
    · exact congrArg x8 (funext fun a => Fin.ext (by match a with | ⟨0, _⟩ => rfl | ⟨1, _⟩ => rfl))

/-! ### The statistics of stage 1 -/

/-- Column j of the mean of z1: the column sum over the 1600000 rows (the reduction's initial value 0 dropped), divided
    by 1600000. -/
theorem mu1_apply (j : Fin 64) :
    val_main_v155 (F := Ideal) x0 x1 x2 x3 x4 x5 x6 x7 x8 x9 (ix1 j)
      = Ideal.div (∑ r : Fin 1600000, val_main_v152 (F := Ideal) x0 x1 x2 x3 x4 x5 x6 x7 x8 x9 (ix2 r j)) ((1600000 : ℝ) : EReal) := by
  rw [val_main_v155_apply, val_main_v153_apply, val_main_v154_apply, val_main_cst_36_apply, val_main_cst_35_apply,
    Ideal.hostDivf_def, Ideal.ofBits_def, Ideal.ofBits_def, Ideal.ofBits_zero_f32, ofBits_1600000, zero_add]
  refine congrArg (fun s : EReal => Ideal.div s ((1600000 : ℝ) : EReal)) (Finset.sum_congr rfl fun k _ => ?_)
  exact congrArg (val_main_v152 (F := Ideal) x0 x1 x2 x3 x4 x5 x6 x7 x8 x9)
    (funext fun a => Fin.ext (by match a with | ⟨0, _⟩ => rfl | ⟨1, _⟩ => rfl))

/-- Column j of the variance of z1: the column sum of the squared deviations from the column mean (the reduction's
    initial value 0 dropped), divided by 1600000. -/
theorem var1_apply (j : Fin 64) :
    val_main_v162 (F := Ideal) x0 x1 x2 x3 x4 x5 x6 x7 x8 x9 (ix1 j)
      = Ideal.div (∑ r : Fin 1600000,
          (val_main_v152 (F := Ideal) x0 x1 x2 x3 x4 x5 x6 x7 x8 x9 (ix2 r j) - val_main_v155 (F := Ideal) x0 x1 x2 x3 x4 x5 x6 x7 x8 x9 (ix1 j))
            * (val_main_v152 (F := Ideal) x0 x1 x2 x3 x4 x5 x6 x7 x8 x9 (ix2 r j) - val_main_v155 (F := Ideal) x0 x1 x2 x3 x4 x5 x6 x7 x8 x9 (ix1 j)))
          ((1600000 : ℝ) : EReal) := by
  rw [val_main_v162_apply, val_main_v160_apply, val_main_v161_apply, val_main_cst_38_apply, val_main_cst_37_apply,
    Ideal.hostDivf_def, Ideal.ofBits_def, Ideal.ofBits_def, Ideal.ofBits_zero_f32, ofBits_1600000, zero_add]
  refine congrArg (fun s : EReal => Ideal.div s ((1600000 : ℝ) : EReal)) (Finset.sum_congr rfl fun k _ => ?_)
  have e : idx_main_v160 (ix1 j) k = ix2 k j :=
    funext fun a => Fin.ext (by match a with | ⟨0, _⟩ => rfl | ⟨1, _⟩ => rfl)
  have e' : idx_main_v156 (idx_main_v157 (ix2 k j)) = ix1 j :=
    funext fun a => Fin.ext (by match a with | ⟨0, _⟩ => rfl)
  rw [e, val_main_v159_apply, val_main_v158_apply, val_main_v157_apply, val_main_v156_apply, e', Ideal.mulf_def, Ideal.subf_def]

/-! ### Normalisation of stage 1 and stage 2 -/

/-- Entry (r, k) of the normalised z1: the deviation from the column mean times the reciprocal square root of the column
    variance plus eps, times the scale, plus the shift. -/
theorem bn1_apply (r : Fin 1600000) (k : Fin 64) :
    val_main_v177 (F := Ideal) x0 x1 x2 x3 x4 x5 x6 x7 x8 x9 x10 x11 (ix2 r k)
      = (((val_main_v152 (F := Ideal) x0 x1 x2 x3 x4 x5 x6 x7 x8 x9 (ix2 r k) - val_main_v155 (F := Ideal) x0 x1 x2 x3 x4 x5 x6 x7 x8 x9 (ix1 k))
            * Ideal.rsqrt (val_main_v162 (F := Ideal) x0 x1 x2 x3 x4 x5 x6 x7 x8 x9 (ix1 k) + Ideal.ofBits .f32 0x3727C5AC#32))
          * x10 (ix1 k) + x11 (ix1 k) : EReal) := by
  have e1 : idx_main_v163 (idx_main_v164 (ix2 r k)) = ix1 k := funext fun a => Fin.ext (by match a with | ⟨0, _⟩ => rfl)
  have e2 : idx_main_v169 (idx_main_v170 (ix2 r k)) = ix1 k := funext fun a => Fin.ext (by match a with | ⟨0, _⟩ => rfl)
  have e3 : idx_main_v172 (idx_main_v173 (ix2 r k)) = ix1 k := funext fun a => Fin.ext (by match a with | ⟨0, _⟩ => rfl)
  have e4 : idx_main_v175 (idx_main_v176 (ix2 r k)) = ix1 k := funext fun a => Fin.ext (by match a with | ⟨0, _⟩ => rfl)
  rw [val_main_v177_apply, val_main_v174_apply, val_main_v171_apply, val_main_v165_apply, val_main_v164_apply, val_main_v163_apply, e1,
    val_main_v170_apply, val_main_v169_apply, e2, val_main_v168_apply, val_main_v167_apply, val_main_v166_apply, val_main_cst_39_apply,
    val_main_v173_apply, val_main_v172_apply, e3, val_main_v176_apply, val_main_v175_apply, e4]
  simp only [Ideal.addf_def, Ideal.mulf_def, Ideal.subf_def, Ideal.hostUnary_rsqrt_def, Ideal.ofBits_def]

/-- Entry (r, j) of z2: row r of the normalised z1 times column j of the weight, plus the bias, cut below at zero. -/
theorem z2_apply (r : Fin 1600000) (j : Fin 32) :
    val_main_v182 (F := Ideal) x0 x1 x2 x3 x4 x5 x6 x7 x8 x9 x10 x11 x12 x13 (ix2 r j)
      = (max ((∑ k : Fin 64, val_main_v177 (F := Ideal) x0 x1 x2 x3 x4 x5 x6 x7 x8 x9 x10 x11 (ix2 r k) * x12 (ix2 k j)) + x13 (ix1 j)) 0 : EReal) := by
  have eb : idx_main_v179 (idx_main_v180 (ix2 r j)) = ix1 j := funext fun a => Fin.ext (by match a with | ⟨0, _⟩ => rfl)
  have el : ∀ k : Fin 64, lidx_main_v178 (ix2 r j) k = ix2 r k := fun k =>
    funext fun a => Fin.ext (by match a with | ⟨0, _⟩ => rfl | ⟨1, _⟩ => rfl)
  have er : ∀ k : Fin 64, ridx_main_v178 (ix2 r j) k = ix2 k j := fun k =>
    funext fun a => Fin.ext (by match a with | ⟨0, _⟩ => rfl | ⟨1, _⟩ => rfl)
  rw [val_main_v182_apply, val_main_v181_apply, val_main_v178_apply, val_main_v180_apply, val_main_v179_apply, eb,
    val_main_call6_v0_apply, val_main_call6_cst_apply, Ideal.maximumf_def, Ideal.addf_def, Ideal.ofBits_def, Ideal.ofBits_zero_f32]
  refine congrArg (fun s : EReal => max (s + x13 (ix1 j)) 0) (Finset.sum_congr rfl fun k _ => ?_)
  exact congrArg₂ (fun a b : EReal => a * b) (congrArg (val_main_v177 (F := Ideal) x0 x1 x2 x3 x4 x5 x6 x7 x8 x9 x10 x11) (el k)) (congrArg x12 (er k))

/-! ### The statistics of stage 2, its normalisation, and the last stage -/

/-- Column j of the mean of z2: the column sum over the 1600000 rows (the reduction's initial value 0 dropped), divided
    by 1600000. -/
theorem mu2_apply (j : Fin 32) :
    val_main_v185 (F := Ideal) x0 x1 x2 x3 x4 x5 x6 x7 x8 x9 x10 x11 x12 x13 (ix1 j)
      = Ideal.div (∑ r : Fin 1600000, val_main_v182 (F := Ideal) x0 x1 x2 x3 x4 x5 x6 x7 x8 x9 x10 x11 x12 x13 (ix2 r j)) ((1600000 : ℝ) : EReal) := by
  rw [val_main_v185_apply, val_main_v183_apply, val_main_v184_apply, val_main_cst_41_apply, val_main_cst_40_apply,
    Ideal.hostDivf_def, Ideal.ofBits_def, Ideal.ofBits_def, Ideal.ofBits_zero_f32, ofBits_1600000, zero_add]
  refine congrArg (fun s : EReal => Ideal.div s ((1600000 : ℝ) : EReal)) (Finset.sum_congr rfl fun k _ => ?_)
  exact congrArg (val_main_v182 (F := Ideal) x0 x1 x2 x3 x4 x5 x6 x7 x8 x9 x10 x11 x12 x13)
    (funext fun a => Fin.ext (by match a with | ⟨0, _⟩ => rfl | ⟨1, _⟩ => rfl))

/-- Column j of the variance of z2: the column sum of the squared deviations from the column mean (the reduction's
    initial value 0 dropped), divided by 1600000. -/
theorem var2_apply (j : Fin 32) :
    val_main_v192 (F := Ideal) x0 x1 x2 x3 x4 x5 x6 x7 x8 x9 x10 x11 x12 x13 (ix1 j)
      = Ideal.div (∑ r : Fin 1600000,
          (val_main_v182 (F := Ideal) x0 x1 x2 x3 x4 x5 x6 x7 x8 x9 x10 x11 x12 x13 (ix2 r j) - val_main_v185 (F := Ideal) x0 x1 x2 x3 x4 x5 x6 x7 x8 x9 x10 x11 x12 x13 (ix1 j))
            * (val_main_v182 (F := Ideal) x0 x1 x2 x3 x4 x5 x6 x7 x8 x9 x10 x11 x12 x13 (ix2 r j) - val_main_v185 (F := Ideal) x0 x1 x2 x3 x4 x5 x6 x7 x8 x9 x10 x11 x12 x13 (ix1 j)))
          ((1600000 : ℝ) : EReal) := by
  rw [val_main_v192_apply, val_main_v190_apply, val_main_v191_apply, val_main_cst_43_apply, val_main_cst_42_apply,
    Ideal.hostDivf_def, Ideal.ofBits_def, Ideal.ofBits_def, Ideal.ofBits_zero_f32, ofBits_1600000, zero_add]
  refine congrArg (fun s : EReal => Ideal.div s ((1600000 : ℝ) : EReal)) (Finset.sum_congr rfl fun k _ => ?_)
  have e : idx_main_v190 (ix1 j) k = ix2 k j :=
    funext fun a => Fin.ext (by match a with | ⟨0, _⟩ => rfl | ⟨1, _⟩ => rfl)
  have e' : idx_main_v186 (idx_main_v187 (ix2 k j)) = ix1 j :=
    funext fun a => Fin.ext (by match a with | ⟨0, _⟩ => rfl)
  rw [e, val_main_v189_apply, val_main_v188_apply, val_main_v187_apply, val_main_v186_apply, e', Ideal.mulf_def, Ideal.subf_def]

/-- Entry (r, k) of the normalised z2: the deviation from the column mean times the reciprocal square root of the column
    variance plus eps, times the scale, plus the shift. -/
theorem bn2_apply (r : Fin 1600000) (k : Fin 32) :
    val_main_v207 (F := Ideal) x0 x1 x2 x3 x4 x5 x6 x7 x8 x9 x10 x11 x12 x13 x14 x15 (ix2 r k)
      = (((val_main_v182 (F := Ideal) x0 x1 x2 x3 x4 x5 x6 x7 x8 x9 x10 x11 x12 x13 (ix2 r k) - val_main_v185 (F := Ideal) x0 x1 x2 x3 x4 x5 x6 x7 x8 x9 x10 x11 x12 x13 (ix1 k))
            * Ideal.rsqrt (val_main_v192 (F := Ideal) x0 x1 x2 x3 x4 x5 x6 x7 x8 x9 x10 x11 x12 x13 (ix1 k) + Ideal.ofBits .f32 0x3727C5AC#32))
          * x14 (ix1 k) + x15 (ix1 k) : EReal) := by
  have e1 : idx_main_v193 (idx_main_v194 (ix2 r k)) = ix1 k := funext fun a => Fin.ext (by match a with | ⟨0, _⟩ => rfl)
  have e2 : idx_main_v199 (idx_main_v200 (ix2 r k)) = ix1 k := funext fun a => Fin.ext (by match a with | ⟨0, _⟩ => rfl)
  have e3 : idx_main_v202 (idx_main_v203 (ix2 r k)) = ix1 k := funext fun a => Fin.ext (by match a with | ⟨0, _⟩ => rfl)
  have e4 : idx_main_v205 (idx_main_v206 (ix2 r k)) = ix1 k := funext fun a => Fin.ext (by match a with | ⟨0, _⟩ => rfl)
  rw [val_main_v207_apply, val_main_v204_apply, val_main_v201_apply, val_main_v195_apply, val_main_v194_apply, val_main_v193_apply, e1,
    val_main_v200_apply, val_main_v199_apply, e2, val_main_v198_apply, val_main_v197_apply, val_main_v196_apply, val_main_cst_44_apply,
    val_main_v203_apply, val_main_v202_apply, e3, val_main_v206_apply, val_main_v205_apply, e4]
  simp only [Ideal.addf_def, Ideal.mulf_def, Ideal.subf_def, Ideal.hostUnary_rsqrt_def, Ideal.ofBits_def]

/-- Entry (r, j) of the result: row r of the normalised z2 times column j of the weight, plus the bias. -/
theorem out_apply (r : Fin 1600000) (j : Fin 2) :
    val_main_v211 (F := Ideal) x0 x1 x2 x3 x4 x5 x6 x7 x8 x9 x10 x11 x12 x13 x14 x15 x16 x17 (ix2 r j)
      = ((∑ k : Fin 32, val_main_v207 (F := Ideal) x0 x1 x2 x3 x4 x5 x6 x7 x8 x9 x10 x11 x12 x13 x14 x15 (ix2 r k) * x16 (ix2 k j)) + x17 (ix1 j) : EReal) := by
  have eb : idx_main_v209 (idx_main_v210 (ix2 r j)) = ix1 j := funext fun a => Fin.ext (by match a with | ⟨0, _⟩ => rfl)
  have el : ∀ k : Fin 32, lidx_main_v208 (ix2 r j) k = ix2 r k := fun k =>
    funext fun a => Fin.ext (by match a with | ⟨0, _⟩ => rfl | ⟨1, _⟩ => rfl)
  have er : ∀ k : Fin 32, ridx_main_v208 (ix2 r j) k = ix2 k j := fun k =>
    funext fun a => Fin.ext (by match a with | ⟨0, _⟩ => rfl | ⟨1, _⟩ => rfl)
  rw [val_main_v211_apply, val_main_v208_apply, val_main_v210_apply, val_main_v209_apply, eb, Ideal.addf_def]
  refine congrArg (fun s : EReal => s + x17 (ix1 j)) (Finset.sum_congr rfl fun k _ => ?_)
  exact congrArg₂ (fun a b : EReal => a * b) (congrArg (val_main_v207 (F := Ideal) x0 x1 x2 x3 x4 x5 x6 x7 x8 x9 x10 x11 x12 x13 x14 x15) (el k)) (congrArg x16 (er k))

end Cert.ReferenceIdeal.RefApply
-- ==== Proof.KStats.lean ====
/-
  The host arithmetic between the kernel's edge stages, read at one column: the batch mean of a column is the sum over the
  200 row blocks of the block's partial sum (kept in row 0 of an [8, N] tile) over 1 600 000; a length-N vector recast as a
  [1, N] row holds the same entries.
-/
import proofs.«123034_j51127290692283_2_alg».proof.Proof.Gen.KernelIdeal
import Idealize.ShloMosaic.Lib.Pipeline.Value
import Idealize.ShloMosaic.Lib.ValueIdx
import Idealize.ShloMosaic.PureOps.Ideal.Laws

noncomputable section

namespace Cert.KernelIdeal.KStats

open Cert.KernelIdeal Cert.KernelIdeal.Gen Idealize.ShloMosaic Idealize.ShloMosaic.TcCoe Idealize.ShloMosaic.ValueIdx

/-- One column's mean from the per-block partial sums: row 0 of every block's replicated [8, 64] tile, summed over the 200 blocks,
    over 1 600 000. -/
theorem blockMean64 (s : (⟨S200x8x64, .f32⟩ : BufTy).Contents (Elt Ideal)) (j : Fin 64) :
    Host.divf (F := Ideal)
        (Host.reduceAdd (F := Ideal) (shapeCast S200x64 (extractStridedSlice S200x1x64 ![0, 0, 0] s slices_S200x8x64_S200x1x64_0_0_0) shapeCasts_S200x1x64_S200x64)
          (constant (F := Ideal) S_ .f32 0x00000000#32) reducesTo_S200x64_S64_d0 h_S_)
        (broadcastInDim S64 ![] bcast_S_S64 (constant (F := Ideal) S_ .f32 0x49C35000#32)) (ix1 j)
      = Ideal.div (Ideal.ofBits .f32 0x00000000#32 + ∑ t : Fin 200, s (ix3 t 0 j)) (Ideal.ofBits .f32 0x49C35000#32) := by
  have h1 : ∀ x : (⟨S200x64, .f32⟩ : BufTy).Contents (Elt Ideal),
      Host.reduceAdd (F := Ideal) x (constant (F := Ideal) S_ .f32 0x00000000#32) reducesTo_S200x64_S64_d0 h_S_ (ix1 j)
        = Ideal.ofBits .f32 0x00000000#32 + ∑ t : Fin 200, x (ix2 t j) := by
    intro x
    simp only [Host.reduceAdd, Ideal.hostReduceAdd_def]
    rw [Ideal.hostReduceAdd_single reducesTo_S200x64_S64_d0 (by decide)]
    refine congrArg (_ + ·) (Finset.sum_congr rfl fun k _ => ?_)
    exact congrArg x (funext fun a => Fin.ext (by match a with | ⟨0, _⟩ => rfl | ⟨1, _⟩ => rfl))
  have h2 : broadcastInDim S64 ![] bcast_S_S64 (constant (F := Ideal) S_ .f32 0x49C35000#32) (ix1 j) = Ideal.ofBits .f32 0x49C35000#32 :=
    broadcastInDim_apply _ bcast_S_S64 _ (ix1 j) (fun a => a.elim0) (fun a => a.elim0)
  show Ideal.div (Host.reduceAdd (F := Ideal) _ _ reducesTo_S200x64_S64_d0 h_S_ (ix1 j)) (broadcastInDim S64 ![] bcast_S_S64 (constant (F := Ideal) S_ .f32 0x49C35000#32) (ix1 j)) = _
  rw [h1, h2]
  refine congrArg (fun z => Ideal.div (_ + z) _) (Finset.sum_congr rfl fun t _ => ?_)
  rw [shapeCast_apply _ shapeCasts_S200x1x64_S200x64 (ix2 t j) (ix3 t (0 : Fin 1) j)
    (by rewrite [Shape.rowMajor_val_three, Shape.rowMajor_val_two]; show (t.val * 1 + 0) * 64 + j.val = t.val * 64 + j.val; omega)]
  exact extractStridedSlice_apply ![0, 0, 0] s slices_S200x8x64_S200x1x64_0_0_0 (ix3 t (0 : Fin 1) j) (ix3 t (0 : Fin 8) j) (fun a => match a with
    | ⟨0, _⟩ => by show t.val = 0 + t.val; omega
    | ⟨1, _⟩ => by show (0 : ℕ) = 0 + 0; omega
    | ⟨2, _⟩ => by show j.val = 0 + j.val; omega)

/-- A [64] vector recast as a [1, 64] row, read at (0, j). -/
theorem rowCast64 (v : (⟨S64, .f32⟩ : BufTy).Contents (Elt Ideal)) (z : Fin 1) (j : Fin 64) :
    shapeCast S1x64 v shapeCasts_S64_S1x64 (ix2 z j) = v (ix1 j) :=
  shapeCast_apply v shapeCasts_S64_S1x64 (ix2 z j) (ix1 j)
    (by rewrite [Shape.rowMajor_val_two, Shape.rowMajor_val_one]; show j.val = z.val * 64 + j.val; have := z.isLt; omega)

/-- One column's mean from the per-block partial sums: row 0 of every block's replicated [8, 32] tile, summed over the 200 blocks,
    over 1 600 000. -/
theorem blockMean32 (s : (⟨S200x8x32, .f32⟩ : BufTy).Contents (Elt Ideal)) (j : Fin 32) :
    Host.divf (F := Ideal)
        (Host.reduceAdd (F := Ideal) (shapeCast S200x32 (extractStridedSlice S200x1x32 ![0, 0, 0] s slices_S200x8x32_S200x1x32_0_0_0) shapeCasts_S200x1x32_S200x32)
          (constant (F := Ideal) S_ .f32 0x00000000#32) reducesTo_S200x32_S32_d0 h_S_)
        (broadcastInDim S32 ![] bcast_S_S32 (constant (F := Ideal) S_ .f32 0x49C35000#32)) (ix1 j)
      = Ideal.div (Ideal.ofBits .f32 0x00000000#32 + ∑ t : Fin 200, s (ix3 t 0 j)) (Ideal.ofBits .f32 0x49C35000#32) := by
  have h1 : ∀ x : (⟨S200x32, .f32⟩ : BufTy).Contents (Elt Ideal),
      Host.reduceAdd (F := Ideal) x (constant (F := Ideal) S_ .f32 0x00000000#32) reducesTo_S200x32_S32_d0 h_S_ (ix1 j)
        = Ideal.ofBits .f32 0x00000000#32 + ∑ t : Fin 200, x (ix2 t j) := by
    intro x
    simp only [Host.reduceAdd, Ideal.hostReduceAdd_def]
    rw [Ideal.hostReduceAdd_single reducesTo_S200x32_S32_d0 (by decide)]
    refine congrArg (_ + ·) (Finset.sum_congr rfl fun k _ => ?_)
    exact congrArg x (funext fun a => Fin.ext (by match a with | ⟨0, _⟩ => rfl | ⟨1, _⟩ => rfl))
  have h2 : broadcastInDim S32 ![] bcast_S_S32 (constant (F := Ideal) S_ .f32 0x49C35000#32) (ix1 j) = Ideal.ofBits .f32 0x49C35000#32 :=
    broadcastInDim_apply _ bcast_S_S32 _ (ix1 j) (fun a => a.elim0) (fun a => a.elim0)
  show Ideal.div (Host.reduceAdd (F := Ideal) _ _ reducesTo_S200x32_S32_d0 h_S_ (ix1 j)) (broadcastInDim S32 ![] bcast_S_S32 (constant (F := Ideal) S_ .f32 0x49C35000#32) (ix1 j)) = _
  rw [h1, h2]
  refine congrArg (fun z => Ideal.div (_ + z) _) (Finset.sum_congr rfl fun t _ => ?_)
  rw [shapeCast_apply _ shapeCasts_S200x1x32_S200x32 (ix2 t j) (ix3 t (0 : Fin 1) j)
    (by rewrite [Shape.rowMajor_val_three, Shape.rowMajor_val_two]; show (t.val * 1 + 0) * 32 + j.val = t.val * 32 + j.val; omega)]
  exact extractStridedSlice_apply ![0, 0, 0] s slices_S200x8x32_S200x1x32_0_0_0 (ix3 t (0 : Fin 1) j) (ix3 t (0 : Fin 8) j) (fun a => match a with
    | ⟨0, _⟩ => by show t.val = 0 + t.val; omega
    | ⟨1, _⟩ => by show (0 : ℕ) = 0 + 0; omega
    | ⟨2, _⟩ => by show j.val = 0 + j.val; omega)

/-- A [32] vector recast as a [1, 32] row, read at (0, j). -/
theorem rowCast32 (v : (⟨S32, .f32⟩ : BufTy).Contents (Elt Ideal)) (z : Fin 1) (j : Fin 32) :
    shapeCast S1x32 v shapeCasts_S32_S1x32 (ix2 z j) = v (ix1 j) :=
  shapeCast_apply v shapeCasts_S32_S1x32 (ix2 z j) (ix1 j)
    (by rewrite [Shape.rowMajor_val_two, Shape.rowMajor_val_one]; show j.val = z.val * 32 + j.val; have := z.isLt; omega)

/-- A [2] vector recast as a [1, 2] row, read at (0, j). -/
theorem rowCast2 (v : (⟨S2, .f32⟩ : BufTy).Contents (Elt Ideal)) (z : Fin 1) (j : Fin 2) :
    shapeCast S1x2 v shapeCasts_S2_S1x2 (ix2 z j) = v (ix1 j) :=
  shapeCast_apply v shapeCasts_S2_S1x2 (ix2 z j) (ix1 j)
    (by rewrite [Shape.rowMajor_val_two, Shape.rowMajor_val_one]; show j.val = z.val * 2 + j.val; have := z.isLt; omega)

end Cert.KernelIdeal.KStats

end
-- ==== Proof.Stage1Bridge.lean ====
/-
  Edge MLP, first stage, and its batch statistics: the kernel's against the reference's.

  The kernel computes z = max (hs·Wa + hd·Wb + b) 0 block by block and, per block of 8000 edges, the column sums of z and
  of z²; the host then takes mean = (Σ_blocks sums)/N and variance = (Σ_blocks sums of squares)/N − mean², N = 1600000.
  The reference lays hs and hd side by side, multiplies by the one 128-row matrix whose halves are Wa and Wb, and takes
  mean = (Σ z)/N and variance = (Σ (z − mean)²)/N. The two agree: a product with the stacked matrix is the sum of the two
  half products; 200 consecutive block sums of 8000 are one sum of 1600000; and for real-valued z the mean of squared
  deviations is the mean of squares minus the squared mean. Everything is stated under hypotheses identifying the five
  arrays the region reads with the reference's gathered features, weight halves and bias.
-/
import proofs.«123034_j51127290692283_2_alg».proof.Proof.Region3
import proofs.«123034_j51127290692283_2_alg».proof.Proof.RefReadP
import proofs.«123034_j51127290692283_2_alg».proof.Proof.RefApply
import proofs.«123034_j51127290692283_2_alg».proof.Proof.LibStats
import proofs.«123034_j51127290692283_2_alg».proof.Proof.KStats

noncomputable section

namespace Cert.KernelIdeal.Stage1Bridge

open Cert.KernelIdeal Cert.KernelIdeal.Gen Cert.KernelIdeal.Region3 Idealize.ShloMosaic Idealize.ShloMosaic.TcCoe Idealize.SL.Sem Idealize.ShloMosaic.ValueIdx
open Cert.ReferenceIdeal.ReadP Cert.Lib

variable (V : (c : Dev nD) → (b : Ref sig .tc) → Buf (Elt Ideal) ((c : Thread nD τ).loc b))
variable (x0 : (⟨Cert.ReferenceIdeal.S100000x3, .f32⟩ : BufTy).Contents (Elt Ideal)) (x1 : (⟨Cert.ReferenceIdeal.S2x1600000, .i32⟩ : BufTy).Contents (Elt Ideal))
  (x2 : (⟨Cert.ReferenceIdeal.S3x64, .f32⟩ : BufTy).Contents (Elt Ideal)) (x3 : (⟨Cert.ReferenceIdeal.S64, .f32⟩ : BufTy).Contents (Elt Ideal))
  (x4 : (⟨Cert.ReferenceIdeal.S64x64, .f32⟩ : BufTy).Contents (Elt Ideal)) (x5 : (⟨Cert.ReferenceIdeal.S64, .f32⟩ : BufTy).Contents (Elt Ideal))
  (x6 : (⟨Cert.ReferenceIdeal.S64x64, .f32⟩ : BufTy).Contents (Elt Ideal)) (x7 : (⟨Cert.ReferenceIdeal.S64, .f32⟩ : BufTy).Contents (Elt Ideal))
  (x8 : (⟨Cert.ReferenceIdeal.S128x64, .f32⟩ : BufTy).Contents (Elt Ideal)) (x9 : (⟨Cert.ReferenceIdeal.S64, .f32⟩ : BufTy).Contents (Elt Ideal))

/-! ## The kernel's column means, from the block sums -/

/-- A column mean as the host computes it from a [200,8,64] array of per-block sums: sublane 0 of every tile, summed over
    the 200 tiles, divided by 1600000. -/
abbrev kmean64 (s : (⟨S200x8x64, .f32⟩ : BufTy).Contents (Elt Ideal)) : (⟨S64, .f32⟩ : BufTy).Contents (Elt Ideal) :=
  Host.divf (F := Ideal)
    (Host.reduceAdd (shapeCast S200x64 (extractStridedSlice S200x1x64 ![0, 0, 0] s slices_S200x8x64_S200x1x64_0_0_0) shapeCasts_S200x1x64_S200x64)
      (constant S_ .f32 0x00000000#32) reducesTo_S200x64_S64_d0 h_S_)
    (broadcastInDim S64 ![] bcast_S_S64 (constant S_ .f32 0x49C35000#32))

/-- The mean of the activation's column j, computed from the 200 block sums, is the sum over all 1600000 edges over 1600000. -/
theorem kmean_sum (c : Dev nD) (j : Fin 64) :
    kmean64 ((dat3 (F := Ideal) V c).arrAt 6 cfg3.N) (ix1 j) = Ideal.div (∑ r : Fin 1600000, Z V c r j) ((1600000 : ℝ) : EReal) := by
  refine (KStats.blockMean64 _ j).trans ?_
  rw [Ideal.ofBits_zero_f32, zero_add, ofBits_1600000]
  refine congrArg (fun s : EReal => Ideal.div s ((1600000 : ℝ) : EReal)) ?_
  exact sum_fin_blocks_1600000 (fun r => Z V c r j) _ (fun t => sum_apply V c t 0 j)

/-- The mean of the squared activation's column j likewise. -/
theorem kmean_sq (c : Dev nD) (j : Fin 64) :
    kmean64 ((dat3 (F := Ideal) V c).arrAt 7 cfg3.N) (ix1 j) = Ideal.div (∑ r : Fin 1600000, Z V c r j * Z V c r j) ((1600000 : ℝ) : EReal) := by
  refine (KStats.blockMean64 _ j).trans ?_
  rw [Ideal.ofBits_zero_f32, zero_add, ofBits_1600000]
  refine congrArg (fun s : EReal => Ideal.div s ((1600000 : ℝ) : EReal)) ?_
  exact sum_fin_blocks_1600000 (fun r => Z V c r j * Z V c r j) _ (fun t => sq_apply V c t 0 j)

/-! ## The activation against the reference's -/

/-- With the region's five arrays equal to the reference's gathered features, the two halves of its 128-row weight matrix
    and its bias, the activation is the reference's, entry by entry: the product of the two halves laid side by side with
    the 128-row matrix is the sum of the two half products. -/
theorem Z_eq_ref (c : Dev nD)
    (hs : hsrc V c = val_main_v139 (F := Ideal) x0 x1 x2 x3 x4 x5 x6 x7)
    (hd : hdst V c = val_main_v146 (F := Ideal) x0 x1 x2 x3 x4 x5 x6 x7)
    (hwa : ∀ (k j : Fin 64), wA V c (ix2 k j) = x8 (ix2 (⟨k.val, by omega⟩ : Fin 128) j))
    (hwb : ∀ (k j : Fin 64), wB V c (ix2 k j) = x8 (ix2 (⟨64 + k.val, by omega⟩ : Fin 128) j))
    (hb : ∀ (z : Fin 1) (j : Fin 64), bias V c (ix2 z j) = x9 (ix1 j))
    (r : Fin 1600000) (j : Fin 64) :
    Z V c r j = val_main_v152 (F := Ideal) x0 x1 x2 x3 x4 x5 x6 x7 x8 x9 (ix2 r j) := by
  rw [Z_eq V c r j, Cert.ReferenceIdeal.RefApply.z1_apply x0 x1 x2 x3 x4 x5 x6 x7 x8 x9 r j]
  refine congrArg₂ max (congrArg₂ (· + ·) (congrArg₂ (· + ·) (Finset.sum_congr rfl fun k _ => ?_)
    (Finset.sum_congr rfl fun k _ => ?_)) (hb 0 j)) rfl
  · exact congrArg₂ (· * ·) (congrFun hs (ix2 r k)) (hwa k j)
  · exact congrArg₂ (· * ·) (congrFun hd (ix2 r k)) (hwb k j)

/-- So after the region the activation array is the reference's z1. -/
theorem z1_eq (c : Dev nD)
    (hs : hsrc V c = val_main_v139 (F := Ideal) x0 x1 x2 x3 x4 x5 x6 x7)
    (hd : hdst V c = val_main_v146 (F := Ideal) x0 x1 x2 x3 x4 x5 x6 x7)
    (hwa : ∀ (k j : Fin 64), wA V c (ix2 k j) = x8 (ix2 (⟨k.val, by omega⟩ : Fin 128) j))
    (hwb : ∀ (k j : Fin 64), wB V c (ix2 k j) = x8 (ix2 (⟨64 + k.val, by omega⟩ : Fin 128) j))
    (hb : ∀ (z : Fin 1) (j : Fin 64), bias V c (ix2 z j) = x9 (ix1 j)) :
    (dat3 (F := Ideal) V c).arrAt 5 cfg3.N = val_main_v152 (F := Ideal) x0 x1 x2 x3 x4 x5 x6 x7 x8 x9 := by
  refine funext fun (i : S1600000x64.Idx) => ?_
  obtain ⟨r, j, rfl⟩ : ∃ (r : Fin 1600000) (j : Fin 64), i = ix2 r j := ⟨i 0, i 1, eq_ix2 i⟩
  exact (z_apply V c r j).trans (Z_eq_ref V x0 x1 x2 x3 x4 x5 x6 x7 x8 x9 c hs hd hwa hwb hb r j)

/-! ## The batch statistics against the reference's -/

/-- The kernel's column mean is the reference's: 200 block sums of 8000 are one sum of 1600000. -/
theorem mu1_eq (c : Dev nD)
    (hs : hsrc V c = val_main_v139 (F := Ideal) x0 x1 x2 x3 x4 x5 x6 x7)
    (hd : hdst V c = val_main_v146 (F := Ideal) x0 x1 x2 x3 x4 x5 x6 x7)
    (hwa : ∀ (k j : Fin 64), wA V c (ix2 k j) = x8 (ix2 (⟨k.val, by omega⟩ : Fin 128) j))
    (hwb : ∀ (k j : Fin 64), wB V c (ix2 k j) = x8 (ix2 (⟨64 + k.val, by omega⟩ : Fin 128) j))
    (hb : ∀ (z : Fin 1) (j : Fin 64), bias V c (ix2 z j) = x9 (ix1 j)) (j : Fin 64) :
    kmean64 ((dat3 (F := Ideal) V c).arrAt 6 cfg3.N) (ix1 j) = val_main_v155 (F := Ideal) x0 x1 x2 x3 x4 x5 x6 x7 x8 x9 (ix1 j) := by
  rw [kmean_sum V c j, Cert.ReferenceIdeal.RefApply.mu1_apply x0 x1 x2 x3 x4 x5 x6 x7 x8 x9 j]
  refine congrArg (fun s : EReal => Ideal.div s ((1600000 : ℝ) : EReal)) (Finset.sum_congr rfl fun r _ => ?_)
  exact Z_eq_ref V x0 x1 x2 x3 x4 x5 x6 x7 x8 x9 c hs hd hwa hwb hb r j

/-- The kernel's variance, mean of squares minus squared mean, is the reference's mean of squared deviations, when every
    activation is a real number. -/
theorem var1_eq (c : Dev nD)
    (hs : hsrc V c = val_main_v139 (F := Ideal) x0 x1 x2 x3 x4 x5 x6 x7)
    (hd : hdst V c = val_main_v146 (F := Ideal) x0 x1 x2 x3 x4 x5 x6 x7)
    (hwa : ∀ (k j : Fin 64), wA V c (ix2 k j) = x8 (ix2 (⟨k.val, by omega⟩ : Fin 128) j))
    (hwb : ∀ (k j : Fin 64), wB V c (ix2 k j) = x8 (ix2 (⟨64 + k.val, by omega⟩ : Fin 128) j))
    (hb : ∀ (z : Fin 1) (j : Fin 64), bias V c (ix2 z j) = x9 (ix1 j))
    (hz : ∀ i, IsReal (val_main_v152 (F := Ideal) x0 x1 x2 x3 x4 x5 x6 x7 x8 x9 i)) (j : Fin 64) :
    subf (F := Ideal) (φ := .f32) (kmean64 ((dat3 (F := Ideal) V c).arrAt 7 cfg3.N))
        (mulf (F := Ideal) (φ := .f32) (kmean64 ((dat3 (F := Ideal) V c).arrAt 6 cfg3.N)) (kmean64 ((dat3 (F := Ideal) V c).arrAt 6 cfg3.N))) (ix1 j)
      = val_main_v162 (F := Ideal) x0 x1 x2 x3 x4 x5 x6 x7 x8 x9 (ix1 j) := by
  have hZ : ∀ r, Z V c r j = val_main_v152 (F := Ideal) x0 x1 x2 x3 x4 x5 x6 x7 x8 x9 (ix2 r j) :=
    fun r => Z_eq_ref V x0 x1 x2 x3 x4 x5 x6 x7 x8 x9 c hs hd hwa hwb hb r j
  show kmean64 ((dat3 (F := Ideal) V c).arrAt 7 cfg3.N) (ix1 j)
      - kmean64 ((dat3 (F := Ideal) V c).arrAt 6 cfg3.N) (ix1 j) * kmean64 ((dat3 (F := Ideal) V c).arrAt 6 cfg3.N) (ix1 j) = _
  rw [kmean_sq V c j, kmean_sum V c j, Cert.ReferenceIdeal.RefApply.var1_apply x0 x1 x2 x3 x4 x5 x6 x7 x8 x9 j,
    Cert.ReferenceIdeal.RefApply.mu1_apply x0 x1 x2 x3 x4 x5 x6 x7 x8 x9 j]
  simp only [hZ]
  exact (variance_identity (n := 1600000) (by norm_num)
    (fun r => val_main_v152 (F := Ideal) x0 x1 x2 x3 x4 x5 x6 x7 x8 x9 (ix2 r j)) (fun r => hz (ix2 r j))
    (1600000 : ℝ) cast_1600000).symm

/-- The mean vectors are equal. -/
theorem mu1_vec (c : Dev nD)
    (hs : hsrc V c = val_main_v139 (F := Ideal) x0 x1 x2 x3 x4 x5 x6 x7)
    (hd : hdst V c = val_main_v146 (F := Ideal) x0 x1 x2 x3 x4 x5 x6 x7)
    (hwa : ∀ (k j : Fin 64), wA V c (ix2 k j) = x8 (ix2 (⟨k.val, by omega⟩ : Fin 128) j))
    (hwb : ∀ (k j : Fin 64), wB V c (ix2 k j) = x8 (ix2 (⟨64 + k.val, by omega⟩ : Fin 128) j))
    (hb : ∀ (z : Fin 1) (j : Fin 64), bias V c (ix2 z j) = x9 (ix1 j)) :
    kmean64 ((dat3 (F := Ideal) V c).arrAt 6 cfg3.N) = val_main_v155 (F := Ideal) x0 x1 x2 x3 x4 x5 x6 x7 x8 x9 := by
  refine funext fun (i : S64.Idx) => ?_
  obtain ⟨j, rfl⟩ : ∃ j : Fin 64, i = ix1 j := ⟨i 0, eq_ix1 i⟩
  exact mu1_eq V x0 x1 x2 x3 x4 x5 x6 x7 x8 x9 c hs hd hwa hwb hb j

/-- The variance vectors are equal. -/
theorem var1_vec (c : Dev nD)
    (hs : hsrc V c = val_main_v139 (F := Ideal) x0 x1 x2 x3 x4 x5 x6 x7)
    (hd : hdst V c = val_main_v146 (F := Ideal) x0 x1 x2 x3 x4 x5 x6 x7)
    (hwa : ∀ (k j : Fin 64), wA V c (ix2 k j) = x8 (ix2 (⟨k.val, by omega⟩ : Fin 128) j))
    (hwb : ∀ (k j : Fin 64), wB V c (ix2 k j) = x8 (ix2 (⟨64 + k.val, by omega⟩ : Fin 128) j))
    (hb : ∀ (z : Fin 1) (j : Fin 64), bias V c (ix2 z j) = x9 (ix1 j))
    (hz : ∀ i, IsReal (val_main_v152 (F := Ideal) x0 x1 x2 x3 x4 x5 x6 x7 x8 x9 i)) :
    subf (F := Ideal) (φ := .f32) (kmean64 ((dat3 (F := Ideal) V c).arrAt 7 cfg3.N))
        (mulf (F := Ideal) (φ := .f32) (kmean64 ((dat3 (F := Ideal) V c).arrAt 6 cfg3.N)) (kmean64 ((dat3 (F := Ideal) V c).arrAt 6 cfg3.N)))
      = val_main_v162 (F := Ideal) x0 x1 x2 x3 x4 x5 x6 x7 x8 x9 := by
  refine funext fun (i : S64.Idx) => ?_
  obtain ⟨j, rfl⟩ : ∃ j : Fin 64, i = ix1 j := ⟨i 0, eq_ix1 i⟩
  exact var1_eq V x0 x1 x2 x3 x4 x5 x6 x7 x8 x9 c hs hd hwa hwb hb hz j

end Cert.KernelIdeal.Stage1Bridge

end
-- ==== Proof.Region4Pay.lean ====
/-
  The second edge layer's block computation, entry by entry.

  At each of its 200 grid points the region holds a block of 8000 rows of the first layer's output x (64 columns) and the whole
  statistics rows (mean, variance, gain, offset), the 64 × 32 weight matrix and the bias row.  It stores
      z = max (bn(x) · W + b, 0),   bn(x)[p, k] = ((x[p, k] − mean[k]) · rsqrt(variance[k] + ε)) · gain[k] + offset[k],
  and the column sums of z and of z², each repeated over 8 sublanes.  This module reads those three stored blocks at an index, over
  the extended reals: the pointwise operations entry by entry, a row broadcast as its one row, the matrix product into a zero
  accumulator as the sum over the 64 shared coordinates, a sum over the rows as the sum over the 8000 row coordinates.
-/
import proofs.«123034_j51127290692283_2_alg».proof.Proof.Gen.KernelIdeal.Frame
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.KernelIdeal.Region4

open Cert.KernelIdeal Cert.KernelIdeal.Gen
open Idealize.ShloMosaic Idealize.ShloMosaic.TcCoe Idealize.ShloMosaic.ValueIdx
open Idealize.ShloMosaic.Pipeline (Dat)
open scoped BigOperators

/-! ## The block the body stores, at an index -/

/-- The normalised block: every row of the input block shifted by the mean row, scaled by the reciprocal square root of the variance row plus epsilon,
    scaled by the gain row and shifted by the offset row. -/
def bnBlk (v0 : Vec Ideal S8000x64 .f32) (v2 v6 v13 v17 : Vec Ideal S1x64 .f32) : FVec Ideal S8000x64 .f32 :=
  addf (mulf (mulf (subf v0 (broadcastTo S8000x64 v2 broadcasts_S1x64_S8000x64))
      (broadcastTo S8000x64 (rsqrt (addf v6 (broadcast S1x64 (Scalar.ofBits .f32 0x3727C5AC#32)))) broadcasts_S1x64_S8000x64))
      (broadcastTo S8000x64 v13 broadcasts_S1x64_S8000x64))
    (broadcastTo S8000x64 v17 broadcasts_S1x64_S8000x64)

theorem bnBlk_apply (v0 : Vec Ideal S8000x64 .f32) (v2 v6 v13 v17 : Vec Ideal S1x64 .f32) (p : Fin 8000) (k : Fin 64) :
    bnBlk v0 v2 v6 v13 v17 (ix2 p k)
      = ((v0 (ix2 p k) - v2 (ix2 (0 : Fin 1) k)) * Ideal.rsqrt (v6 (ix2 (0 : Fin 1) k) + Ideal.ofBits .f32 0x3727C5AC#32)) * v13 (ix2 (0 : Fin 1) k)
        + v17 (ix2 (0 : Fin 1) k) := by
  unfold bnBlk
  simp only [addf_apply, mulf_apply, subf_apply, broadcastTo_1b_ab_apply]
  rfl

theorem pay3_eq (v0 : Vec Ideal S8000x64 .f32) (v2 v6 v13 v17 : Vec Ideal S1x64 .f32) (v22 : Vec Ideal S64x32 .f32) (v25 : Vec Ideal S1x32 .f32) :
    k4_pay3 v0 v2 v6 v13 v17 v22 v25
      = maximumf (addf (matmul dot_S8000x64_S64x32_S8000x32_1_0_0_1_n_n none (truncf .bf16 (bnBlk v0 v2 v6 v13 v17) bitsLt_bf16_f32)
            (truncf .bf16 v22 bitsLt_bf16_f32) (constant S8000x32 .f32 0x00000000#32))
          (broadcastTo S8000x32 v25 broadcasts_S1x32_S8000x32))
        (broadcast S8000x32 (Scalar.ofBits .f32 0x00000000#32)) := by
  unfold k4_pay3 bnBlk
  simp only [shapeCast_self]

/-! ## The matrix product at an index -/

theorem lhs_0 (i : S8000x32.Idx) (q : dot_S8000x64_S64x32_S8000x32_1_0_0_1_n_n.contr.Idx) :
    (dot_S8000x64_S64x32_S8000x32_1_0_0_1_n_n.lhsIdx i q 0).val = (i 0).val := by
  unfold DotDims.lhsIdx
  rw [dif_neg (show ¬(0 : Fin S8000x64.rank) ∈ dot_S8000x64_S64x32_S8000x32_1_0_0_1_n_n.lhsBatch by decide), dif_pos (show (0 : Fin S8000x64.rank) ∈ dot_S8000x64_S64x32_S8000x32_1_0_0_1_n_n.lhsNonContracting by decide)]
  rfl
theorem lhs_1 (i : S8000x32.Idx) (q : dot_S8000x64_S64x32_S8000x32_1_0_0_1_n_n.contr.Idx) :
    (dot_S8000x64_S64x32_S8000x32_1_0_0_1_n_n.lhsIdx i q 1).val = (q ⟨0, by decide⟩).val :=
  dot_S8000x64_S64x32_S8000x32_1_0_0_1_n_n.lhsIdx_val_of_single rfl i q
theorem rhs_0 (i : S8000x32.Idx) (q : dot_S8000x64_S64x32_S8000x32_1_0_0_1_n_n.contr.Idx) :
    (dot_S8000x64_S64x32_S8000x32_1_0_0_1_n_n.rhsIdx i q 0).val = (q ⟨0, by decide⟩).val :=
  dot_S8000x64_S64x32_S8000x32_1_0_0_1_n_n.rhsIdx_val_of_single rfl i q
theorem rhs_1 (i : S8000x32.Idx) (q : dot_S8000x64_S64x32_S8000x32_1_0_0_1_n_n.contr.Idx) :
    (dot_S8000x64_S64x32_S8000x32_1_0_0_1_n_n.rhsIdx i q 1).val = (i 1).val := by
  unfold DotDims.rhsIdx
  rw [dif_neg (show ¬(1 : Fin S64x32.rank) ∈ dot_S8000x64_S64x32_S8000x32_1_0_0_1_n_n.rhsBatch by decide), dif_pos (show (1 : Fin S64x32.rank) ∈ dot_S8000x64_S64x32_S8000x32_1_0_0_1_n_n.rhsNonContracting by decide)]
  rfl

/-- The block product into a zero accumulator, entry (p, q): the sum over the 64 shared coordinates of row p of the left factor times column q of the right. -/
theorem matmul_apply (a : FVec Ideal S8000x64 .bf16) (w : FVec Ideal S64x32 .bf16) (p : Fin 8000) (q : Fin 32) :
    matmul dot_S8000x64_S64x32_S8000x32_1_0_0_1_n_n none a w (constant S8000x32 .f32 0x00000000#32) (ix2 p q)
      = ∑ k : Fin 64, a (ix2 p k) * w (ix2 k q) := by
  simp only [matmul]
  rw [Ideal.matmul_constant_zero_apply, ← Equiv.sum_comp (ValueIdx.contrEquiv1 dot_S8000x64_S64x32_S8000x32_1_0_0_1_n_n 64 rfl rfl).symm]
  refine Finset.sum_congr rfl fun k _ => ?_
  have hk := ValueIdx.contrEquiv1_symm_val dot_S8000x64_S64x32_S8000x32_1_0_0_1_n_n 64 rfl rfl k
  have el : dot_S8000x64_S64x32_S8000x32_1_0_0_1_n_n.lhsIdx (ix2 p q) ((ValueIdx.contrEquiv1 dot_S8000x64_S64x32_S8000x32_1_0_0_1_n_n 64 rfl rfl).symm k) = ix2 p k := funext fun a => Fin.ext (by
    match a with
    | ⟨0, _⟩ => exact lhs_0 _ _
    | ⟨1, _⟩ => exact (lhs_1 _ _).trans hk)
  have er : dot_S8000x64_S64x32_S8000x32_1_0_0_1_n_n.rhsIdx (ix2 p q) ((ValueIdx.contrEquiv1 dot_S8000x64_S64x32_S8000x32_1_0_0_1_n_n 64 rfl rfl).symm k) = ix2 k q := funext fun a => Fin.ext (by
    match a with
    | ⟨0, _⟩ => exact (rhs_0 _ _).trans hk
    | ⟨1, _⟩ => exact rhs_1 _ _)
  rw [el, er]

/-- The stored block at (p, q): the rectified affine image of the normalised row p. -/
theorem pay3_apply (v0 : Vec Ideal S8000x64 .f32) (v2 v6 v13 v17 : Vec Ideal S1x64 .f32) (v22 : Vec Ideal S64x32 .f32) (v25 : Vec Ideal S1x32 .f32)
    (p : Fin 8000) (q : Fin 32) :
    k4_pay3 v0 v2 v6 v13 v17 v22 v25 (ix2 p q)
      = max ((∑ k : Fin 64, (((v0 (ix2 p k) - v2 (ix2 (0 : Fin 1) k)) * Ideal.rsqrt (v6 (ix2 (0 : Fin 1) k) + Ideal.ofBits .f32 0x3727C5AC#32)) * v13 (ix2 (0 : Fin 1) k)
          + v17 (ix2 (0 : Fin 1) k)) * v22 (ix2 k q)) + v25 (ix2 (0 : Fin 1) q)) 0 := by
  rw [pay3_eq, maximumf_apply, addf_apply, matmul_apply, broadcastTo_1b_ab_apply, broadcast_apply]
  simp only [truncf_apply, bnBlk_apply]
  exact congrArg (max _) Ideal.ofBits_zero_f32

/-! ## The column sums -/

/-- A sum over the rows of a block, column j. -/
theorem colSum_apply (src : FVec Ideal S8000x32 .f32) (hφ : FKind.Formats .f32) (hacc : (0x00000000#32 : BitVec 32) = FKind.add.neutral .f32 hφ) (j : Fin 32) :
    multiReduction .add [0] S32 src 0x00000000#32 reduces_S8000x32_S32 hφ hacc (ix1 j) = ∑ y : Fin 8000, src (ix2 y j) :=
  (Ideal.multiReduction_add_single src _ reduces_S8000x32_S32 hφ hacc (ix1 j)).trans
    (Finset.sum_congr rfl fun y _ => congrArg src (funext fun a => Fin.ext (by
      match a with
      | ⟨0, _⟩ => rfl
      | ⟨1, _⟩ => rfl)))

/-- A [32] row laid out as [1,1,32] and repeated over 8 sublanes reads, at (a, u, j), entry j. -/
theorem spread_apply (v : FVec Ideal S32 .f32) (a : Fin 1) (u : Fin 8) (j : Fin 32) :
    broadcastTo S1x8x32 (shapeCast S1x1x32 v shapeCasts_S32_S1x1x32) broadcasts_S1x1x32_S1x8x32 (ix3 a u j) = v (ix1 j) := by
  refine (broadcastTo_apply _ broadcasts_S1x1x32_S1x8x32 (ix3 a u j) (ix3 (0 : Fin 1) (0 : Fin 1) j) fun ax => ?_).trans ?_
  · match ax with
    | ⟨0, _⟩ => rfl
    | ⟨1, _⟩ => rfl
    | ⟨2, _⟩ => rfl
  · exact shapeCast_apply v shapeCasts_S32_S1x1x32 _ _ (by
      rw [Shape.rowMajor_val_three, Shape.rowMajor_val_one]
      show j.val = (0 * 1 + 0) * 32 + j.val
      omega)

/-- The block of column sums at (a, u, j): the sum over the block's rows of the stored block, column j. -/
theorem sumBlk_apply (v0 : Vec Ideal S8000x64 .f32) (v2 v6 v13 v17 : Vec Ideal S1x64 .f32) (v22 : Vec Ideal S64x32 .f32) (v25 : Vec Ideal S1x32 .f32)
    (a : Fin 1) (u : Fin 8) (j : Fin 32) :
    k4_pay1 (k4_pay5 v0 v2 v6 v13 v17 v22 v25) (ix3 a u j) = ∑ y : Fin 8000, k4_pay3 v0 v2 v6 v13 v17 v22 v25 (ix2 y j) := by
  unfold k4_pay1 k4_pay5
  simp only [shapeCast_self]
  exact (spread_apply _ a u j).trans (colSum_apply _ _ _ j)

/-- The block of column sums of squares at (a, u, j). -/
theorem sqBlk_apply (v0 : Vec Ideal S8000x64 .f32) (v2 v6 v13 v17 : Vec Ideal S1x64 .f32) (v22 : Vec Ideal S64x32 .f32) (v25 : Vec Ideal S1x32 .f32)
    (a : Fin 1) (u : Fin 8) (j : Fin 32) :
    k4_pay2 (k4_pay4 v0 v2 v6 v13 v17 v22 v25) (ix3 a u j)
      = ∑ y : Fin 8000, k4_pay3 v0 v2 v6 v13 v17 v22 v25 (ix2 y j) * k4_pay3 v0 v2 v6 v13 v17 v22 v25 (ix2 y j) := by
  unfold k4_pay2 k4_pay4
  simp only [shapeCast_self]
  exact (spread_apply _ a u j).trans (colSum_apply _ _ _ j)

/-! ## The layer as a function of its seven arrays -/

/-- Row r of an array, normalised with the statistics rows: ((x − mean) · rsqrt(variance + ε)) · gain + offset, column k. -/
def bn (x : S1600000x64.Idx → EReal) (mu var g be : S1x64.Idx → EReal) (r : Fin 1600000) (k : Fin 64) : EReal :=
  ((x (ix2 r k) - mu (ix2 (0 : Fin 1) k)) * Ideal.rsqrt (var (ix2 (0 : Fin 1) k) + Ideal.ofBits .f32 0x3727C5AC#32)) * g (ix2 (0 : Fin 1) k)
    + be (ix2 (0 : Fin 1) k)

/-- Entry (r, j) of the layer: the rectified affine image of the normalised row r. -/
def z (x : S1600000x64.Idx → EReal) (mu var g be : S1x64.Idx → EReal) (w : S64x32.Idx → EReal) (b : S1x32.Idx → EReal)
    (r : Fin 1600000) (j : Fin 32) : EReal :=
  max ((∑ k : Fin 64, bn x mu var g be r k * w (ix2 k j)) + b (ix2 (0 : Fin 1) j)) 0

/-- The stored block at (p, q), when row p of the input block is row r of an array x: the layer's entry (r, q). -/
theorem pay3_at (x0 : Vec Ideal S8000x64 .f32) (mu var g be : Vec Ideal S1x64 .f32) (w : Vec Ideal S64x32 .f32) (b : Vec Ideal S1x32 .f32)
    (x : S1600000x64.Idx → EReal) (p : Fin 8000) (q : Fin 32) (r : Fin 1600000) (h0 : ∀ k : Fin 64, x0 (ix2 p k) = x (ix2 r k)) :
    k4_pay3 x0 mu var g be w b (ix2 p q) = z x mu var g be w b r q := by
  rw [pay3_apply]
  unfold z bn
  simp only [h0]

end Cert.KernelIdeal.Region4

end
-- ==== Proof.Region4.lean ====
/-
  The second edge layer's output array after its region, entry by entry.

  The region's grid has 200 points; point t holds rows 8000·t … 8000·t + 7999 of the input and of the output z; the statistics rows,
  the weights and the bias are whole at every point.  So the block that point t writes back is the restriction of ONE function of the
  arrays the region is entered with — row r of z depends on row r of the input only —, and since the blocks cover the output array,
  the array after the region is that function:
      z[r, j] = max (Σ_k bn(x)[r, k] · W[k, j] + b[j], 0).
-/
import proofs.«123034_j51127290692283_2_alg».proof.Proof.Region4Pay

set_option maxRecDepth 16384

noncomputable section

namespace Cert.KernelIdeal.Region4

open Cert.KernelIdeal Cert.KernelIdeal.Gen
open Idealize.ShloMosaic Idealize.ShloMosaic.TcCoe Idealize.ShloMosaic.ValueIdx
open Idealize.ShloMosaic.Pipeline (Dat)
open scoped BigOperators

/-! ## The arrays as the region finds them, and what the region leaves -/

section Arrays

variable (V : (c : Dev nD) → (b : Ref sig .tc) → Buf (Elt Ideal) ((c : Thread nD τ).loc b))

/-- The normalised input, row r, column k, of the arrays the region is entered with. -/
def BN (c : Dev nD) (r : Fin 1600000) (k : Fin 64) : EReal :=
  bn (V c (Pipeline.arrRef spec4 0)) (V c (Pipeline.arrRef spec4 1)) (V c (Pipeline.arrRef spec4 2)) (V c (Pipeline.arrRef spec4 3))
    (V c (Pipeline.arrRef spec4 4)) r k

/-- The layer's entry (r, j), of the arrays the region is entered with. -/
def Z (c : Dev nD) (r : Fin 1600000) (j : Fin 32) : EReal :=
  z (V c (Pipeline.arrRef spec4 0)) (V c (Pipeline.arrRef spec4 1)) (V c (Pipeline.arrRef spec4 2)) (V c (Pipeline.arrRef spec4 3))
    (V c (Pipeline.arrRef spec4 4)) (V c (Pipeline.arrRef spec4 5)) (V c (Pipeline.arrRef spec4 6)) r j

/-- The whole output array of the layer. -/
def Zarr (c : Dev nD) : S1600000x32.Idx → EReal := fun i => Z V c ⟨(i 0).val, idx2_lt0 i⟩ ⟨(i 1).val, idx2_lt1 i⟩

theorem hz2 : (![0, 0] : Fin 2 → Nat) = fun _ => 0 := funext fun a => by fin_cases a <;> rfl
theorem hz3 : (![0, 0, 0] : Fin 3 → Nat) = fun _ => 0 := funext fun a => by fin_cases a <;> rfl

/-- Where the input's and the outputs' blocks sit at grid point t: the t-th block of rows. -/
theorem idx_facts : ∀ t : Fin cfg4.N,
    (win4_0.index t (0 : Fin 2) = t.val ∧ win4_0.index t (1 : Fin 2) = 0)
    ∧ (win4_7.index t (0 : Fin 2) = t.val ∧ win4_7.index t (1 : Fin 2) = 0)
    ∧ (win4_8.index t (0 : Fin 3) = t.val ∧ win4_8.index t (1 : Fin 3) = 0 ∧ win4_8.index t (2 : Fin 3) = 0)
    ∧ (win4_9.index t (0 : Fin 3) = t.val ∧ win4_9.index t (1 : Fin 3) = 0 ∧ win4_9.index t (2 : Fin 3) = 0) :=
  (by decide +kernel : ∀ t : Fin grid4.N, _)

/-- Every other window is its whole array at every point. -/
theorem idx_whole : ∀ t : Fin cfg4.N,
    (win4_1.index t (0 : Fin 2) = 0 ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0) :=
  (by decide +kernel : ∀ t : Fin grid4.N, _)

/-- The input block at point t holds rows 8000·t … 8000·t + 7999 of the input array. -/
theorem xblk_apply (c : Dev nD) (t : Fin cfg4.N) (p : Fin 8000) (k : Fin 64) (r : Fin 1600000) (hr : r.val = 8000 * t.val + p.val) :
    (iblk4 V c 0 t : Vec Ideal S8000x64 .f32) (ix2 p k) = (V c (Pipeline.arrRef spec4 0) : S1600000x64.Idx → EReal) (ix2 r k) := by
  obtain ⟨⟨e0, e1⟩, -⟩ := idx_facts t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 8000 + 1 * p.val = r.val; rw [e0, hr]; omega
  | ⟨1, _⟩ => show win4_0.index t (1 : Fin 2) * 64 + 1 * k.val = k.val; rw [e1]; omega

/-- The statistics, weight and bias windows hold their whole arrays at every point. -/
theorem blk1_eq (c : Dev nD) (t : Fin cfg4.N) : (iblk4 V c 1 t : Vec Ideal S1x64 .f32) = V c (Pipeline.arrRef spec4 1) := by
  obtain ⟨⟨e0, e1⟩, -, -, -, -, -⟩ := idx_whole t
  funext y
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 1 + 1 * (y 0).val = (y 0).val; rw [e0]; omega
  | ⟨1, _⟩ => show win4_1.index t (1 : Fin 2) * 64 + 1 * (y 1).val = (y 1).val; rw [e1]; omega

theorem blk2_eq (c : Dev nD) (t : Fin cfg4.N) : (iblk4 V c 2 t : Vec Ideal S1x64 .f32) = V c (Pipeline.arrRef spec4 2) := by
  obtain ⟨-, ⟨e0, e1⟩, -, -, -, -⟩ := idx_whole t
  funext y
  unfold iblk4
  rw [View.read_apply]
  show V c (Pipeline.arrRef spec4 2) _ = V c (Pipeline.arrRef spec4 2) _
  congr 1
  funext a
  apply Fin.ext
  match a with
  | ⟨0, _⟩ => show win4_2.index t (0 : Fin 2) * 1 + 1 * (y 0).val = (y 0).val; rw [e0]; omega
  | ⟨1, _⟩ => show win4_2.index t (1 : Fin 2) * 64 + 1 * (y 1).val = (y 1).val; rw [e1]; omega

theorem blk3_eq (c : Dev nD) (t : Fin cfg4.N) : (iblk4 V c 3 t : Vec Ideal S1x64 .f32) = V c (Pipeline.arrRef spec4 3) := by
  obtain ⟨-, -, ⟨e0, e1⟩, -, -, -⟩ := idx_whole t
  funext y
  unfold iblk4
  rw [View.read_apply]
  show V c (Pipeline.arrRef spec4 3) _ = V c (Pipeline.arrRef spec4 3) _
  congr 1
  funext a
  apply Fin.ext
  match a with
  | ⟨0, _⟩ => show win4_3.index t (0 : Fin 2) * 1 + 1 * (y 0).val = (y 0).val; rw [e0]; omega
  | ⟨1, _⟩ => show win4_3.index t (1 : Fin 2) * 64 + 1 * (y 1).val = (y 1).val; rw [e1]; omega

theorem blk4_eq (c : Dev nD) (t : Fin cfg4.N) : (iblk4 V c 4 t : Vec Ideal S1x64 .f32) = V c (Pipeline.arrRef spec4 4) := by
  obtain ⟨-, -, -, ⟨e0, e1⟩, -, -⟩ := idx_whole t
  funext y
  unfold iblk4
  rw [View.read_apply]
  show V c (Pipeline.arrRef spec4 4) _ = V c (Pipeline.arrRef spec4 4) _
  congr 1
  funext a
  apply Fin.ext
  match a with
  | ⟨0, _⟩ => show win4_4.index t (0 : Fin 2) * 1 + 1 * (y 0).val = (y 0).val; rw [e0]; omega
  | ⟨1, _⟩ => show win4_4.index t (1 : Fin 2) * 64 + 1 * (y 1).val = (y 1).val; rw [e1]; omega

theorem blk5_eq (c : Dev nD) (t : Fin cfg4.N) : (iblk4 V c 5 t : Vec Ideal S64x32 .f32) = V c (Pipeline.arrRef spec4 5) := by
  obtain ⟨-, -, -, -, ⟨e0, e1⟩, -⟩ := idx_whole t
  funext y
  unfold iblk4
  rw [View.read_apply]
  show V c (Pipeline.arrRef spec4 5) _ = V c (Pipeline.arrRef spec4 5) _
  congr 1
  funext a
  apply Fin.ext
  match a with
  | ⟨0, _⟩ => show win4_5.index t (0 : Fin 2) * 64 + 1 * (y 0).val = (y 0).val; rw [e0]; omega
  | ⟨1, _⟩ => show win4_5.index t (1 : Fin 2) * 32 + 1 * (y 1).val = (y 1).val; rw [e1]; omega

theorem blk6_eq (c : Dev nD) (t : Fin cfg4.N) : (iblk4 V c 6 t : Vec Ideal S1x32 .f32) = V c (Pipeline.arrRef spec4 6) := by
  obtain ⟨-, -, -, -, -, ⟨e0, e1⟩⟩ := idx_whole t
  funext y
  unfold iblk4
  rw [View.read_apply]
  show V c (Pipeline.arrRef spec4 6) _ = V c (Pipeline.arrRef spec4 6) _
  congr 1
  funext a
  apply Fin.ext
  match a with
  | ⟨0, _⟩ => show win4_6.index t (0 : Fin 2) * 1 + 1 * (y 0).val = (y 0).val; rw [e0]; omega
  | ⟨1, _⟩ => show win4_6.index t (1 : Fin 2) * 32 + 1 * (y 1).val = (y 1).val; rw [e1]; omega

/-! ## The layer's output array -/

/-- What point t writes back to the output array is block t of the layer's array. -/
theorem flushed7_eq (c : Dev nD) (t : Fin cfg4.N) :
    (dat4 V c).flushed 7 t = ((cfg4.win 7).blk t).view.read (Elt Ideal) (Zarr V c) := by
  have hN : cfg4.N = 200 := N_4
  have ht : t.val < cfg4.N := t.isLt
  obtain ⟨-, ⟨e0, e1⟩, -⟩ := idx_facts t
  show (cfg4.win 7).cut (grid4.coords t) ((dat4 V c).after 7 t) = _
  rw [after4_7]
  unfold out4_7
  rw [View.canon_unit_zero hz2]
  simp only [View.ld_unit_zero (S := S8000x64) hz2, View.ld_unit_zero (S := S1x64) hz2, View.ld_unit_zero (S := S64x32) hz2,
    View.ld_unit_zero (S := S1x32) hz2]
  rw [blk1_eq, blk2_eq, blk3_eq, blk4_eq, blk5_eq, blk6_eq]
  funext y
  obtain ⟨p, q, rfl⟩ : ∃ (p : Fin 8000) (q : Fin 32), y = ix2 p q := ⟨y 0, y 1, eq_ix2 y⟩
  rw [View.read_apply]
  refine (pay3_at (iblk4 V c 0 t) (V c (Pipeline.arrRef spec4 1)) (V c (Pipeline.arrRef spec4 2)) (V c (Pipeline.arrRef spec4 3))
    (V c (Pipeline.arrRef spec4 4)) (V c (Pipeline.arrRef spec4 5)) (V c (Pipeline.arrRef spec4 6)) (V c (Pipeline.arrRef spec4 0)) p q
    ⟨8000 * t.val + p.val, by omega⟩ (fun k => xblk_apply V c t p k _ rfl)).trans ?_
  show Z V c _ q = Z V c _ _
  congr 1
  · apply Fin.ext
    show 8000 * t.val + p.val = win4_7.index t (0 : Fin 2) * 8000 + 1 * p.val
    rw [e0]; omega
  · apply Fin.ext
    show q.val = win4_7.index t (1 : Fin 2) * 32 + 1 * q.val
    rw [e1]; omega

/-- An index of the output array is in point t's block iff each coordinate is in the block's range on its axis. -/
theorem mem_blk7 (t : Fin cfg4.N) (i : S1600000x32.Idx) :
    i ∈ ((cfg4.win 7).blk t).view.set ↔ ∀ a : Fin 2, win4_7.index t a * S8000x32.size a ≤ (i a).val ∧ (i a).val < win4_7.index t a * S8000x32.size a + S8000x32.size a := by
  show i ∈ ((View.whole main_v122_0).slice (win4_7.rect t)).set ↔ _
  rw [View.set_slice_whole, Rect.mem_set_unit]
  exact Iff.rfl

/-- Row r of the output array is in the block of point r / 8000. -/
theorem cover7 (i : S1600000x32.Idx) : ∃ t : Fin cfg4.N, (cfg4.win 7).flush t = true ∧ i ∈ ((cfg4.win 7).blk t).view.set := by
  have hN : cfg4.N = 200 := N_4
  have hi0 : (i 0).val < 1600000 := (i 0).isLt
  have hi1 : (i 1).val < 32 := (i 1).isLt
  refine ⟨⟨(i 0).val / 8000, by omega⟩, flush4_7 _, ?_⟩
  obtain ⟨-, ⟨e0, e1⟩, -⟩ := idx_facts ⟨(i 0).val / 8000, by omega⟩
  rw [mem_blk7]
  intro a
  match a with
  | ⟨0, _⟩ =>
    show win4_7.index ⟨(i 0).val / 8000, _⟩ (0 : Fin 2) * 8000 ≤ (i 0).val ∧ (i 0).val < win4_7.index ⟨(i 0).val / 8000, _⟩ (0 : Fin 2) * 8000 + 8000
    rw [e0]; show (i 0).val / 8000 * 8000 ≤ (i 0).val ∧ (i 0).val < (i 0).val / 8000 * 8000 + 8000; omega
  | ⟨1, _⟩ =>
    show win4_7.index ⟨(i 0).val / 8000, _⟩ (1 : Fin 2) * 32 ≤ (i 1).val ∧ (i 1).val < win4_7.index ⟨(i 0).val / 8000, _⟩ (1 : Fin 2) * 32 + 32
    rw [e1]; omega

/-- After the region the output array is the layer's array. -/
theorem final7 (c : Dev nD) : (dat4 V c).arrAt 7 cfg4.N = Zarr V c :=
  (dat4 V c).arrAt_eq_of_cover 7 (Zarr V c) (fun t _ => flushed7_eq V c t) cover7

/-- Entry (r, j) of the output array after the region. -/
theorem z_apply (c : Dev nD) (r : Fin 1600000) (j : Fin 32) : (dat4 V c).arrAt 7 cfg4.N (ix2 r j) = Z V c r j := by
  rw [final7]; rfl

end Arrays

end Cert.KernelIdeal.Region4

end
-- ==== Proof.Region4Sums.lean ====
/-
  The second edge layer's two arrays of block sums after its region, entry by entry.

  Entry t of each [200, 8, 32] array is written by grid point t alone, from the block of z that point holds: rows 8000·t … 8000·t + 7999.
  So after the region
      sums[t, u, j] = Σ_{y < 8000} z[8000·t + y, j],       squares[t, u, j] = Σ_{y < 8000} z[8000·t + y, j]²,
  the same on each of the 8 sublanes u; at the extended reals the lane reduction is the plain sum of its 8000 terms.
-/
import proofs.«123034_j51127290692283_2_alg».proof.Proof.Region4

set_option maxRecDepth 16384

noncomputable section

namespace Cert.KernelIdeal.Region4

open Cert.KernelIdeal Cert.KernelIdeal.Gen
open Idealize.ShloMosaic Idealize.ShloMosaic.TcCoe Idealize.ShloMosaic.ValueIdx
open Idealize.ShloMosaic.Pipeline (Dat)
open scoped BigOperators

section Arrays

variable (V : (c : Dev nD) → (b : Ref sig .tc) → Buf (Elt Ideal) ((c : Thread nD τ).loc b))

/-! ## The block sums -/

/-- The array of block sums: entry (t, u, j) is the sum of column j of the layer over rows 8000·t … 8000·t + 7999, whatever u. -/
def Sarr (c : Dev nD) : S200x8x32.Idx → EReal := fun i =>
  ∑ y : Fin 8000, (Z V c ⟨8000 * (i 0).val + y.val, by have h0 : (i 0).val < 200 := (i 0).isLt; have := y.isLt; omega⟩ ⟨(i 2).val, (i 2).isLt⟩)

/-- That array at an index whose first coordinate is t and last is j. -/
theorem Sarr_apply (c : Dev nD) (i : S200x8x32.Idx) (t : Fin 200) (j : Fin 32) (h0 : (i 0).val = t.val) (h2 : (i 2).val = j.val) :
    Sarr V c i = ∑ y : Fin 8000, (Z V c ⟨8000 * t.val + y.val, by have := t.isLt; have := y.isLt; omega⟩ j) := by
  unfold Sarr
  refine Finset.sum_congr rfl fun y _ => ?_
  have ea : (⟨8000 * (i 0).val + y.val, by have h0 : (i 0).val < 200 := (i 0).isLt; have := y.isLt; omega⟩ : Fin 1600000)
      = ⟨8000 * t.val + y.val, by have := t.isLt; have := y.isLt; omega⟩ := Fin.ext (by show 8000 * (i 0).val + y.val = 8000 * t.val + y.val; rw [h0])
  have ej : (⟨(i 2).val, (i 2).isLt⟩ : Fin 32) = j := Fin.ext h2
  rw [ea, ej]

/-- The block stored at point t, at (a, u, j), is that array at any index whose first coordinate is t and last is j: the
    block's rows are rows 8000·t … 8000·t + 7999 of the layer. -/
theorem point8 (c : Dev nD) (t : Fin cfg4.N) (a : Fin 1) (u : Fin 8) (j : Fin 32) (i : S200x8x32.Idx)
    (h0 : (i 0).val = t.val) (h2 : (i 2).val = j.val) :
    k4_pay1 (k4_pay5 (iblk4 V c 0 t) (V c (Pipeline.arrRef spec4 1)) (V c (Pipeline.arrRef spec4 2)) (V c (Pipeline.arrRef spec4 3))
      (V c (Pipeline.arrRef spec4 4)) (V c (Pipeline.arrRef spec4 5)) (V c (Pipeline.arrRef spec4 6))) (ix3 a u j) = Sarr V c i := by
  have hN : cfg4.N = 200 := N_4
  have ht : t.val < cfg4.N := t.isLt
  have hy : ∀ y : Fin 8000, k4_pay3 (iblk4 V c 0 t) (V c (Pipeline.arrRef spec4 1)) (V c (Pipeline.arrRef spec4 2)) (V c (Pipeline.arrRef spec4 3))
      (V c (Pipeline.arrRef spec4 4)) (V c (Pipeline.arrRef spec4 5)) (V c (Pipeline.arrRef spec4 6)) (ix2 y j)
      = Z V c ⟨8000 * (⟨t.val, by omega⟩ : Fin 200).val + y.val, by have := y.isLt; omega⟩ j := fun y =>
    pay3_at (iblk4 V c 0 t) (V c (Pipeline.arrRef spec4 1)) (V c (Pipeline.arrRef spec4 2)) (V c (Pipeline.arrRef spec4 3))
      (V c (Pipeline.arrRef spec4 4)) (V c (Pipeline.arrRef spec4 5)) (V c (Pipeline.arrRef spec4 6)) (V c (Pipeline.arrRef spec4 0)) y j
      ⟨8000 * t.val + y.val, by have := y.isLt; omega⟩ (fun k => xblk_apply V c t y k _ rfl)
  refine (sumBlk_apply (iblk4 V c 0 t) (V c (Pipeline.arrRef spec4 1)) (V c (Pipeline.arrRef spec4 2)) (V c (Pipeline.arrRef spec4 3))
      (V c (Pipeline.arrRef spec4 4)) (V c (Pipeline.arrRef spec4 5)) (V c (Pipeline.arrRef spec4 6)) a u j).trans ?_
  refine Eq.trans ?_ (Sarr_apply V c i ⟨t.val, by omega⟩ j h0 h2).symm
  exact Finset.sum_congr rfl fun y _ => by rw [hy y]

/-- What point t writes back to that array is block t of it. -/
theorem flushed8_eq (c : Dev nD) (t : Fin cfg4.N) :
    (dat4 V c).flushed 8 t = ((cfg4.win 8).blk t).view.read (Elt Ideal) (Sarr V c) := by
  obtain ⟨-, -, ⟨e0, e1, e2⟩, -⟩ := idx_facts t
  show (cfg4.win 8).cut (grid4.coords t) ((dat4 V c).after 8 t) = _
  rw [after4_8]
  unfold out4_8
  rw [View.canon_unit_zero hz3]
  simp only [View.ld_unit_zero (S := S8000x64) hz2, View.ld_unit_zero (S := S1x64) hz2, View.ld_unit_zero (S := S64x32) hz2,
    View.ld_unit_zero (S := S1x32) hz2]
  rw [blk1_eq, blk2_eq, blk3_eq, blk4_eq, blk5_eq, blk6_eq]
  funext y
  obtain ⟨a, u, j, rfl⟩ : ∃ (a : Fin 1) (u : Fin 8) (j : Fin 32), y = ix3 a u j := ⟨y 0, y 1, y 2, eq_ix3 y⟩
  rw [View.read_apply]
  have ha : a.val = 0 := by omega
  refine point8 V c t a u j _ ?_ ?_
  · show win4_8.index t (0 : Fin 3) * 1 + 1 * a.val = t.val
    rw [e0, ha]; omega
  · show win4_8.index t (2 : Fin 3) * 32 + 1 * j.val = j.val
    rw [e2]; omega

/-- An index of that array is in point t's block iff each coordinate is in the block's range on its axis. -/
theorem mem_blk8 (t : Fin cfg4.N) (i : S200x8x32.Idx) :
    i ∈ ((cfg4.win 8).blk t).view.set ↔ ∀ a : Fin 3, win4_8.index t a * S1x8x32.size a ≤ (i a).val ∧ (i a).val < win4_8.index t a * S1x8x32.size a + S1x8x32.size a := by
  show i ∈ ((View.whole main_v122_1).slice (win4_8.rect t)).set ↔ _
  rw [View.set_slice_whole, Rect.mem_set_unit]
  exact Iff.rfl

/-- Entry (t, u, j) of that array is in the block of point t. -/
theorem cover8 (i : S200x8x32.Idx) : ∃ t : Fin cfg4.N, (cfg4.win 8).flush t = true ∧ i ∈ ((cfg4.win 8).blk t).view.set := by
  have hN : cfg4.N = 200 := N_4
  have hi0 : (i 0).val < 200 := (i 0).isLt
  have hi1 : (i 1).val < 8 := (i 1).isLt
  have hi2 : (i 2).val < 32 := (i 2).isLt
  refine ⟨⟨(i 0).val, by omega⟩, flush4_8 _, ?_⟩
  obtain ⟨-, -, ⟨e0, e1, e2⟩, -⟩ := idx_facts ⟨(i 0).val, by omega⟩
  rw [mem_blk8]
  intro a
  match a with
  | ⟨0, _⟩ =>
    show win4_8.index ⟨(i 0).val, _⟩ (0 : Fin 3) * 1 ≤ (i 0).val ∧ (i 0).val < win4_8.index ⟨(i 0).val, _⟩ (0 : Fin 3) * 1 + 1
    rw [e0]; show (i 0).val * 1 ≤ (i 0).val ∧ (i 0).val < (i 0).val * 1 + 1; omega
  | ⟨1, _⟩ =>
    show win4_8.index ⟨(i 0).val, _⟩ (1 : Fin 3) * 8 ≤ (i 1).val ∧ (i 1).val < win4_8.index ⟨(i 0).val, _⟩ (1 : Fin 3) * 8 + 8
    rw [e1]; omega
  | ⟨2, _⟩ =>
    show win4_8.index ⟨(i 0).val, _⟩ (2 : Fin 3) * 32 ≤ (i 2).val ∧ (i 2).val < win4_8.index ⟨(i 0).val, _⟩ (2 : Fin 3) * 32 + 32
    rw [e2]; omega

/-- After the region that array is the array of block sums. -/
theorem final8 (c : Dev nD) : (dat4 V c).arrAt 8 cfg4.N = Sarr V c :=
  (dat4 V c).arrAt_eq_of_cover 8 (Sarr V c) (fun t _ => flushed8_eq V c t) cover8

/-- Entry (t, u, j) of the array of block sums after the region. -/
theorem sum_apply (c : Dev nD) (t : Fin 200) (u : Fin 8) (j : Fin 32) :
    (dat4 V c).arrAt 8 cfg4.N (ix3 t u j)
      = ∑ y : Fin 8000, (Z V c ⟨8000 * t.val + y.val, by have := t.isLt; have := y.isLt; omega⟩ j) := by
  rw [final8]
  exact Sarr_apply V c (ix3 t u j) t j rfl rfl

/-! ## The block sums of squares -/

/-- The array of block sums of squares: entry (t, u, j) is the sum of the squares of column j of the layer over rows 8000·t … 8000·t + 7999, whatever u. -/
def Qarr (c : Dev nD) : S200x8x32.Idx → EReal := fun i =>
  ∑ y : Fin 8000, (Z V c ⟨8000 * (i 0).val + y.val, by have h0 : (i 0).val < 200 := (i 0).isLt; have := y.isLt; omega⟩ ⟨(i 2).val, (i 2).isLt⟩) * (Z V c ⟨8000 * (i 0).val + y.val, by have h0 : (i 0).val < 200 := (i 0).isLt; have := y.isLt; omega⟩ ⟨(i 2).val, (i 2).isLt⟩)

/-- That array at an index whose first coordinate is t and last is j. -/
theorem Qarr_apply (c : Dev nD) (i : S200x8x32.Idx) (t : Fin 200) (j : Fin 32) (h0 : (i 0).val = t.val) (h2 : (i 2).val = j.val) :
    Qarr V c i = ∑ y : Fin 8000, (Z V c ⟨8000 * t.val + y.val, by have := t.isLt; have := y.isLt; omega⟩ j) * (Z V c ⟨8000 * t.val + y.val, by have := t.isLt; have := y.isLt; omega⟩ j) := by
  unfold Qarr
  refine Finset.sum_congr rfl fun y _ => ?_
  have ea : (⟨8000 * (i 0).val + y.val, by have h0 : (i 0).val < 200 := (i 0).isLt; have := y.isLt; omega⟩ : Fin 1600000)
      = ⟨8000 * t.val + y.val, by have := t.isLt; have := y.isLt; omega⟩ := Fin.ext (by show 8000 * (i 0).val + y.val = 8000 * t.val + y.val; rw [h0])
  have ej : (⟨(i 2).val, (i 2).isLt⟩ : Fin 32) = j := Fin.ext h2
  rw [ea, ej]

/-- The block stored at point t, at (a, u, j), is that array at any index whose first coordinate is t and last is j: the
    block's rows are rows 8000·t … 8000·t + 7999 of the layer. -/
theorem point9 (c : Dev nD) (t : Fin cfg4.N) (a : Fin 1) (u : Fin 8) (j : Fin 32) (i : S200x8x32.Idx)
    (h0 : (i 0).val = t.val) (h2 : (i 2).val = j.val) :
    k4_pay2 (k4_pay4 (iblk4 V c 0 t) (V c (Pipeline.arrRef spec4 1)) (V c (Pipeline.arrRef spec4 2)) (V c (Pipeline.arrRef spec4 3))
      (V c (Pipeline.arrRef spec4 4)) (V c (Pipeline.arrRef spec4 5)) (V c (Pipeline.arrRef spec4 6))) (ix3 a u j) = Qarr V c i := by
  have hN : cfg4.N = 200 := N_4
  have ht : t.val < cfg4.N := t.isLt
  have hy : ∀ y : Fin 8000, k4_pay3 (iblk4 V c 0 t) (V c (Pipeline.arrRef spec4 1)) (V c (Pipeline.arrRef spec4 2)) (V c (Pipeline.arrRef spec4 3))
      (V c (Pipeline.arrRef spec4 4)) (V c (Pipeline.arrRef spec4 5)) (V c (Pipeline.arrRef spec4 6)) (ix2 y j)
      = Z V c ⟨8000 * (⟨t.val, by omega⟩ : Fin 200).val + y.val, by have := y.isLt; omega⟩ j := fun y =>
    pay3_at (iblk4 V c 0 t) (V c (Pipeline.arrRef spec4 1)) (V c (Pipeline.arrRef spec4 2)) (V c (Pipeline.arrRef spec4 3))
      (V c (Pipeline.arrRef spec4 4)) (V c (Pipeline.arrRef spec4 5)) (V c (Pipeline.arrRef spec4 6)) (V c (Pipeline.arrRef spec4 0)) y j
      ⟨8000 * t.val + y.val, by have := y.isLt; omega⟩ (fun k => xblk_apply V c t y k _ rfl)
  refine (sqBlk_apply (iblk4 V c 0 t) (V c (Pipeline.arrRef spec4 1)) (V c (Pipeline.arrRef spec4 2)) (V c (Pipeline.arrRef spec4 3))
      (V c (Pipeline.arrRef spec4 4)) (V c (Pipeline.arrRef spec4 5)) (V c (Pipeline.arrRef spec4 6)) a u j).trans ?_
  refine Eq.trans ?_ (Qarr_apply V c i ⟨t.val, by omega⟩ j h0 h2).symm
  exact Finset.sum_congr rfl fun y _ => by rw [hy y]

/-- What point t writes back to that array is block t of it. -/
theorem flushed9_eq (c : Dev nD) (t : Fin cfg4.N) :
    (dat4 V c).flushed 9 t = ((cfg4.win 9).blk t).view.read (Elt Ideal) (Qarr V c) := by
  obtain ⟨-, -, -, ⟨e0, e1, e2⟩⟩ := idx_facts t
  show (cfg4.win 9).cut (grid4.coords t) ((dat4 V c).after 9 t) = _
  rw [after4_9]
  unfold out4_9
  rw [View.canon_unit_zero hz3]
  simp only [View.ld_unit_zero (S := S8000x64) hz2, View.ld_unit_zero (S := S1x64) hz2, View.ld_unit_zero (S := S64x32) hz2,
    View.ld_unit_zero (S := S1x32) hz2]
  rw [blk1_eq, blk2_eq, blk3_eq, blk4_eq, blk5_eq, blk6_eq]
  funext y
  obtain ⟨a, u, j, rfl⟩ : ∃ (a : Fin 1) (u : Fin 8) (j : Fin 32), y = ix3 a u j := ⟨y 0, y 1, y 2, eq_ix3 y⟩
  rw [View.read_apply]
  have ha : a.val = 0 := by omega
  refine point9 V c t a u j _ ?_ ?_
  · show win4_9.index t (0 : Fin 3) * 1 + 1 * a.val = t.val
    rw [e0, ha]; omega
  · show win4_9.index t (2 : Fin 3) * 32 + 1 * j.val = j.val
    rw [e2]; omega

/-- An index of that array is in point t's block iff each coordinate is in the block's range on its axis. -/
theorem mem_blk9 (t : Fin cfg4.N) (i : S200x8x32.Idx) :
    i ∈ ((cfg4.win 9).blk t).view.set ↔ ∀ a : Fin 3, win4_9.index t a * S1x8x32.size a ≤ (i a).val ∧ (i a).val < win4_9.index t a * S1x8x32.size a + S1x8x32.size a := by
  show i ∈ ((View.whole main_v122_2).slice (win4_9.rect t)).set ↔ _
  rw [View.set_slice_whole, Rect.mem_set_unit]
  exact Iff.rfl

/-- Entry (t, u, j) of that array is in the block of point t. -/
theorem cover9 (i : S200x8x32.Idx) : ∃ t : Fin cfg4.N, (cfg4.win 9).flush t = true ∧ i ∈ ((cfg4.win 9).blk t).view.set := by
  have hN : cfg4.N = 200 := N_4
  have hi0 : (i 0).val < 200 := (i 0).isLt
  have hi1 : (i 1).val < 8 := (i 1).isLt
  have hi2 : (i 2).val < 32 := (i 2).isLt
  refine ⟨⟨(i 0).val, by omega⟩, flush4_9 _, ?_⟩
  obtain ⟨-, -, -, ⟨e0, e1, e2⟩⟩ := idx_facts ⟨(i 0).val, by omega⟩
  rw [mem_blk9]
  intro a
  match a with
  | ⟨0, _⟩ =>
    show win4_9.index ⟨(i 0).val, _⟩ (0 : Fin 3) * 1 ≤ (i 0).val ∧ (i 0).val < win4_9.index ⟨(i 0).val, _⟩ (0 : Fin 3) * 1 + 1
    rw [e0]; show (i 0).val * 1 ≤ (i 0).val ∧ (i 0).val < (i 0).val * 1 + 1; omega
  | ⟨1, _⟩ =>
    show win4_9.index ⟨(i 0).val, _⟩ (1 : Fin 3) * 8 ≤ (i 1).val ∧ (i 1).val < win4_9.index ⟨(i 0).val, _⟩ (1 : Fin 3) * 8 + 8
    rw [e1]; omega
  | ⟨2, _⟩ =>
    show win4_9.index ⟨(i 0).val, _⟩ (2 : Fin 3) * 32 ≤ (i 2).val ∧ (i 2).val < win4_9.index ⟨(i 0).val, _⟩ (2 : Fin 3) * 32 + 32
    rw [e2]; omega

/-- After the region that array is the array of block sums. -/
theorem final9 (c : Dev nD) : (dat4 V c).arrAt 9 cfg4.N = Qarr V c :=
  (dat4 V c).arrAt_eq_of_cover 9 (Qarr V c) (fun t _ => flushed9_eq V c t) cover9

/-- Entry (t, u, j) of the array of block sums of squares after the region. -/
theorem sq_apply (c : Dev nD) (t : Fin 200) (u : Fin 8) (j : Fin 32) :
    (dat4 V c).arrAt 9 cfg4.N (ix3 t u j)
      = ∑ y : Fin 8000, (Z V c ⟨8000 * t.val + y.val, by have := t.isLt; have := y.isLt; omega⟩ j) * (Z V c ⟨8000 * t.val + y.val, by have := t.isLt; have := y.isLt; omega⟩ j) := by
  rw [final9]
  exact Qarr_apply V c (ix3 t u j) t j rfl rfl

end Arrays

end Cert.KernelIdeal.Region4

end
-- ==== Proof.Stage2Bridge.lean ====
/- The kernel's second edge stage against the reference's. Entered with the first activation, its column means and
   mean squared deviations, the scale and shift rows, the second edge matrix and its bias row, the kernel's region
   leaves z[r, j] = max(Σ_k bn(x)[r, k]·W[k, j] + b[j], 0), which is the reference's second activation entry by entry:
   both normalise the same entry with the same statistics. The region also leaves, for each of the 200 blocks of 8000
   rows, the column sums of z and of z² over the block. The host then adds the 200 block sums and divides by 1600000:
   1600000 terms summed in 200 consecutive blocks of 8000 are the 1600000 terms summed, so this is the reference's column
   mean; and the mean of the squares minus the square of the mean is the reference's mean of the squared deviations
   from the mean, for real-valued entries (the identity fails at the infinities). -/
import proofs.«123034_j51127290692283_2_alg».proof.Proof.Region4Sums
import proofs.«123034_j51127290692283_2_alg».proof.Proof.RefApply
import proofs.«123034_j51127290692283_2_alg».proof.Proof.KStats

set_option maxRecDepth 16384

noncomputable section

namespace Cert.KernelIdeal.Stage2Bridge

open Cert.KernelIdeal Cert.KernelIdeal.Gen
open Idealize.ShloMosaic Idealize.ShloMosaic.TcCoe Idealize.ShloMosaic.ValueIdx
open Cert.ReferenceIdeal.ReadP Cert.Lib
open scoped BigOperators

/-! ### Sums in blocks, over the extended reals -/

/-- The mean the host forms from 200 block sums is the mean of all 1600000 terms. -/
theorem mean_of_blocks (f : Fin 1600000 → EReal) (s : Fin 200 → EReal)
    (hs : ∀ t : Fin 200, s t = ∑ y : Fin 8000, f ⟨8000 * t.val + y.val, by have := t.isLt; have := y.isLt; omega⟩) :
    Ideal.div (Ideal.ofBits .f32 0x00000000#32 + ∑ t : Fin 200, s t) (Ideal.ofBits .f32 0x49C35000#32)
      = Ideal.div (∑ r : Fin 1600000, f r) ((1600000 : ℝ) : EReal) := by
  rw [Ideal.ofBits_zero_f32, zero_add, ofBits_1600000, sum_fin_blocks_1600000 f s hs]

/-- Mean of the squares minus square of the mean, both formed from block sums, is the mean of the squared deviations
    from the mean of all 1600000 terms, when these are real. -/
theorem var_of_blocks (f : Fin 1600000 → EReal) (hf : ∀ r, IsReal (f r)) (s q : Fin 200 → EReal)
    (hs : ∀ t : Fin 200, s t = ∑ y : Fin 8000, f ⟨8000 * t.val + y.val, by have := t.isLt; have := y.isLt; omega⟩)
    (hq : ∀ t : Fin 200, q t = ∑ y : Fin 8000, f ⟨8000 * t.val + y.val, by have := t.isLt; have := y.isLt; omega⟩
        * f ⟨8000 * t.val + y.val, by have := t.isLt; have := y.isLt; omega⟩) :
    Ideal.div (Ideal.ofBits .f32 0x00000000#32 + ∑ t : Fin 200, q t) (Ideal.ofBits .f32 0x49C35000#32)
        - Ideal.div (Ideal.ofBits .f32 0x00000000#32 + ∑ t : Fin 200, s t) (Ideal.ofBits .f32 0x49C35000#32)
          * Ideal.div (Ideal.ofBits .f32 0x00000000#32 + ∑ t : Fin 200, s t) (Ideal.ofBits .f32 0x49C35000#32)
      = Ideal.div (∑ r : Fin 1600000, (f r - Ideal.div (∑ r' : Fin 1600000, f r') ((1600000 : ℝ) : EReal))
          * (f r - Ideal.div (∑ r' : Fin 1600000, f r') ((1600000 : ℝ) : EReal))) ((1600000 : ℝ) : EReal) := by
  rw [mean_of_blocks f s hs, mean_of_blocks (fun r => f r * f r) q hq]
  exact (variance_identity (n := 1600000) (by norm_num) f hf 1600000 cast_1600000).symm

/-! ### The second activation, entry by entry -/

section Stage2
variable (x0 : (⟨Cert.ReferenceIdeal.S100000x3, .f32⟩ : BufTy).Contents (Elt Ideal)) (x1 : (⟨Cert.ReferenceIdeal.S2x1600000, .i32⟩ : BufTy).Contents (Elt Ideal))
  (x2 : (⟨Cert.ReferenceIdeal.S3x64, .f32⟩ : BufTy).Contents (Elt Ideal)) (x3 : (⟨Cert.ReferenceIdeal.S64, .f32⟩ : BufTy).Contents (Elt Ideal))
  (x4 : (⟨Cert.ReferenceIdeal.S64x64, .f32⟩ : BufTy).Contents (Elt Ideal)) (x5 : (⟨Cert.ReferenceIdeal.S64, .f32⟩ : BufTy).Contents (Elt Ideal))
  (x6 : (⟨Cert.ReferenceIdeal.S64x64, .f32⟩ : BufTy).Contents (Elt Ideal)) (x7 : (⟨Cert.ReferenceIdeal.S64, .f32⟩ : BufTy).Contents (Elt Ideal))
  (x8 : (⟨Cert.ReferenceIdeal.S128x64, .f32⟩ : BufTy).Contents (Elt Ideal)) (x9 x10 x11 : (⟨Cert.ReferenceIdeal.S64, .f32⟩ : BufTy).Contents (Elt Ideal))
  (x12 : (⟨Cert.ReferenceIdeal.S64x32, .f32⟩ : BufTy).Contents (Elt Ideal)) (x13 : (⟨Cert.ReferenceIdeal.S32, .f32⟩ : BufTy).Contents (Elt Ideal))

/-- The kernel's formula for entry (r, j), at arrays that hold the reference's first activation, its column statistics
    and the scale, shift, matrix and bias arguments, is the reference's second activation at (r, j). -/
theorem z_eq_ref (x : S1600000x64.Idx → EReal) (mu var g be : S1x64.Idx → EReal) (w : S64x32.Idx → EReal) (b : S1x32.Idx → EReal)
    (hx : x = val_main_v152 (F := Ideal) x0 x1 x2 x3 x4 x5 x6 x7 x8 x9)
    (hmu : ∀ (z : Fin 1) (k : Fin 64), mu (ix2 z k) = val_main_v155 (F := Ideal) x0 x1 x2 x3 x4 x5 x6 x7 x8 x9 (ix1 k))
    (hvar : ∀ (z : Fin 1) (k : Fin 64), var (ix2 z k) = val_main_v162 (F := Ideal) x0 x1 x2 x3 x4 x5 x6 x7 x8 x9 (ix1 k))
    (hg : ∀ (z : Fin 1) (k : Fin 64), g (ix2 z k) = x10 (ix1 k))
    (hbe : ∀ (z : Fin 1) (k : Fin 64), be (ix2 z k) = x11 (ix1 k))
    (hw : w = x12)
    (hb : ∀ (z : Fin 1) (j : Fin 32), b (ix2 z j) = x13 (ix1 j))
    (r : Fin 1600000) (j : Fin 32) :
    Region4.z x mu var g be w b r j = val_main_v182 (F := Ideal) x0 x1 x2 x3 x4 x5 x6 x7 x8 x9 x10 x11 x12 x13 (ix2 r j) := by
  subst hx hw
  rw [Cert.ReferenceIdeal.RefApply.z2_apply]
  unfold Region4.z Region4.bn
  rw [hb]
  refine congrArg (fun s : EReal => max (s + x13 (ix1 j)) 0) (Finset.sum_congr rfl fun k _ => ?_)
  rw [Cert.ReferenceIdeal.RefApply.bn1_apply, hmu, hvar, hg, hbe]

variable (V : (c : Dev nD) → (b : Ref sig .tc) → Buf (Elt Ideal) ((c : Thread nD τ).loc b)) (c : Dev nD)

/-- Entry (r, j) of the kernel's layer, when the region is entered with the reference's arrays. -/
theorem Z_eq_ref
    (hx : (V c (Pipeline.arrRef spec4 0) : S1600000x64.Idx → EReal) = val_main_v152 (F := Ideal) x0 x1 x2 x3 x4 x5 x6 x7 x8 x9)
    (hmu : ∀ (z : Fin 1) (k : Fin 64), (V c (Pipeline.arrRef spec4 1) : S1x64.Idx → EReal) (ix2 z k) = val_main_v155 (F := Ideal) x0 x1 x2 x3 x4 x5 x6 x7 x8 x9 (ix1 k))
    (hvar : ∀ (z : Fin 1) (k : Fin 64), (V c (Pipeline.arrRef spec4 2) : S1x64.Idx → EReal) (ix2 z k) = val_main_v162 (F := Ideal) x0 x1 x2 x3 x4 x5 x6 x7 x8 x9 (ix1 k))
    (hg : ∀ (z : Fin 1) (k : Fin 64), (V c (Pipeline.arrRef spec4 3) : S1x64.Idx → EReal) (ix2 z k) = x10 (ix1 k))
    (hbe : ∀ (z : Fin 1) (k : Fin 64), (V c (Pipeline.arrRef spec4 4) : S1x64.Idx → EReal) (ix2 z k) = x11 (ix1 k))
    (hw : (V c (Pipeline.arrRef spec4 5) : S64x32.Idx → EReal) = x12)
    (hb : ∀ (z : Fin 1) (j : Fin 32), (V c (Pipeline.arrRef spec4 6) : S1x32.Idx → EReal) (ix2 z j) = x13 (ix1 j))
    (r : Fin 1600000) (j : Fin 32) :
    Region4.Z V c r j = val_main_v182 (F := Ideal) x0 x1 x2 x3 x4 x5 x6 x7 x8 x9 x10 x11 x12 x13 (ix2 r j) := by
  unfold Region4.Z
  exact z_eq_ref x0 x1 x2 x3 x4 x5 x6 x7 x8 x9 x10 x11 x12 x13 _ _ _ _ _ _ _ hx hmu hvar hg hbe hw hb r j

/-- The layer's output array after the region is the reference's second activation. -/
theorem z2_eq
    (hx : (V c (Pipeline.arrRef spec4 0) : S1600000x64.Idx → EReal) = val_main_v152 (F := Ideal) x0 x1 x2 x3 x4 x5 x6 x7 x8 x9)
    (hmu : ∀ (z : Fin 1) (k : Fin 64), (V c (Pipeline.arrRef spec4 1) : S1x64.Idx → EReal) (ix2 z k) = val_main_v155 (F := Ideal) x0 x1 x2 x3 x4 x5 x6 x7 x8 x9 (ix1 k))
    (hvar : ∀ (z : Fin 1) (k : Fin 64), (V c (Pipeline.arrRef spec4 2) : S1x64.Idx → EReal) (ix2 z k) = val_main_v162 (F := Ideal) x0 x1 x2 x3 x4 x5 x6 x7 x8 x9 (ix1 k))
    (hg : ∀ (z : Fin 1) (k : Fin 64), (V c (Pipeline.arrRef spec4 3) : S1x64.Idx → EReal) (ix2 z k) = x10 (ix1 k))
    (hbe : ∀ (z : Fin 1) (k : Fin 64), (V c (Pipeline.arrRef spec4 4) : S1x64.Idx → EReal) (ix2 z k) = x11 (ix1 k))
    (hw : (V c (Pipeline.arrRef spec4 5) : S64x32.Idx → EReal) = x12)
    (hb : ∀ (z : Fin 1) (j : Fin 32), (V c (Pipeline.arrRef spec4 6) : S1x32.Idx → EReal) (ix2 z j) = x13 (ix1 j)) :
    (dat4 (F := Ideal) V c).arrAt 7 cfg4.N = val_main_v182 (F := Ideal) x0 x1 x2 x3 x4 x5 x6 x7 x8 x9 x10 x11 x12 x13 := by
  funext i
  obtain ⟨r, j, rfl⟩ : ∃ (r : Fin 1600000) (j : Fin 32), i = ix2 r j := ⟨i 0, i 1, eq_ix2 i⟩
  exact (Region4.z_apply V c r j).trans (Z_eq_ref x0 x1 x2 x3 x4 x5 x6 x7 x8 x9 x10 x11 x12 x13 V c hx hmu hvar hg hbe hw hb r j)

/-! ### The column statistics the host forms from the block sums -/

/-- The column mean formed from an array of block sums of the layer is the reference's column mean of its second
    activation. -/
theorem mu2_of_sums
    (hx : (V c (Pipeline.arrRef spec4 0) : S1600000x64.Idx → EReal) = val_main_v152 (F := Ideal) x0 x1 x2 x3 x4 x5 x6 x7 x8 x9)
    (hmu : ∀ (z : Fin 1) (k : Fin 64), (V c (Pipeline.arrRef spec4 1) : S1x64.Idx → EReal) (ix2 z k) = val_main_v155 (F := Ideal) x0 x1 x2 x3 x4 x5 x6 x7 x8 x9 (ix1 k))
    (hvar : ∀ (z : Fin 1) (k : Fin 64), (V c (Pipeline.arrRef spec4 2) : S1x64.Idx → EReal) (ix2 z k) = val_main_v162 (F := Ideal) x0 x1 x2 x3 x4 x5 x6 x7 x8 x9 (ix1 k))
    (hg : ∀ (z : Fin 1) (k : Fin 64), (V c (Pipeline.arrRef spec4 3) : S1x64.Idx → EReal) (ix2 z k) = x10 (ix1 k))
    (hbe : ∀ (z : Fin 1) (k : Fin 64), (V c (Pipeline.arrRef spec4 4) : S1x64.Idx → EReal) (ix2 z k) = x11 (ix1 k))
    (hw : (V c (Pipeline.arrRef spec4 5) : S64x32.Idx → EReal) = x12)
    (hb : ∀ (z : Fin 1) (j : Fin 32), (V c (Pipeline.arrRef spec4 6) : S1x32.Idx → EReal) (ix2 z j) = x13 (ix1 j))
    (s : (⟨S200x8x32, .f32⟩ : BufTy).Contents (Elt Ideal))
    (hs : ∀ (t : Fin 200) (u : Fin 8) (j : Fin 32), s (ix3 t u j)
      = ∑ y : Fin 8000, Region4.Z V c ⟨8000 * t.val + y.val, by have := t.isLt; have := y.isLt; omega⟩ j)
    (j : Fin 32) :
    Host.divf (F := Ideal)
        (Host.reduceAdd (F := Ideal) (shapeCast S200x32 (extractStridedSlice S200x1x32 ![0, 0, 0] s slices_S200x8x32_S200x1x32_0_0_0) shapeCasts_S200x1x32_S200x32)
          (constant (F := Ideal) S_ .f32 0x00000000#32) reducesTo_S200x32_S32_d0 h_S_)
        (broadcastInDim S32 ![] bcast_S_S32 (constant (F := Ideal) S_ .f32 0x49C35000#32)) (ix1 j)
      = val_main_v185 (F := Ideal) x0 x1 x2 x3 x4 x5 x6 x7 x8 x9 x10 x11 x12 x13 (ix1 j) := by
  refine (KStats.blockMean32 s j).trans ?_
  rw [Cert.ReferenceIdeal.RefApply.mu2_apply]
  exact mean_of_blocks (fun r => val_main_v182 (F := Ideal) x0 x1 x2 x3 x4 x5 x6 x7 x8 x9 x10 x11 x12 x13 (ix2 r j)) (fun t => s (ix3 t 0 j))
    (fun t => (hs t 0 j).trans (Finset.sum_congr rfl fun y _ => Z_eq_ref x0 x1 x2 x3 x4 x5 x6 x7 x8 x9 x10 x11 x12 x13 V c hx hmu hvar hg hbe hw hb _ j))

/-- Mean of the squares minus square of the mean, formed from the arrays of block sums and of block sums of squares of
    the layer, is the reference's column mean of squared deviations of its second activation, when that is real. -/
theorem var2_of_sums
    (hx : (V c (Pipeline.arrRef spec4 0) : S1600000x64.Idx → EReal) = val_main_v152 (F := Ideal) x0 x1 x2 x3 x4 x5 x6 x7 x8 x9)
    (hmu : ∀ (z : Fin 1) (k : Fin 64), (V c (Pipeline.arrRef spec4 1) : S1x64.Idx → EReal) (ix2 z k) = val_main_v155 (F := Ideal) x0 x1 x2 x3 x4 x5 x6 x7 x8 x9 (ix1 k))
    (hvar : ∀ (z : Fin 1) (k : Fin 64), (V c (Pipeline.arrRef spec4 2) : S1x64.Idx → EReal) (ix2 z k) = val_main_v162 (F := Ideal) x0 x1 x2 x3 x4 x5 x6 x7 x8 x9 (ix1 k))
    (hg : ∀ (z : Fin 1) (k : Fin 64), (V c (Pipeline.arrRef spec4 3) : S1x64.Idx → EReal) (ix2 z k) = x10 (ix1 k))
    (hbe : ∀ (z : Fin 1) (k : Fin 64), (V c (Pipeline.arrRef spec4 4) : S1x64.Idx → EReal) (ix2 z k) = x11 (ix1 k))
    (hw : (V c (Pipeline.arrRef spec4 5) : S64x32.Idx → EReal) = x12)
    (hb : ∀ (z : Fin 1) (j : Fin 32), (V c (Pipeline.arrRef spec4 6) : S1x32.Idx → EReal) (ix2 z j) = x13 (ix1 j))
    (hz : ∀ i, IsReal (val_main_v182 (F := Ideal) x0 x1 x2 x3 x4 x5 x6 x7 x8 x9 x10 x11 x12 x13 i))
    (s q : (⟨S200x8x32, .f32⟩ : BufTy).Contents (Elt Ideal))
    (hs : ∀ (t : Fin 200) (u : Fin 8) (j : Fin 32), s (ix3 t u j)
      = ∑ y : Fin 8000, Region4.Z V c ⟨8000 * t.val + y.val, by have := t.isLt; have := y.isLt; omega⟩ j)
    (hq : ∀ (t : Fin 200) (u : Fin 8) (j : Fin 32), q (ix3 t u j)
      = ∑ y : Fin 8000, Region4.Z V c ⟨8000 * t.val + y.val, by have := t.isLt; have := y.isLt; omega⟩ j
          * Region4.Z V c ⟨8000 * t.val + y.val, by have := t.isLt; have := y.isLt; omega⟩ j)
    (j : Fin 32) :
    subf (F := Ideal) (Host.divf (F := Ideal)
        (Host.reduceAdd (F := Ideal) (shapeCast S200x32 (extractStridedSlice S200x1x32 ![0, 0, 0] q slices_S200x8x32_S200x1x32_0_0_0) shapeCasts_S200x1x32_S200x32)
          (constant (F := Ideal) S_ .f32 0x00000000#32) reducesTo_S200x32_S32_d0 h_S_)
        (broadcastInDim S32 ![] bcast_S_S32 (constant (F := Ideal) S_ .f32 0x49C35000#32)))
        (mulf (F := Ideal) (Host.divf (F := Ideal)
        (Host.reduceAdd (F := Ideal) (shapeCast S200x32 (extractStridedSlice S200x1x32 ![0, 0, 0] s slices_S200x8x32_S200x1x32_0_0_0) shapeCasts_S200x1x32_S200x32)
          (constant (F := Ideal) S_ .f32 0x00000000#32) reducesTo_S200x32_S32_d0 h_S_)
        (broadcastInDim S32 ![] bcast_S_S32 (constant (F := Ideal) S_ .f32 0x49C35000#32)))
          (Host.divf (F := Ideal)
        (Host.reduceAdd (F := Ideal) (shapeCast S200x32 (extractStridedSlice S200x1x32 ![0, 0, 0] s slices_S200x8x32_S200x1x32_0_0_0) shapeCasts_S200x1x32_S200x32)
          (constant (F := Ideal) S_ .f32 0x00000000#32) reducesTo_S200x32_S32_d0 h_S_)
        (broadcastInDim S32 ![] bcast_S_S32 (constant (F := Ideal) S_ .f32 0x49C35000#32)))) (ix1 j)
      = val_main_v192 (F := Ideal) x0 x1 x2 x3 x4 x5 x6 x7 x8 x9 x10 x11 x12 x13 (ix1 j) := by
  show Host.divf (F := Ideal)
        (Host.reduceAdd (F := Ideal) (shapeCast S200x32 (extractStridedSlice S200x1x32 ![0, 0, 0] q slices_S200x8x32_S200x1x32_0_0_0) shapeCasts_S200x1x32_S200x32)
          (constant (F := Ideal) S_ .f32 0x00000000#32) reducesTo_S200x32_S32_d0 h_S_)
        (broadcastInDim S32 ![] bcast_S_S32 (constant (F := Ideal) S_ .f32 0x49C35000#32)) (ix1 j)
      - Host.divf (F := Ideal)
        (Host.reduceAdd (F := Ideal) (shapeCast S200x32 (extractStridedSlice S200x1x32 ![0, 0, 0] s slices_S200x8x32_S200x1x32_0_0_0) shapeCasts_S200x1x32_S200x32)
          (constant (F := Ideal) S_ .f32 0x00000000#32) reducesTo_S200x32_S32_d0 h_S_)
        (broadcastInDim S32 ![] bcast_S_S32 (constant (F := Ideal) S_ .f32 0x49C35000#32)) (ix1 j)
        * Host.divf (F := Ideal)
        (Host.reduceAdd (F := Ideal) (shapeCast S200x32 (extractStridedSlice S200x1x32 ![0, 0, 0] s slices_S200x8x32_S200x1x32_0_0_0) shapeCasts_S200x1x32_S200x32)
          (constant (F := Ideal) S_ .f32 0x00000000#32) reducesTo_S200x32_S32_d0 h_S_)
        (broadcastInDim S32 ![] bcast_S_S32 (constant (F := Ideal) S_ .f32 0x49C35000#32)) (ix1 j) = _
  rw [KStats.blockMean32 q j, KStats.blockMean32 s j, Cert.ReferenceIdeal.RefApply.var2_apply, Cert.ReferenceIdeal.RefApply.mu2_apply]
  exact var_of_blocks (fun r => val_main_v182 (F := Ideal) x0 x1 x2 x3 x4 x5 x6 x7 x8 x9 x10 x11 x12 x13 (ix2 r j)) (fun r => hz _)
    (fun t => s (ix3 t 0 j)) (fun t => q (ix3 t 0 j))
    (fun t => (hs t 0 j).trans (Finset.sum_congr rfl fun y _ => Z_eq_ref x0 x1 x2 x3 x4 x5 x6 x7 x8 x9 x10 x11 x12 x13 V c hx hmu hvar hg hbe hw hb _ j))
    (fun t => (hq t 0 j).trans (Finset.sum_congr rfl fun y _ => by
      rw [Z_eq_ref x0 x1 x2 x3 x4 x5 x6 x7 x8 x9 x10 x11 x12 x13 V c hx hmu hvar hg hbe hw hb _ j]))

/-- The column mean the host forms from the region's array of block sums is the reference's column mean of its second
    activation. -/
theorem mu2_eq
    (hx : (V c (Pipeline.arrRef spec4 0) : S1600000x64.Idx → EReal) = val_main_v152 (F := Ideal) x0 x1 x2 x3 x4 x5 x6 x7 x8 x9)
    (hmu : ∀ (z : Fin 1) (k : Fin 64), (V c (Pipeline.arrRef spec4 1) : S1x64.Idx → EReal) (ix2 z k) = val_main_v155 (F := Ideal) x0 x1 x2 x3 x4 x5 x6 x7 x8 x9 (ix1 k))
    (hvar : ∀ (z : Fin 1) (k : Fin 64), (V c (Pipeline.arrRef spec4 2) : S1x64.Idx → EReal) (ix2 z k) = val_main_v162 (F := Ideal) x0 x1 x2 x3 x4 x5 x6 x7 x8 x9 (ix1 k))
    (hg : ∀ (z : Fin 1) (k : Fin 64), (V c (Pipeline.arrRef spec4 3) : S1x64.Idx → EReal) (ix2 z k) = x10 (ix1 k))
    (hbe : ∀ (z : Fin 1) (k : Fin 64), (V c (Pipeline.arrRef spec4 4) : S1x64.Idx → EReal) (ix2 z k) = x11 (ix1 k))
    (hw : (V c (Pipeline.arrRef spec4 5) : S64x32.Idx → EReal) = x12)
    (hb : ∀ (z : Fin 1) (j : Fin 32), (V c (Pipeline.arrRef spec4 6) : S1x32.Idx → EReal) (ix2 z j) = x13 (ix1 j))
    (j : Fin 32) :
    Host.divf (F := Ideal)
        (Host.reduceAdd (F := Ideal) (shapeCast S200x32 (extractStridedSlice S200x1x32 ![0, 0, 0] ((dat4 (F := Ideal) V c).arrAt 8 cfg4.N) slices_S200x8x32_S200x1x32_0_0_0) shapeCasts_S200x1x32_S200x32)
          (constant (F := Ideal) S_ .f32 0x00000000#32) reducesTo_S200x32_S32_d0 h_S_)
        (broadcastInDim S32 ![] bcast_S_S32 (constant (F := Ideal) S_ .f32 0x49C35000#32)) (ix1 j)
      = val_main_v185 (F := Ideal) x0 x1 x2 x3 x4 x5 x6 x7 x8 x9 x10 x11 x12 x13 (ix1 j) :=
  mu2_of_sums x0 x1 x2 x3 x4 x5 x6 x7 x8 x9 x10 x11 x12 x13 V c hx hmu hvar hg hbe hw hb ((dat4 (F := Ideal) V c).arrAt 8 cfg4.N)
    (fun t u j => Region4.sum_apply V c t u j) j

/-- Mean of the squares minus square of the mean, as the host forms them from the region's arrays of block sums and
    of block sums of squares, is the reference's column mean of squared deviations of its second activation, when
    that activation is real. -/
theorem var2_eq
    (hx : (V c (Pipeline.arrRef spec4 0) : S1600000x64.Idx → EReal) = val_main_v152 (F := Ideal) x0 x1 x2 x3 x4 x5 x6 x7 x8 x9)
    (hmu : ∀ (z : Fin 1) (k : Fin 64), (V c (Pipeline.arrRef spec4 1) : S1x64.Idx → EReal) (ix2 z k) = val_main_v155 (F := Ideal) x0 x1 x2 x3 x4 x5 x6 x7 x8 x9 (ix1 k))
    (hvar : ∀ (z : Fin 1) (k : Fin 64), (V c (Pipeline.arrRef spec4 2) : S1x64.Idx → EReal) (ix2 z k) = val_main_v162 (F := Ideal) x0 x1 x2 x3 x4 x5 x6 x7 x8 x9 (ix1 k))
    (hg : ∀ (z : Fin 1) (k : Fin 64), (V c (Pipeline.arrRef spec4 3) : S1x64.Idx → EReal) (ix2 z k) = x10 (ix1 k))
    (hbe : ∀ (z : Fin 1) (k : Fin 64), (V c (Pipeline.arrRef spec4 4) : S1x64.Idx → EReal) (ix2 z k) = x11 (ix1 k))
    (hw : (V c (Pipeline.arrRef spec4 5) : S64x32.Idx → EReal) = x12)
    (hb : ∀ (z : Fin 1) (j : Fin 32), (V c (Pipeline.arrRef spec4 6) : S1x32.Idx → EReal) (ix2 z j) = x13 (ix1 j))
    (hz : ∀ i, IsReal (val_main_v182 (F := Ideal) x0 x1 x2 x3 x4 x5 x6 x7 x8 x9 x10 x11 x12 x13 i))
    (j : Fin 32) :
    subf (F := Ideal) (Host.divf (F := Ideal)
        (Host.reduceAdd (F := Ideal) (shapeCast S200x32 (extractStridedSlice S200x1x32 ![0, 0, 0] ((dat4 (F := Ideal) V c).arrAt 9 cfg4.N) slices_S200x8x32_S200x1x32_0_0_0) shapeCasts_S200x1x32_S200x32)
          (constant (F := Ideal) S_ .f32 0x00000000#32) reducesTo_S200x32_S32_d0 h_S_)
        (broadcastInDim S32 ![] bcast_S_S32 (constant (F := Ideal) S_ .f32 0x49C35000#32)))
        (mulf (F := Ideal) (Host.divf (F := Ideal)
        (Host.reduceAdd (F := Ideal) (shapeCast S200x32 (extractStridedSlice S200x1x32 ![0, 0, 0] ((dat4 (F := Ideal) V c).arrAt 8 cfg4.N) slices_S200x8x32_S200x1x32_0_0_0) shapeCasts_S200x1x32_S200x32)
          (constant (F := Ideal) S_ .f32 0x00000000#32) reducesTo_S200x32_S32_d0 h_S_)
        (broadcastInDim S32 ![] bcast_S_S32 (constant (F := Ideal) S_ .f32 0x49C35000#32)))
          (Host.divf (F := Ideal)
        (Host.reduceAdd (F := Ideal) (shapeCast S200x32 (extractStridedSlice S200x1x32 ![0, 0, 0] ((dat4 (F := Ideal) V c).arrAt 8 cfg4.N) slices_S200x8x32_S200x1x32_0_0_0) shapeCasts_S200x1x32_S200x32)
          (constant (F := Ideal) S_ .f32 0x00000000#32) reducesTo_S200x32_S32_d0 h_S_)
        (broadcastInDim S32 ![] bcast_S_S32 (constant (F := Ideal) S_ .f32 0x49C35000#32)))) (ix1 j)
      = val_main_v192 (F := Ideal) x0 x1 x2 x3 x4 x5 x6 x7 x8 x9 x10 x11 x12 x13 (ix1 j) :=
  var2_of_sums x0 x1 x2 x3 x4 x5 x6 x7 x8 x9 x10 x11 x12 x13 V c hx hmu hvar hg hbe hw hb hz ((dat4 (F := Ideal) V c).arrAt 8 cfg4.N)
    ((dat4 (F := Ideal) V c).arrAt 9 cfg4.N) (fun t u j => Region4.sum_apply V c t u j)
    (fun t u j => Region4.sq_apply V c t u j) j

end Stage2

end Cert.KernelIdeal.Stage2Bridge

end
-- ==== Proof.Region5.lean ====
/-
  The third edge layer's output array after its region, entry by entry.

  The region's grid has 200 points; point t holds rows 8000·t … 8000·t + 7999 of the second layer's output x (32 columns) and of the
  result (2 columns); the statistics rows (mean, variance, gain, offset), the 32 × 2 weight matrix and the bias row are whole at every
  point.  The body stores   bn(x) · W + b,   bn(x)[p, k] = ((x[p, k] − mean[k]) · rsqrt(variance[k] + ε)) · gain[k] + offset[k].
  Row r of the result depends on row r of the input only, so every written-back block is the restriction of one function of the arrays
  the region is entered with, and since the blocks cover the output array, after the region
      out[r, j] = Σ_k bn(x)[r, k] · W[k, j] + b[j].
-/
import proofs.«123034_j51127290692283_2_alg».proof.Proof.Gen.KernelIdeal.Frame
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.KernelIdeal.Region5

open Cert.KernelIdeal Cert.KernelIdeal.Gen
open Idealize.ShloMosaic Idealize.ShloMosaic.TcCoe Idealize.ShloMosaic.ValueIdx
open Idealize.ShloMosaic.Pipeline (Dat)
open scoped BigOperators

/-! # The third edge layer: normalise, multiply, add the bias

The region walks the 1 600 000 rows of its input in 200 blocks of 8000 rows.  At each block it normalises the rows with the
statistics rows (mean, variance, gain, offset), multiplies by the 32 × 2 weight matrix and adds the bias row, and writes the
8000 × 2 result to the same rows of the output.  Here: the stored block entry by entry, then the output array entry by entry. -/

/-! ## The block the body stores, at an index -/

/-- The normalised block: every row of the input block shifted by the mean row, scaled by the reciprocal square root of the
    variance row plus epsilon, scaled by the gain row and shifted by the offset row. -/
def bnBlk (v0 : Vec Ideal S8000x32 .f32) (v2 v6 v13 v17 : Vec Ideal S1x32 .f32) : FVec Ideal S8000x32 .f32 :=
  addf (mulf (mulf (subf v0 (broadcastTo S8000x32 v2 broadcasts_S1x32_S8000x32))
      (broadcastTo S8000x32 (rsqrt (addf v6 (broadcast S1x32 (Scalar.ofBits .f32 0x3727C5AC#32)))) broadcasts_S1x32_S8000x32))
      (broadcastTo S8000x32 v13 broadcasts_S1x32_S8000x32))
    (broadcastTo S8000x32 v17 broadcasts_S1x32_S8000x32)

theorem bnBlk_apply (v0 : Vec Ideal S8000x32 .f32) (v2 v6 v13 v17 : Vec Ideal S1x32 .f32) (p : Fin 8000) (k : Fin 32) :
    bnBlk v0 v2 v6 v13 v17 (ix2 p k)
      = ((v0 (ix2 p k) - v2 (ix2 (0 : Fin 1) k)) * Ideal.rsqrt (v6 (ix2 (0 : Fin 1) k) + Ideal.ofBits .f32 0x3727C5AC#32)) * v13 (ix2 (0 : Fin 1) k)
        + v17 (ix2 (0 : Fin 1) k) := by
  unfold bnBlk
  simp only [addf_apply, mulf_apply, subf_apply, broadcastTo_1b_ab_apply]
  rfl

/-- The stored block is the product of the normalised block with the weights, into a zero accumulator, plus the bias row
    (the identity casts dropped; the changes of float format are the identity on extended reals and stay as written). -/
theorem pay1_eq (v0 : Vec Ideal S8000x32 .f32) (v2 v6 v13 v17 : Vec Ideal S1x32 .f32) (v22 : Vec Ideal S32x2 .f32) (v25 : Vec Ideal S1x2 .f32) :
    k5_pay1 v0 v2 v6 v13 v17 v22 v25
      = addf (matmul dot_S8000x32_S32x2_S8000x2_1_0_0_1_n_n none (truncf .bf16 (bnBlk v0 v2 v6 v13 v17) bitsLt_bf16_f32)
            (truncf .bf16 v22 bitsLt_bf16_f32) (constant S8000x2 .f32 0x00000000#32))
          (broadcastTo S8000x2 v25 broadcasts_S1x2_S8000x2) := by
  unfold k5_pay1 bnBlk
  simp only [shapeCast_self]

/-! ## The matrix product at an index -/

theorem lhs_0 (i : S8000x2.Idx) (q : dot_S8000x32_S32x2_S8000x2_1_0_0_1_n_n.contr.Idx) :
    (dot_S8000x32_S32x2_S8000x2_1_0_0_1_n_n.lhsIdx i q 0).val = (i 0).val := by
  unfold DotDims.lhsIdx
  rw [dif_neg (show ¬(0 : Fin S8000x32.rank) ∈ dot_S8000x32_S32x2_S8000x2_1_0_0_1_n_n.lhsBatch by decide), dif_pos (show (0 : Fin S8000x32.rank) ∈ dot_S8000x32_S32x2_S8000x2_1_0_0_1_n_n.lhsNonContracting by decide)]
  rfl
theorem lhs_1 (i : S8000x2.Idx) (q : dot_S8000x32_S32x2_S8000x2_1_0_0_1_n_n.contr.Idx) :
    (dot_S8000x32_S32x2_S8000x2_1_0_0_1_n_n.lhsIdx i q 1).val = (q ⟨0, by decide⟩).val :=
  dot_S8000x32_S32x2_S8000x2_1_0_0_1_n_n.lhsIdx_val_of_single rfl i q
theorem rhs_0 (i : S8000x2.Idx) (q : dot_S8000x32_S32x2_S8000x2_1_0_0_1_n_n.contr.Idx) :
    (dot_S8000x32_S32x2_S8000x2_1_0_0_1_n_n.rhsIdx i q 0).val = (q ⟨0, by decide⟩).val :=
  dot_S8000x32_S32x2_S8000x2_1_0_0_1_n_n.rhsIdx_val_of_single rfl i q
theorem rhs_1 (i : S8000x2.Idx) (q : dot_S8000x32_S32x2_S8000x2_1_0_0_1_n_n.contr.Idx) :
    (dot_S8000x32_S32x2_S8000x2_1_0_0_1_n_n.rhsIdx i q 1).val = (i 1).val := by
  unfold DotDims.rhsIdx
  rw [dif_neg (show ¬(1 : Fin S32x2.rank) ∈ dot_S8000x32_S32x2_S8000x2_1_0_0_1_n_n.rhsBatch by decide), dif_pos (show (1 : Fin S32x2.rank) ∈ dot_S8000x32_S32x2_S8000x2_1_0_0_1_n_n.rhsNonContracting by decide)]
  rfl

/-- The block product into a zero accumulator, entry (p, q): the sum over the 32 shared coordinates of row p of the left
    factor times column q of the right. -/
theorem matmul_apply (a : FVec Ideal S8000x32 .bf16) (w : FVec Ideal S32x2 .bf16) (p : Fin 8000) (q : Fin 2) :
    matmul dot_S8000x32_S32x2_S8000x2_1_0_0_1_n_n none a w (constant S8000x2 .f32 0x00000000#32) (ix2 p q)
      = ∑ k : Fin 32, a (ix2 p k) * w (ix2 k q) := by
  simp only [matmul]
  rw [Ideal.matmul_constant_zero_apply, ← Equiv.sum_comp (ValueIdx.contrEquiv1 dot_S8000x32_S32x2_S8000x2_1_0_0_1_n_n 32 rfl rfl).symm]
  refine Finset.sum_congr rfl fun k _ => ?_
  have hk := ValueIdx.contrEquiv1_symm_val dot_S8000x32_S32x2_S8000x2_1_0_0_1_n_n 32 rfl rfl k
  have el : dot_S8000x32_S32x2_S8000x2_1_0_0_1_n_n.lhsIdx (ix2 p q) ((ValueIdx.contrEquiv1 dot_S8000x32_S32x2_S8000x2_1_0_0_1_n_n 32 rfl rfl).symm k) = ix2 p k := funext fun a => Fin.ext (by
    match a with
    | ⟨0, _⟩ => exact lhs_0 _ _
    | ⟨1, _⟩ => exact (lhs_1 _ _).trans hk)
  have er : dot_S8000x32_S32x2_S8000x2_1_0_0_1_n_n.rhsIdx (ix2 p q) ((ValueIdx.contrEquiv1 dot_S8000x32_S32x2_S8000x2_1_0_0_1_n_n 32 rfl rfl).symm k) = ix2 k q := funext fun a => Fin.ext (by
    match a with
    | ⟨0, _⟩ => exact (rhs_0 _ _).trans hk
    | ⟨1, _⟩ => exact rhs_1 _ _)
  rw [el, er]

/-- The stored block at (p, q): the affine image of the normalised row p. -/
theorem pay1_apply (v0 : Vec Ideal S8000x32 .f32) (v2 v6 v13 v17 : Vec Ideal S1x32 .f32) (v22 : Vec Ideal S32x2 .f32) (v25 : Vec Ideal S1x2 .f32)
    (p : Fin 8000) (q : Fin 2) :
    k5_pay1 v0 v2 v6 v13 v17 v22 v25 (ix2 p q)
      = (∑ k : Fin 32, (((v0 (ix2 p k) - v2 (ix2 (0 : Fin 1) k)) * Ideal.rsqrt (v6 (ix2 (0 : Fin 1) k) + Ideal.ofBits .f32 0x3727C5AC#32)) * v13 (ix2 (0 : Fin 1) k)
          + v17 (ix2 (0 : Fin 1) k)) * v22 (ix2 k q)) + v25 (ix2 (0 : Fin 1) q) := by
  rw [pay1_eq, addf_apply, matmul_apply, broadcastTo_1b_ab_apply]
  simp only [truncf_apply, bnBlk_apply]

/-! ## The layer as a function of its seven arrays -/

/-- Row r of an array, normalised with the statistics rows: ((x − mean) · rsqrt(variance + ε)) · gain + offset, column k. -/
def bn (x : S1600000x32.Idx → EReal) (mu var g be : S1x32.Idx → EReal) (r : Fin 1600000) (k : Fin 32) : EReal :=
  ((x (ix2 r k) - mu (ix2 (0 : Fin 1) k)) * Ideal.rsqrt (var (ix2 (0 : Fin 1) k) + Ideal.ofBits .f32 0x3727C5AC#32)) * g (ix2 (0 : Fin 1) k)
    + be (ix2 (0 : Fin 1) k)

/-- Entry (r, j) of the layer: the affine image of the normalised row r. -/
def out (x : S1600000x32.Idx → EReal) (mu var g be : S1x32.Idx → EReal) (w : S32x2.Idx → EReal) (b : S1x2.Idx → EReal)
    (r : Fin 1600000) (j : Fin 2) : EReal :=
  (∑ k : Fin 32, bn x mu var g be r k * w (ix2 k j)) + b (ix2 (0 : Fin 1) j)

/-- The stored block at (p, q), when row p of the input block is row r of an array x: the layer's entry (r, q). -/
theorem pay1_at (x0 : Vec Ideal S8000x32 .f32) (mu var g be : Vec Ideal S1x32 .f32) (w : Vec Ideal S32x2 .f32) (b : Vec Ideal S1x2 .f32)
    (x : S1600000x32.Idx → EReal) (p : Fin 8000) (q : Fin 2) (r : Fin 1600000) (h0 : ∀ k : Fin 32, x0 (ix2 p k) = x (ix2 r k)) :
    k5_pay1 x0 mu var g be w b (ix2 p q) = out x mu var g be w b r q := by
  rw [pay1_apply]
  unfold out bn
  simp only [h0]

/-! ## The arrays as the region finds them, and what the region leaves -/

section Arrays

variable (V : (c : Dev nD) → (b : Ref sig .tc) → Buf (Elt Ideal) ((c : Thread nD τ).loc b))

/-- The normalised input, row r, column k, of the arrays the region is entered with. -/
def BN5 (c : Dev nD) (r : Fin 1600000) (k : Fin 32) : EReal :=
  bn (V c (Pipeline.arrRef spec5 0)) (V c (Pipeline.arrRef spec5 1)) (V c (Pipeline.arrRef spec5 2)) (V c (Pipeline.arrRef spec5 3))
    (V c (Pipeline.arrRef spec5 4)) r k

/-- The layer's entry (r, j), of the arrays the region is entered with. -/
def Out (c : Dev nD) (r : Fin 1600000) (j : Fin 2) : EReal :=
  out (V c (Pipeline.arrRef spec5 0)) (V c (Pipeline.arrRef spec5 1)) (V c (Pipeline.arrRef spec5 2)) (V c (Pipeline.arrRef spec5 3))
    (V c (Pipeline.arrRef spec5 4)) (V c (Pipeline.arrRef spec5 5)) (V c (Pipeline.arrRef spec5 6)) r j

/-- The whole output array of the layer. -/
def OutArr (c : Dev nD) : S1600000x2.Idx → EReal := fun i => Out V c ⟨(i 0).val, idx2_lt0 i⟩ ⟨(i 1).val, idx2_lt1 i⟩

theorem hz2 : (![0, 0] : Fin 2 → Nat) = fun _ => 0 := funext fun a => by fin_cases a <;> rfl

/-- Where the input's and the output's blocks sit at grid point t: the t-th block of rows. -/
theorem idx_facts : ∀ t : Fin cfg5.N,
    (win5_0.index t (0 : Fin 2) = t.val ∧ win5_0.index t (1 : Fin 2) = 0)
    ∧ (win5_7.index t (0 : Fin 2) = t.val ∧ win5_7.index t (1 : Fin 2) = 0) :=
  (by decide +kernel : ∀ t : Fin grid5.N, _)

/-- Every other window is its whole array at every point. -/
theorem idx_whole : ∀ t : Fin cfg5.N,
    (win5_1.index t (0 : Fin 2) = 0 ∧ win5_1.index t (1 : Fin 2) = 0)
    ∧ (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = 0 ∧ win5_5.index t (1 : Fin 2) = 0)
    ∧ (win5_6.index t (0 : Fin 2) = 0 ∧ win5_6.index t (1 : Fin 2) = 0) :=
  (by decide +kernel : ∀ t : Fin grid5.N, _)

/-- The input block at point t holds rows 8000·t … 8000·t + 7999 of the input array. -/
theorem xblk_apply (c : Dev nD) (t : Fin cfg5.N) (p : Fin 8000) (k : Fin 32) (r : Fin 1600000) (hr : r.val = 8000 * t.val + p.val) :
    (iblk5 V c 0 t : Vec Ideal S8000x32 .f32) (ix2 p k) = (V c (Pipeline.arrRef spec5 0) : S1600000x32.Idx → EReal) (ix2 r k) := by
  obtain ⟨⟨e0, e1⟩, -⟩ := idx_facts t
  unfold iblk5
  rw [View.read_apply]
  show V c (Pipeline.arrRef spec5 0) _ = V c (Pipeline.arrRef spec5 0) _
  congr 1
  funext a
  apply Fin.ext
  match a with
  | ⟨0, _⟩ => show win5_0.index t (0 : Fin 2) * 8000 + 1 * p.val = r.val; rw [e0, hr]; omega
  | ⟨1, _⟩ => show win5_0.index t (1 : Fin 2) * 32 + 1 * k.val = k.val; rw [e1]; omega

/-- The statistics, weight and bias windows hold their whole arrays at every point. -/
theorem blk1_eq (c : Dev nD) (t : Fin cfg5.N) : (iblk5 V c 1 t : Vec Ideal S1x32 .f32) = V c (Pipeline.arrRef spec5 1) := by
  obtain ⟨⟨e0, e1⟩, -, -, -, -, -⟩ := idx_whole t
  funext y
  unfold iblk5
  rw [View.read_apply]
  show V c (Pipeline.arrRef spec5 1) _ = V c (Pipeline.arrRef spec5 1) _
  congr 1
  funext a
  apply Fin.ext
  match a with
  | ⟨0, _⟩ => show win5_1.index t (0 : Fin 2) * 1 + 1 * (y 0).val = (y 0).val; rw [e0]; omega
  | ⟨1, _⟩ => show win5_1.index t (1 : Fin 2) * 32 + 1 * (y 1).val = (y 1).val; rw [e1]; omega

theorem blk2_eq (c : Dev nD) (t : Fin cfg5.N) : (iblk5 V c 2 t : Vec Ideal S1x32 .f32) = V c (Pipeline.arrRef spec5 2) := by
  obtain ⟨-, ⟨e0, e1⟩, -, -, -, -⟩ := idx_whole t
  funext y
  unfold iblk5
  rw [View.read_apply]
  show V c (Pipeline.arrRef spec5 2) _ = V c (Pipeline.arrRef spec5 2) _
  congr 1
  funext a
  apply Fin.ext
  match a with
  | ⟨0, _⟩ => show win5_2.index t (0 : Fin 2) * 1 + 1 * (y 0).val = (y 0).val; rw [e0]; omega
  | ⟨1, _⟩ => show win5_2.index t (1 : Fin 2) * 32 + 1 * (y 1).val = (y 1).val; rw [e1]; omega

theorem blk3_eq (c : Dev nD) (t : Fin cfg5.N) : (iblk5 V c 3 t : Vec Ideal S1x32 .f32) = V c (Pipeline.arrRef spec5 3) := by
  obtain ⟨-, -, ⟨e0, e1⟩, -, -, -⟩ := idx_whole t
  funext y
  unfold iblk5
  rw [View.read_apply]
  show V c (Pipeline.arrRef spec5 3) _ = V c (Pipeline.arrRef spec5 3) _
  congr 1
  funext a
  apply Fin.ext
  match a with
  | ⟨0, _⟩ => show win5_3.index t (0 : Fin 2) * 1 + 1 * (y 0).val = (y 0).val; rw [e0]; omega
  | ⟨1, _⟩ => show win5_3.index t (1 : Fin 2) * 32 + 1 * (y 1).val = (y 1).val; rw [e1]; omega

theorem blk4_eq (c : Dev nD) (t : Fin cfg5.N) : (iblk5 V c 4 t : Vec Ideal S1x32 .f32) = V c (Pipeline.arrRef spec5 4) := by
  obtain ⟨-, -, -, ⟨e0, e1⟩, -, -⟩ := idx_whole t
  funext y
  unfold iblk5
  rw [View.read_apply]
  show V c (Pipeline.arrRef spec5 4) _ = V c (Pipeline.arrRef spec5 4) _
  congr 1
  funext a
  apply Fin.ext
  match a with
  | ⟨0, _⟩ => show win5_4.index t (0 : Fin 2) * 1 + 1 * (y 0).val = (y 0).val; rw [e0]; omega
  | ⟨1, _⟩ => show win5_4.index t (1 : Fin 2) * 32 + 1 * (y 1).val = (y 1).val; rw [e1]; omega

theorem blk5_eq (c : Dev nD) (t : Fin cfg5.N) : (iblk5 V c 5 t : Vec Ideal S32x2 .f32) = V c (Pipeline.arrRef spec5 5) := by
  obtain ⟨-, -, -, -, ⟨e0, e1⟩, -⟩ := idx_whole t
  funext y
  unfold iblk5
  rw [View.read_apply]
  show V c (Pipeline.arrRef spec5 5) _ = V c (Pipeline.arrRef spec5 5) _
  congr 1
  funext a
  apply Fin.ext
  match a with
  | ⟨0, _⟩ => show win5_5.index t (0 : Fin 2) * 32 + 1 * (y 0).val = (y 0).val; rw [e0]; omega
  | ⟨1, _⟩ => show win5_5.index t (1 : Fin 2) * 2 + 1 * (y 1).val = (y 1).val; rw [e1]; omega

theorem blk6_eq (c : Dev nD) (t : Fin cfg5.N) : (iblk5 V c 6 t : Vec Ideal S1x2 .f32) = V c (Pipeline.arrRef spec5 6) := by
  obtain ⟨-, -, -, -, -, ⟨e0, e1⟩⟩ := idx_whole t
  funext y
  unfold iblk5
  rw [View.read_apply]
  show V c (Pipeline.arrRef spec5 6) _ = V c (Pipeline.arrRef spec5 6) _
  congr 1
  funext a
  apply Fin.ext
  match a with
  | ⟨0, _⟩ => show win5_6.index t (0 : Fin 2) * 1 + 1 * (y 0).val = (y 0).val; rw [e0]; omega
  | ⟨1, _⟩ => show win5_6.index t (1 : Fin 2) * 2 + 1 * (y 1).val = (y 1).val; rw [e1]; omega

/-! ## The layer's output array -/

/-- What point t writes back to the output array is block t of the layer's array. -/
theorem flushed7_eq (c : Dev nD) (t : Fin cfg5.N) :
    (dat5 V c).flushed 7 t = ((cfg5.win 7).blk t).view.read (Elt Ideal) (OutArr V c) := by
  have hN : cfg5.N = 200 := N_5
  have ht : t.val < cfg5.N := t.isLt
  obtain ⟨-, ⟨e0, e1⟩⟩ := idx_facts t
  show (cfg5.win 7).cut (grid5.coords t) ((dat5 V c).after 7 t) = _
  rw [after5_7]
  unfold out5_7
  rw [View.canon_unit_zero hz2]
  simp only [View.ld_unit_zero (S := S8000x32) hz2, View.ld_unit_zero (S := S1x32) hz2, View.ld_unit_zero (S := S32x2) hz2,
    View.ld_unit_zero (S := S1x2) hz2]
  rw [blk1_eq, blk2_eq, blk3_eq, blk4_eq, blk5_eq, blk6_eq]
  funext y
  obtain ⟨p, q, rfl⟩ : ∃ (p : Fin 8000) (q : Fin 2), y = ix2 p q := ⟨y 0, y 1, eq_ix2 y⟩
  rw [View.read_apply]
  refine (pay1_at (iblk5 V c 0 t) (V c (Pipeline.arrRef spec5 1)) (V c (Pipeline.arrRef spec5 2)) (V c (Pipeline.arrRef spec5 3))
    (V c (Pipeline.arrRef spec5 4)) (V c (Pipeline.arrRef spec5 5)) (V c (Pipeline.arrRef spec5 6)) (V c (Pipeline.arrRef spec5 0)) p q
    ⟨8000 * t.val + p.val, by omega⟩ (fun k => xblk_apply V c t p k _ rfl)).trans ?_
  show Out V c _ q = Out V c _ _
  congr 1
  · apply Fin.ext
    show 8000 * t.val + p.val = win5_7.index t (0 : Fin 2) * 8000 + 1 * p.val
    rw [e0]; omega
  · apply Fin.ext
    show q.val = win5_7.index t (1 : Fin 2) * 2 + 1 * q.val
    rw [e1]; omega

/-- An index of the output array is in point t's block iff each coordinate is in the block's range on its axis. -/
theorem mem_blk7 (t : Fin cfg5.N) (i : S1600000x2.Idx) :
    i ∈ ((cfg5.win 7).blk t).view.set ↔ ∀ a : Fin 2, win5_7.index t a * S8000x2.size a ≤ (i a).val ∧ (i a).val < win5_7.index t a * S8000x2.size a + S8000x2.size a := by
  show i ∈ ((View.whole main_v140).slice (win5_7.rect t)).set ↔ _
  rw [View.set_slice_whole, Rect.mem_set_unit]
  exact Iff.rfl

/-- Row r of the output array is in the block of point r / 8000. -/
theorem cover7 (i : S1600000x2.Idx) : ∃ t : Fin cfg5.N, (cfg5.win 7).flush t = true ∧ i ∈ ((cfg5.win 7).blk t).view.set := by
  have hN : cfg5.N = 200 := N_5
  have hi0 : (i 0).val < 1600000 := (i 0).isLt
  have hi1 : (i 1).val < 2 := (i 1).isLt
  refine ⟨⟨(i 0).val / 8000, by omega⟩, flush5_7 _, ?_⟩
  obtain ⟨-, ⟨e0, e1⟩⟩ := idx_facts ⟨(i 0).val / 8000, by omega⟩
  rw [mem_blk7]
  intro a
  match a with
  | ⟨0, _⟩ =>
    show win5_7.index ⟨(i 0).val / 8000, _⟩ (0 : Fin 2) * 8000 ≤ (i 0).val ∧ (i 0).val < win5_7.index ⟨(i 0).val / 8000, _⟩ (0 : Fin 2) * 8000 + 8000
    rw [e0]; show (i 0).val / 8000 * 8000 ≤ (i 0).val ∧ (i 0).val < (i 0).val / 8000 * 8000 + 8000; omega
  | ⟨1, _⟩ =>
    show win5_7.index ⟨(i 0).val / 8000, _⟩ (1 : Fin 2) * 2 ≤ (i 1).val ∧ (i 1).val < win5_7.index ⟨(i 0).val / 8000, _⟩ (1 : Fin 2) * 2 + 2
    rw [e1]; omega

/-- After the region the output array is the layer's array. -/
theorem final7 (c : Dev nD) : (dat5 V c).arrAt 7 cfg5.N = OutArr V c :=
  (dat5 V c).arrAt_eq_of_cover 7 (OutArr V c) (fun t _ => flushed7_eq V c t) cover7

/-- Entry (r, j) of the output array after the region. -/
theorem out_apply (c : Dev nD) (r : Fin 1600000) (j : Fin 2) : (dat5 V c).arrAt 7 cfg5.N (ix2 r j) = Out V c r j := by
  rw [final7]; rfl

end Arrays

end Cert.KernelIdeal.Region5

end
-- ==== Proof.Stage3Bridge.lean ====
/-
  Edge MLP, last stage: the kernel's against the reference's.

  Both normalise the second activation column by column, ((x − mean)·rsqrt(variance + eps))·scale + shift, multiply the
  normalised row by the [32,2] weight matrix and add the bias; the kernel does so block by block of 8000 edges. With the
  seven arrays the region reads equal to the reference's second activation, its column means and variances, the scale,
  the shift, the weight matrix and the bias, the result arrays are equal entry by entry. No finiteness is involved: the
  two sides are the same expression.
-/
import proofs.«123034_j51127290692283_2_alg».proof.Proof.Region5
import proofs.«123034_j51127290692283_2_alg».proof.Proof.RefReadP
import proofs.«123034_j51127290692283_2_alg».proof.Proof.RefApply

noncomputable section

namespace Cert.KernelIdeal.Stage3Bridge

open Cert.KernelIdeal Cert.KernelIdeal.Gen Idealize.ShloMosaic Idealize.ShloMosaic.TcCoe Idealize.SL.Sem Idealize.ShloMosaic.ValueIdx
open Cert.ReferenceIdeal.ReadP

variable (V : (c : Dev nD) → (b : Ref sig .tc) → Buf (Elt Ideal) ((c : Thread nD τ).loc b))
variable (x0 : (⟨Cert.ReferenceIdeal.S100000x3, .f32⟩ : BufTy).Contents (Elt Ideal)) (x1 : (⟨Cert.ReferenceIdeal.S2x1600000, .i32⟩ : BufTy).Contents (Elt Ideal))
  (x2 : (⟨Cert.ReferenceIdeal.S3x64, .f32⟩ : BufTy).Contents (Elt Ideal)) (x3 : (⟨Cert.ReferenceIdeal.S64, .f32⟩ : BufTy).Contents (Elt Ideal))
  (x4 : (⟨Cert.ReferenceIdeal.S64x64, .f32⟩ : BufTy).Contents (Elt Ideal)) (x5 : (⟨Cert.ReferenceIdeal.S64, .f32⟩ : BufTy).Contents (Elt Ideal))
  (x6 : (⟨Cert.ReferenceIdeal.S64x64, .f32⟩ : BufTy).Contents (Elt Ideal)) (x7 : (⟨Cert.ReferenceIdeal.S64, .f32⟩ : BufTy).Contents (Elt Ideal))
  (x8 : (⟨Cert.ReferenceIdeal.S128x64, .f32⟩ : BufTy).Contents (Elt Ideal)) (x9 x10 x11 : (⟨Cert.ReferenceIdeal.S64, .f32⟩ : BufTy).Contents (Elt Ideal))
  (x12 : (⟨Cert.ReferenceIdeal.S64x32, .f32⟩ : BufTy).Contents (Elt Ideal)) (x13 x14 x15 : (⟨Cert.ReferenceIdeal.S32, .f32⟩ : BufTy).Contents (Elt Ideal))
  (x16 : (⟨Cert.ReferenceIdeal.S32x2, .f32⟩ : BufTy).Contents (Elt Ideal)) (x17 : (⟨Cert.ReferenceIdeal.S2, .f32⟩ : BufTy).Contents (Elt Ideal))

/-! ## The arrays the last stage reads -/

/-- The second stage's activation. -/
abbrev zin (c : Dev nD) : S1600000x32.Idx → EReal := V c (Pipeline.arrRef spec5 0)
/-- Its column means, as a row. -/
abbrev muRow (c : Dev nD) : S1x32.Idx → EReal := V c (Pipeline.arrRef spec5 1)
/-- Its column variances, as a row. -/
abbrev varRow (c : Dev nD) : S1x32.Idx → EReal := V c (Pipeline.arrRef spec5 2)
/-- The normalisation's scale, as a row. -/
abbrev gRow (c : Dev nD) : S1x32.Idx → EReal := V c (Pipeline.arrRef spec5 3)
/-- The normalisation's shift, as a row. -/
abbrev beRow (c : Dev nD) : S1x32.Idx → EReal := V c (Pipeline.arrRef spec5 4)
/-- The last weight matrix. -/
abbrev w3 (c : Dev nD) : S32x2.Idx → EReal := V c (Pipeline.arrRef spec5 5)
/-- The last bias, as a row. -/
abbrev b3Row (c : Dev nD) : S1x2.Idx → EReal := V c (Pipeline.arrRef spec5 6)

/-! ## The result against the reference's -/

/-- Entry (r, j) of the kernel's result is the reference's. -/
theorem Out_eq_ref (c : Dev nD)
    (hx : zin V c = val_main_v182 (F := Ideal) x0 x1 x2 x3 x4 x5 x6 x7 x8 x9 x10 x11 x12 x13)
    (hmu : ∀ (z : Fin 1) (k : Fin 32), muRow V c (ix2 z k) = val_main_v185 (F := Ideal) x0 x1 x2 x3 x4 x5 x6 x7 x8 x9 x10 x11 x12 x13 (ix1 k))
    (hvar : ∀ (z : Fin 1) (k : Fin 32), varRow V c (ix2 z k) = val_main_v192 (F := Ideal) x0 x1 x2 x3 x4 x5 x6 x7 x8 x9 x10 x11 x12 x13 (ix1 k))
    (hg : ∀ (z : Fin 1) (k : Fin 32), gRow V c (ix2 z k) = x14 (ix1 k))
    (hbe : ∀ (z : Fin 1) (k : Fin 32), beRow V c (ix2 z k) = x15 (ix1 k))
    (hw : w3 V c = x16)
    (hb : ∀ (z : Fin 1) (j : Fin 2), b3Row V c (ix2 z j) = x17 (ix1 j))
    (r : Fin 1600000) (j : Fin 2) :
    Region5.Out V c r j = val_main_v211 (F := Ideal) x0 x1 x2 x3 x4 x5 x6 x7 x8 x9 x10 x11 x12 x13 x14 x15 x16 x17 (ix2 r j) := by
  rw [Cert.ReferenceIdeal.RefApply.out_apply x0 x1 x2 x3 x4 x5 x6 x7 x8 x9 x10 x11 x12 x13 x14 x15 x16 x17 r j]
  unfold Region5.Out Region5.out
  refine congrArg₂ (· + ·) (Finset.sum_congr rfl fun k _ => ?_) (hb 0 j)
  refine congrArg₂ (· * ·) ?_ (congrFun hw (ix2 k j))
  rw [Cert.ReferenceIdeal.RefApply.bn2_apply x0 x1 x2 x3 x4 x5 x6 x7 x8 x9 x10 x11 x12 x13 x14 x15 r k]
  unfold Region5.bn
  exact congrArg₂ (· + ·) (congrArg₂ (· * ·) (congrArg₂ (· * ·) (congrArg₂ (· - ·) (congrFun hx (ix2 r k)) (hmu 0 k))
    (congrArg (fun v : EReal => Ideal.rsqrt (v + Ideal.ofBits .f32 0x3727C5AC#32)) (hvar 0 k))) (hg 0 k)) (hbe 0 k)

/-- So after the region the result array is the reference's result. -/
theorem out_eq (c : Dev nD)
    (hx : zin V c = val_main_v182 (F := Ideal) x0 x1 x2 x3 x4 x5 x6 x7 x8 x9 x10 x11 x12 x13)
    (hmu : ∀ (z : Fin 1) (k : Fin 32), muRow V c (ix2 z k) = val_main_v185 (F := Ideal) x0 x1 x2 x3 x4 x5 x6 x7 x8 x9 x10 x11 x12 x13 (ix1 k))
    (hvar : ∀ (z : Fin 1) (k : Fin 32), varRow V c (ix2 z k) = val_main_v192 (F := Ideal) x0 x1 x2 x3 x4 x5 x6 x7 x8 x9 x10 x11 x12 x13 (ix1 k))
    (hg : ∀ (z : Fin 1) (k : Fin 32), gRow V c (ix2 z k) = x14 (ix1 k))
    (hbe : ∀ (z : Fin 1) (k : Fin 32), beRow V c (ix2 z k) = x15 (ix1 k))
    (hw : w3 V c = x16)
    (hb : ∀ (z : Fin 1) (j : Fin 2), b3Row V c (ix2 z j) = x17 (ix1 j)) :
    (dat5 (F := Ideal) V c).arrAt 7 cfg5.N
      = val_main_v211 (F := Ideal) x0 x1 x2 x3 x4 x5 x6 x7 x8 x9 x10 x11 x12 x13 x14 x15 x16 x17 := by
  refine funext fun (i : S1600000x2.Idx) => ?_
  obtain ⟨r, j, rfl⟩ : ∃ (r : Fin 1600000) (j : Fin 2), i = ix2 r j := ⟨i 0, i 1, eq_ix2 i⟩
  exact (Region5.out_apply V c r j).trans
    (Out_eq_ref V x0 x1 x2 x3 x4 x5 x6 x7 x8 x9 x10 x11 x12 x13 x14 x15 x16 x17 c hx hmu hvar hg hbe hw hb r j)

end Cert.KernelIdeal.Stage3Bridge

end
-- ==== Proof.RefFiniteOps.lean ====
/- Closure of "being a real number" under the operations of the reference program, at the ideal values. Every float
   operation of the program is one of: a literal, a reading of operand entries at other places (broadcast, gather,
   concatenation), an entrywise sum, difference, product or maximum, a finite sum of products (the contraction), an
   initial value plus a finite sum (the column sums, the accumulating scatter), a quotient by a literal, and a
   reciprocal square root. The last is real only where its operand is a positive real: the program applies it to a
   count kept only where the count is positive, and to a mean of squares plus a positive literal. -/
import Idealize.ShloMosaic.PureOps.Ideal
import Idealize.ShloMosaic.PureOps.Ideal.Laws
import Idealize.ShloMosaic.Lib.IdealHost
import proofs.«123034_j51127290692283_2_alg».proof.Proof.LibStats

namespace Cert.ReferenceIdeal.RefFinite

open Idealize.ShloMosaic Cert.Lib

/-! ### Readings of operand entries: any property of all entries passes to the result -/

section Readings
variable {α : Type} {s t : Shape}

/-- Every entry of a broadcast is an entry of the operand. -/
theorem all_broadcastInDim (P : α → Prop) (dims : Fin s.rank → Fin t.rank) (h : s.BroadcastsInDim t dims)
    (x : s.Idx → α) (hx : ∀ i, P (x i)) : ∀ j, P (broadcastInDim t dims h x j) :=
  fun _ => hx _

/-- Every entry of a gather is an entry of the operand. -/
theorem all_gather (P : α → Prop) {si : Shape} {w : Nat} (d : GatherDims s si t) (x : s.Idx → α) (idx : IVec si w)
    (hx : ∀ i, P (x i)) : ∀ j, P (Host.gather d x idx j) :=
  fun _ => hx _

/-- Every entry of a concatenation is an entry of one of the pieces. -/
theorem all_concatenate (P : α → Prop) (a : Fin t.rank) (xs : List ((s : Shape) × (s.Idx → α)))
    (h : Shape.Concatenates (xs.map (·.1)) t a) (hx : ∀ p ∈ xs, ∀ i, P (p.2 i)) :
    ∀ j, P (concatenate t a xs h j) := by
  intro j
  unfold concatenate
  exact hx _ (List.getElem_mem _) _

/-- The two pieces of a concatenation of two arrays. -/
theorem all_pair (P : α → Prop) {s₁ s₂ : Shape} (x₁ : s₁.Idx → α) (x₂ : s₂.Idx → α) (h₁ : ∀ i, P (x₁ i))
    (h₂ : ∀ i, P (x₂ i)) : ∀ p ∈ [(⟨s₁, x₁⟩ : (s : Shape) × (s.Idx → α)), ⟨s₂, x₂⟩], ∀ i, P (p.2 i) := by
  intro p hp
  rcases List.mem_cons.mp hp with rfl | hp
  · exact h₁
  · rcases List.mem_cons.mp hp with rfl | hp
    · exact h₂
    · exact absurd hp List.not_mem_nil

end Readings

/-! ### Literals -/

section Literals
variable (S : Shape)

/-- The literal zero. -/
theorem real_zeros : ∀ i, IsReal (constant (F := Ideal) S .f32 0x00000000#32 i) := fun _ => by
  show IsReal (Ideal.ofBits .f32 0x00000000#32)
  rw [Ideal.ofBits_zero_f32]; exact isReal_zero

/-- The literal zero is zero. -/
theorem zeros_eq : ∀ i, constant (F := Ideal) S .f32 0x00000000#32 i = 0 := fun _ => Ideal.ofBits_zero_f32

/-- The literal one. -/
theorem real_ones : ∀ i, IsReal (constant (F := Ideal) S .f32 0x3F800000#32 i) := fun _ => by
  show IsReal (Ideal.ofBits .f32 0x3F800000#32)
  rw [Ideal.ofBits_one_f32]; exact isReal_one

/-- The literal 1600000. -/
theorem count_eq : ∀ i, constant (F := Ideal) S .f32 0x49C35000#32 i = ((1600000 : ℝ) : EReal) :=
  fun _ => ofBits_1600000

end Literals

/-! ### Entrywise arithmetic -/

section Entrywise
variable {s : Shape} {φ : FTy} (a b : FVec Ideal s φ)

theorem real_addf (ha : ∀ i, IsReal (a i)) (hb : ∀ i, IsReal (b i)) : ∀ i, IsReal (addf a b i) :=
  fun i => (ha i).add (hb i)

theorem real_subf (ha : ∀ i, IsReal (a i)) (hb : ∀ i, IsReal (b i)) : ∀ i, IsReal (subf a b i) :=
  fun i => (ha i).sub (hb i)

theorem real_mulf (ha : ∀ i, IsReal (a i)) (hb : ∀ i, IsReal (b i)) : ∀ i, IsReal (mulf a b i) :=
  fun i => (ha i).mul (hb i)

theorem real_maximumf (ha : ∀ i, IsReal (a i)) (hb : ∀ i, IsReal (b i)) : ∀ i, IsReal (maximumf a b i) :=
  fun i => (ha i).max (hb i)

/-- A quotient by an array all of whose entries are one nonzero real number. -/
theorem real_divf {N : ℝ} (hN : N ≠ 0) (ha : ∀ i, IsReal (a i)) (hb : ∀ i, b i = (N : EReal)) :
    ∀ i, IsReal (Host.divf a b i) := fun i => by
  show IsReal (Ideal.div (a i) (b i))
  rw [hb i]; exact (ha i).div hN

end Entrywise

/-! ### Finite sums -/

section Sums
variable {φ : FTy}

/-- The contraction: a finite sum of products of entries. -/
theorem real_dotGeneral {sl sr so : Shape} (d : DotDims sl sr so) (prec : Option ContractPrecision)
    (l : FVec Ideal sl φ) (r : FVec Ideal sr φ) (hl : ∀ i, IsReal (l i)) (hr : ∀ i, IsReal (r i)) :
    ∀ j, IsReal (Host.dotGeneral d prec l r j) := fun j => by
  simp only [Host.dotGeneral]
  rw [Ideal.dotGeneral_apply]
  exact isReal_sum_univ _ (fun k => (hl _).mul (hr _))

/-- The sum along axes: an initial value plus a finite sum of entries. -/
theorem real_reduceAdd {s t u : Shape} {axes : List (Fin s.rank)} (x : FVec Ideal s φ) (init : u.Idx → Ideal φ)
    (h : s.ReducesTo axes t) (hu : 0 < u.numel) (hx : ∀ i, IsReal (x i)) (hinit : ∀ i, IsReal (init i)) :
    ∀ j, IsReal (Host.reduceAdd x init h hu j) := fun j => by
  show IsReal (Ideal.hostReduceAdd h x (init (Shape.Idx.first hu)) j)
  unfold Ideal.hostReduceAdd
  exact (hinit _).add (isReal_sum _ _ (fun i _ => hx i))

/-- The accumulating scatter: an operand entry plus a finite sum of update entries. -/
theorem real_scatterAdd {s si u : Shape} {w : Nat} (d : ScatterDims s si u) (x : FVec Ideal s φ) (idx : IVec si w)
    (upd : FVec Ideal u φ) (hx : ∀ i, IsReal (x i)) (hupd : ∀ i, IsReal (upd i)) :
    ∀ j, IsReal (Host.scatterAdd d x idx upd j) := fun j => by
  show IsReal (Ideal.hostScatterAdd d x idx upd j)
  unfold Ideal.hostScatterAdd
  exact (hx _).add (isReal_sum _ _ (fun i _ => hupd i))

end Sums

/-! ### Reciprocal square roots -/

section Rsqrt
variable {s : Shape} {φ : FTy}

/-- The reciprocal square root kept where the operand exceeds a zero array, and a real elsewhere: where the
    comparison holds the operand is a positive real. -/
theorem real_where_rsqrt (x z e : FVec Ideal s φ) (hx : ∀ i, IsReal (x i)) (hz : ∀ i, z i = 0)
    (he : ∀ i, IsReal (e i)) : ∀ i, IsReal (select (cmpf .ogt x z) (Host.rsqrt x) e i) := fun i => by
  show IsReal (Scalar.select (Ideal.cmp .ogt (x i) (z i)) (Ideal.rsqrt (x i)) (e i))
  unfold Scalar.select
  by_cases hc : Ideal.cmp .ogt (x i) (z i) = 1
  · rw [if_pos hc]
    refine (hx i).rsqrt ?_
    have hlt : z i < x i := by
      by_contra hn
      have : Ideal.cmp .ogt (x i) (z i) = 0 := by
        unfold Ideal.cmp
        simp only [decide_eq_false hn]
        rfl
      rw [this] at hc
      exact absurd hc (by decide)
    rw [hz i] at hlt
    exact hlt
  · rw [if_neg hc]; exact he i

/-- An extended real that is a real number not below zero. -/
def IsNonnegReal (x : EReal) : Prop := ∃ r : ℝ, 0 ≤ r ∧ x = (r : EReal)

theorem IsNonnegReal.isReal {x : EReal} (h : IsNonnegReal x) : IsReal x := by
  obtain ⟨r, _, rfl⟩ := h; exact ⟨r, rfl⟩

theorem isNonnegReal_zero : IsNonnegReal 0 := ⟨0, le_refl _, rfl⟩

theorem IsNonnegReal.add {x y : EReal} (hx : IsNonnegReal x) (hy : IsNonnegReal y) : IsNonnegReal (x + y) := by
  obtain ⟨a, ha, rfl⟩ := hx; obtain ⟨b, hb, rfl⟩ := hy
  exact ⟨a + b, add_nonneg ha hb, (EReal.coe_add a b).symm⟩

/-- The square of a real is a real not below zero. -/
theorem isNonnegReal_mul_self {x : EReal} (hx : IsReal x) : IsNonnegReal (x * x) := by
  obtain ⟨a, rfl⟩ := hx
  exact ⟨a * a, mul_self_nonneg a, (EReal.coe_mul a a).symm⟩

theorem isNonnegReal_sum {ι : Type*} (S : Finset ι) (f : ι → EReal) (h : ∀ i ∈ S, IsNonnegReal (f i)) :
    IsNonnegReal (∑ i ∈ S, f i) := by
  classical
  induction S using Finset.induction_on with
  | empty => rw [Finset.sum_empty]; exact isNonnegReal_zero
  | insert a S ha ih =>
    rw [Finset.sum_insert ha]
    exact (h a (Finset.mem_insert_self a S)).add (ih (fun i hi => h i (Finset.mem_insert_of_mem hi)))

/-- The quotient of a real not below zero by a positive real number is a real not below zero. -/
theorem IsNonnegReal.div {x : EReal} (hx : IsNonnegReal x) {N : ℝ} (hN : 0 < N) :
    IsNonnegReal (Ideal.div x (N : EReal)) := by
  obtain ⟨a, ha, rfl⟩ := hx
  exact ⟨a * (1 / N), mul_nonneg ha (one_div_nonneg.mpr hN.le), div_coe_coe a hN.ne'⟩

/-- Entrywise squares are reals not below zero. -/
theorem nonneg_mulf_self (a : FVec Ideal s φ) (ha : ∀ i, IsReal (a i)) : ∀ i, IsNonnegReal (mulf a a i) :=
  fun i => isNonnegReal_mul_self (ha i)

/-- Sums along axes of reals not below zero, from a zero initial value, are reals not below zero. -/
theorem nonneg_reduceAdd {s t u : Shape} {axes : List (Fin s.rank)} (x : FVec Ideal s φ) (init : u.Idx → Ideal φ)
    (h : s.ReducesTo axes t) (hu : 0 < u.numel) (hx : ∀ i, IsNonnegReal (x i)) (hinit : ∀ i, init i = 0) :
    ∀ j, IsNonnegReal (Host.reduceAdd x init h hu j) := fun j => by
  show IsNonnegReal (Ideal.hostReduceAdd h x (init (Shape.Idx.first hu)) j)
  unfold Ideal.hostReduceAdd
  rw [hinit]
  exact isNonnegReal_zero.add (isNonnegReal_sum _ _ (fun i _ => hx i))

/-- Quotients of reals not below zero by an array all of whose entries are one positive real number. -/
theorem nonneg_divf {N : ℝ} (hN : 0 < N) (a b : FVec Ideal s φ) (ha : ∀ i, IsNonnegReal (a i))
    (hb : ∀ i, b i = (N : EReal)) : ∀ i, IsNonnegReal (Host.divf a b i) := fun i => by
  show IsNonnegReal (Ideal.div (a i) (b i))
  rw [hb i]; exact (ha i).div hN

/-- The reciprocal square root of a real not below zero plus one positive real number. -/
theorem real_rsqrt_add {e : ℝ} (he : 0 < e) (a b : FVec Ideal s φ) (ha : ∀ i, IsNonnegReal (a i))
    (hb : ∀ i, b i = (e : EReal)) : ∀ i, IsReal (Host.rsqrt (addf a b) i) := fun i => by
  show IsReal (Ideal.rsqrt (a i + b i))
  obtain ⟨v, hv, hav⟩ := ha i
  rw [hav, hb i]; exact isReal_rsqrt_add hv he

end Rsqrt

/-! ### The edge weights of one round -/

section EdgeWeight
variable {φ : FTy} {s si u sg t : Shape} {w w' : Nat}

/-- Count the edges arriving at each node (zero plus a finite sum of ones), keep the reciprocal square root of the
    count where the count is positive and a real elsewhere, read that at the two ends of each edge and multiply:
    every such product is real. -/
theorem real_edge_weight (d : ScatterDims s si u) (g : GatherDims s sg t) (zeros : FVec Ideal s φ) (idx : IVec si w)
    (ones : FVec Ideal u φ) (z e : FVec Ideal s φ) (i₁ i₂ : IVec sg w')
    (hzeros : ∀ i, IsReal (zeros i)) (hones : ∀ i, IsReal (ones i)) (hz : ∀ i, z i = 0) (he : ∀ i, IsReal (e i)) :
    ∀ j, IsReal (mulf
      (Host.gather g (select (cmpf .ogt (Host.scatterAdd d zeros idx ones) z)
        (Host.rsqrt (Host.scatterAdd d zeros idx ones)) e) i₁)
      (Host.gather g (select (cmpf .ogt (Host.scatterAdd d zeros idx ones) z)
        (Host.rsqrt (Host.scatterAdd d zeros idx ones)) e) i₂) j) :=
  real_mulf _ _
    (all_gather IsReal _ _ _ (real_where_rsqrt _ _ _ (real_scatterAdd _ _ _ _ hzeros hones) hz he))
    (all_gather IsReal _ _ _ (real_where_rsqrt _ _ _ (real_scatterAdd _ _ _ _ hzeros hones) hz he))

end EdgeWeight

end Cert.ReferenceIdeal.RefFinite
-- ==== Proof.RefFinite.lean ====
/- Every entry of the reference's first and second edge-stage activations is a real number when the float arguments
   are. The reference is walked from the top: the in-degree counts (zero plus a finite sum of ones), their reciprocal
   square roots kept only where the count is positive, the edge weights (products of two of those), three rounds of
   "contract with a weight matrix, read rows at the edges' sources, scale by the edge weight, accumulate at the edges'
   targets, add the bias, clip at zero" (the third without the clipping), the two row readings at the edges' ends put
   side by side, the contraction with the first edge matrix, its bias and clipping (the first activation); then its
   column means, the column means of the squared deviations (reals not below zero), the reciprocal square root of
   those plus a positive literal, the affine normalisation, the second contraction, bias and clipping (the second
   activation). Only the float stages matter: an integer index array can only choose which real entries are read or
   summed. -/
import proofs.«123034_j51127290692283_2_alg».proof.Proof.RefReadP
import proofs.«123034_j51127290692283_2_alg».proof.Proof.RefFiniteOps

namespace Cert.ReferenceIdeal.RefFinite

open Cert.ReferenceIdeal Cert.ReferenceIdeal.Gen Idealize.ShloMosaic Idealize.ShloMosaic.StableHlo Cert.Lib
open Cert.ReferenceIdeal.ReadP

/-! ### The edge weights of the three rounds: they depend on the edge list only -/

section Weights
variable (x1 : (⟨S2x1600000, .i32⟩ : BufTy).Contents (Elt Ideal))

/-- Round one's edge weights are real. -/
theorem v30_real : ∀ i, IsReal (val_main_v30 (F := Ideal) x1 i) := by
  unfold val_main_v30 val_main_v22 val_main_v29 val_main_v15 val_main_v13 val_main_v14 val_main_v11
  refine real_edge_weight _ _ _ _ _ _ _ _ _ ?_ ?_ ?_ ?_
  · unfold val_main_v9 val_main_cst_0
    exact all_broadcastInDim IsReal _ _ _ (real_zeros _)
  · unfold val_main_v8 val_main_cst
    exact all_broadcastInDim IsReal _ _ _ (real_ones _)
  · unfold val_main_v12 val_main_cst_1
    exact all_broadcastInDim (· = 0) _ _ _ (zeros_eq _)
  · unfold val_main_call0_v1 val_main_call0_v0 val_main_cst_2
    exact all_broadcastInDim IsReal _ _ _ (real_zeros _)

/-- Round one's edge weights repeated along each row. -/
theorem v39_real : ∀ i, IsReal (val_main_v39 (F := Ideal) x1 i) := by
  unfold val_main_v39 val_main_v38
  exact all_broadcastInDim IsReal _ _ _ (all_broadcastInDim IsReal _ _ _ (v30_real x1))

/-- Round two's edge weights are real. -/
theorem v71_real : ∀ i, IsReal (val_main_v71 (F := Ideal) x1 i) := by
  unfold val_main_v71 val_main_v63 val_main_v70 val_main_v56 val_main_v54 val_main_v55 val_main_v52
  refine real_edge_weight _ _ _ _ _ _ _ _ _ ?_ ?_ ?_ ?_
  · unfold val_main_v50 val_main_cst_10
    exact all_broadcastInDim IsReal _ _ _ (real_zeros _)
  · unfold val_main_v49 val_main_cst_9
    exact all_broadcastInDim IsReal _ _ _ (real_ones _)
  · unfold val_main_v53 val_main_cst_11
    exact all_broadcastInDim (· = 0) _ _ _ (zeros_eq _)
  · unfold val_main_call2_v1 val_main_call2_v0 val_main_cst_12
    exact all_broadcastInDim IsReal _ _ _ (real_zeros _)

/-- Round two's edge weights repeated along each row. -/
theorem v80_real : ∀ i, IsReal (val_main_v80 (F := Ideal) x1 i) := by
  unfold val_main_v80 val_main_v79
  exact all_broadcastInDim IsReal _ _ _ (all_broadcastInDim IsReal _ _ _ (v71_real x1))

/-- Round three's edge weights are real. -/
theorem v112_real : ∀ i, IsReal (val_main_v112 (F := Ideal) x1 i) := by
  unfold val_main_v112 val_main_v104 val_main_v111 val_main_v97 val_main_v95 val_main_v96 val_main_v93
  refine real_edge_weight _ _ _ _ _ _ _ _ _ ?_ ?_ ?_ ?_
  · unfold val_main_v91 val_main_cst_21
    exact all_broadcastInDim IsReal _ _ _ (real_zeros _)
  · unfold val_main_v90 val_main_cst_20
    exact all_broadcastInDim IsReal _ _ _ (real_ones _)
  · unfold val_main_v94 val_main_cst_22
    exact all_broadcastInDim (· = 0) _ _ _ (zeros_eq _)
  · unfold val_main_call4_v1 val_main_call4_v0 val_main_cst_23
    exact all_broadcastInDim IsReal _ _ _ (real_zeros _)

/-- Round three's edge weights repeated along each row. -/
theorem v121_real : ∀ i, IsReal (val_main_v121 (F := Ideal) x1 i) := by
  unfold val_main_v121 val_main_v120
  exact all_broadcastInDim IsReal _ _ _ (all_broadcastInDim IsReal _ _ _ (v112_real x1))

end Weights

/-! ### The three rounds and the first edge stage -/

section Stages
variable (x0 : (⟨S100000x3, .f32⟩ : BufTy).Contents (Elt Ideal)) (x1 : (⟨S2x1600000, .i32⟩ : BufTy).Contents (Elt Ideal))
  (x2 : (⟨S3x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))
  (x8 : (⟨S128x64, .f32⟩ : BufTy).Contents (Elt Ideal)) (x9 x10 x11 : (⟨S64, .f32⟩ : BufTy).Contents (Elt Ideal))
  (x12 : (⟨S64x32, .f32⟩ : BufTy).Contents (Elt Ideal)) (x13 : (⟨S32, .f32⟩ : BufTy).Contents (Elt Ideal))
  (h0 : ∀ i, IsReal (x0 i)) (h2 : ∀ i, IsReal (x2 i)) (h3 : ∀ i, IsReal (x3 i)) (h4 : ∀ i, IsReal (x4 i))
  (h5 : ∀ i, IsReal (x5 i)) (h6 : ∀ i, IsReal (x6 i)) (h7 : ∀ i, IsReal (x7 i)) (h8 : ∀ i, IsReal (x8 i))
  (h9 : ∀ i, IsReal (x9 i)) (h10 : ∀ i, IsReal (x10 i)) (h11 : ∀ i, IsReal (x11 i)) (h12 : ∀ i, IsReal (x12 i))
  (h13 : ∀ i, IsReal (x13 i))

include h0 h2

/-- Round one, accumulated at the targets: zero plus a finite sum of (row of x·W1 at the source) × (edge weight). -/
theorem v43_real : ∀ i, IsReal (val_main_v43 (F := Ideal) x0 x1 x2 i) := by
  unfold val_main_v43
  refine real_scatterAdd _ _ _ _ ?_ ?_
  · unfold val_main_v41 val_main_cst_8
    exact all_broadcastInDim IsReal _ _ _ (real_zeros _)
  · unfold val_main_v40
    refine real_mulf _ _ ?_ (v39_real x1)
    unfold val_main_v37 val_main_v7
    exact all_gather IsReal _ _ _ (real_dotGeneral _ _ _ _ h0 h2)

include h3

/-- Round one's output: bias added, clipped at zero. -/
theorem v47_real : ∀ i, IsReal (val_main_v47 (F := Ideal) x0 x1 x2 x3 i) := by
  unfold val_main_v47
  refine real_maximumf _ _ ?_ ?_
  · unfold val_main_v46
    refine real_addf _ _ (v43_real x0 x1 x2 h0 h2) ?_
    unfold val_main_v45 val_main_v44
    exact all_broadcastInDim IsReal _ _ _ (all_broadcastInDim IsReal _ _ _ h3)
  · unfold val_main_call1_v0 val_main_call1_cst
    exact all_broadcastInDim IsReal _ _ _ (real_zeros _)

include h4

/-- Round two, accumulated at the targets. -/
theorem v84_real : ∀ i, IsReal (val_main_v84 (F := Ideal) x0 x1 x2 x3 x4 i) := by
  unfold val_main_v84
  refine real_scatterAdd _ _ _ _ ?_ ?_
  · unfold val_main_v82 val_main_cst_19
    exact all_broadcastInDim IsReal _ _ _ (real_zeros _)
  · unfold val_main_v81
    refine real_mulf _ _ ?_ (v80_real x1)
    unfold val_main_v78 val_main_v48
    exact all_gather IsReal _ _ _ (real_dotGeneral _ _ _ _ (v47_real x0 x1 x2 x3 h0 h2 h3) h4)

include h5

/-- Round two's output: bias added, clipped at zero. -/
theorem v88_real : ∀ i, IsReal (val_main_v88 (F := Ideal) x0 x1 x2 x3 x4 x5 i) := by
  unfold val_main_v88
  refine real_maximumf _ _ ?_ ?_
  · unfold val_main_v87
    refine real_addf _ _ (v84_real x0 x1 x2 x3 x4 h0 h2 h3 h4) ?_
    unfold val_main_v86 val_main_v85
    exact all_broadcastInDim IsReal _ _ _ (all_broadcastInDim IsReal _ _ _ h5)
  · unfold val_main_call3_v0 val_main_call3_cst
    exact all_broadcastInDim IsReal _ _ _ (real_zeros _)

include h6

/-- Round three, accumulated at the targets. -/
theorem v125_real : ∀ i, IsReal (val_main_v125 (F := Ideal) x0 x1 x2 x3 x4 x5 x6 i) := by
  unfold val_main_v125
  refine real_scatterAdd _ _ _ _ ?_ ?_
  · unfold val_main_v123 val_main_cst_30
    exact all_broadcastInDim IsReal _ _ _ (real_zeros _)
  · unfold val_main_v122
    refine real_mulf _ _ ?_ (v121_real x1)
    unfold val_main_v119 val_main_v89
    exact all_gather IsReal _ _ _ (real_dotGeneral _ _ _ _ (v88_real x0 x1 x2 x3 x4 x5 h0 h2 h3 h4 h5) h6)

include h7

/-- Round three's output, the node features: bias added. -/
theorem v128_real : ∀ i, IsReal (val_main_v128 (F := Ideal) x0 x1 x2 x3 x4 x5 x6 x7 i) := by
  unfold val_main_v128
  refine real_addf _ _ (v125_real x0 x1 x2 x3 x4 x5 x6 h0 h2 h3 h4 h5 h6) ?_
  unfold val_main_v127 val_main_v126
  exact all_broadcastInDim IsReal _ _ _ (all_broadcastInDim IsReal _ _ _ h7)

/-- The node features read at the two ends of each edge, side by side. -/
theorem v147_real : ∀ i, IsReal (val_main_v147 (F := Ideal) x0 x1 x2 x3 x4 x5 x6 x7 i) := by
  unfold val_main_v147
  refine all_concatenate IsReal _ _ _ (all_pair IsReal _ _ ?_ ?_)
  · unfold val_main_v139
    exact all_gather IsReal _ _ _ (v128_real x0 x1 x2 x3 x4 x5 x6 x7 h0 h2 h3 h4 h5 h6 h7)
  · unfold val_main_v146
    exact all_gather IsReal _ _ _ (v128_real x0 x1 x2 x3 x4 x5 x6 x7 h0 h2 h3 h4 h5 h6 h7)

include h8 h9

/-- The first edge-stage activation: contraction with the first edge matrix, bias added, clipped at zero. -/
theorem v152_real : ∀ i, IsReal (val_main_v152 (F := Ideal) x0 x1 x2 x3 x4 x5 x6 x7 x8 x9 i) := by
  unfold val_main_v152
  refine real_maximumf _ _ ?_ ?_
  · unfold val_main_v151
    refine real_addf _ _ ?_ ?_
    · unfold val_main_v148
      exact real_dotGeneral _ _ _ _ (v147_real x0 x1 x2 x3 x4 x5 x6 x7 h0 h2 h3 h4 h5 h6 h7) h8
    · unfold val_main_v150 val_main_v149
      exact all_broadcastInDim IsReal _ _ _ (all_broadcastInDim IsReal _ _ _ h9)
  · unfold val_main_call5_v0 val_main_call5_cst
    exact all_broadcastInDim IsReal _ _ _ (real_zeros _)

/-! ### The normalisation by column statistics and the second edge stage -/

/-- The column means of the first activation: (zero plus a finite sum of reals) over 1600000. -/
theorem v155_real : ∀ i, IsReal (val_main_v155 (F := Ideal) x0 x1 x2 x3 x4 x5 x6 x7 x8 x9 i) := by
  unfold val_main_v155
  refine real_divf (N := 1600000) _ _ (by norm_num) ?_ ?_
  · unfold val_main_v153
    refine real_reduceAdd _ _ _ _ (v152_real x0 x1 x2 x3 x4 x5 x6 x7 x8 x9 h0 h2 h3 h4 h5 h6 h7 h8 h9) ?_
    unfold val_main_cst_35
    exact real_zeros _
  · unfold val_main_v154 val_main_cst_36
    exact all_broadcastInDim (· = ((1600000 : ℝ) : EReal)) _ _ _ (count_eq _)

/-- The column means of the squared deviations from the column means are reals not below zero. -/
theorem v162_nonneg : ∀ i, IsNonnegReal (val_main_v162 (F := Ideal) x0 x1 x2 x3 x4 x5 x6 x7 x8 x9 i) := by
  unfold val_main_v162
  refine nonneg_divf (N := 1600000) (by norm_num) _ _ ?_ ?_
  · unfold val_main_v160
    refine nonneg_reduceAdd _ _ _ _ ?_ ?_
    · unfold val_main_v159
      refine nonneg_mulf_self _ ?_
      unfold val_main_v158
      refine real_subf _ _ (v152_real x0 x1 x2 x3 x4 x5 x6 x7 x8 x9 h0 h2 h3 h4 h5 h6 h7 h8 h9) ?_
      unfold val_main_v157 val_main_v156
      exact all_broadcastInDim IsReal _ _ _ (all_broadcastInDim IsReal _ _ _
        (v155_real x0 x1 x2 x3 x4 x5 x6 x7 x8 x9 h0 h2 h3 h4 h5 h6 h7 h8 h9))
    · unfold val_main_cst_37
      exact zeros_eq _
  · unfold val_main_v161 val_main_cst_38
    exact all_broadcastInDim (· = ((1600000 : ℝ) : EReal)) _ _ _ (count_eq _)

/-- The reciprocal square root of (mean squared deviation plus the positive literal) is real. -/
theorem v168_real : ∀ i, IsReal (val_main_v168 (F := Ideal) x0 x1 x2 x3 x4 x5 x6 x7 x8 x9 i) := by
  obtain ⟨e, he, hee⟩ := ofBits_eps
  unfold val_main_v168 val_main_v167
  refine real_rsqrt_add he _ _ (v162_nonneg x0 x1 x2 x3 x4 x5 x6 x7 x8 x9 h0 h2 h3 h4 h5 h6 h7 h8 h9) ?_
  unfold val_main_v166 val_main_cst_39
  exact all_broadcastInDim (· = (e : EReal)) _ _ _ (fun _ => hee)

/-- The first activation, centred and scaled by the reciprocal square root, is real. -/
theorem v171_real : ∀ i, IsReal (val_main_v171 (F := Ideal) x0 x1 x2 x3 x4 x5 x6 x7 x8 x9 i) := by
  unfold val_main_v171
  refine real_mulf _ _ ?_ ?_
  · unfold val_main_v165
    refine real_subf _ _ (v152_real x0 x1 x2 x3 x4 x5 x6 x7 x8 x9 h0 h2 h3 h4 h5 h6 h7 h8 h9) ?_
    unfold val_main_v164 val_main_v163
    exact all_broadcastInDim IsReal _ _ _ (all_broadcastInDim IsReal _ _ _
      (v155_real x0 x1 x2 x3 x4 x5 x6 x7 x8 x9 h0 h2 h3 h4 h5 h6 h7 h8 h9))
  · unfold val_main_v170 val_main_v169
    exact all_broadcastInDim IsReal _ _ _ (all_broadcastInDim IsReal _ _ _
      (v168_real x0 x1 x2 x3 x4 x5 x6 x7 x8 x9 h0 h2 h3 h4 h5 h6 h7 h8 h9))

include h10 h11

/-- The normalised first activation: times the scale, plus the shift. -/
theorem v177_real : ∀ i, IsReal (val_main_v177 (F := Ideal) x0 x1 x2 x3 x4 x5 x6 x7 x8 x9 x10 x11 i) := by
  unfold val_main_v177
  refine real_addf _ _ ?_ ?_
  · unfold val_main_v174
    refine real_mulf _ _ (v171_real x0 x1 x2 x3 x4 x5 x6 x7 x8 x9 h0 h2 h3 h4 h5 h6 h7 h8 h9) ?_
    unfold val_main_v173 val_main_v172
    exact all_broadcastInDim IsReal _ _ _ (all_broadcastInDim IsReal _ _ _ h10)
  · unfold val_main_v176 val_main_v175
    exact all_broadcastInDim IsReal _ _ _ (all_broadcastInDim IsReal _ _ _ h11)

include h12 h13

/-- The second edge-stage activation: contraction with the second edge matrix, bias added, clipped at zero. -/
theorem v182_real : ∀ i, IsReal (val_main_v182 (F := Ideal) x0 x1 x2 x3 x4 x5 x6 x7 x8 x9 x10 x11 x12 x13 i) := by
  unfold val_main_v182
  refine real_maximumf _ _ ?_ ?_
  · unfold val_main_v181
    refine real_addf _ _ ?_ ?_
    · unfold val_main_v178
      exact real_dotGeneral _ _ _ _
        (v177_real x0 x1 x2 x3 x4 x5 x6 x7 x8 x9 x10 x11 h0 h2 h3 h4 h5 h6 h7 h8 h9 h10 h11) h12
    · unfold val_main_v180 val_main_v179
      exact all_broadcastInDim IsReal _ _ _ (all_broadcastInDim IsReal _ _ _ h13)
  · unfold val_main_call6_v0 val_main_call6_cst
    exact all_broadcastInDim IsReal _ _ _ (real_zeros _)

end Stages

/-! ### The two statements other modules use -/

/-- Every entry of the reference's first edge-stage activation is a real number when the float arguments are. -/
theorem z1_real
    (x0 : (⟨S100000x3, .f32⟩ : BufTy).Contents (Elt Ideal)) (x1 : (⟨S2x1600000, .i32⟩ : BufTy).Contents (Elt Ideal))
    (x2 : (⟨S3x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x8 : (⟨S128x64, .f32⟩ : BufTy).Contents (Elt Ideal)) (x9 : (⟨S64, .f32⟩ : BufTy).Contents (Elt Ideal))
    (h0 : ∀ i, IsReal (x0 i)) (h2 : ∀ i, IsReal (x2 i)) (h3 : ∀ i, IsReal (x3 i)) (h4 : ∀ i, IsReal (x4 i))
    (h5 : ∀ i, IsReal (x5 i)) (h6 : ∀ i, IsReal (x6 i)) (h7 : ∀ i, IsReal (x7 i)) (h8 : ∀ i, IsReal (x8 i))
    (h9 : ∀ i, IsReal (x9 i)) :
    ∀ i, IsReal (ReadP.val_main_v152 (F := Ideal) x0 x1 x2 x3 x4 x5 x6 x7 x8 x9 i) :=
  v152_real x0 x1 x2 x3 x4 x5 x6 x7 x8 x9 h0 h2 h3 h4 h5 h6 h7 h8 h9

/-- Every entry of the reference's second edge-stage activation is a real number when the float arguments are. -/
theorem z2_real
    (x0 : (⟨S100000x3, .f32⟩ : BufTy).Contents (Elt Ideal)) (x1 : (⟨S2x1600000, .i32⟩ : BufTy).Contents (Elt Ideal))
    (x2 : (⟨S3x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x8 : (⟨S128x64, .f32⟩ : BufTy).Contents (Elt Ideal)) (x9 x10 x11 : (⟨S64, .f32⟩ : BufTy).Contents (Elt Ideal))
    (x12 : (⟨S64x32, .f32⟩ : BufTy).Contents (Elt Ideal)) (x13 : (⟨S32, .f32⟩ : BufTy).Contents (Elt Ideal))
    (h0 : ∀ i, IsReal (x0 i)) (h2 : ∀ i, IsReal (x2 i)) (h3 : ∀ i, IsReal (x3 i)) (h4 : ∀ i, IsReal (x4 i))
    (h5 : ∀ i, IsReal (x5 i)) (h6 : ∀ i, IsReal (x6 i)) (h7 : ∀ i, IsReal (x7 i)) (h8 : ∀ i, IsReal (x8 i))
    (h9 : ∀ i, IsReal (x9 i)) (h10 : ∀ i, IsReal (x10 i)) (h11 : ∀ i, IsReal (x11 i)) (h12 : ∀ i, IsReal (x12 i))
    (h13 : ∀ i, IsReal (x13 i)) :
    ∀ i, IsReal (ReadP.val_main_v182 (F := Ideal) x0 x1 x2 x3 x4 x5 x6 x7 x8 x9 x10 x11 x12 x13 i) :=
  v182_real x0 x1 x2 x3 x4 x5 x6 x7 x8 x9 x10 x11 x12 x13 h0 h2 h3 h4 h5 h6 h7 h8 h9 h10 h11 h12 h13

end Cert.ReferenceIdeal.RefFinite
-- ==== Proof.KChainEdge.lean ====
/-
  The kernel's edge MLP, boundary by boundary, is the reference's.  Stage 1 (the split weight matrix against the
  concatenated features) needs no finiteness; the batch statistics do: the kernel has E[z²] − (E z)² from per-block sums,
  the reference the mean of (z − E z)², and the two agree because every z is a real number when the float inputs are.
  The BatchNorm-apply, matmul, bias (and relu) of stages 2 and 3 are then the reference's operations on equal operands.
-/
import proofs.«123034_j51127290692283_2_alg».proof.Proof.KChainGcn
import proofs.«123034_j51127290692283_2_alg».proof.Proof.Stage1Bridge
import proofs.«123034_j51127290692283_2_alg».proof.Proof.Stage2Bridge
import proofs.«123034_j51127290692283_2_alg».proof.Proof.Stage3Bridge
import proofs.«123034_j51127290692283_2_alg».proof.Proof.RefFinite
import proofs.«123034_j51127290692283_2_alg».proof.Proof.KStats

set_option maxRecDepth 16384

noncomputable section

namespace Cert.KernelIdeal.Bridge

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

/-- The first 64 rows of a [128, 64] matrix. -/
theorem slice_lo (w : (⟨S128x64, .f32⟩ : BufTy).Contents (Elt Ideal)) (k j : Fin 64) :
    extractStridedSlice S64x64 ![0, 0] w slices_S128x64_S64x64_0_0 (ix2 k j) = w (ix2 (⟨k.val, by have := k.isLt; omega⟩ : Fin 128) j) :=
  extractStridedSlice_apply ![0, 0] w slices_S128x64_S64x64_0_0 (ix2 k j) (ix2 (⟨k.val, by have := k.isLt; omega⟩ : Fin 128) j) (fun a => match a with
    | ⟨0, _⟩ => by show k.val = 0 + k.val; omega
    | ⟨1, _⟩ => by show j.val = 0 + j.val; omega)

/-- Its last 64 rows. -/
theorem slice_hi (w : (⟨S128x64, .f32⟩ : BufTy).Contents (Elt Ideal)) (k j : Fin 64) :
    extractStridedSlice S64x64 ![64, 0] w slices_S128x64_S64x64_64_0 (ix2 k j) = w (ix2 (⟨64 + k.val, by have := k.isLt; omega⟩ : Fin 128) j) :=
  extractStridedSlice_apply ![64, 0] w slices_S128x64_S64x64_64_0 (ix2 k j) (ix2 (⟨64 + k.val, by have := k.isLt; omega⟩ : Fin 128) j) (fun a => match a with
    | ⟨0, _⟩ => by show 64 + k.val = 64 + k.val; omega
    | ⟨1, _⟩ => by show j.val = 0 + j.val; omega)

theorem w11_v101 : W11 m ρ c (Proc.devRef .tc main_v101) = extractStridedSlice S64x64 ![0, 0] (m ((c.tc : Thread nD τ).loc main_arg8)) slices_S128x64_S64x64_0_0 := by
  have h0 := w10_arg8 m ρ c
  show StableHlo.after hostOps3 (W10 m ρ c) (Proc.devRef .tc main_v101) = _
  generalize W10 m ρ c = X at h0 ⊢
  after_results_simp
  simp only [h0]
theorem w11_v102 : W11 m ρ c (Proc.devRef .tc main_v102) = extractStridedSlice S64x64 ![64, 0] (m ((c.tc : Thread nD τ).loc main_arg8)) slices_S128x64_S64x64_64_0 := by
  have h0 := w10_arg8 m ρ c
  show StableHlo.after hostOps3 (W10 m ρ c) (Proc.devRef .tc main_v102) = _
  generalize W10 m ρ c = X at h0 ⊢
  after_results_simp
  simp only [h0]
theorem w11_v103 : W11 m ρ c (Proc.devRef .tc main_v103) = shapeCast S1x64 (m ((c.tc : Thread nD τ).loc main_arg9)) shapeCasts_S64_S1x64 := by
  have h0 := w10_arg9 m ρ c
  show StableHlo.after hostOps3 (W10 m ρ c) (Proc.devRef .tc main_v103) = _
  generalize W10 m ρ c = X at h0 ⊢
  after_results_simp
  simp only [h0]
  rfl

/-! ## Stage 1's entry arrays -/

theorem hs1 : Cert.KernelIdeal.Region3.hsrc (V11 m ρ) c = Cert.ReferenceIdeal.ReadP.val_main_v139 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := w11_v93 m ρ c
theorem hd1 : Cert.KernelIdeal.Region3.hdst (V11 m ρ) c = Cert.ReferenceIdeal.ReadP.val_main_v146 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := w11_v100 m ρ c
theorem hwa1 (k j : Fin 64) : Cert.KernelIdeal.Region3.wA (V11 m ρ) c (ix2 k j) = (m ((c.tc : Thread nD τ).loc main_arg8)) (ix2 (⟨k.val, by have := k.isLt; omega⟩ : Fin 128) j) :=
  (congrFun (w11_v101 m ρ c) (ix2 k j)).trans (slice_lo _ k j)
theorem hwb1 (k j : Fin 64) : Cert.KernelIdeal.Region3.wB (V11 m ρ) c (ix2 k j) = (m ((c.tc : Thread nD τ).loc main_arg8)) (ix2 (⟨64 + k.val, by have := k.isLt; omega⟩ : Fin 128) j) :=
  (congrFun (w11_v102 m ρ c) (ix2 k j)).trans (slice_hi _ k j)
theorem hb1 (z : Fin 1) (j : Fin 64) : Cert.KernelIdeal.Region3.bias (V11 m ρ) c (ix2 z j) = (m ((c.tc : Thread nD τ).loc main_arg9)) (ix1 j) :=
  (congrFun (w11_v103 m ρ c) (ix2 z j)).trans (Cert.KernelIdeal.KStats.rowCast64 _ z j)

/-- Stage 1's output z1 is the reference's. -/
theorem w12_z1 : W12 m ρ c (Proc.devRef .tc main_v104_0) = Cert.ReferenceIdeal.ReadP.val_main_v152 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (W12_arr m ρ c 5).trans (Cert.KernelIdeal.Stage1Bridge.z1_eq (V11 m ρ) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) c (hs1 m ρ c) (hd1 m ρ c) (hwa1 m ρ c) (hwb1 m ρ c) (hb1 m ρ c))

theorem w12_sum : W12 m ρ c (Proc.devRef .tc main_v104_1) = (dat3 (F := Ideal) (V11 m ρ) c).arrAt 6 cfg3.N := W12_arr m ρ c 6
theorem w12_sq : W12 m ρ c (Proc.devRef .tc main_v104_2) = (dat3 (F := Ideal) (V11 m ρ) c).arrAt 7 cfg3.N := W12_arr m ρ c 7

/-! ## The statistics after stage 1 -/

theorem w13_z1 : W13 m ρ c (Proc.devRef .tc main_v104_0) = Cert.ReferenceIdeal.ReadP.val_main_v152 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have h0 := w12_z1 m ρ c
  show StableHlo.after hostOps4 (W12 m ρ c) (Proc.devRef .tc main_v104_0) = _
  generalize W12 m ρ c = X at h0 ⊢
  after_results_simp
  exact h0

theorem w13_v117 : W13 m ρ c (Proc.devRef .tc main_v117) = shapeCast S1x64 (Cert.KernelIdeal.Stage1Bridge.kmean64 (W12 m ρ c (Proc.devRef .tc main_v104_1))) shapeCasts_S64_S1x64 := by
  show StableHlo.after hostOps4 (W12 m ρ c) (Proc.devRef .tc main_v117) = _
  generalize W12 m ρ c = X
  after_results_simp
  rfl

theorem w13_v118 : W13 m ρ c (Proc.devRef .tc main_v118) = shapeCast S1x64 (subf (F := Ideal) (φ := .f32) (Cert.KernelIdeal.Stage1Bridge.kmean64 (W12 m ρ c (Proc.devRef .tc main_v104_2))) (mulf (F := Ideal) (φ := .f32) (Cert.KernelIdeal.Stage1Bridge.kmean64 (W12 m ρ c (Proc.devRef .tc main_v104_1))) (Cert.KernelIdeal.Stage1Bridge.kmean64 (W12 m ρ c (Proc.devRef .tc main_v104_1))))) shapeCasts_S64_S1x64 := by
  show StableHlo.after hostOps4 (W12 m ρ c) (Proc.devRef .tc main_v118) = _
  generalize W12 m ρ c = X
  after_results_simp
  rfl

theorem w13_v119 : W13 m ρ c (Proc.devRef .tc main_v119) = shapeCast S1x64 (m ((c.tc : Thread nD τ).loc main_arg10)) shapeCasts_S64_S1x64 := by
  have h0 := w12_arg10 m ρ c
  show StableHlo.after hostOps4 (W12 m ρ c) (Proc.devRef .tc main_v119) = _
  generalize W12 m ρ c = X at h0 ⊢
  after_results_simp
  simp only [h0]
  rfl
theorem w13_v120 : W13 m ρ c (Proc.devRef .tc main_v120) = shapeCast S1x64 (m ((c.tc : Thread nD τ).loc main_arg11)) shapeCasts_S64_S1x64 := by
  have h0 := w12_arg11 m ρ c
  show StableHlo.after hostOps4 (W12 m ρ c) (Proc.devRef .tc main_v120) = _
  generalize W12 m ρ c = X at h0 ⊢
  after_results_simp
  simp only [h0]
  rfl
theorem w13_v121 : W13 m ρ c (Proc.devRef .tc main_v121) = shapeCast S1x32 (m ((c.tc : Thread nD τ).loc main_arg13)) shapeCasts_S32_S1x32 := by
  have h0 := w12_arg13 m ρ c
  show StableHlo.after hostOps4 (W12 m ρ c) (Proc.devRef .tc main_v121) = _
  generalize W12 m ρ c = X at h0 ⊢
  after_results_simp
  simp only [h0]
  rfl

/-! ## Stage 2's entry arrays -/

theorem hx2 : (V13 m ρ c (Pipeline.arrRef spec4 0) : S1600000x64.Idx → EReal) = Cert.ReferenceIdeal.ReadP.val_main_v152 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := w13_z1 m ρ c
theorem hmu2 (z : Fin 1) (k : Fin 64) : (V13 m ρ c (Pipeline.arrRef spec4 1) : S1x64.Idx → EReal) (ix2 z k) = Cert.ReferenceIdeal.ReadP.val_main_v155 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix1 k) := by
  refine (congrFun (w13_v117 m ρ c) (ix2 z k)).trans ((Cert.KernelIdeal.KStats.rowCast64 _ z k).trans ?_)
  rw [w12_sum m ρ c]
  exact Cert.KernelIdeal.Stage1Bridge.mu1_eq (V11 m ρ) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) c (hs1 m ρ c) (hd1 m ρ c) (hwa1 m ρ c) (hwb1 m ρ c) (hb1 m ρ c) k
theorem hvar2 (f0 : ∀ i, Cert.Lib.IsReal ((m ((c.tc : Thread nD τ).loc main_arg0)) i)) (f2 : ∀ i, Cert.Lib.IsReal ((m ((c.tc : Thread nD τ).loc main_arg2)) i)) (f3 : ∀ i, Cert.Lib.IsReal ((m ((c.tc : Thread nD τ).loc main_arg3)) i)) (f4 : ∀ i, Cert.Lib.IsReal ((m ((c.tc : Thread nD τ).loc main_arg4)) i)) (f5 : ∀ i, Cert.Lib.IsReal ((m ((c.tc : Thread nD τ).loc main_arg5)) i)) (f6 : ∀ i, Cert.Lib.IsReal ((m ((c.tc : Thread nD τ).loc main_arg6)) i)) (f7 : ∀ i, Cert.Lib.IsReal ((m ((c.tc : Thread nD τ).loc main_arg7)) i)) (f8 : ∀ i, Cert.Lib.IsReal ((m ((c.tc : Thread nD τ).loc main_arg8)) i)) (f9 : ∀ i, Cert.Lib.IsReal ((m ((c.tc : Thread nD τ).loc main_arg9)) i)) (z : Fin 1) (k : Fin 64) : (V13 m ρ c (Pipeline.arrRef spec4 2) : S1x64.Idx → EReal) (ix2 z k) = Cert.ReferenceIdeal.ReadP.val_main_v162 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix1 k) := by
  refine (congrFun (w13_v118 m ρ c) (ix2 z k)).trans ((Cert.KernelIdeal.KStats.rowCast64 _ z k).trans ?_)
  rw [w12_sum m ρ c, w12_sq m ρ c]
  exact Cert.KernelIdeal.Stage1Bridge.var1_eq (V11 m ρ) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) c (hs1 m ρ c) (hd1 m ρ c) (hwa1 m ρ c) (hwb1 m ρ c) (hb1 m ρ c)
    (Cert.ReferenceIdeal.RefFinite.z1_real (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) f0 f2 f3 f4 f5 f6 f7 f8 f9) k
theorem hg2 (z : Fin 1) (k : Fin 64) : (V13 m ρ c (Pipeline.arrRef spec4 3) : S1x64.Idx → EReal) (ix2 z k) = (m ((c.tc : Thread nD τ).loc main_arg10)) (ix1 k) :=
  (congrFun (w13_v119 m ρ c) (ix2 z k)).trans (Cert.KernelIdeal.KStats.rowCast64 _ z k)
theorem hbe2 (z : Fin 1) (k : Fin 64) : (V13 m ρ c (Pipeline.arrRef spec4 4) : S1x64.Idx → EReal) (ix2 z k) = (m ((c.tc : Thread nD τ).loc main_arg11)) (ix1 k) :=
  (congrFun (w13_v120 m ρ c) (ix2 z k)).trans (Cert.KernelIdeal.KStats.rowCast64 _ z k)
theorem hw2 : (V13 m ρ c (Pipeline.arrRef spec4 5) : S64x32.Idx → EReal) = (m ((c.tc : Thread nD τ).loc main_arg12)) := w13_arg12 m ρ c
theorem hb2 (z : Fin 1) (j : Fin 32) : (V13 m ρ c (Pipeline.arrRef spec4 6) : S1x32.Idx → EReal) (ix2 z j) = (m ((c.tc : Thread nD τ).loc main_arg13)) (ix1 j) :=
  (congrFun (w13_v121 m ρ c) (ix2 z j)).trans (Cert.KernelIdeal.KStats.rowCast32 _ z j)

/-- Stage 2's output z2 is the reference's. -/
theorem w14_z2 (f0 : ∀ i, Cert.Lib.IsReal ((m ((c.tc : Thread nD τ).loc main_arg0)) i)) (f2 : ∀ i, Cert.Lib.IsReal ((m ((c.tc : Thread nD τ).loc main_arg2)) i)) (f3 : ∀ i, Cert.Lib.IsReal ((m ((c.tc : Thread nD τ).loc main_arg3)) i)) (f4 : ∀ i, Cert.Lib.IsReal ((m ((c.tc : Thread nD τ).loc main_arg4)) i)) (f5 : ∀ i, Cert.Lib.IsReal ((m ((c.tc : Thread nD τ).loc main_arg5)) i)) (f6 : ∀ i, Cert.Lib.IsReal ((m ((c.tc : Thread nD τ).loc main_arg6)) i)) (f7 : ∀ i, Cert.Lib.IsReal ((m ((c.tc : Thread nD τ).loc main_arg7)) i)) (f8 : ∀ i, Cert.Lib.IsReal ((m ((c.tc : Thread nD τ).loc main_arg8)) i)) (f9 : ∀ i, Cert.Lib.IsReal ((m ((c.tc : Thread nD τ).loc main_arg9)) i)) : W14 m ρ c (Proc.devRef .tc main_v122_0) = Cert.ReferenceIdeal.ReadP.val_main_v182 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (W14_arr m ρ c 7).trans (Cert.KernelIdeal.Stage2Bridge.z2_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (V13 m ρ) c (hx2 m ρ c) (hmu2 m ρ c) (hvar2 m ρ c f0 f2 f3 f4 f5 f6 f7 f8 f9) (hg2 m ρ c) (hbe2 m ρ c) (hw2 m ρ c) (hb2 m ρ c))

theorem w14_sum : W14 m ρ c (Proc.devRef .tc main_v122_1) = (dat4 (F := Ideal) (V13 m ρ) c).arrAt 8 cfg4.N := W14_arr m ρ c 8
theorem w14_sq : W14 m ρ c (Proc.devRef .tc main_v122_2) = (dat4 (F := Ideal) (V13 m ρ) c).arrAt 9 cfg4.N := W14_arr m ρ c 9

/-! ## The statistics after stage 2 -/

/-- One column's mean from the per-block partial sums, as the kernel's host code spells it (width 32). -/
abbrev kmean32 (s : (⟨S200x8x32, .f32⟩ : BufTy).Contents (Elt Ideal)) : (⟨S32, .f32⟩ : BufTy).Contents (Elt Ideal) :=
  Host.divf (F := Ideal) (Host.reduceAdd (F := Ideal) (shapeCast S200x32 (extractStridedSlice S200x1x32 ![0, 0, 0] s slices_S200x8x32_S200x1x32_0_0_0) shapeCasts_S200x1x32_S200x32) (constant (F := Ideal) S_ .f32 0x00000000#32) reducesTo_S200x32_S32_d0 h_S_) (broadcastInDim S32 ![] bcast_S_S32 (constant (F := Ideal) S_ .f32 0x49C35000#32))

theorem w15_z2 (f0 : ∀ i, Cert.Lib.IsReal ((m ((c.tc : Thread nD τ).loc main_arg0)) i)) (f2 : ∀ i, Cert.Lib.IsReal ((m ((c.tc : Thread nD τ).loc main_arg2)) i)) (f3 : ∀ i, Cert.Lib.IsReal ((m ((c.tc : Thread nD τ).loc main_arg3)) i)) (f4 : ∀ i, Cert.Lib.IsReal ((m ((c.tc : Thread nD τ).loc main_arg4)) i)) (f5 : ∀ i, Cert.Lib.IsReal ((m ((c.tc : Thread nD τ).loc main_arg5)) i)) (f6 : ∀ i, Cert.Lib.IsReal ((m ((c.tc : Thread nD τ).loc main_arg6)) i)) (f7 : ∀ i, Cert.Lib.IsReal ((m ((c.tc : Thread nD τ).loc main_arg7)) i)) (f8 : ∀ i, Cert.Lib.IsReal ((m ((c.tc : Thread nD τ).loc main_arg8)) i)) (f9 : ∀ i, Cert.Lib.IsReal ((m ((c.tc : Thread nD τ).loc main_arg9)) i)) : W15 m ρ c (Proc.devRef .tc main_v122_0) = Cert.ReferenceIdeal.ReadP.val_main_v182 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  have h0 := w14_z2 m ρ c f0 f2 f3 f4 f5 f6 f7 f8 f9
  show StableHlo.after hostOps5 (W14 m ρ c) (Proc.devRef .tc main_v122_0) = _
  generalize W14 m ρ c = X at h0 ⊢
  after_results_simp
  exact h0

theorem w15_v135 : W15 m ρ c (Proc.devRef .tc main_v135) = shapeCast S1x32 (kmean32 (W14 m ρ c (Proc.devRef .tc main_v122_1))) shapeCasts_S32_S1x32 := by
  show StableHlo.after hostOps5 (W14 m ρ c) (Proc.devRef .tc main_v135) = _
  generalize W14 m ρ c = X
  after_results_simp
  rfl

theorem w15_v136 : W15 m ρ c (Proc.devRef .tc main_v136) = shapeCast S1x32 (subf (F := Ideal) (φ := .f32) (kmean32 (W14 m ρ c (Proc.devRef .tc main_v122_2))) (mulf (F := Ideal) (φ := .f32) (kmean32 (W14 m ρ c (Proc.devRef .tc main_v122_1))) (kmean32 (W14 m ρ c (Proc.devRef .tc main_v122_1))))) shapeCasts_S32_S1x32 := by
  show StableHlo.after hostOps5 (W14 m ρ c) (Proc.devRef .tc main_v136) = _
  generalize W14 m ρ c = X
  after_results_simp
  rfl

theorem w15_v137 : W15 m ρ c (Proc.devRef .tc main_v137) = shapeCast S1x32 (m ((c.tc : Thread nD τ).loc main_arg14)) shapeCasts_S32_S1x32 := by
  have h0 := w14_arg14 m ρ c
  show StableHlo.after hostOps5 (W14 m ρ c) (Proc.devRef .tc main_v137) = _
  generalize W14 m ρ c = X at h0 ⊢
  after_results_simp
  simp only [h0]
  rfl
theorem w15_v138 : W15 m ρ c (Proc.devRef .tc main_v138) = shapeCast S1x32 (m ((c.tc : Thread nD τ).loc main_arg15)) shapeCasts_S32_S1x32 := by
  have h0 := w14_arg15 m ρ c
  show StableHlo.after hostOps5 (W14 m ρ c) (Proc.devRef .tc main_v138) = _
  generalize W14 m ρ c = X at h0 ⊢
  after_results_simp
  simp only [h0]
  rfl
theorem w15_v139 : W15 m ρ c (Proc.devRef .tc main_v139) = shapeCast S1x2 (m ((c.tc : Thread nD τ).loc main_arg17)) shapeCasts_S2_S1x2 := by
  have h0 := w14_arg17 m ρ c
  show StableHlo.after hostOps5 (W14 m ρ c) (Proc.devRef .tc main_v139) = _
  generalize W14 m ρ c = X at h0 ⊢
  after_results_simp
  simp only [h0]
  rfl

/-! ## Stage 3's entry arrays, and the result -/

theorem hx3 (f0 : ∀ i, Cert.Lib.IsReal ((m ((c.tc : Thread nD τ).loc main_arg0)) i)) (f2 : ∀ i, Cert.Lib.IsReal ((m ((c.tc : Thread nD τ).loc main_arg2)) i)) (f3 : ∀ i, Cert.Lib.IsReal ((m ((c.tc : Thread nD τ).loc main_arg3)) i)) (f4 : ∀ i, Cert.Lib.IsReal ((m ((c.tc : Thread nD τ).loc main_arg4)) i)) (f5 : ∀ i, Cert.Lib.IsReal ((m ((c.tc : Thread nD τ).loc main_arg5)) i)) (f6 : ∀ i, Cert.Lib.IsReal ((m ((c.tc : Thread nD τ).loc main_arg6)) i)) (f7 : ∀ i, Cert.Lib.IsReal ((m ((c.tc : Thread nD τ).loc main_arg7)) i)) (f8 : ∀ i, Cert.Lib.IsReal ((m ((c.tc : Thread nD τ).loc main_arg8)) i)) (f9 : ∀ i, Cert.Lib.IsReal ((m ((c.tc : Thread nD τ).loc main_arg9)) i)) : (V15 m ρ c (Pipeline.arrRef spec5 0) : S1600000x32.Idx → EReal) = Cert.ReferenceIdeal.ReadP.val_main_v182 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := w15_z2 m ρ c f0 f2 f3 f4 f5 f6 f7 f8 f9
theorem hmu3 (f0 : ∀ i, Cert.Lib.IsReal ((m ((c.tc : Thread nD τ).loc main_arg0)) i)) (f2 : ∀ i, Cert.Lib.IsReal ((m ((c.tc : Thread nD τ).loc main_arg2)) i)) (f3 : ∀ i, Cert.Lib.IsReal ((m ((c.tc : Thread nD τ).loc main_arg3)) i)) (f4 : ∀ i, Cert.Lib.IsReal ((m ((c.tc : Thread nD τ).loc main_arg4)) i)) (f5 : ∀ i, Cert.Lib.IsReal ((m ((c.tc : Thread nD τ).loc main_arg5)) i)) (f6 : ∀ i, Cert.Lib.IsReal ((m ((c.tc : Thread nD τ).loc main_arg6)) i)) (f7 : ∀ i, Cert.Lib.IsReal ((m ((c.tc : Thread nD τ).loc main_arg7)) i)) (f8 : ∀ i, Cert.Lib.IsReal ((m ((c.tc : Thread nD τ).loc main_arg8)) i)) (f9 : ∀ i, Cert.Lib.IsReal ((m ((c.tc : Thread nD τ).loc main_arg9)) i)) (z : Fin 1) (k : Fin 32) : (V15 m ρ c (Pipeline.arrRef spec5 1) : S1x32.Idx → EReal) (ix2 z k) = Cert.ReferenceIdeal.ReadP.val_main_v185 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (ix1 k) := by
  refine (congrFun (w15_v135 m ρ c) (ix2 z k)).trans ((Cert.KernelIdeal.KStats.rowCast32 _ z k).trans ?_)
  rw [w14_sum m ρ c]
  exact Cert.KernelIdeal.Stage2Bridge.mu2_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (V13 m ρ) c (hx2 m ρ c) (hmu2 m ρ c) (hvar2 m ρ c f0 f2 f3 f4 f5 f6 f7 f8 f9) (hg2 m ρ c) (hbe2 m ρ c) (hw2 m ρ c) (hb2 m ρ c) k
theorem hvar3 (f0 : ∀ i, Cert.Lib.IsReal ((m ((c.tc : Thread nD τ).loc main_arg0)) i)) (f2 : ∀ i, Cert.Lib.IsReal ((m ((c.tc : Thread nD τ).loc main_arg2)) i)) (f3 : ∀ i, Cert.Lib.IsReal ((m ((c.tc : Thread nD τ).loc main_arg3)) i)) (f4 : ∀ i, Cert.Lib.IsReal ((m ((c.tc : Thread nD τ).loc main_arg4)) i)) (f5 : ∀ i, Cert.Lib.IsReal ((m ((c.tc : Thread nD τ).loc main_arg5)) i)) (f6 : ∀ i, Cert.Lib.IsReal ((m ((c.tc : Thread nD τ).loc main_arg6)) i)) (f7 : ∀ i, Cert.Lib.IsReal ((m ((c.tc : Thread nD τ).loc main_arg7)) i)) (f8 : ∀ i, Cert.Lib.IsReal ((m ((c.tc : Thread nD τ).loc main_arg8)) i)) (f9 : ∀ i, Cert.Lib.IsReal ((m ((c.tc : Thread nD τ).loc main_arg9)) i)) (f10 : ∀ i, Cert.Lib.IsReal ((m ((c.tc : Thread nD τ).loc main_arg10)) i)) (f11 : ∀ i, Cert.Lib.IsReal ((m ((c.tc : Thread nD τ).loc main_arg11)) i)) (f12 : ∀ i, Cert.Lib.IsReal ((m ((c.tc : Thread nD τ).loc main_arg12)) i)) (f13 : ∀ i, Cert.Lib.IsReal ((m ((c.tc : Thread nD τ).loc main_arg13)) i)) (z : Fin 1) (k : Fin 32) : (V15 m ρ c (Pipeline.arrRef spec5 2) : S1x32.Idx → EReal) (ix2 z k) = Cert.ReferenceIdeal.ReadP.val_main_v192 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (ix1 k) := by
  refine (congrFun (w15_v136 m ρ c) (ix2 z k)).trans ((Cert.KernelIdeal.KStats.rowCast32 _ z k).trans ?_)
  rw [w14_sum m ρ c, w14_sq m ρ c]
  exact Cert.KernelIdeal.Stage2Bridge.var2_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (V13 m ρ) c (hx2 m ρ c) (hmu2 m ρ c) (hvar2 m ρ c f0 f2 f3 f4 f5 f6 f7 f8 f9) (hg2 m ρ c) (hbe2 m ρ c) (hw2 m ρ c) (hb2 m ρ c)
    (Cert.ReferenceIdeal.RefFinite.z2_real (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) f0 f2 f3 f4 f5 f6 f7 f8 f9 f10 f11 f12 f13) k
theorem hg3 (z : Fin 1) (k : Fin 32) : (V15 m ρ c (Pipeline.arrRef spec5 3) : S1x32.Idx → EReal) (ix2 z k) = (m ((c.tc : Thread nD τ).loc main_arg14)) (ix1 k) :=
  (congrFun (w15_v137 m ρ c) (ix2 z k)).trans (Cert.KernelIdeal.KStats.rowCast32 _ z k)
theorem hbe3 (z : Fin 1) (k : Fin 32) : (V15 m ρ c (Pipeline.arrRef spec5 4) : S1x32.Idx → EReal) (ix2 z k) = (m ((c.tc : Thread nD τ).loc main_arg15)) (ix1 k) :=
  (congrFun (w15_v138 m ρ c) (ix2 z k)).trans (Cert.KernelIdeal.KStats.rowCast32 _ z k)
theorem hw3 : (V15 m ρ c (Pipeline.arrRef spec5 5) : S32x2.Idx → EReal) = (m ((c.tc : Thread nD τ).loc main_arg16)) := w15_arg16 m ρ c
theorem hb3 (z : Fin 1) (j : Fin 2) : (V15 m ρ c (Pipeline.arrRef spec5 6) : S1x2.Idx → EReal) (ix2 z j) = (m ((c.tc : Thread nD τ).loc main_arg17)) (ix1 j) :=
  (congrFun (w15_v139 m ρ c) (ix2 z j)).trans (Cert.KernelIdeal.KStats.rowCast2 _ z j)

/-- The kernel's result buffer, at the end of the fold, holds the reference's result as a function of the arguments — when
    every float argument entry is a real number. -/
theorem w16_out (f0 : ∀ i, Cert.Lib.IsReal ((m ((c.tc : Thread nD τ).loc main_arg0)) i)) (f2 : ∀ i, Cert.Lib.IsReal ((m ((c.tc : Thread nD τ).loc main_arg2)) i)) (f3 : ∀ i, Cert.Lib.IsReal ((m ((c.tc : Thread nD τ).loc main_arg3)) i)) (f4 : ∀ i, Cert.Lib.IsReal ((m ((c.tc : Thread nD τ).loc main_arg4)) i)) (f5 : ∀ i, Cert.Lib.IsReal ((m ((c.tc : Thread nD τ).loc main_arg5)) i)) (f6 : ∀ i, Cert.Lib.IsReal ((m ((c.tc : Thread nD τ).loc main_arg6)) i)) (f7 : ∀ i, Cert.Lib.IsReal ((m ((c.tc : Thread nD τ).loc main_arg7)) i)) (f8 : ∀ i, Cert.Lib.IsReal ((m ((c.tc : Thread nD τ).loc main_arg8)) i)) (f9 : ∀ i, Cert.Lib.IsReal ((m ((c.tc : Thread nD τ).loc main_arg9)) i)) (f10 : ∀ i, Cert.Lib.IsReal ((m ((c.tc : Thread nD τ).loc main_arg10)) i)) (f11 : ∀ i, Cert.Lib.IsReal ((m ((c.tc : Thread nD τ).loc main_arg11)) i)) (f12 : ∀ i, Cert.Lib.IsReal ((m ((c.tc : Thread nD τ).loc main_arg12)) i)) (f13 : ∀ i, Cert.Lib.IsReal ((m ((c.tc : Thread nD τ).loc main_arg13)) i)) : W16 m ρ c (Proc.devRef .tc main_v140) = Cert.ReferenceIdeal.ReadP.val_main_v211 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) :=
  (W16_arr m ρ c 7).trans (Cert.KernelIdeal.Stage3Bridge.out_eq (V15 m ρ) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) c (hx3 m ρ c f0 f2 f3 f4 f5 f6 f7 f8 f9) (hmu3 m ρ c f0 f2 f3 f4 f5 f6 f7 f8 f9) (hvar3 m ρ c f0 f2 f3 f4 f5 f6 f7 f8 f9 f10 f11 f12 f13) (hg3 m ρ c) (hbe3 m ρ c) (hw3 m ρ c) (hb3 m ρ c))

end Cert.KernelIdeal.Bridge

end
-- ==== Proof.PreFinite.lean ====
/- From the precondition to real-valued inputs. The precondition says, for each of the seventeen float argument
   arrays a, that the conjunction over all entries of "|a i| < +∞" is true: the comparison array is reduced by "and"
   from the initial value true, and the seventeen results are joined by "and". A conjunction that is true has only
   true members, so every entry of every float argument satisfies |x| < +∞; an extended real whose absolute value
   max x (−x) lies below +∞ is neither infinity, that is, a real number. -/
import proofs.«123034_j51127290692283_2_alg».proof.Defs
import proofs.«123034_j51127290692283_2_alg».proof.Proof.Gen.Pre_finite_inputs
import proofs.«123034_j51127290692283_2_alg».proof.Proof.LibStats
import Idealize.ShloMosaic.Lib.ReduceAll
import Idealize.ShloMosaic.Lib.IdealHost

noncomputable section

namespace Cert.PreFinite

open Idealize.ShloMosaic Idealize.ShloMosaic.ValueIdx Idealize.SL.Sem Cert.Lib

/-- The shape with no axes has one index. -/
instance : Subsingleton (⟨0, ![]⟩ : Shape).Idx := ⟨fun a b => funext fun d => d.elim0⟩

/-- The single-precision pattern with all exponent bits set and no fraction bit is the upper infinity. -/
theorem ofBits_inf : Ideal.ofBits .f32 0x7F800000#32 = ⊤ := by simp [Ideal.ofBits, Ideal.ieee]

/-- An extended real whose absolute value max x (−x) compares below +∞ is a real number. -/
theorem isReal_of_abs_lt_inf (x : Ideal .f32)
    (h : FloatOps.cmpf .olt (FloatOps.hostAbsf x) (FloatOps.ofBits (F := Ideal) .f32 0x7F800000#32) = 1#1) :
    IsReal x := by
  have h' : Ideal.cmp .olt (max (x : EReal) (-(x : EReal))) (Ideal.ofBits .f32 0x7F800000#32) = 1#1 := h
  rw [ofBits_inf] at h'
  unfold Ideal.cmp at h'
  induction x using EReal.rec with
  | bot => simp at h'
  | coe r => exact ⟨r, rfl⟩
  | top => simp at h'

/-- The elementwise "and" of two arrays of truth values, at an index. -/
theorem andi_apply {s : Shape} {w : ℕ} (x y : IVec s w) (i : s.Idx) : andi x y i = IntOp.andi (x i) (y i) := rfl

/-- If the "and" over all entries of "|a i| < +∞" is true, every entry of a is a real number (any shape). -/
theorem all_isReal {S : Shape} {axes : List (Fin S.rank)}
    (hb : (⟨0, ![]⟩ : Shape).BroadcastsInDim S (![] : Fin 0 → Fin S.rank))
    (hr : S.ReducesTo axes ⟨0, ![]⟩) (h0 : 0 < (⟨0, ![]⟩ : Shape).numel) (a : FVec Ideal S .f32)
    (h : Host.reduce IntOp.andi
          (cmpf .olt (Host.absf a) (broadcastInDim S ![] hb (constant (F := Ideal) ⟨0, ![]⟩ .f32 0x7F800000#32)))
          (constantI ⟨0, ![]⟩ 1 1#1) hr h0 ix0 = 1#1) (i : S.Idx) : IsReal (a i) := by
  have e := Host.reduce_andi_all _ _ hr h0 ix0 h i
  have e2 : FloatOps.cmpf .olt (FloatOps.hostAbsf (a i))
      (broadcastInDim S ![] hb (constant (F := Ideal) ⟨0, ![]⟩ .f32 0x7F800000#32) i) = 1#1 := e
  rw [broadcastInDim_scalar_apply] at e2
  exact isReal_of_abs_lt_inf (a i) e2

open Cert.Pre_finite_inputs Cert.Pre_finite_inputs.Facts in
/-- Under the precondition every entry of every float argument array is a real number. -/
theorem args_isReal (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal ((m ((c.tc : Thread Cert.KernelIdeal.nD Cert.KernelIdeal.τ).loc Cert.KernelIdeal.main_arg0) : FVec Ideal Cert.KernelIdeal.S100000x3 .f32) i))
      ∧ (∀ i, IsReal ((m ((c.tc : Thread Cert.KernelIdeal.nD Cert.KernelIdeal.τ).loc Cert.KernelIdeal.main_arg2) : FVec Ideal Cert.KernelIdeal.S3x64 .f32) i))
      ∧ (∀ i, IsReal ((m ((c.tc : Thread Cert.KernelIdeal.nD Cert.KernelIdeal.τ).loc Cert.KernelIdeal.main_arg3) : FVec Ideal Cert.KernelIdeal.S64 .f32) i))
      ∧ (∀ i, IsReal ((m ((c.tc : Thread Cert.KernelIdeal.nD Cert.KernelIdeal.τ).loc Cert.KernelIdeal.main_arg4) : FVec Ideal Cert.KernelIdeal.S64x64 .f32) i))
      ∧ (∀ i, IsReal ((m ((c.tc : Thread Cert.KernelIdeal.nD Cert.KernelIdeal.τ).loc Cert.KernelIdeal.main_arg5) : FVec Ideal Cert.KernelIdeal.S64 .f32) i))
      ∧ (∀ i, IsReal ((m ((c.tc : Thread Cert.KernelIdeal.nD Cert.KernelIdeal.τ).loc Cert.KernelIdeal.main_arg6) : FVec Ideal Cert.KernelIdeal.S64x64 .f32) i))
      ∧ (∀ i, IsReal ((m ((c.tc : Thread Cert.KernelIdeal.nD Cert.KernelIdeal.τ).loc Cert.KernelIdeal.main_arg7) : FVec Ideal Cert.KernelIdeal.S64 .f32) i))
      ∧ (∀ i, IsReal ((m ((c.tc : Thread Cert.KernelIdeal.nD Cert.KernelIdeal.τ).loc Cert.KernelIdeal.main_arg8) : FVec Ideal Cert.KernelIdeal.S128x64 .f32) i))
      ∧ (∀ i, IsReal ((m ((c.tc : Thread Cert.KernelIdeal.nD Cert.KernelIdeal.τ).loc Cert.KernelIdeal.main_arg9) : FVec Ideal Cert.KernelIdeal.S64 .f32) i))
      ∧ (∀ i, IsReal ((m ((c.tc : Thread Cert.KernelIdeal.nD Cert.KernelIdeal.τ).loc Cert.KernelIdeal.main_arg10) : FVec Ideal Cert.KernelIdeal.S64 .f32) i))
      ∧ (∀ i, IsReal ((m ((c.tc : Thread Cert.KernelIdeal.nD Cert.KernelIdeal.τ).loc Cert.KernelIdeal.main_arg11) : FVec Ideal Cert.KernelIdeal.S64 .f32) i))
      ∧ (∀ i, IsReal ((m ((c.tc : Thread Cert.KernelIdeal.nD Cert.KernelIdeal.τ).loc Cert.KernelIdeal.main_arg12) : FVec Ideal Cert.KernelIdeal.S64x32 .f32) i))
      ∧ (∀ i, IsReal ((m ((c.tc : Thread Cert.KernelIdeal.nD Cert.KernelIdeal.τ).loc Cert.KernelIdeal.main_arg13) : FVec Ideal Cert.KernelIdeal.S32 .f32) i))
      ∧ (∀ i, IsReal ((m ((c.tc : Thread Cert.KernelIdeal.nD Cert.KernelIdeal.τ).loc Cert.KernelIdeal.main_arg14) : FVec Ideal Cert.KernelIdeal.S32 .f32) i))
      ∧ (∀ i, IsReal ((m ((c.tc : Thread Cert.KernelIdeal.nD Cert.KernelIdeal.τ).loc Cert.KernelIdeal.main_arg15) : FVec Ideal Cert.KernelIdeal.S32 .f32) i))
      ∧ (∀ i, IsReal ((m ((c.tc : Thread Cert.KernelIdeal.nD Cert.KernelIdeal.τ).loc Cert.KernelIdeal.main_arg16) : FVec Ideal Cert.KernelIdeal.S32x2 .f32) i))
      ∧ (∀ i, IsReal ((m ((c.tc : Thread Cert.KernelIdeal.nD Cert.KernelIdeal.τ).loc Cert.KernelIdeal.main_arg17) : FVec Ideal Cert.KernelIdeal.S2 .f32) i)) := by
  have h1 := congrFun (h c) ix0
  dsimp only [Cert.Pre_finite_inputs.fn, Cert.Pre_finite_inputs.fn_part1, Cert.Pre_finite_inputs.fn_part2,
    Cert.Pre_finite_inputs.fn_part3, Cert.Pre_finite_inputs.fn_part4] at h1
  simp only [andi_apply, IntOp.andi_eq_one, and_assoc] at h1
  obtain ⟨h0, h2, h3, h4, h5, h6, h7, h8, h9, h10, h11, h12, h13, h14, h15, h16, h17⟩ := h1
  exact ⟨all_isReal _ _ _ _ h0,
    all_isReal _ _ _ _ h2,
    all_isReal _ _ _ _ h3,
    all_isReal _ _ _ _ h4,
    all_isReal _ _ _ _ h5,
    all_isReal _ _ _ _ h6,
    all_isReal _ _ _ _ h7,
    all_isReal _ _ _ _ h8,
    all_isReal _ _ _ _ h9,
    all_isReal _ _ _ _ h10,
    all_isReal _ _ _ _ h11,
    all_isReal _ _ _ _ h12,
    all_isReal _ _ _ _ h13,
    all_isReal _ _ _ _ h14,
    all_isReal _ _ _ _ h15,
    all_isReal _ _ _ _ h16,
    all_isReal _ _ _ _ h17⟩

/-- Every entry of float argument 0 is a real number. -/
theorem arg0_isReal (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S100000x3.Idx) :
    IsReal ((m ((c.tc : Thread Cert.KernelIdeal.nD Cert.KernelIdeal.τ).loc Cert.KernelIdeal.main_arg0) : FVec Ideal Cert.KernelIdeal.S100000x3 .f32) i) :=
  (args_isReal m h c).1 i

/-- Every entry of float argument 2 is a real number. -/
theorem arg2_isReal (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S3x64.Idx) :
    IsReal ((m ((c.tc : Thread Cert.KernelIdeal.nD Cert.KernelIdeal.τ).loc Cert.KernelIdeal.main_arg2) : FVec Ideal Cert.KernelIdeal.S3x64 .f32) i) :=
  (args_isReal m h c).2.1 i

/-- Every entry of float argument 3 is a real number. -/
theorem arg3_isReal (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S64.Idx) :
    IsReal ((m ((c.tc : Thread Cert.KernelIdeal.nD Cert.KernelIdeal.τ).loc Cert.KernelIdeal.main_arg3) : FVec Ideal Cert.KernelIdeal.S64 .f32) i) :=
  (args_isReal m h c).2.2.1 i

/-- Every entry of float argument 4 is a real number. -/
theorem arg4_isReal (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S64x64.Idx) :
    IsReal ((m ((c.tc : Thread Cert.KernelIdeal.nD Cert.KernelIdeal.τ).loc Cert.KernelIdeal.main_arg4) : FVec Ideal Cert.KernelIdeal.S64x64 .f32) i) :=
  (args_isReal m h c).2.2.2.1 i

/-- Every entry of float argument 5 is a real number. -/
theorem arg5_isReal (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S64.Idx) :
    IsReal ((m ((c.tc : Thread Cert.KernelIdeal.nD Cert.KernelIdeal.τ).loc Cert.KernelIdeal.main_arg5) : FVec Ideal Cert.KernelIdeal.S64 .f32) i) :=
  (args_isReal m h c).2.2.2.2.1 i

/-- Every entry of float argument 6 is a real number. -/
theorem arg6_isReal (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S64x64.Idx) :
    IsReal ((m ((c.tc : Thread Cert.KernelIdeal.nD Cert.KernelIdeal.τ).loc Cert.KernelIdeal.main_arg6) : FVec Ideal Cert.KernelIdeal.S64x64 .f32) i) :=
  (args_isReal m h c).2.2.2.2.2.1 i

/-- Every entry of float argument 7 is a real number. -/
theorem arg7_isReal (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S64.Idx) :
    IsReal ((m ((c.tc : Thread Cert.KernelIdeal.nD Cert.KernelIdeal.τ).loc Cert.KernelIdeal.main_arg7) : FVec Ideal Cert.KernelIdeal.S64 .f32) i) :=
  (args_isReal m h c).2.2.2.2.2.2.1 i

/-- Every entry of float argument 8 is a real number. -/
theorem arg8_isReal (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128x64.Idx) :
    IsReal ((m ((c.tc : Thread Cert.KernelIdeal.nD Cert.KernelIdeal.τ).loc Cert.KernelIdeal.main_arg8) : FVec Ideal Cert.KernelIdeal.S128x64 .f32) i) :=
  (args_isReal m h c).2.2.2.2.2.2.2.1 i

/-- Every entry of float argument 9 is a real number. -/
theorem arg9_isReal (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S64.Idx) :
    IsReal ((m ((c.tc : Thread Cert.KernelIdeal.nD Cert.KernelIdeal.τ).loc Cert.KernelIdeal.main_arg9) : FVec Ideal Cert.KernelIdeal.S64 .f32) i) :=
  (args_isReal m h c).2.2.2.2.2.2.2.2.1 i

/-- Every entry of float argument 10 is a real number. -/
theorem arg10_isReal (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S64.Idx) :
    IsReal ((m ((c.tc : Thread Cert.KernelIdeal.nD Cert.KernelIdeal.τ).loc Cert.KernelIdeal.main_arg10) : FVec Ideal Cert.KernelIdeal.S64 .f32) i) :=
  (args_isReal m h c).2.2.2.2.2.2.2.2.2.1 i

/-- Every entry of float argument 11 is a real number. -/
theorem arg11_isReal (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S64.Idx) :
    IsReal ((m ((c.tc : Thread Cert.KernelIdeal.nD Cert.KernelIdeal.τ).loc Cert.KernelIdeal.main_arg11) : FVec Ideal Cert.KernelIdeal.S64 .f32) i) :=
  (args_isReal m h c).2.2.2.2.2.2.2.2.2.2.1 i

/-- Every entry of float argument 12 is a real number. -/
theorem arg12_isReal (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S64x32.Idx) :
    IsReal ((m ((c.tc : Thread Cert.KernelIdeal.nD Cert.KernelIdeal.τ).loc Cert.KernelIdeal.main_arg12) : FVec Ideal Cert.KernelIdeal.S64x32 .f32) i) :=
  (args_isReal m h c).2.2.2.2.2.2.2.2.2.2.2.1 i

/-- Every entry of float argument 13 is a real number. -/
theorem arg13_isReal (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S32.Idx) :
    IsReal ((m ((c.tc : Thread Cert.KernelIdeal.nD Cert.KernelIdeal.τ).loc Cert.KernelIdeal.main_arg13) : FVec Ideal Cert.KernelIdeal.S32 .f32) i) :=
  (args_isReal m h c).2.2.2.2.2.2.2.2.2.2.2.2.1 i

/-- Every entry of float argument 14 is a real number. -/
theorem arg14_isReal (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S32.Idx) :
    IsReal ((m ((c.tc : Thread Cert.KernelIdeal.nD Cert.KernelIdeal.τ).loc Cert.KernelIdeal.main_arg14) : FVec Ideal Cert.KernelIdeal.S32 .f32) i) :=
  (args_isReal m h c).2.2.2.2.2.2.2.2.2.2.2.2.2.1 i

/-- Every entry of float argument 15 is a real number. -/
theorem arg15_isReal (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S32.Idx) :
    IsReal ((m ((c.tc : Thread Cert.KernelIdeal.nD Cert.KernelIdeal.τ).loc Cert.KernelIdeal.main_arg15) : FVec Ideal Cert.KernelIdeal.S32 .f32) i) :=
  (args_isReal m h c).2.2.2.2.2.2.2.2.2.2.2.2.2.2.1 i

/-- Every entry of float argument 16 is a real number. -/
theorem arg16_isReal (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S32x2.Idx) :
    IsReal ((m ((c.tc : Thread Cert.KernelIdeal.nD Cert.KernelIdeal.τ).loc Cert.KernelIdeal.main_arg16) : FVec Ideal Cert.KernelIdeal.S32x2 .f32) i) :=
  (args_isReal m h c).2.2.2.2.2.2.2.2.2.2.2.2.2.2.2.1 i

/-- Every entry of float argument 17 is a real number. -/
theorem arg17_isReal (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S2.Idx) :
    IsReal ((m ((c.tc : Thread Cert.KernelIdeal.nD Cert.KernelIdeal.τ).loc Cert.KernelIdeal.main_arg17) : FVec Ideal Cert.KernelIdeal.S2 .f32) i) :=
  (args_isReal m h c).2.2.2.2.2.2.2.2.2.2.2.2.2.2.2.2 i

end Cert.PreFinite
-- ==== Proof.lean ====
/-
  The certificate's five claims for the graph-network kernel against its jnp reference.

  Frames: the word-level and the idealized kernel each run six pipelined regions among stretches of host operations and
  leave their arguments unchanged (the generated frame certificates); the reference is a straight line of host operations.
  The idealization rewrote nothing, so `preserves` is trivial.

  The value claim at the extended reals, under finite float inputs: the kernel's result buffer holds the reference's
  result as one function of the arguments.  Three graph convolutions: the node-linear regions are matrix products, equal
  to the reference's dot_general as sums over the contracted axis, and the gather / scale / scatter-add glue is the same
  operations on both sides.  The edge MLP: the kernel multiplies the two gathered feature blocks by the two halves of the
  first weight matrix where the reference multiplies their concatenation by the whole; it accumulates each BatchNorm's
  mean and mean of squares from per-block column sums and takes E[z²] − (E z)², where the reference takes the mean of
  (z − E z)².  These agree because every pre-normalisation activation is a real number when the inputs are, which is
  where the precondition is used.
-/
import proofs.«123034_j51127290692283_2_alg».proof.Defs
import proofs.«123034_j51127290692283_2_alg».proof.Proof.Gen.Kernel
import proofs.«123034_j51127290692283_2_alg».proof.Proof.Gen.Kernel.Skeleton
import proofs.«123034_j51127290692283_2_alg».proof.Proof.Gen.Kernel.Launch
import proofs.«123034_j51127290692283_2_alg».proof.Proof.Gen.Kernel.Points
import proofs.«123034_j51127290692283_2_alg».proof.Proof.Gen.Kernel.Frame
import proofs.«123034_j51127290692283_2_alg».proof.Proof.Gen.KernelIdeal
import proofs.«123034_j51127290692283_2_alg».proof.Proof.Gen.KernelIdeal.Skeleton
import proofs.«123034_j51127290692283_2_alg».proof.Proof.Gen.KernelIdeal.Launch
import proofs.«123034_j51127290692283_2_alg».proof.Proof.Gen.KernelIdeal.Points
import proofs.«123034_j51127290692283_2_alg».proof.Proof.Gen.KernelIdeal.Frame
import proofs.«123034_j51127290692283_2_alg».proof.Proof.Gen.ReferenceIdeal
import proofs.«123034_j51127290692283_2_alg».proof.Proof.Gen.Pre_finite_inputs
import proofs.«123034_j51127290692283_2_alg».proof.Proof.KernelRun
import proofs.«123034_j51127290692283_2_alg».proof.Proof.RefRunP
import proofs.«123034_j51127290692283_2_alg».proof.Proof.RefFold
import proofs.«123034_j51127290692283_2_alg».proof.Proof.KChainEdge
import proofs.«123034_j51127290692283_2_alg».proof.Proof.PreFinite
import Idealize.ShloMosaic.Adequacy
import Idealize.ShloMosaic.Init

noncomputable section

namespace Cert.Proof

open Idealize.ShloMosaic Idealize.ShloMosaic.TcCoe Idealize.SL.Sem

/-- The reference's frame: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- From memories agreeing on the arguments, with finite float inputs, the two idealized programs end with equal results:
    the kernel's result buffer holds the reference's reading of its result, and the reference's run ends at that reading. -/
theorem algebraic : Cert.algebraic_KernelIdeal_ReferenceIdeal := by
  intro m ρ m' ρ' hpre hagree
  refine ⟨fun c => Cert.KernelIdeal.Gen.W16 m ρ c (Proc.devRef .tc Cert.KernelIdeal.main_v140), Cert.KernelIdeal.KRun.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefFold.res_eq m' c]
  obtain ⟨e0, e1, e2, e3, e4, e5, e6, e7, e8, e9, e10, e11, e12, e13, e14, e15, e16, e17⟩ := hagree c
  rw [e0, e1, e2, e3, e4, e5, e6, e7, e8, e9, e10, e11, e12, e13, e14, e15, e16, e17]
  exact (Cert.KernelIdeal.Bridge.w16_out m ρ c
    (Cert.PreFinite.arg0_isReal m hpre c) (Cert.PreFinite.arg2_isReal m hpre c) (Cert.PreFinite.arg3_isReal m hpre c)
    (Cert.PreFinite.arg4_isReal m hpre c) (Cert.PreFinite.arg5_isReal m hpre c) (Cert.PreFinite.arg6_isReal m hpre c)
    (Cert.PreFinite.arg7_isReal m hpre c) (Cert.PreFinite.arg8_isReal m hpre c) (Cert.PreFinite.arg9_isReal m hpre c)
    (Cert.PreFinite.arg10_isReal m hpre c) (Cert.PreFinite.arg11_isReal m hpre c) (Cert.PreFinite.arg12_isReal m hpre c)
    (Cert.PreFinite.arg13_isReal m hpre c)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_reference, trivial, algebraic⟩

end Cert.Proof

end
